-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x64x64 : Shape := ⟨4, ![4, 512, 64, 64]⟩
abbrev S512 : Shape := ⟨1, ![512]⟩
abbrev S512x512 : Shape := ⟨2, ![512, 512]⟩
abbrev S_ : Shape := ⟨0, ![]⟩

class Facts : Prop where
  bcast_S_S4x512x64x64 : S_.BroadcastsInDim S4x512x64x64 (![] : Fin 0 → Fin S4x512x64x64.rank)
  reducesTo_S4x512x64x64_S_d0_1_2_3 : S4x512x64x64.ReducesTo [0, 1, 2, 3] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S512x512 .f32) (main_arg10 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x512x64x64 .f32) (main_arg1 : FVec F S512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) : IVec S_ 1 :=
  let main_v0 : FVec F S4x512x64x64 .f32 := Host.absf main_arg0
  let main_cst : FVec F S_ .f32 := constant S_ .f32 0x7F800000#32
  let main_v1 : FVec F S4x512x64x64 .f32 := broadcastInDim S4x512x64x64 ![] bcast_S_S4x512x64x64 main_cst
  let main_v2 : IVec S4x512x64x64 1 := cmpf .olt main_v0 main_v1
  let main_c : IVec S_ 1 := constantI S_ 1 1#1
  let main_v3 : IVec S_ 1 := (fun x v => Host.reduce IntOp.andi x v reducesTo_S4x512x64x64_S_d0_1_2_3 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S4x512x64x64 : Shape := ⟨4, ![4, 512, 64, 64]⟩
abbrev S512 : Shape := ⟨1, ![512]⟩
abbrev S512x512 : Shape := ⟨2, ![512, 512]⟩
abbrev S4x32x16x64x64 : Shape := ⟨5, ![4, 32, 16, 64, 64]⟩
abbrev S_ : Shape := ⟨0, ![]⟩
abbrev S4x32 : Shape := ⟨2, ![4, 32]⟩
abbrev S4x32x1x1x1 : Shape := ⟨5, ![4, 32, 1, 1, 1]⟩
abbrev S4x32x16 : Shape := ⟨3, ![4, 32, 16]⟩
abbrev S4x512 : Shape := ⟨2, ![4, 512]⟩
abbrev S1x512 : Shape := ⟨2, ![1, 512]⟩
abbrev S4x1x512 : Shape := ⟨3, ![4, 1, 512]⟩
abbrev S4x512x4096 : Shape := ⟨3, ![4, 512, 4096]⟩
abbrev S1536x512 : Shape := ⟨2, ![1536, 512]⟩
abbrev S512x1536 : Shape := ⟨2, ![512, 1536]⟩
abbrev S1536 : Shape := ⟨1, ![1536]⟩
abbrev S4x4096x512 : Shape := ⟨3, ![4, 4096, 512]⟩
abbrev S1x512x1024 : Shape := ⟨3, ![1, 512, 1024]⟩
abbrev S1x1x512 : Shape := ⟨3, ![1, 1, 512]⟩
abbrev S1x1024x512 : Shape := ⟨3, ![1, 1024, 512]⟩
abbrev S512x1024 : Shape := ⟨2, ![512, 1024]⟩
abbrev S512x1 : Shape := ⟨2, ![512, 1]⟩
abbrev S1024x512 : Shape := ⟨2, ![1024, 512]⟩
abbrev S1024x1536 : Shape := ⟨2, ![1024, 1536]⟩
abbrev S1x1536 : Shape := ⟨2, ![1, 1536]⟩
abbrev S1x2048x512 : Shape := ⟨3, ![1, 2048, 512]⟩
abbrev S1x512x512 : Shape := ⟨3, ![1, 512, 512]⟩
abbrev S1x512x2048 : Shape := ⟨3, ![1, 512, 2048]⟩
abbrev S1x2048x1 : Shape := ⟨3, ![1, 2048, 1]⟩
abbrev S1x2048 : Shape := ⟨2, ![1, 2048]⟩
abbrev S2048x512 : Shape := ⟨2, ![2048, 512]⟩
abbrev S512x2048 : Shape := ⟨2, ![512, 2048]⟩

abbrev nBuf : Space → Nat
  | .hbm => 68
  | .vmem => 29
  | .smem => 0
  | _ => 0

abbrev bufTy : (tb : Table) → Fin (tcTables nBuf tb) → BufTy
  | .hbm, ⟨0, _⟩ => ⟨S4x512x64x64, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S4x32x16x64x64, .f32⟩
  | .hbm, ⟨12, _⟩ => ⟨S_, .f32⟩
  | .hbm, ⟨13, _⟩ => ⟨S4x32, .f32⟩
  | .hbm, ⟨14, _⟩ => ⟨S_, .f32⟩
  | .hbm, ⟨15, _⟩ => ⟨S4x32, .f32⟩
  | .hbm, ⟨16, _⟩ => ⟨S4x32, .f32⟩
  | .hbm, ⟨17, _⟩ => ⟨S_, .i32⟩
  | .hbm, ⟨18, _⟩ => ⟨S_, .f32⟩
  | .hbm, ⟨19, _⟩ => ⟨S4x32, .f32⟩
  | .hbm, ⟨20, _⟩ => ⟨S4x32x1x1x1, .f32⟩
  | .hbm, ⟨21, _⟩ => ⟨S_, .f32⟩
  | .hbm, ⟨22, _⟩ => ⟨S4x32x1x1x1, .f32⟩
  | .hbm, ⟨23, _⟩ => ⟨S4x32x1x1x1, .f32⟩
  | .hbm, ⟨24, _⟩ => ⟨S4x32x16x64x64, .f32⟩
  | .hbm, ⟨25, _⟩ => ⟨S4x32x16x64x64, .f32⟩
  | .hbm, ⟨26, _⟩ => ⟨S4x32x16x64x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x32, .f32⟩
  | .hbm, ⟨32, _⟩ => ⟨S4x32, .f32⟩
  | .hbm, ⟨33, _⟩ => ⟨S4x32, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S4x32, .f32⟩
  | .hbm, ⟨39, _⟩ => ⟨S4x32, .f32⟩
  | .hbm, ⟨40, _⟩ => ⟨S_, .f32⟩
  | .hbm, ⟨41, _⟩ => ⟨S4x32, .f32⟩
  | .hbm, ⟨42, _⟩ => ⟨S4x32, .f32⟩
  | .hbm, ⟨43, _⟩ => ⟨S4x32, .f32⟩
  | .hbm, ⟨44, _⟩ => ⟨S4x32x16, .f32⟩
  | .hbm, ⟨45, _⟩ => ⟨S4x512, .f32⟩
  | .hbm, ⟨46, _⟩ => ⟨S4x32x16, .f32⟩
  | .hbm, ⟨47, _⟩ => ⟨S4x512, .f32⟩
  | .hbm, ⟨48, _⟩ => ⟨S1x512, .f32⟩
  | .hbm, ⟨49, _⟩ => ⟨S4x512, .f32⟩
  | .hbm, ⟨50, _⟩ => ⟨S4x512, .f32⟩
  | .hbm, ⟨51, _⟩ => ⟨S1x512, .f32⟩
  | .hbm, ⟨52, _⟩ => ⟨S4x512, .f32⟩
  | .hbm, ⟨53, _⟩ => ⟨S4x512, .f32⟩
  | .hbm, ⟨54, _⟩ => ⟨S4x512, .f32⟩
  | .hbm, ⟨55, _⟩ => ⟨S4x1x512, .f32⟩
  | .hbm, ⟨56, _⟩ => ⟨S4x1x512, .f32⟩
  | .hbm, ⟨57, _⟩ => ⟨S4x512x4096, .f32⟩
  | .hbm, ⟨58, _⟩ => ⟨S1536x512, .f32⟩
  | .hbm, ⟨59, _⟩ => ⟨S512x1536, .f32⟩
  | .hbm, ⟨60, _⟩ => ⟨S512x1536, .bf16⟩
  | .hbm, ⟨61, _⟩ => ⟨S1536, .f32⟩
  | .hbm, ⟨62, _⟩ => ⟨S4x4096x512, .bf16⟩
  | .hbm, ⟨63, _⟩ => ⟨S4x4096x512, .bf16⟩
  | .hbm, ⟨64, _⟩ => ⟨S4x4096x512, .bf16⟩
  | .hbm, ⟨65, _⟩ => ⟨S512x512, .bf16⟩
  | .hbm, ⟨66, _⟩ => ⟨S4x512x4096, .f32⟩
  | .hbm, ⟨67, _⟩ => ⟨S4x512x64x64, .f32⟩
  | .local _ .vmem, ⟨0, _⟩ => ⟨S1x512x1024, .f32⟩
  | .local _ .vmem, ⟨1, _⟩ => ⟨S1x512x1024, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S512x1536, .bf16⟩
  | .local _ .vmem, ⟨7, _⟩ => ⟨S1536, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x2048, .f32⟩
  | .local _ .vmem, ⟨21, _⟩ => ⟨S1x512x2048, .f32⟩
  | .local _ .vmem, ⟨22, _⟩ => ⟨S512x512, .bf16⟩
  | .local _ .vmem, ⟨23, _⟩ => ⟨S512, .f32⟩
  | .local _ .vmem, ⟨24, _⟩ => ⟨S1x512x2048, .f32⟩
  | .local _ .vmem, ⟨25, _⟩ => ⟨S1x512x2048, .f32⟩
  | .local _ .vmem, ⟨26, _⟩ => ⟨S1x2048x1, .f32⟩
  | .local _ .vmem, ⟨27, _⟩ => ⟨S1x2048x1, .f32⟩
  | .local _ .vmem, ⟨28, _⟩ => ⟨S1x2048x512, .f32⟩
  | _, _ => ⟨S4x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_cst_1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26_0 : Ref sig .tc := ⟨.hbm, 62, rfl⟩
abbrev main_v26_1 : Ref sig .tc := ⟨.hbm, 63, rfl⟩
abbrev main_v26_2 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v42 : BitVec 1 := Scalar.cmpi .eq arg2 c7_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4x512x64x64_S4x32x16x64x64 : S4x512x64x64.ShapeCasts S4x32x16x64x64
  reducesTo_S4x32x16x64x64_S4x32_d2_3_4 : S4x32x16x64x64.ReducesTo [2, 3, 4] S4x32
  h_S_ : 0 < S_.numel
  bcast_S_S4x32 : S_.BroadcastsInDim S4x32 (![] : Fin 0 → Fin S4x32.rank)
  bcast_S4x32_S4x32x1x1x1_0_1 : S4x32.BroadcastsInDim S4x32x1x1x1 (![0, 1] : Fin 2 → Fin S4x32x1x1x1.rank)
  bcast_S_S4x32x1x1x1 : S_.BroadcastsInDim S4x32x1x1x1 (![] : Fin 0 → Fin S4x32x1x1x1.rank)
  bcast_S4x32x1x1x1_S4x32x16x64x64_0_1_2_3_4 : S4x32x1x1x1.BroadcastsInDim S4x32x16x64x64 (![0, 1, 2, 3, 4] : Fin 5 → Fin S4x32x16x64x64.rank)
  bcast_S4x32_S4x32x16_0_1 : S4x32.BroadcastsInDim S4x32x16 (![0, 1] : Fin 2 → Fin S4x32x16.rank)
  shapeCasts_S4x32x16_S4x512 : S4x32x16.ShapeCasts S4x512
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  bcast_S4x512_S4x1x512_0_2 : S4x512.BroadcastsInDim S4x1x512 (![0, 2] : Fin 2 → Fin S4x1x512.rank)
  shapeCasts_S4x512x64x64_S4x512x4096 : S4x512x64x64.ShapeCasts S4x512x4096
  concatenates_S512x512_S512x512_S512x512_S1536x512_d0 : Shape.Concatenates [S512x512, S512x512, S512x512] S1536x512 0
  transposes_S1536x512_S512x1536_1_0 : S1536x512.Transposes [1, 0] S512x1536
  bitsLt_bf16_f32 : FTy.bits .bf16 < FTy.bits .f32
  concatenates_S512_S512_S512_S1536_d0 : Shape.Concatenates [S512, S512, S512] S1536 0
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  shapeCasts_S1x512x1024_S512x1024 : S1x512x1024.ShapeCasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  shapeCasts_S1x1x512_S512 : S1x1x512.ShapeCasts S512
  shapeCasts_S512_S512x1 : S512.ShapeCasts S512x1
  broadcasts_S512x1_S512x1024 : S512x1.Broadcasts S512x1024
  transposes_S512x1024_p1_0_S1024x512 : S512x1024.Transposes [1, 0] S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1536 : S1536.ShapeCasts S1536
  shapeCasts_S1536_S1x1536 : S1536.ShapeCasts S1x1536
  broadcasts_S1x1536_S1024x1536 : S1x1536.Broadcasts S1024x1536
  slices_S1024x1536_o0_0_S1024x512 : S1024x1536.Slices ![0, 0] S1024x512
  shapeCasts_S1024x512_S1x1024x512 : S1024x512.ShapeCasts S1x1024x512
  inb_S1x1024x512_S1x1024x512_0_0_0 : ∀ a, (![0, 0, 0] : Fin 3 → Nat) a + S1x1024x512.size a ≤ S1x1024x512.size a
  h_S1x1024x512 : 0 < S1x1024x512.numel
  packedbf16_S1x1024x512_S1x1024x512_0_0_0 : (Rect.unit (s := S1x1024x512) ![0, 0, 0] S1x1024x512.size inb_S1x1024x512_S1x1024x512_0_0_0).PackedRows (EltTy.packing .bf16)
  slices_S1024x1536_o0_512_S1024x512 : S1024x1536.Slices ![0, 512] S1024x512
  slices_S1024x1536_o0_1024_S1024x512 : S1024x1536.Slices ![0, 1024] S1024x512
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S1x2048x1 : S1x2048x1.ShapeCasts S1x2048x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S1x2048x512 : S1x2048x512.ShapeCasts S1x2048x512
  inb_S1x512x512_S1x512x512_0_0_0 : ∀ a, (![0, 0, 0] : Fin 3 → Nat) a + S1x512x512.size a ≤ S1x512x512.size a
  h_S1x512x512 : 0 < S1x512x512.numel
  shapeCasts_S1x512x512_S1x512x512 : S1x512x512.ShapeCasts S1x512x512
  reduces_S1x2048x512_S1x2048 : S1x2048x512.Reduces [2] S1x2048
  shapeCasts_S1x2048_S1x2048x1 : S1x2048.ShapeCasts S1x2048x1
  broadcasts_S1x2048x1_S1x2048x512 : S1x2048x1.Broadcasts S1x2048x512
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S1x512x2048 : S1x512x2048.ShapeCasts S1x512x2048
  shapeCasts_S1x512x2048_S512x2048 : S1x512x2048.ShapeCasts S512x2048
  shapeCasts_S512x2048_S1x512x2048 : S512x2048.ShapeCasts S1x512x2048
  shapeCasts_S4x512x4096_S4x512x64x64 : S4x512x4096.ShapeCasts S4x512x64x64
  dot_S1024x512_S512x1536_S1024x1536_1_0_0_1_n_n_wf : DotDims.WF S1024x512 S512x1536 S1024x1536 [1] [0] [0] [1] [] []
  dot_S1x2048x512_S1x512x512_S1x2048x512_2_2_1_1_0_0_wf : DotDims.WF S1x2048x512 S1x512x512 S1x2048x512 [2] [2] [1] [1] [0] [0]
  dot_S1x2048x512_S1x512x512_S1x2048x512_2_1_1_2_0_0_wf : DotDims.WF S1x2048x512 S1x512x512 S1x2048x512 [2] [1] [1] [2] [0] [0]
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x512x4096.size a
  hwx0_0 : ∀ i : grid0.Coords, EltTy.bits .f32 = 32 ∨ (Rect.block (s := S4x512x4096) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S4x1x512.size a
  hwx0_1 : ∀ i : grid0.Coords, EltTy.bits .f32 = 32 ∨ (Rect.block (s := S4x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x512.size a
  hwx0_2 : ∀ i : grid0.Coords, EltTy.bits .f32 = 32 ∨ (Rect.block (s := S4x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536.size a ≤ S1536.size a
  hwx0_4 : ∀ i : grid0.Coords, EltTy.bits .f32 = 32 ∨ (Rect.block (s := S1536) S1536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S4x4096x512.size a
  hwx0_5 : ∀ i : grid0.Coords, EltTy.bits .bf16 = 32 ∨ (Rect.block (s := S4x4096x512) S1x1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S4x4096x512.size a
  hwx0_6 : ∀ i : grid0.Coords, EltTy.bits .bf16 = 32 ∨ (Rect.block (s := S4x4096x512) S1x1024x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x512.size a ≤ S4x4096x512.size a
  hwx0_7 : ∀ i : grid0.Coords, EltTy.bits .bf16 = 32 ∨ (Rect.block (s := S4x4096x512) S1x1024x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S4x4096x512.size a
  hwx1_0 : ∀ i : grid1.Coords, EltTy.bits .bf16 = 32 ∨ (Rect.block (s := S4x4096x512) S1x2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S4x4096x512.size a
  hwx1_1 : ∀ i : grid1.Coords, EltTy.bits .bf16 = 32 ∨ (Rect.block (s := S4x4096x512) S1x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S4x4096x512.size a
  hwx1_2 : ∀ i : grid1.Coords, EltTy.bits .bf16 = 32 ∨ (Rect.block (s := S4x4096x512) S1x512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S4x512x4096.size a
  hwx1_3 : ∀ i : grid1.Coords, EltTy.bits .f32 = 32 ∨ (Rect.block (s := S4x512x4096) S1x512x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x2048.size a ≤ S4x512x4096.size a
  hwx1_6 : ∀ i : grid1.Coords, EltTy.bits .f32 = 32 ∨ (Rect.block (s := S4x512x4096) S1x512x2048.size (cc1_transform_6 i) (hinb1_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S1x2048x512_S1x512x512_S1x2048x512_2_2_1_1_0_0 : DotDims S1x2048x512 S1x512x512 S1x2048x512 where
  lhsContracting := [2]
  rhsContracting := [2]
  lhsNonContracting := [1]
  rhsNonContracting := [1]
  lhsBatch := [0]
  rhsBatch := [0]
  wf := dot_S1x2048x512_S1x512x512_S1x2048x512_2_2_1_1_0_0_wf
def dot_S1x2048x512_S1x512x512_S1x2048x512_2_1_1_2_0_0 : DotDims S1x2048x512 S1x512x512 S1x2048x512 where
  lhsContracting := [2]
  rhsContracting := [1]
  lhsNonContracting := [1]
  rhsNonContracting := [2]
  lhsBatch := [0]
  rhsBatch := [0]
  wf := dot_S1x2048x512_S1x512x512_S1x2048x512_2_1_1_2_0_0_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v21) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S1x1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_1) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26_2) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x512x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x512x64x64 : Shape := ⟨4, ![4, 512, 64, 64]⟩
abbrev S512 : Shape := ⟨1, ![512]⟩
abbrev S512x512 : Shape := ⟨2, ![512, 512]⟩
abbrev S4x32x16x64x64 : Shape := ⟨5, ![4, 32, 16, 64, 64]⟩
abbrev S_ : Shape := ⟨0, ![]⟩
abbrev S4x32 : Shape := ⟨2, ![4, 32]⟩
abbrev S4x32x1x1x1 : Shape := ⟨5, ![4, 32, 1, 1, 1]⟩
abbrev S1x512x1x1 : Shape := ⟨4, ![1, 512, 1, 1]⟩
abbrev S4x512x4096 : Shape := ⟨3, ![4, 512, 4096]⟩
abbrev S4x4096x512 : Shape := ⟨3, ![4, 4096, 512]⟩
abbrev S1x1x512 : Shape := ⟨3, ![1, 1, 512]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 97
  | .vmem => 0
  | .smem => 0
  | _ => 0

abbrev bufTy : (tb : Table) → Fin (tcTables nBuf tb) → BufTy
  | .hbm, ⟨0, _⟩ => ⟨S4x512x64x64, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S4x32x16x64x64, .f32⟩
  | .hbm, ⟨12, _⟩ => ⟨S_, .f32⟩
  | .hbm, ⟨13, _⟩ => ⟨S4x32, .f32⟩
  | .hbm, ⟨14, _⟩ => ⟨S4x32x1x1x1, .f32⟩
  | .hbm, ⟨15, _⟩ => ⟨S_, .f32⟩
  | .hbm, ⟨16, _⟩ => ⟨S4x32x1x1x1, .f32⟩
  | .hbm, ⟨17, _⟩ => ⟨S4x32x1x1x1, .f32⟩
  | .hbm, ⟨18, _⟩ => ⟨S_, .i32⟩
  | .hbm, ⟨19, _⟩ => ⟨S_, .f32⟩
  | .hbm, ⟨20, _⟩ => ⟨S4x32, .f32⟩
  | .hbm, ⟨21, _⟩ => ⟨S4x32x1x1x1, .f32⟩
  | .hbm, ⟨22, _⟩ => ⟨S_, .f32⟩
  | .hbm, ⟨23, _⟩ => ⟨S4x32x1x1x1, .f32⟩
  | .hbm, ⟨24, _⟩ => ⟨S4x32x1x1x1, .f32⟩
  | .hbm, ⟨25, _⟩ => ⟨S4x32x16x64x64, .f32⟩
  | .hbm, ⟨26, _⟩ => ⟨S4x32x16x64x64, .f32⟩
  | .hbm, ⟨27, _⟩ => ⟨S4x32x16x64x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4x32, .f32⟩
  | .hbm, ⟨33, _⟩ => ⟨S4x32x1x1x1, .f32⟩
  | .hbm, ⟨34, _⟩ => ⟨S4x32x1x1x1, .f32⟩
  | .hbm, ⟨35, _⟩ => ⟨S4x32x1x1x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S4x32x1x1x1, .f32⟩
  | .hbm, ⟨41, _⟩ => ⟨S4x32x1x1x1, .f32⟩
  | .hbm, ⟨42, _⟩ => ⟨S4x32x16x64x64, .f32⟩
  | .hbm, ⟨43, _⟩ => ⟨S4x32x16x64x64, .f32⟩
  | .hbm, ⟨44, _⟩ => ⟨S_, .f32⟩
  | .hbm, ⟨45, _⟩ => ⟨S4x32x1x1x1, .f32⟩
  | .hbm, ⟨46, _⟩ => ⟨S4x32x1x1x1, .f32⟩
  | .hbm, ⟨47, _⟩ => ⟨S4x32x1x1x1, .f32⟩
  | .hbm, ⟨48, _⟩ => ⟨S4x32x16x64x64, .f32⟩
  | .hbm, ⟨49, _⟩ => ⟨S4x32x16x64x64, .f32⟩
  | .hbm, ⟨50, _⟩ => ⟨S4x512x64x64, .f32⟩
  | .hbm, ⟨51, _⟩ => ⟨S1x512x1x1, .f32⟩
  | .hbm, ⟨52, _⟩ => ⟨S4x512x64x64, .f32⟩
  | .hbm, ⟨53, _⟩ => ⟨S4x512x64x64, .f32⟩
  | .hbm, ⟨54, _⟩ => ⟨S1x512x1x1, .f32⟩
  | .hbm, ⟨55, _⟩ => ⟨S4x512x64x64, .f32⟩
  | .hbm, ⟨56, _⟩ => ⟨S4x512x64x64, .f32⟩
  | .hbm, ⟨57, _⟩ => ⟨S4x512x4096, .f32⟩
  | .hbm, ⟨58, _⟩ => ⟨S4x4096x512, .f32⟩
  | .hbm, ⟨59, _⟩ => ⟨S4x4096x512, .f32⟩
  | .hbm, ⟨60, _⟩ => ⟨S1x1x512, .f32⟩
  | .hbm, ⟨61, _⟩ => ⟨S4x4096x512, .f32⟩
  | .hbm, ⟨62, _⟩ => ⟨S4x4096x512, .f32⟩
  | .hbm, ⟨63, _⟩ => ⟨S4x4096x512, .f32⟩
  | .hbm, ⟨64, _⟩ => ⟨S1x1x512, .f32⟩
  | .hbm, ⟨65, _⟩ => ⟨S4x4096x512, .f32⟩
  | .hbm, ⟨66, _⟩ => ⟨S4x4096x512, .f32⟩
  | .hbm, ⟨67, _⟩ => ⟨S4x4096x512, .f32⟩
  | .hbm, ⟨68, _⟩ => ⟨S1x1x512, .f32⟩
  | .hbm, ⟨69, _⟩ => ⟨S4x4096x512, .f32⟩
  | .hbm, ⟨70, _⟩ => ⟨S4x4096x512, .f32⟩
  | .hbm, ⟨71, _⟩ => ⟨S4x4096x4096, .f32⟩
  | .hbm, ⟨72, _⟩ => ⟨S_, .f32⟩
  | .hbm, ⟨73, _⟩ => ⟨S4x4096x4096, .f32⟩
  | .hbm, ⟨74, _⟩ => ⟨S4x4096x4096, .f32⟩
  | .hbm, ⟨75, _⟩ => ⟨S_, .f32⟩
  | .hbm, ⟨76, _⟩ => ⟨S4x4096, .f32⟩
  | .hbm, ⟨77, _⟩ => ⟨S_, .f32⟩
  | .hbm, ⟨78, _⟩ => ⟨S4x4096, .f32⟩
  | .hbm, ⟨79, _⟩ => ⟨S4x4096, .f32⟩
  | .hbm, ⟨80, _⟩ => ⟨S4x4096x1, .f32⟩
  | .hbm, ⟨81, _⟩ => ⟨S4x4096x4096, .f32⟩
  | .hbm, ⟨82, _⟩ => ⟨S4x4096x4096, .f32⟩
  | .hbm, ⟨83, _⟩ => ⟨S4x4096x4096, .f32⟩
  | .hbm, ⟨84, _⟩ => ⟨S_, .f32⟩
  | .hbm, ⟨85, _⟩ => ⟨S4x4096, .f32⟩
  | .hbm, ⟨86, _⟩ => ⟨S4x4096x1, .f32⟩
  | .hbm, ⟨87, _⟩ => ⟨S4x4096x4096, .f32⟩
  | .hbm, ⟨88, _⟩ => ⟨S4x4096x4096, .f32⟩
  | .hbm, ⟨89, _⟩ => ⟨S4x4096x512, .f32⟩
  | .hbm, ⟨90, _⟩ => ⟨S4x4096x512, .f32⟩
  | .hbm, ⟨91, _⟩ => ⟨S1x1x512, .f32⟩
  | .hbm, ⟨92, _⟩ => ⟨S4x4096x512, .f32⟩
  | .hbm, ⟨93, _⟩ => ⟨S4x4096x512, .f32⟩
  | .hbm, ⟨94, _⟩ => ⟨S4x512x4096, .f32⟩
  | .hbm, ⟨95, _⟩ => ⟨S4x512x64x64, .f32⟩
  | .hbm, ⟨96, _⟩ => ⟨S4x512x64x64, .f32⟩
  | _, _ => ⟨S4x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst_1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_2 : Ref sig .tc := ⟨.hbm, 72, rfl⟩
abbrev main_v35 : Ref sig .tc := ⟨.hbm, 73, rfl⟩
abbrev main_v36 : Ref sig .tc := ⟨.hbm, 74, rfl⟩
abbrev main_cst_3 : Ref sig .tc := ⟨.hbm, 75, rfl⟩
abbrev main_v37 : Ref sig .tc := ⟨.hbm, 76, rfl⟩
abbrev main_cst_4 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_5 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩

abbrev nD : Nat := 1
abbrev τ : Topo := Topo.v7x

variable {F : FTy → Type} [FloatOps F]

class Facts₀ : Prop where
  shapeCasts_S4x512x64x64_S4x32x16x64x64 : S4x512x64x64.ShapeCasts S4x32x16x64x64
  reducesTo_S4x32x16x64x64_S4x32_d2_3_4 : S4x32x16x64x64.ReducesTo [2, 3, 4] S4x32
  h_S_ : 0 < S_.numel
  bcast_S4x32_S4x32x1x1x1_0_1 : S4x32.BroadcastsInDim S4x32x1x1x1 (![0, 1] : Fin 2 → Fin S4x32x1x1x1.rank)
  bcast_S_S4x32x1x1x1 : S_.BroadcastsInDim S4x32x1x1x1 (![] : Fin 0 → Fin S4x32x1x1x1.rank)
  bcast_S4x32x1x1x1_S4x32x16x64x64_0_1_2_3_4 : S4x32x1x1x1.BroadcastsInDim S4x32x16x64x64 (![0, 1, 2, 3, 4] : Fin 5 → Fin S4x32x16x64x64.rank)
  shapeCasts_S4x32x16x64x64_S4x512x64x64 : S4x32x16x64x64.ShapeCasts S4x512x64x64
  bcast_S512_S1x512x1x1_1 : S512.BroadcastsInDim S1x512x1x1 (![1] : Fin 1 → Fin S1x512x1x1.rank)
  bcast_S1x512x1x1_S4x512x64x64_0_1_2_3 : S1x512x1x1.BroadcastsInDim S4x512x64x64 (![0, 1, 2, 3] : Fin 4 → Fin S4x512x64x64.rank)
  shapeCasts_S4x512x64x64_S4x512x4096 : S4x512x64x64.ShapeCasts S4x512x4096
  transposes_S4x512x4096_S4x4096x512_0_2_1 : S4x512x4096.Transposes [0, 2, 1] S4x4096x512
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  transposes_S4x4096x512_S4x512x4096_0_2_1 : S4x4096x512.Transposes [0, 2, 1] S4x512x4096
  shapeCasts_S4x512x4096_S4x512x64x64 : S4x512x4096.ShapeCasts S4x512x64x64
  dot_S4x4096x512_S512x512_S4x4096x512_2_1_01_0_n_n_wf : DotDims.WF S4x4096x512 S512x512 S4x4096x512 [2] [1] [0, 1] [0] [] []
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S512x512_S4x4096x512_2_1_01_0_n_n : DotDims S4x4096x512 S512x512 S4x4096x512 where
  lhsContracting := [2]
  rhsContracting := [1]
  lhsNonContracting := [0, 1]
  rhsNonContracting := [0]
  lhsBatch := []
  rhsBatch := []
  wf := dot_S4x4096x512_S512x512_S4x4096x512_2_1_01_0_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.RefOps.lean ====
/- The reference program's @main as ONE list of its 86 host operations, in program order: the statements of
   `main_part0` and `main_part1` copied from the printed program, the variance function and the select it calls written
   out at the call site over the call's buffers. Nothing is proved here beyond where the operations' buffers live. -/
import proofs.«150200_j79405355369062_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ StableHlo.reshape main_arg0 main_v0 rfl shapeCasts_S4x512x64x64_S4x32x16x64x64,
    StableHlo.nullary main_cst (constant S_ .f32 0x00000000#32),
    StableHlo.binary main_v0 main_cst main_v1 ((fun x v => Host.reduceAdd x v reducesTo_S4x32x16x64x64_S4x32_d2_3_4 h_S_) : (⟨S4x32x16x64x64, .f32⟩ : BufTy).Contents (Elt F) → (⟨S_, .f32⟩ : BufTy).Contents (Elt F) → (⟨S4x32, .f32⟩ : BufTy).Contents (Elt F)),
    StableHlo.unary main_v1 main_v2 (broadcastInDim S4x32x1x1x1 ![0, 1] bcast_S4x32_S4x32x1x1x1_0_1 : (⟨S4x32, .f32⟩ : BufTy).Contents (Elt F) → (⟨S4x32x1x1x1, .f32⟩ : BufTy).Contents (Elt F)),
    StableHlo.nullary main_cst_0 (constant S_ .f32 0x47800000#32),
    StableHlo.unary main_cst_0 main_v3 (broadcastInDim S4x32x1x1x1 ![] bcast_S_S4x32x1x1x1 : (⟨S_, .f32⟩ : BufTy).Contents (Elt F) → (⟨S4x32x1x1x1, .f32⟩ : BufTy).Contents (Elt F)),
    StableHlo.binary main_v2 main_v3 main_v4 (Host.divf : (⟨S4x32x1x1x1, .f32⟩ : BufTy).Contents (Elt F) → (⟨S4x32x1x1x1, .f32⟩ : BufTy).Contents (Elt F) → (⟨S4x32x1x1x1, .f32⟩ : BufTy).Contents (Elt F)),
    StableHlo.nullary main_c (constantI S_ 32 0#32),
    StableHlo.TRef.nullary main_call0.cst (constant S_ .f32 0x00000000#32),
    StableHlo.TRef.binary (.of main_v0) main_call0.cst main_call0.v0 (fun x v => Host.reduceAdd x v reducesTo_S4x32x16x64x64_S4x32_d2_3_4 h_S_),
    StableHlo.TRef.unary main_call0.v0 main_call0.v1 (broadcastInDim S4x32x1x1x1 ![0, 1] bcast_S4x32_S4x32x1x1x1_0_1),
    StableHlo.TRef.nullary main_call0.cst_0 (constant S_ .f32 0x47800000#32),
    StableHlo.TRef.unary main_call0.cst_0 main_call0.v2 (broadcastInDim S4x32x1x1x1 ![] bcast_S_S4x32x1x1x1),
    StableHlo.TRef.binary main_call0.v1 main_call0.v2 main_call0.v3 Host.divf,
    StableHlo.TRef.unary main_call0.v3 main_call0.v4 (broadcastInDim S4x32x16x64x64 ![0, 1, 2, 3, 4] bcast_S4x32x1x1x1_S4x32x16x64x64_0_1_2_3_4),
    StableHlo.TRef.binary (.of main_v0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x32x16x64x64_S4x32_d2_3_4 h_S_),
    StableHlo.TRef.unary main_call0.v9 main_call0.v10 (broadcastInDim S4x32x1x1x1 ![0, 1] bcast_S4x32_S4x32x1x1x1_0_1),
    StableHlo.TRef.unary main_call0.v8 main_call0.v11 (broadcastInDim S4x32x1x1x1 ![] bcast_S_S4x32x1x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4x32x1x1x1 ![] bcast_S_S4x32x1x1x1),
    StableHlo.TRef.ternary main_call0.v13 main_call0.v12 main_call0.call0.v1 main_call0.call0.v2 (fun p a b => select (broadcastInDim S4x32x1x1x1 ![] bcast_S_S4x32x1x1x1 p) a b),
    StableHlo.unary main_v4 main_v6 (broadcastInDim S4x32x16x64x64 ![0, 1, 2, 3, 4] bcast_S4x32x1x1x1_S4x32x16x64x64_0_1_2_3_4 : (⟨S4x32x1x1x1, .f32⟩ : BufTy).Contents (Elt F) → (⟨S4x32x16x64x64, .f32⟩ : BufTy).Contents (Elt F)),
    StableHlo.binary main_v0 main_v6 main_v7 (subf : (⟨S4x32x16x64x64, .f32⟩ : BufTy).Contents (Elt F) → (⟨S4x32x16x64x64, .f32⟩ : BufTy).Contents (Elt F) → (⟨S4x32x16x64x64, .f32⟩ : BufTy).Contents (Elt F)),
    StableHlo.nullary main_cst_1 (constant S_ .f32 0x358637BD#32),
    StableHlo.unary main_cst_1 main_v8 (broadcastInDim S4x32x1x1x1 ![] bcast_S_S4x32x1x1x1 : (⟨S_, .f32⟩ : BufTy).Contents (Elt F) → (⟨S4x32x1x1x1, .f32⟩ : BufTy).Contents (Elt F)),
    StableHlo.binary main_v5 main_v8 main_v9 (addf : (⟨S4x32x1x1x1, .f32⟩ : BufTy).Contents (Elt F) → (⟨S4x32x1x1x1, .f32⟩ : BufTy).Contents (Elt F) → (⟨S4x32x1x1x1, .f32⟩ : BufTy).Contents (Elt F)),
    StableHlo.unary main_v9 main_v10 (Host.rsqrt : (⟨S4x32x1x1x1, .f32⟩ : BufTy).Contents (Elt F) → (⟨S4x32x1x1x1, .f32⟩ : BufTy).Contents (Elt F)),
    StableHlo.unary main_v10 main_v11 (broadcastInDim S4x32x16x64x64 ![0, 1, 2, 3, 4] bcast_S4x32x1x1x1_S4x32x16x64x64_0_1_2_3_4 : (⟨S4x32x1x1x1, .f32⟩ : BufTy).Contents (Elt F) → (⟨S4x32x16x64x64, .f32⟩ : BufTy).Contents (Elt F)),
    StableHlo.binary main_v7 main_v11 main_v12 (mulf : (⟨S4x32x16x64x64, .f32⟩ : BufTy).Contents (Elt F) → (⟨S4x32x16x64x64, .f32⟩ : BufTy).Contents (Elt F) → (⟨S4x32x16x64x64, .f32⟩ : BufTy).Contents (Elt F)),
    StableHlo.reshape main_v12 main_v13 rfl shapeCasts_S4x32x16x64x64_S4x512x64x64,
    StableHlo.unary main_arg1 main_v14 (broadcastInDim S1x512x1x1 ![1] bcast_S512_S1x512x1x1_1 : (⟨S512, .f32⟩ : BufTy).Contents (Elt F) → (⟨S1x512x1x1, .f32⟩ : BufTy).Contents (Elt F)),
    StableHlo.unary main_v14 main_v15 (broadcastInDim S4x512x64x64 ![0, 1, 2, 3] bcast_S1x512x1x1_S4x512x64x64_0_1_2_3 : (⟨S1x512x1x1, .f32⟩ : BufTy).Contents (Elt F) → (⟨S4x512x64x64, .f32⟩ : BufTy).Contents (Elt F)),
    StableHlo.binary main_v13 main_v15 main_v16 (mulf : (⟨S4x512x64x64, .f32⟩ : BufTy).Contents (Elt F) → (⟨S4x512x64x64, .f32⟩ : BufTy).Contents (Elt F) → (⟨S4x512x64x64, .f32⟩ : BufTy).Contents (Elt F)),
    StableHlo.unary main_arg2 main_v17 (broadcastInDim S1x512x1x1 ![1] bcast_S512_S1x512x1x1_1 : (⟨S512, .f32⟩ : BufTy).Contents (Elt F) → (⟨S1x512x1x1, .f32⟩ : BufTy).Contents (Elt F)),
    StableHlo.unary main_v17 main_v18 (broadcastInDim S4x512x64x64 ![0, 1, 2, 3] bcast_S1x512x1x1_S4x512x64x64_0_1_2_3 : (⟨S1x512x1x1, .f32⟩ : BufTy).Contents (Elt F) → (⟨S4x512x64x64, .f32⟩ : BufTy).Contents (Elt F)),
    StableHlo.binary main_v16 main_v18 main_v19 (addf : (⟨S4x512x64x64, .f32⟩ : BufTy).Contents (Elt F) → (⟨S4x512x64x64, .f32⟩ : BufTy).Contents (Elt F) → (⟨S4x512x64x64, .f32⟩ : BufTy).Contents (Elt F)),
    StableHlo.reshape main_v19 main_v20 rfl shapeCasts_S4x512x64x64_S4x512x4096,
    StableHlo.unary main_v20 main_v21 ((transpose S4x4096x512 [0, 2, 1] · transposes_S4x512x4096_S4x4096x512_0_2_1) : (⟨S4x512x4096, .f32⟩ : BufTy).Contents (Elt F) → (⟨S4x4096x512, .f32⟩ : BufTy).Contents (Elt F)),
    StableHlo.binary main_v21 main_arg3 main_v22 ((fun l r => Host.dotGeneral dot_S4x4096x512_S512x512_S4x4096x512_2_1_01_0_n_n none l r) : (⟨S4x4096x512, .f32⟩ : BufTy).Contents (Elt F) → (⟨S512x512, .f32⟩ : BufTy).Contents (Elt F) → (⟨S4x4096x512, .f32⟩ : BufTy).Contents (Elt F)),
    StableHlo.unary main_arg4 main_v23 (broadcastInDim S1x1x512 ![2] bcast_S512_S1x1x512_2 : (⟨S512, .f32⟩ : BufTy).Contents (Elt F) → (⟨S1x1x512, .f32⟩ : BufTy).Contents (Elt F)),
    StableHlo.unary main_v23 main_v24 (broadcastInDim S4x4096x512 ![0, 1, 2] bcast_S1x1x512_S4x4096x512_0_1_2 : (⟨S1x1x512, .f32⟩ : BufTy).Contents (Elt F) → (⟨S4x4096x512, .f32⟩ : BufTy).Contents (Elt F)),
    StableHlo.binary main_v22 main_v24 main_v25 (addf : (⟨S4x4096x512, .f32⟩ : BufTy).Contents (Elt F) → (⟨S4x4096x512, .f32⟩ : BufTy).Contents (Elt F) → (⟨S4x4096x512, .f32⟩ : BufTy).Contents (Elt F)),
    StableHlo.binary main_v21 main_arg5 main_v26 ((fun l r => Host.dotGeneral dot_S4x4096x512_S512x512_S4x4096x512_2_1_01_0_n_n none l r) : (⟨S4x4096x512, .f32⟩ : BufTy).Contents (Elt F) → (⟨S512x512, .f32⟩ : BufTy).Contents (Elt F) → (⟨S4x4096x512, .f32⟩ : BufTy).Contents (Elt F)),
    StableHlo.unary main_arg6 main_v27 (broadcastInDim S1x1x512 ![2] bcast_S512_S1x1x512_2 : (⟨S512, .f32⟩ : BufTy).Contents (Elt F) → (⟨S1x1x512, .f32⟩ : BufTy).Contents (Elt F)),
    StableHlo.unary main_v27 main_v28 (broadcastInDim S4x4096x512 ![0, 1, 2] bcast_S1x1x512_S4x4096x512_0_1_2 : (⟨S1x1x512, .f32⟩ : BufTy).Contents (Elt F) → (⟨S4x4096x512, .f32⟩ : BufTy).Contents (Elt F)),
    StableHlo.binary main_v26 main_v28 main_v29 (addf : (⟨S4x4096x512, .f32⟩ : BufTy).Contents (Elt F) → (⟨S4x4096x512, .f32⟩ : BufTy).Contents (Elt F) → (⟨S4x4096x512, .f32⟩ : BufTy).Contents (Elt F)),
    StableHlo.binary main_v21 main_arg7 main_v30 ((fun l r => Host.dotGeneral dot_S4x4096x512_S512x512_S4x4096x512_2_1_01_0_n_n none l r) : (⟨S4x4096x512, .f32⟩ : BufTy).Contents (Elt F) → (⟨S512x512, .f32⟩ : BufTy).Contents (Elt F) → (⟨S4x4096x512, .f32⟩ : BufTy).Contents (Elt F)),
    StableHlo.unary main_arg8 main_v31 (broadcastInDim S1x1x512 ![2] bcast_S512_S1x1x512_2 : (⟨S512, .f32⟩ : BufTy).Contents (Elt F) → (⟨S1x1x512, .f32⟩ : BufTy).Contents (Elt F)),
    StableHlo.unary main_v31 main_v32 (broadcastInDim S4x4096x512 ![0, 1, 2] bcast_S1x1x512_S4x4096x512_0_1_2 : (⟨S1x1x512, .f32⟩ : BufTy).Contents (Elt F) → (⟨S4x4096x512, .f32⟩ : BufTy).Contents (Elt F)),
    StableHlo.binary main_v30 main_v32 main_v33 (addf : (⟨S4x4096x512, .f32⟩ : BufTy).Contents (Elt F) → (⟨S4x4096x512, .f32⟩ : BufTy).Contents (Elt F) → (⟨S4x4096x512, .f32⟩ : BufTy).Contents (Elt F)),
    StableHlo.binary main_v25 main_v29 main_v34 ((fun l r => Host.dotGeneral dot_S4x4096x512_S4x4096x512_S4x4096x4096_2_2_1_1_0_0 none l r) : (⟨S4x4096x512, .f32⟩ : BufTy).Contents (Elt F) → (⟨S4x4096x512, .f32⟩ : BufTy).Contents (Elt F) → (⟨S4x4096x4096, .f32⟩ : BufTy).Contents (Elt F)),
    StableHlo.nullary main_cst_2 (constant S_ .f32 0x3D3504F3#32),
    StableHlo.unary main_cst_2 main_v35 (broadcastInDim S4x4096x4096 ![] bcast_S_S4x4096x4096 : (⟨S_, .f32⟩ : BufTy).Contents (Elt F) → (⟨S4x4096x4096, .f32⟩ : BufTy).Contents (Elt F)),
    StableHlo.binary main_v34 main_v35 main_v36 (mulf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_3 (constant S_ .f32 0xFF800000#32),
    StableHlo.binary main_v36 main_cst_3 main_v37 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    StableHlo.nullary main_cst_4 (constant S_ .f32 0xFF800000#32),
    StableHlo.unary main_cst_4 main_v38 (broadcastInDim S4x4096 ![] bcast_S_S4x4096 : (⟨S_, .f32⟩ : BufTy).Contents (Elt F) → (⟨S4x4096, .f32⟩ : BufTy).Contents (Elt F)),
    StableHlo.binary main_v38 main_v37 main_v39 (maximumf : (⟨S4x4096, .f32⟩ : BufTy).Contents (Elt F) → (⟨S4x4096, .f32⟩ : BufTy).Contents (Elt F) → (⟨S4x4096, .f32⟩ : BufTy).Contents (Elt F)),
    StableHlo.unary main_v39 main_v40 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v40 main_v41 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.binary main_v36 main_v41 main_v42 (subf : (⟨S4x4096x4096, .f32⟩ : BufTy).Contents (Elt F) → (⟨S4x4096x4096, .f32⟩ : BufTy).Contents (Elt F) → (⟨S4x4096x4096, .f32⟩ : BufTy).Contents (Elt F)),
    StableHlo.unary main_v42 main_v43 (Host.exp : (⟨S4x4096x4096, .f32⟩ : BufTy).Contents (Elt F) → (⟨S4x4096x4096, .f32⟩ : BufTy).Contents (Elt F)),
    StableHlo.nullary main_cst_5 (constant S_ .f32 0x00000000#32),
    StableHlo.binary main_v43 main_cst_5 main_v44 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    StableHlo.unary main_v44 main_v45 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v45 main_v46 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.binary main_v43 main_v46 main_v47 (Host.divf : (⟨S4x4096x4096, .f32⟩ : BufTy).Contents (Elt F) → (⟨S4x4096x4096, .f32⟩ : BufTy).Contents (Elt F) → (⟨S4x4096x4096, .f32⟩ : BufTy).Contents (Elt F)),
    StableHlo.binary main_v47 main_v33 main_v48 ((fun l r => Host.dotGeneral dot_S4x4096x4096_S4x4096x512_S4x4096x512_2_1_1_2_0_0 none l r) : (⟨S4x4096x4096, .f32⟩ : BufTy).Contents (Elt F) → (⟨S4x4096x512, .f32⟩ : BufTy).Contents (Elt F) → (⟨S4x4096x512, .f32⟩ : BufTy).Contents (Elt F)),
    StableHlo.binary main_v48 main_arg9 main_v49 ((fun l r => Host.dotGeneral dot_S4x4096x512_S512x512_S4x4096x512_2_1_01_0_n_n none l r) : (⟨S4x4096x512, .f32⟩ : BufTy).Contents (Elt F) → (⟨S512x512, .f32⟩ : BufTy).Contents (Elt F) → (⟨S4x4096x512, .f32⟩ : BufTy).Contents (Elt F)),
    StableHlo.unary main_arg10 main_v50 (broadcastInDim S1x1x512 ![2] bcast_S512_S1x1x512_2 : (⟨S512, .f32⟩ : BufTy).Contents (Elt F) → (⟨S1x1x512, .f32⟩ : BufTy).Contents (Elt F)),
    StableHlo.unary main_v50 main_v51 (broadcastInDim S4x4096x512 ![0, 1, 2] bcast_S1x1x512_S4x4096x512_0_1_2 : (⟨S1x1x512, .f32⟩ : BufTy).Contents (Elt F) → (⟨S4x4096x512, .f32⟩ : BufTy).Contents (Elt F)),
    StableHlo.binary main_v49 main_v51 main_v52 (addf : (⟨S4x4096x512, .f32⟩ : BufTy).Contents (Elt F) → (⟨S4x4096x512, .f32⟩ : BufTy).Contents (Elt F) → (⟨S4x4096x512, .f32⟩ : BufTy).Contents (Elt F)),
    StableHlo.unary main_v52 main_v53 ((transpose S4x512x4096 [0, 2, 1] · transposes_S4x4096x512_S4x512x4096_0_2_1) : (⟨S4x4096x512, .f32⟩ : BufTy).Contents (Elt F) → (⟨S4x512x4096, .f32⟩ : BufTy).Contents (Elt F)),
    StableHlo.reshape main_v53 main_v54 rfl shapeCasts_S4x512x4096_S4x512x64x64,
    StableHlo.binary main_arg0 main_v54 main_v55 (addf : (⟨S4x512x64x64, .f32⟩ : BufTy).Contents (Elt F) → (⟨S4x512x64x64, .f32⟩ : BufTy).Contents (Elt F) → (⟨S4x512x64x64, .f32⟩ : BufTy).Contents (Elt F)) ]

/-- Every operation reads and writes TensorCore buffers only. -/
theorem ops_sub : (ops : List (HloOp τ sig (Elt F))).Forall fun op => op.bufs ⊆ tcRefs τ sig :=
  ⟨reshape_bufs_sub ..,
    nullary_bufs_sub ..,
    binary_bufs_sub ..,
    unary_bufs_sub ..,
    nullary_bufs_sub ..,
    unary_bufs_sub ..,
    binary_bufs_sub ..,
    nullary_bufs_sub ..,
    nullary_bufs_sub ..,
    binary_bufs_sub ..,
    unary_bufs_sub ..,
    nullary_bufs_sub ..,
    unary_bufs_sub ..,
    binary_bufs_sub ..,
    unary_bufs_sub ..,
    binary_bufs_sub ..,
    binary_bufs_sub ..,
    unary_bufs_sub ..,
    nullary_bufs_sub ..,
    binary_bufs_sub ..,
    nullary_bufs_sub ..,
    binary_bufs_sub ..,
    unary_bufs_sub ..,
    unary_bufs_sub ..,
    binary_bufs_sub ..,
    nullary_bufs_sub ..,
    binary_bufs_sub ..,
    nullary_bufs_sub ..,
    unary_bufs_sub ..,
    unary_bufs_sub ..,
    ternary_bufs_sub ..,
    unary_bufs_sub ..,
    binary_bufs_sub ..,
    nullary_bufs_sub ..,
    unary_bufs_sub ..,
    binary_bufs_sub ..,
    unary_bufs_sub ..,
    unary_bufs_sub ..,
    binary_bufs_sub ..,
    reshape_bufs_sub ..,
    unary_bufs_sub ..,
    unary_bufs_sub ..,
    binary_bufs_sub ..,
    unary_bufs_sub ..,
    unary_bufs_sub ..,
    binary_bufs_sub ..,
    reshape_bufs_sub ..,
    unary_bufs_sub ..,
    binary_bufs_sub ..,
    unary_bufs_sub ..,
    unary_bufs_sub ..,
    binary_bufs_sub ..,
    binary_bufs_sub ..,
    unary_bufs_sub ..,
    unary_bufs_sub ..,
    binary_bufs_sub ..,
    binary_bufs_sub ..,
    unary_bufs_sub ..,
    unary_bufs_sub ..,
    binary_bufs_sub ..,
    binary_bufs_sub ..,
    nullary_bufs_sub ..,
    unary_bufs_sub ..,
    binary_bufs_sub ..,
    nullary_bufs_sub ..,
    binary_bufs_sub ..,
    nullary_bufs_sub ..,
    unary_bufs_sub ..,
    binary_bufs_sub ..,
    unary_bufs_sub ..,
    unary_bufs_sub ..,
    binary_bufs_sub ..,
    unary_bufs_sub ..,
    nullary_bufs_sub ..,
    binary_bufs_sub ..,
    unary_bufs_sub ..,
    unary_bufs_sub ..,
    binary_bufs_sub ..,
    binary_bufs_sub ..,
    binary_bufs_sub ..,
    unary_bufs_sub ..,
    unary_bufs_sub ..,
    binary_bufs_sub ..,
    unary_bufs_sub ..,
    reshape_bufs_sub ..,
    binary_bufs_sub ..⟩

end Cert.ReferenceIdeal.HostRun

end
-- ==== Proof.RefRun.lean ====
/-
  The reference program runs to its end as a straight line of host operations.

  @main of the reference is a sequence of StableHLO operations on the TensorCore: the group statistics (a sum over
  each group's 16·64·64 entries divided by 65536 for the mean; the variance function, which centres, squares, sums,
  divides and guards the count), the normalisation, three projections, the scores, the softmax along the key axis,
  the weighted values, the output projection and the residual sum. None of them launches a kernel, so every weakly
  fair execution is the operations applied one after the other to the launch memory: each buffer ends holding the
  fold of the operation list over the launch contents. The argument arrays are written by no operation and so end as
  they were launched, which is the reference's frame claim.
-/
import proofs.«150200_j79405355369062_2_alg».proof.Proof.RefOps

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
set_option maxHeartbeats 8000000 in
/-- @main is that straight line: the two windows of statements, the variance function at its call and the select it
    calls, read as one chain of host steps once the sequencing is reassociated. -/
theorem main_eq (c : Dev nD) : main (F := F) c = seq ops := by
  simp only [main, main_part0, main_part1, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and each TensorCore buffer
    ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HostRun

end
-- ==== Proof.RefFrame.lean ====
/-
  The reference's frame: no operation of its straight line writes an argument array.

  Each of the eleven argument buffers is the result buffer of none of the operations, so the fold of the operation
  list over any contents leaves it as it was; with the run of the straight line this is the frame claim.
-/
import proofs.«150200_j79405355369062_2_alg».proof.Proof.RefRun
import proofs.«150200_j79405355369062_2_alg».proof.Defs
import proofs.«150200_j79405355369062_2_alg».proof.Proof.Gen.Pre_finite_inputs

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

theorem kept_arg0 (V : Valuation τ sig (Elt F)) : after ops V (main_arg0 : DevRef τ sig) = V (main_arg0 : DevRef τ sig) := by after_results_simp
theorem kept_arg1 (V : Valuation τ sig (Elt F)) : after ops V (main_arg1 : DevRef τ sig) = V (main_arg1 : DevRef τ sig) := by after_results_simp
theorem kept_arg2 (V : Valuation τ sig (Elt F)) : after ops V (main_arg2 : DevRef τ sig) = V (main_arg2 : DevRef τ sig) := by after_results_simp
theorem kept_arg3 (V : Valuation τ sig (Elt F)) : after ops V (main_arg3 : DevRef τ sig) = V (main_arg3 : DevRef τ sig) := by after_results_simp
theorem kept_arg4 (V : Valuation τ sig (Elt F)) : after ops V (main_arg4 : DevRef τ sig) = V (main_arg4 : DevRef τ sig) := by after_results_simp
theorem kept_arg5 (V : Valuation τ sig (Elt F)) : after ops V (main_arg5 : DevRef τ sig) = V (main_arg5 : DevRef τ sig) := by after_results_simp
theorem kept_arg6 (V : Valuation τ sig (Elt F)) : after ops V (main_arg6 : DevRef τ sig) = V (main_arg6 : DevRef τ sig) := by after_results_simp
theorem kept_arg7 (V : Valuation τ sig (Elt F)) : after ops V (main_arg7 : DevRef τ sig) = V (main_arg7 : DevRef τ sig) := by after_results_simp
theorem kept_arg8 (V : Valuation τ sig (Elt F)) : after ops V (main_arg8 : DevRef τ sig) = V (main_arg8 : DevRef τ sig) := by after_results_simp
theorem kept_arg9 (V : Valuation τ sig (Elt F)) : after ops V (main_arg9 : DevRef τ sig) = V (main_arg9 : DevRef τ sig) := by after_results_simp
theorem kept_arg10 (V : Valuation τ sig (Elt F)) : after ops V (main_arg10 : DevRef τ sig) = V (main_arg10 : DevRef τ sig) := by after_results_simp

/-- The run with the arguments read back: every argument array ends as launched. -/
theorem run_kept (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_arg0).trans (kept_arg0 _), (h c main_arg1).trans (kept_arg1 _),
      (h c main_arg2).trans (kept_arg2 _), (h c main_arg3).trans (kept_arg3 _), (h c main_arg4).trans (kept_arg4 _),
      (h c main_arg5).trans (kept_arg5 _), (h c main_arg6).trans (kept_arg6 _), (h c main_arg7).trans (kept_arg7 _),
      (h c main_arg8).trans (kept_arg8 _), (h c main_arg9).trans (kept_arg9 _), (h c main_arg10).trans (kept_arg10 _)⟩)
    (run_main m ρ)

end Cert.ReferenceIdeal.HostRun

namespace Cert.Proof.Parts

open Idealize.ShloMosaic

/-- The reference terminates without a fault and leaves its arguments as launched. -/
theorem frame_reference : Cert.frame_ReferenceIdeal := fun m ρ _ => Cert.ReferenceIdeal.HostRun.run_kept (F := Ideal) m ρ

end Cert.Proof.Parts

end
-- ==== Proof.RefVal.Chain.lean ====
/-
  The reference's straight line as one composed term.

  The fold of the 86 host operations over any contents leaves, in the result buffer, the operations' functions composed
  in program order over the eleven argument arrays. The composition is named here in the program's own stages — the
  five-axis view of the input, the group mean, the variance function with its guarded quotient, the normalised tokens,
  a per-token linear map, the scores, the row maximum, the exponentials, the softmax, the weighted values, and the
  result — each stage a whole-array function, so that the next module can read each of them at an index by itself.
-/
import proofs.«150200_j79405355369062_2_alg».proof.Proof.RefOps
import Idealize.ShloMosaic.PureOps.Ideal

noncomputable section

namespace Cert.ReferenceIdeal.RefValue

open Cert.ReferenceIdeal Cert.ReferenceIdeal.Gen Cert.ReferenceIdeal.HostRun Idealize.ShloMosaic Idealize.ShloMosaic.TcCoe
  Idealize.SL.Sem Idealize.ShloMosaic.StableHlo

/-- The input viewed as [4, 32, 16, 64, 64]: 32 groups of 16 channels. -/
def view5 (x : FVec Ideal S4x512x64x64 .f32) : FVec Ideal S4x32x16x64x64 .f32 :=
  shapeCast S4x32x16x64x64 x shapeCasts_S4x512x64x64_S4x32x16x64x64

/-- The group sums over the three inner axes, from zero, kept as [4, 32, 1, 1, 1]. -/
def gsum (y : FVec Ideal S4x32x16x64x64 .f32) : FVec Ideal S4x32x1x1x1 .f32 :=
  broadcastInDim S4x32x1x1x1 ![0, 1] bcast_S4x32_S4x32x1x1x1_0_1
    (Host.reduceAdd (F := Ideal) y (constant (F := Ideal) S_ .f32 0x00000000#32) reducesTo_S4x32x16x64x64_S4x32_d2_3_4 h_S_)

/-- The group means: the sums over 65536. -/
def gmean (y : FVec Ideal S4x32x16x64x64 .f32) : FVec Ideal S4x32x1x1x1 .f32 :=
  Host.divf (F := Ideal) (gsum y) (broadcastInDim S4x32x1x1x1 ![] bcast_S_S4x32x1x1x1 (constant (F := Ideal) S_ .f32 0x47800000#32))

/-- A per-group statistic spread over the group's entries. -/
def spread (m : FVec Ideal S4x32x1x1x1 .f32) : FVec Ideal S4x32x16x64x64 .f32 :=
  broadcastInDim S4x32x16x64x64 ![0, 1, 2, 3, 4] bcast_S4x32x1x1x1_S4x32x16x64x64_0_1_2_3_4 m

/-- The count the variance divides by: 65536 less the (zero) correction, a scalar. -/
def cnt : FVec Ideal S_ .f32 :=
  subf (constant (F := Ideal) S_ .f32 0x47800000#32) (sitofp (F := Ideal) .f32 (constantI S_ 32 0#32))

/-- The variance function: squared deviations from the mean summed over the group and divided by the count where the
    count is positive, the not-a-number word elsewhere. -/
def gvar (y : FVec Ideal S4x32x16x64x64 .f32) : FVec Ideal S4x32x1x1x1 .f32 :=
  select (broadcastInDim S4x32x1x1x1 ![] bcast_S_S4x32x1x1x1 (cmpf .ogt cnt (constant (F := Ideal) S_ .f32 0x00000000#32)))
    (Host.divf (F := Ideal) (gsum (mulf (subf y (spread (gmean y))) (subf y (spread (gmean y)))))
      (broadcastInDim S4x32x1x1x1 ![] bcast_S_S4x32x1x1x1 cnt))
    (broadcastInDim S4x32x1x1x1 ![] bcast_S_S4x32x1x1x1 (id (constant (F := Ideal) S_ .f32 0x7FC00000#32)))

/-- The normalised input, scaled and shifted per channel, as [4, 512, 4096]. -/
def normed (x : FVec Ideal S4x512x64x64 .f32) (γ β : FVec Ideal S512 .f32) : FVec Ideal S4x512x4096 .f32 :=
  shapeCast S4x512x4096
    (addf
      (mulf
        (shapeCast S4x512x64x64
          (mulf (subf (view5 x) (spread (gmean (view5 x))))
            (spread (Host.rsqrt (F := Ideal) (addf (gvar (view5 x))
              (broadcastInDim S4x32x1x1x1 ![] bcast_S_S4x32x1x1x1 (constant (F := Ideal) S_ .f32 0x358637BD#32))))))
          shapeCasts_S4x32x16x64x64_S4x512x64x64)
        (broadcastInDim S4x512x64x64 ![0, 1, 2, 3] bcast_S1x512x1x1_S4x512x64x64_0_1_2_3
          (broadcastInDim S1x512x1x1 ![1] bcast_S512_S1x512x1x1_1 γ)))
      (broadcastInDim S4x512x64x64 ![0, 1, 2, 3] bcast_S1x512x1x1_S4x512x64x64_0_1_2_3
        (broadcastInDim S1x512x1x1 ![1] bcast_S512_S1x512x1x1_1 β)))
    shapeCasts_S4x512x64x64_S4x512x4096

/-- The tokens: the same, token-major [4, 4096, 512]. -/
def tokens (x : FVec Ideal S4x512x64x64 .f32) (γ β : FVec Ideal S512 .f32) : FVec Ideal S4x4096x512 .f32 :=
  transpose S4x4096x512 [0, 2, 1] (normed x γ β) transposes_S4x512x4096_S4x4096x512_0_2_1

/-- A per-token linear map with its bias. -/
def linear (t : FVec Ideal S4x4096x512 .f32) (w : FVec Ideal S512x512 .f32) (bias : FVec Ideal S512 .f32) :
    FVec Ideal S4x4096x512 .f32 :=
  addf (Host.dotGeneral (F := Ideal) dot_S4x4096x512_S512x512_S4x4096x512_2_1_01_0_n_n none t w)
    (broadcastInDim S4x4096x512 ![0, 1, 2] bcast_S1x1x512_S4x4096x512_0_1_2
      (broadcastInDim S1x1x512 ![2] bcast_S512_S1x1x512_2 bias))

/-- The scaled scores of every query against every key. -/
def scores (q k : FVec Ideal S4x4096x512 .f32) : FVec Ideal S4x4096x4096 .f32 :=
  mulf (Host.dotGeneral (F := Ideal) dot_S4x4096x512_S4x4096x512_S4x4096x4096_2_2_1_1_0_0 none q k)
    (broadcastInDim S4x4096x4096 ![] bcast_S_S4x4096x4096 (constant (F := Ideal) S_ .f32 0x3D3504F3#32))

/-- A row statistic spread over the row. -/
def spreadRow (m : FVec Ideal S4x4096 .f32) : FVec Ideal S4x4096x4096 .f32 :=
  broadcastInDim S4x4096x4096 ![0, 1, 2] bcast_S4x4096x1_S4x4096x4096_0_1_2
    (broadcastInDim S4x4096x1 ![0, 1] bcast_S4x4096_S4x4096x1_0_1 m)

/-- The row maxima: the maximum over the keys from minus infinity, and once more against minus infinity. -/
def rowMax (s : FVec Ideal S4x4096x4096 .f32) : FVec Ideal S4x4096 .f32 :=
  maximumf (broadcastInDim S4x4096 ![] bcast_S_S4x4096 (constant (F := Ideal) S_ .f32 0xFF800000#32))
    (Host.reduce FloatOps.maximumf s (constant (F := Ideal) S_ .f32 0xFF800000#32) reducesTo_S4x4096x4096_S4x4096_d2 h_S_)

/-- The exponentials of the scores less their row maximum. -/
def expo (s : FVec Ideal S4x4096x4096 .f32) : FVec Ideal S4x4096x4096 .f32 :=
  Host.exp (F := Ideal) (subf s (spreadRow (rowMax s)))

/-- The softmax of each row: the exponentials over their sum from zero. -/
def softmax (s : FVec Ideal S4x4096x4096 .f32) : FVec Ideal S4x4096x4096 .f32 :=
  Host.divf (F := Ideal) (expo s)
    (spreadRow (Host.reduceAdd (F := Ideal) (expo s) (constant (F := Ideal) S_ .f32 0x00000000#32) reducesTo_S4x4096x4096_S4x4096_d2 h_S_))

/-- The values averaged with the softmax weights. -/
def attend (q k v : FVec Ideal S4x4096x512 .f32) : FVec Ideal S4x4096x512 .f32 :=
  Host.dotGeneral (F := Ideal) dot_S4x4096x4096_S4x4096x512_S4x4096x512_2_1_1_2_0_0 none (softmax (scores q k)) v

/-- The whole result: the input plus the projected attention, channel-major again. -/
def result (x : FVec Ideal S4x512x64x64 .f32) (γ β : FVec Ideal S512 .f32) (wq : FVec Ideal S512x512 .f32) (bq : FVec Ideal S512 .f32)
    (wk : FVec Ideal S512x512 .f32) (bk : FVec Ideal S512 .f32) (wv : FVec Ideal S512x512 .f32) (bv : FVec Ideal S512 .f32)
    (wo : FVec Ideal S512x512 .f32) (bo : FVec Ideal S512 .f32) : FVec Ideal S4x512x64x64 .f32 :=
  addf x
    (shapeCast S4x512x64x64
      (transpose S4x512x4096 [0, 2, 1]
        (linear (attend (linear (tokens x γ β) wq bq) (linear (tokens x γ β) wk bk) (linear (tokens x γ β) wv bv)) wo bo)
        transposes_S4x4096x512_S4x512x4096_0_2_1)
      shapeCasts_S4x512x4096_S4x512x64x64)

set_option maxRecDepth 65536 in
set_option maxHeartbeats 4000000 in
/-- The fold of the operation list leaves that composition in the result buffer. -/
theorem after_eq (V : Valuation τ sig (Elt Ideal)) :
    after ops V (main_v55 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  after_results_simp
  rfl

end Cert.ReferenceIdeal.RefValue

end
-- ==== Proof.RefVal.Spec.lean ====
/-
  The reference's result, index by index.

  The program normalises x : [4,512,64,64] by groups of 16 channels (32 groups per batch entry, each of 16·64·64 =
  65536 entries), applies a per-channel scale and shift, reads the result as 4096 tokens of 512 channels, projects the
  tokens three times (queries, keys, values), forms the scaled scores of every query against every key, takes the
  softmax of each row of scores, averages the values with those weights, projects once more and adds the input back.
  Each stage below is that stage's value at ONE index, over literal shapes; the stages after the normalisation take
  the arrays they read as arguments, so that each can be reasoned about by itself. Float literals stay the printed
  words (65536 is 0x47800000, the epsilon 0x358637BD, the score scale 0x3D3504F3); minus infinity is written ⊥.
-/
import Idealize.ShloMosaic.PureOps.Ideal
import Idealize.ShloMosaic.Lib.ValueIdx
import Mathlib.Data.Finset.Fold

noncomputable section

namespace Cert.ReferenceIdeal.RefSpec

open Idealize.ShloMosaic Idealize.ShloMosaic.ValueIdx
open scoped BigOperators

/-- Channel c of group g: 16 consecutive channels per group. -/
abbrev chan (g : Fin 32) (c : Fin 16) : Fin 512 := ⟨16 * g.val + c.val, by omega⟩
/-- The group of a channel. -/
abbrev grp (c : Fin 512) : Fin 32 := ⟨c.val / 16, by omega⟩
/-- Token n = 64·row + column of the 64 × 64 image. -/
abbrev tokRow (n : Fin 4096) : Fin 64 := ⟨n.val / 64, by omega⟩
abbrev tokCol (n : Fin 4096) : Fin 64 := ⟨n.val % 64, by omega⟩
abbrev tokOf (r c : Fin 64) : Fin 4096 := ⟨64 * r.val + c.val, by omega⟩

/-- The mean of group g of batch entry b: the sum (from zero) of the group's 65536 entries over 65536. -/
def mean (x : FVec Ideal ⟨4, ![4, 512, 64, 64]⟩ .f32) (b : Fin 4) (g : Fin 32) : EReal :=
  Ideal.div (0 + ∑ c : Fin 16, ∑ r : Fin 64, ∑ s : Fin 64, x (ix4 b (chan g c) r s)) (Ideal.ofBits .f32 0x47800000#32)

/-- The variance of the group: the sum (from zero) of the squared deviations from the mean over 65536 (the count
    65536 - 0 is positive, so the guarded quotient is the quotient). -/
def var (x : FVec Ideal ⟨4, ![4, 512, 64, 64]⟩ .f32) (b : Fin 4) (g : Fin 32) : EReal :=
  Ideal.div (0 + ∑ c : Fin 16, ∑ r : Fin 64, ∑ s : Fin 64,
      (x (ix4 b (chan g c) r s) - mean x b g) * (x (ix4 b (chan g c) r s) - mean x b g))
    (Ideal.ofBits .f32 0x47800000#32)

/-- The normalised, scaled and shifted input at batch entry b, channel c, token n. -/
def hn (x : FVec Ideal ⟨4, ![4, 512, 64, 64]⟩ .f32) (γ β : FVec Ideal ⟨1, ![512]⟩ .f32) (b : Fin 4) (c : Fin 512)
    (n : Fin 4096) : EReal :=
  ((x (ix4 b c (tokRow n) (tokCol n)) - mean x b (grp c))
      * Ideal.rsqrt (var x b (grp c) + Ideal.ofBits .f32 0x358637BD#32)) * γ (ix1 c) + β (ix1 c)

/-- The tokens: the normalised input as [4, 4096, 512]. -/
def tok (x : FVec Ideal ⟨4, ![4, 512, 64, 64]⟩ .f32) (γ β : FVec Ideal ⟨1, ![512]⟩ .f32) :
    FVec Ideal ⟨3, ![4, 4096, 512]⟩ .f32 := fun i => hn x γ β (i 0) (i 2) (i 1)

/-- A per-token linear map: output channel o of token n is Σ_c t (b,n,c) · w (o,c) + bias o. -/
def lin (t : FVec Ideal ⟨3, ![4, 4096, 512]⟩ .f32) (w : FVec Ideal ⟨2, ![512, 512]⟩ .f32) (bias : FVec Ideal ⟨1, ![512]⟩ .f32)
    (b : Fin 4) (n : Fin 4096) (o : Fin 512) : EReal :=
  (∑ c : Fin 512, t (ix3 b n c) * w (ix2 o c)) + bias (ix1 o)

/-- The same as an array. -/
def linArr (t : FVec Ideal ⟨3, ![4, 4096, 512]⟩ .f32) (w : FVec Ideal ⟨2, ![512, 512]⟩ .f32) (bias : FVec Ideal ⟨1, ![512]⟩ .f32) :
    FVec Ideal ⟨3, ![4, 4096, 512]⟩ .f32 := fun i => lin t w bias (i 0) (i 1) (i 2)

/-- The scaled score of query i against key j. -/
def sc (q k : FVec Ideal ⟨3, ![4, 4096, 512]⟩ .f32) (b : Fin 4) (i j : Fin 4096) : EReal :=
  (∑ c : Fin 512, q (ix3 b i c) * k (ix3 b j c)) * Ideal.ofBits .f32 0x3D3504F3#32

/-- The row maximum, taken from minus infinity, and once more against minus infinity as printed. -/
def mx (q k : FVec Ideal ⟨3, ![4, 4096, 512]⟩ .f32) (b : Fin 4) (i : Fin 4096) : EReal :=
  max ⊥ ((Finset.univ : Finset (Fin 4096)).fold max ⊥ fun j => sc q k b i j)

/-- The exponential of the score less the row maximum. -/
def ex (q k : FVec Ideal ⟨3, ![4, 4096, 512]⟩ .f32) (b : Fin 4) (i j : Fin 4096) : EReal :=
  Ideal.exp (sc q k b i j - mx q k b i)

/-- The row's normaliser: the sum, from zero, of the exponentials. -/
def den (q k : FVec Ideal ⟨3, ![4, 4096, 512]⟩ .f32) (b : Fin 4) (i : Fin 4096) : EReal :=
  0 + ∑ j : Fin 4096, ex q k b i j

/-- The softmax weight of key j for query i. -/
def sm (q k : FVec Ideal ⟨3, ![4, 4096, 512]⟩ .f32) (b : Fin 4) (i j : Fin 4096) : EReal :=
  Ideal.div (ex q k b i j) (den q k b i)

/-- The values averaged with the softmax weights. -/
def att (q k v : FVec Ideal ⟨3, ![4, 4096, 512]⟩ .f32) (b : Fin 4) (i : Fin 4096) (c : Fin 512) : EReal :=
  ∑ j : Fin 4096, sm q k b i j * v (ix3 b j c)

/-- The same as an array. -/
def attArr (q k v : FVec Ideal ⟨3, ![4, 4096, 512]⟩ .f32) : FVec Ideal ⟨3, ![4, 4096, 512]⟩ .f32 :=
  fun i => att q k v (i 0) (i 1) (i 2)

/-- The result at (b, c, r, s): the input plus the output projection of the attention at token 64·r + s, channel c. -/
def outAt (x : FVec Ideal ⟨4, ![4, 512, 64, 64]⟩ .f32) (γ β : FVec Ideal ⟨1, ![512]⟩ .f32)
    (wq : FVec Ideal ⟨2, ![512, 512]⟩ .f32) (bq : FVec Ideal ⟨1, ![512]⟩ .f32)
    (wk : FVec Ideal ⟨2, ![512, 512]⟩ .f32) (bk : FVec Ideal ⟨1, ![512]⟩ .f32)
    (wv : FVec Ideal ⟨2, ![512, 512]⟩ .f32) (bv : FVec Ideal ⟨1, ![512]⟩ .f32)
    (wo : FVec Ideal ⟨2, ![512, 512]⟩ .f32) (bo : FVec Ideal ⟨1, ![512]⟩ .f32)
    (b : Fin 4) (c : Fin 512) (r s : Fin 64) : EReal :=
  x (ix4 b c r s)
    + lin (attArr (linArr (tok x γ β) wq bq) (linArr (tok x γ β) wk bk) (linArr (tok x γ β) wv bv)) wo bo b (tokOf r s) c

/-- The whole result array. -/
def out (x : FVec Ideal ⟨4, ![4, 512, 64, 64]⟩ .f32) (γ β : FVec Ideal ⟨1, ![512]⟩ .f32)
    (wq : FVec Ideal ⟨2, ![512, 512]⟩ .f32) (bq : FVec Ideal ⟨1, ![512]⟩ .f32)
    (wk : FVec Ideal ⟨2, ![512, 512]⟩ .f32) (bk : FVec Ideal ⟨1, ![512]⟩ .f32)
    (wv : FVec Ideal ⟨2, ![512, 512]⟩ .f32) (bv : FVec Ideal ⟨1, ![512]⟩ .f32)
    (wo : FVec Ideal ⟨2, ![512, 512]⟩ .f32) (bo : FVec Ideal ⟨1, ![512]⟩ .f32) :
    FVec Ideal ⟨4, ![4, 512, 64, 64]⟩ .f32 :=
  fun i => outAt x γ β wq bq wk bk wv bv wo bo (i 0) (i 1) (i 2) (i 3)

end Cert.ReferenceIdeal.RefSpec

end
-- ==== Proof.RefVal.Read.Norm.lean ====
/-
  The normalisation read at an index.

  The input is viewed as [4, 32, 16, 64, 64]: entry (b, g, c, r, s) of the view is entry (b, 16·g + c, r, s) of the
  input, since both sit at the same row-major position. A sum over the three inner axes of the view is, at group
  (b, g), the sum over the group's 16 · 64 · 64 entries: the indices that drop to (b, g) are exactly the (b, g, c, r, s).
  The group mean divides that sum by 65536; the variance function centres by the mean, squares, sums and divides by the
  count 65536 - 0, its guard (count > 0) being true; the normalised value at (b, c, n) of the [4, 512, 4096] view takes
  the statistics of group c / 16 and the entry at row n / 64, column n % 64; the tokens are the same array with its two
  last axes exchanged.
-/
import proofs.«150200_j79405355369062_2_alg».proof.Proof.RefVal.Chain
import proofs.«150200_j79405355369062_2_alg».proof.Proof.RefVal.Spec
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## Sums over the fibres of a projection -/

/-- If an index set is a product and a predicate says "the first component is a", the sum over the indices satisfying it
    is the sum over the second component. -/
theorem sum_filter_fiber {ι α β : Type} [Fintype ι] [Fintype α] [Fintype β] [DecidableEq α] (e : ι ≃ α × β)
    (f : ι → EReal) (a : α) (p : ι → Prop) [DecidablePred p] (hp : ∀ i, p i ↔ (e i).1 = a) :
    ∑ i ∈ Finset.univ.filter p, f i = ∑ k : β, f (e.symm (a, k)) := by
  rw [Finset.sum_filter, ← Equiv.sum_comp e.symm, Fintype.sum_prod_type, Finset.sum_eq_single a]
  · refine Finset.sum_congr rfl fun k _ => ?_
    rw [if_pos ((hp _).mpr (by rw [Equiv.apply_symm_apply]))]
  · intro a' _ ha'
    refine Finset.sum_eq_zero fun k _ => ?_
    rw [if_neg fun h => ha' (by have := (hp _).mp h; rwa [Equiv.apply_symm_apply] at this)]
  · intro h; exact absurd (Finset.mem_univ a) h

/-- A five-axis index is its two outer coordinates and its three inner ones. -/
def split5 : S4x32x16x64x64.Idx ≃ S4x32.Idx × (Fin 16 × Fin 64 × Fin 64) where
  toFun i := (ix2 (i 0) (i 1), (i 2, i 3, i 4))
  invFun p := ix5 (p.1 0) (p.1 1) p.2.1 p.2.2.1 p.2.2.2
  left_inv i := (eq_ix5 i).symm
  right_inv p := Prod.ext (eq_ix2 p.1).symm rfl

/-- Dropping the three inner axes keeps the two outer coordinates. -/
theorem drop5 (h : S4x32x16x64x64.ReducesTo [2, 3, 4] S4x32) (i : S4x32x16x64x64.Idx) : h.drop i = ix2 (i 0) (i 1) := by
  funext a
  match a with
  | ⟨0, _⟩ => exact Fin.ext (Shape.ReducesTo.drop_apply_val_of_eq h i 0 0)
  | ⟨1, _⟩ => exact Fin.ext (Shape.ReducesTo.drop_apply_val_of_eq h i 1 1)

/-- The sum over the indices that drop to group (b, g) is the sum over the group's entries. -/
theorem group_sum (h : S4x32x16x64x64.ReducesTo [2, 3, 4] S4x32) (y : S4x32x16x64x64.Idx → EReal) (b : Fin 4) (g : Fin 32) :
    ∑ i ∈ Finset.univ.filter (fun i => h.drop i = ix2 b g), y i = ∑ c : Fin 16, ∑ r : Fin 64, ∑ s : Fin 64, y (ix5 b g c r s) := by
  rw [sum_filter_fiber split5 y (ix2 b g) _ (fun i => by rw [drop5]; rfl)]
  simp only [Fintype.sum_prod_type]
  rfl

/-! ## The stages -/

/-- A splat constant spread to any shape reads its word everywhere. -/
theorem bcast_const {t : Shape} (dims : Fin S_.rank → Fin t.rank) (h : S_.BroadcastsInDim t dims) (w : BitVec 32) (j : t.Idx) :
    broadcastInDim t dims h (constant (F := Ideal) S_ .f32 w) j = Ideal.ofBits .f32 w := rfl

/-- The five-axis view of the input: 16 consecutive channels per group. -/
theorem view5_apply (x : FVec Ideal S4x512x64x64 .f32) (b : Fin 4) (g : Fin 32) (c : Fin 16) (r s : Fin 64) :
    view5 x (ix5 b g c r s) = x (ix4 b (RefSpec.chan g c) r s) := by
  unfold view5
  refine shapeCast_apply x _ (ix5 b g c r s) (ix4 b (RefSpec.chan g c) r s) ?_
  rw [Shape.rowMajor_val_four, Shape.rowMajor_val_five]
  show ((b.val * 512 + (16 * g.val + c.val)) * 64 + r.val) * 64 + s.val
    = (((b.val * 32 + g.val) * 16 + c.val) * 64 + r.val) * 64 + s.val
  omega

/-- A group sum at (b, g): from zero, over the group's entries. -/
theorem gsum_apply (y : FVec Ideal S4x32x16x64x64 .f32) (b : Fin 4) (g : Fin 32) (u v w : Fin 1) :
    gsum y (ix5 b g u v w) = 0 + ∑ c : Fin 16, ∑ r : Fin 64, ∑ s : Fin 64, y (ix5 b g c r s) := by
  unfold gsum
  refine (broadcastInDim_apply _ _ _ (ix5 b g u v w) (ix2 b g) (fun a => by
    match a with
    | ⟨0, _⟩ => rfl
    | ⟨1, _⟩ => rfl)).trans ?_
  show Ideal.hostReduceAdd reducesTo_S4x32x16x64x64_S4x32_d2_3_4 y (Ideal.ofBits .f32 0x00000000#32) (ix2 b g) = _
  unfold Ideal.hostReduceAdd
  rw [Ideal.ofBits_zero_f32, group_sum]

/-- The group mean. -/
theorem gmean_apply (y : FVec Ideal S4x32x16x64x64 .f32) (b : Fin 4) (g : Fin 32) (u v w : Fin 1) :
    gmean y (ix5 b g u v w)
      = Ideal.div (0 + ∑ c : Fin 16, ∑ r : Fin 64, ∑ s : Fin 64, y (ix5 b g c r s)) (Ideal.ofBits .f32 0x47800000#32) := by
  unfold gmean
  show Ideal.div (gsum y (ix5 b g u v w)) _ = _
  rw [gsum_apply, bcast_const]

/-- A group statistic spread over the group reads the group's value. -/
theorem spread_apply (m : FVec Ideal S4x32x1x1x1 .f32) (b : Fin 4) (g : Fin 32) (c : Fin 16) (r s : Fin 64) :
    spread m (ix5 b g c r s) = m (ix5 b g 0 0 0) := by
  unfold spread
  exact broadcastInDim_apply _ _ _ (ix5 b g c r s) (ix5 b g 0 0 0) (fun a => by
    match a with
    | ⟨0, _⟩ => rfl
    | ⟨1, _⟩ => rfl
    | ⟨2, _⟩ => rfl
    | ⟨3, _⟩ => rfl
    | ⟨4, _⟩ => rfl)

/-- 65536 is positive. -/
theorem count_word_pos : (0 : EReal) < Ideal.ofBits .f32 0x47800000#32 := by
  have h : Ideal.ofBits .f32 0x47800000#32 = ((65536 : ℝ) : EReal) := by
    simp [Ideal.ofBits, Ideal.ieee, -EReal.coe_mul]
    norm_num
  rw [h]
  exact_mod_cast (by norm_num : (0 : ℝ) < 65536)

/-- The count: 65536 less the integer 0 read as a float. -/
theorem cnt_apply (j : S_.Idx) : cnt j = Ideal.ofBits .f32 0x47800000#32 := by
  show Ideal.ofBits .f32 0x47800000#32 - (((0#32 : BitVec 32).toInt : ℝ) : EReal) = _
  simp

/-- The variance function at (b, g): its guard holds, so it is the quotient. -/
theorem gvar_apply (y : FVec Ideal S4x32x16x64x64 .f32) (b : Fin 4) (g : Fin 32) (u v w : Fin 1) :
    gvar y (ix5 b g u v w)
      = Ideal.div (0 + ∑ c : Fin 16, ∑ r : Fin 64, ∑ s : Fin 64,
            (y (ix5 b g c r s) - gmean y (ix5 b g 0 0 0)) * (y (ix5 b g c r s) - gmean y (ix5 b g 0 0 0)))
          (Ideal.ofBits .f32 0x47800000#32) := by
  have hbit : Ideal.cmp .ogt (Ideal.ofBits .f32 0x47800000#32) (Ideal.ofBits .f32 0x00000000#32) = 1#1 := by
    rw [Ideal.ofBits_zero_f32]
    simp [Ideal.cmp, count_word_pos]
  unfold gvar
  show Scalar.select (Ideal.cmp .ogt (cnt _) (Ideal.ofBits .f32 0x00000000#32))
      (Ideal.div (gsum _ (ix5 b g u v w)) (cnt _)) _ = _
  rw [cnt_apply, hbit, select_one, gsum_apply]
  simp only [mulf_apply, subf_apply, spread_apply]

/-- The mean of the view is the specification's mean. -/
theorem gmean_view5 (x : FVec Ideal S4x512x64x64 .f32) (b : Fin 4) (g : Fin 32) (u v w : Fin 1) :
    gmean (view5 x) (ix5 b g u v w) = RefSpec.mean x b g := by
  rw [gmean_apply]
  simp only [view5_apply]
  rfl

/-- The variance of the view is the specification's variance. -/
theorem gvar_view5 (x : FVec Ideal S4x512x64x64 .f32) (b : Fin 4) (g : Fin 32) (u v w : Fin 1) :
    gvar (view5 x) (ix5 b g u v w) = RefSpec.var x b g := by
  rw [gvar_apply]
  simp only [view5_apply, gmean_view5]
  rfl

/-- A per-channel vector spread over [4, 512, 64, 64] reads its channel's entry. -/
theorem chan_bcast_apply (γ : FVec Ideal S512 .f32) (b : Fin 4) (c : Fin 512) (r s : Fin 64) :
    broadcastInDim S4x512x64x64 ![0, 1, 2, 3] bcast_S1x512x1x1_S4x512x64x64_0_1_2_3
        (broadcastInDim S1x512x1x1 ![1] bcast_S512_S1x512x1x1_1 γ) (ix4 b c r s) = γ (ix1 c) := by
  refine (broadcastInDim_apply _ _ _ (ix4 b c r s) (ix4 0 c 0 0) (fun a => by
    match a with
    | ⟨0, _⟩ => rfl
    | ⟨1, _⟩ => rfl
    | ⟨2, _⟩ => rfl
    | ⟨3, _⟩ => rfl)).trans ?_
  exact broadcastInDim_apply _ _ _ (ix4 (0 : Fin 1) c (0 : Fin 1) (0 : Fin 1)) (ix1 c) (fun a => by
    match a with
    | ⟨0, _⟩ => rfl)

/-- The normalised input at batch entry b, channel c, token n. -/
theorem normed_apply (x : FVec Ideal S4x512x64x64 .f32) (γ β : FVec Ideal S512 .f32) (b : Fin 4) (c : Fin 512) (n : Fin 4096) :
    normed x γ β (ix3 b c n) = RefSpec.hn x γ β b c n := by
  have hc : RefSpec.chan (RefSpec.grp c) ⟨c.val % 16, Nat.mod_lt _ (by norm_num)⟩ = c := Fin.ext (by
    show 16 * (c.val / 16) + c.val % 16 = c.val
    omega)
  unfold normed
  refine (shapeCast_apply _ _ (ix3 b c n) (ix4 b c (RefSpec.tokRow n) (RefSpec.tokCol n)) ?_).trans ?_
  · rw [Shape.rowMajor_val_four, Shape.rowMajor_val_three]
    show ((b.val * 512 + c.val) * 64 + n.val / 64) * 64 + n.val % 64 = (b.val * 512 + c.val) * 4096 + n.val
    omega
  rw [addf_apply, mulf_apply, chan_bcast_apply, chan_bcast_apply]
  refine congrArg (fun z => z * γ (ix1 c) + β (ix1 c)) ?_
  refine (shapeCast_apply _ _ (ix4 b c (RefSpec.tokRow n) (RefSpec.tokCol n))
    (ix5 b (RefSpec.grp c) ⟨c.val % 16, Nat.mod_lt _ (by norm_num)⟩ (RefSpec.tokRow n) (RefSpec.tokCol n)) ?_).trans ?_
  · rw [Shape.rowMajor_val_four, Shape.rowMajor_val_five]
    show (((b.val * 32 + c.val / 16) * 16 + c.val % 16) * 64 + n.val / 64) * 64 + n.val % 64
      = ((b.val * 512 + c.val) * 64 + n.val / 64) * 64 + n.val % 64
    omega
  rw [mulf_apply, subf_apply, spread_apply, spread_apply, view5_apply, gmean_view5, hc]
  show _ * Ideal.rsqrt (gvar (view5 x) (ix5 b (RefSpec.grp c) 0 0 0) + Ideal.ofBits .f32 0x358637BD#32) = _
  rw [gvar_view5]

/-- The tokens are the specification's token array. -/
theorem tokens_eq (x : FVec Ideal S4x512x64x64 .f32) (γ β : FVec Ideal S512 .f32) : tokens x γ β = RefSpec.tok x γ β := by
  funext i
  obtain ⟨b, n, c, rfl⟩ : ∃ (b : Fin 4) (n : Fin 4096) (c : Fin 512), i = ix3 b n c := ⟨i 0, i 1, i 2, eq_ix3 i⟩
  unfold tokens
  refine (transpose_apply _ _ _ (ix3 b n c) (ix3 b c n) (fun a => by
    match a with
    | ⟨0, _⟩ => rfl
    | ⟨1, _⟩ => rfl
    | ⟨2, _⟩ => rfl)).trans ?_
  exact normed_apply x γ β b c n

end Cert.ReferenceIdeal.RefValue

end
-- ==== Proof.RefVal.Read.Attn.lean ====
/-
  The projections, the scores, the softmax and the result read at an index.

  A product of arrays along one contracted axis is, at an output index, the sum over that axis of the products of the two
  operands' entries; which entries is read off the dimension numbers axis by axis: a batch axis and a free axis take the
  output's coordinate, the contracted axis takes the summation variable. A bias spread over the tokens reads its channel's
  entry. The row maximum is the fold of max over the keys from minus infinity; the exponentials subtract it; the softmax
  divides by their sum from zero; the weighted values are one more product, the output projection another; the result
  puts the channel axis first again and adds the input.
-/
import proofs.«150200_j79405355369062_2_alg».proof.Proof.RefVal.Chain
import proofs.«150200_j79405355369062_2_alg».proof.Proof.RefVal.Spec
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## The three products' operand indices, axis by axis -/

abbrev dotW := dot_S4x4096x512_S512x512_S4x4096x512_2_1_01_0_n_n
abbrev dotQK := dot_S4x4096x512_S4x4096x512_S4x4096x4096_2_2_1_1_0_0
abbrev dotPV := dot_S4x4096x4096_S4x4096x512_S4x4096x512_2_1_1_2_0_0

-- tokens [4,4096,512] against a weight [512,512] (output channel, input channel): output (b, n, o)
theorem lhs_W_0 (i : S4x4096x512.Idx) (q : dotW.contr.Idx) : (dotW.lhsIdx i q 0).val = (i 0).val := by
  unfold DotDims.lhsIdx
  rw [dif_neg (show ¬(0 : Fin S4x4096x512.rank) ∈ dotW.lhsBatch by decide),
    dif_pos (show (0 : Fin S4x4096x512.rank) ∈ dotW.lhsNonContracting by decide)]
  rfl
theorem lhs_W_1 (i : S4x4096x512.Idx) (q : dotW.contr.Idx) : (dotW.lhsIdx i q 1).val = (i 1).val := by
  unfold DotDims.lhsIdx
  rw [dif_neg (show ¬(1 : Fin S4x4096x512.rank) ∈ dotW.lhsBatch by decide),
    dif_pos (show (1 : Fin S4x4096x512.rank) ∈ dotW.lhsNonContracting by decide)]
  rfl
theorem lhs_W_2 (i : S4x4096x512.Idx) (q : dotW.contr.Idx) : (dotW.lhsIdx i q 2).val = (q ⟨0, by decide⟩).val :=
  dotW.lhsIdx_val_of_single rfl i q
theorem rhs_W_0 (i : S4x4096x512.Idx) (q : dotW.contr.Idx) : (dotW.rhsIdx i q 0).val = (i 2).val := by
  unfold DotDims.rhsIdx
  rw [dif_neg (show ¬(0 : Fin S512x512.rank) ∈ dotW.rhsBatch by decide),
    dif_pos (show (0 : Fin S512x512.rank) ∈ dotW.rhsNonContracting by decide)]
  rfl
theorem rhs_W_1 (i : S4x4096x512.Idx) (q : dotW.contr.Idx) : (dotW.rhsIdx i q 1).val = (q ⟨0, by decide⟩).val :=
  dotW.rhsIdx_val_of_single rfl i q

-- queries against keys, batched over b, contracted over the channel: output (b, i, j)
theorem lhs_QK_0 (i : S4x4096x4096.Idx) (q : dotQK.contr.Idx) : (dotQK.lhsIdx i q 0).val = (i 0).val := by
  unfold DotDims.lhsIdx
  rw [dif_pos (show (0 : Fin S4x4096x512.rank) ∈ dotQK.lhsBatch by decide)]
  rfl
theorem lhs_QK_1 (i : S4x4096x4096.Idx) (q : dotQK.contr.Idx) : (dotQK.lhsIdx i q 1).val = (i 1).val := by
  unfold DotDims.lhsIdx
  rw [dif_neg (show ¬(1 : Fin S4x4096x512.rank) ∈ dotQK.lhsBatch by decide),
    dif_pos (show (1 : Fin S4x4096x512.rank) ∈ dotQK.lhsNonContracting by decide)]
  rfl
theorem lhs_QK_2 (i : S4x4096x4096.Idx) (q : dotQK.contr.Idx) : (dotQK.lhsIdx i q 2).val = (q ⟨0, by decide⟩).val :=
  dotQK.lhsIdx_val_of_single rfl i q
theorem rhs_QK_0 (i : S4x4096x4096.Idx) (q : dotQK.contr.Idx) : (dotQK.rhsIdx i q 0).val = (i 0).val := by
  unfold DotDims.rhsIdx
  rw [dif_pos (show (0 : Fin S4x4096x512.rank) ∈ dotQK.rhsBatch by decide)]
  rfl
theorem rhs_QK_1 (i : S4x4096x4096.Idx) (q : dotQK.contr.Idx) : (dotQK.rhsIdx i q 1).val = (i 2).val := by
  unfold DotDims.rhsIdx
  rw [dif_neg (show ¬(1 : Fin S4x4096x512.rank) ∈ dotQK.rhsBatch by decide),
    dif_pos (show (1 : Fin S4x4096x512.rank) ∈ dotQK.rhsNonContracting by decide)]
  rfl
theorem rhs_QK_2 (i : S4x4096x4096.Idx) (q : dotQK.contr.Idx) : (dotQK.rhsIdx i q 2).val = (q ⟨0, by decide⟩).val :=
  dotQK.rhsIdx_val_of_single rfl i q

-- weights [4,4096,4096] against values [4,4096,512], batched over b, contracted over the key: output (b, i, c)
theorem lhs_PV_0 (i : S4x4096x512.Idx) (q : dotPV.contr.Idx) : (dotPV.lhsIdx i q 0).val = (i 0).val := by
  unfold DotDims.lhsIdx
  rw [dif_pos (show (0 : Fin S4x4096x4096.rank) ∈ dotPV.lhsBatch by decide)]
  rfl
theorem lhs_PV_1 (i : S4x4096x512.Idx) (q : dotPV.contr.Idx) : (dotPV.lhsIdx i q 1).val = (i 1).val := by
  unfold DotDims.lhsIdx
  rw [dif_neg (show ¬(1 : Fin S4x4096x4096.rank) ∈ dotPV.lhsBatch by decide),
    dif_pos (show (1 : Fin S4x4096x4096.rank) ∈ dotPV.lhsNonContracting by decide)]
  rfl
theorem lhs_PV_2 (i : S4x4096x512.Idx) (q : dotPV.contr.Idx) : (dotPV.lhsIdx i q 2).val = (q ⟨0, by decide⟩).val :=
  dotPV.lhsIdx_val_of_single rfl i q
theorem rhs_PV_0 (i : S4x4096x512.Idx) (q : dotPV.contr.Idx) : (dotPV.rhsIdx i q 0).val = (i 0).val := by
  unfold DotDims.rhsIdx
  rw [dif_pos (show (0 : Fin S4x4096x512.rank) ∈ dotPV.rhsBatch by decide)]
  rfl
theorem rhs_PV_1 (i : S4x4096x512.Idx) (q : dotPV.contr.Idx) : (dotPV.rhsIdx i q 1).val = (q ⟨0, by decide⟩).val :=
  dotPV.rhsIdx_val_of_single rfl i q
theorem rhs_PV_2 (i : S4x4096x512.Idx) (q : dotPV.contr.Idx) : (dotPV.rhsIdx i q 2).val = (i 2).val := by
  unfold DotDims.rhsIdx
  rw [dif_neg (show ¬(2 : Fin S4x4096x512.rank) ∈ dotPV.rhsBatch by decide),
    dif_pos (show (2 : Fin S4x4096x512.rank) ∈ dotPV.rhsNonContracting by decide)]
  rfl

/-! ## The products at an index -/

/-- Tokens times a weight: Σ_c t (b, n, c) · w (o, c). -/
theorem dotW_apply (t : FVec Ideal S4x4096x512 .f32) (w : FVec Ideal S512x512 .f32) (b : Fin 4) (n : Fin 4096) (o : Fin 512) :
    Host.dotGeneral (F := Ideal) dotW none t w (ix3 b n o) = ∑ c : Fin 512, t (ix3 b n c) * w (ix2 o c) := by
  simp only [Host.dotGeneral]
  rw [Ideal.dotGeneral_apply, ← Equiv.sum_comp (contrEquiv1 dotW 512 rfl rfl).symm]
  refine Finset.sum_congr rfl fun k _ => ?_
  have hk := contrEquiv1_symm_val dotW 512 rfl rfl k
  have el : dotW.lhsIdx (ix3 b n o) ((contrEquiv1 dotW 512 rfl rfl).symm k) = ix3 b n k := funext fun a => Fin.ext (by
    match a with
    | ⟨0, _⟩ => exact lhs_W_0 _ _
    | ⟨1, _⟩ => exact lhs_W_1 _ _
    | ⟨2, _⟩ => exact (lhs_W_2 _ _).trans hk)
  have er : dotW.rhsIdx (ix3 b n o) ((contrEquiv1 dotW 512 rfl rfl).symm k) = ix2 o k := funext fun a => Fin.ext (by
    match a with
    | ⟨0, _⟩ => exact rhs_W_0 _ _
    | ⟨1, _⟩ => exact (rhs_W_1 _ _).trans hk)
  rw [el, er]

/-- Queries against keys: Σ_c q (b, i, c) · k (b, j, c). -/
theorem dotQK_apply (q k : FVec Ideal S4x4096x512 .f32) (b : Fin 4) (i j : Fin 4096) :
    Host.dotGeneral (F := Ideal) dotQK none q k (ix3 b i j) = ∑ c : Fin 512, q (ix3 b i c) * k (ix3 b j c) := by
  simp only [Host.dotGeneral]
  rw [Ideal.dotGeneral_apply, ← Equiv.sum_comp (contrEquiv1 dotQK 512 rfl rfl).symm]
  refine Finset.sum_congr rfl fun c _ => ?_
  have hk := contrEquiv1_symm_val dotQK 512 rfl rfl c
  have el : dotQK.lhsIdx (ix3 b i j) ((contrEquiv1 dotQK 512 rfl rfl).symm c) = ix3 b i c := funext fun a => Fin.ext (by
    match a with
    | ⟨0, _⟩ => exact lhs_QK_0 _ _
    | ⟨1, _⟩ => exact lhs_QK_1 _ _
    | ⟨2, _⟩ => exact (lhs_QK_2 _ _).trans hk)
  have er : dotQK.rhsIdx (ix3 b i j) ((contrEquiv1 dotQK 512 rfl rfl).symm c) = ix3 b j c := funext fun a => Fin.ext (by
    match a with
    | ⟨0, _⟩ => exact rhs_QK_0 _ _
    | ⟨1, _⟩ => exact rhs_QK_1 _ _
    | ⟨2, _⟩ => exact (rhs_QK_2 _ _).trans hk)
  rw [el, er]

/-- Weights against values: Σ_j p (b, i, j) · v (b, j, c). -/
theorem dotPV_apply (p : FVec Ideal S4x4096x4096 .f32) (v : FVec Ideal S4x4096x512 .f32) (b : Fin 4) (i : Fin 4096) (c : Fin 512) :
    Host.dotGeneral (F := Ideal) dotPV none p v (ix3 b i c) = ∑ j : Fin 4096, p (ix3 b i j) * v (ix3 b j c) := by
  simp only [Host.dotGeneral]
  rw [Ideal.dotGeneral_apply, ← Equiv.sum_comp (contrEquiv1 dotPV 4096 rfl rfl).symm]
  refine Finset.sum_congr rfl fun j _ => ?_
  have hk := contrEquiv1_symm_val dotPV 4096 rfl rfl j
  have el : dotPV.lhsIdx (ix3 b i c) ((contrEquiv1 dotPV 4096 rfl rfl).symm j) = ix3 b i j := funext fun a => Fin.ext (by
    match a with
    | ⟨0, _⟩ => exact lhs_PV_0 _ _
    | ⟨1, _⟩ => exact lhs_PV_1 _ _
    | ⟨2, _⟩ => exact (lhs_PV_2 _ _).trans hk)
  have er : dotPV.rhsIdx (ix3 b i c) ((contrEquiv1 dotPV 4096 rfl rfl).symm j) = ix3 b j c := funext fun a => Fin.ext (by
    match a with
    | ⟨0, _⟩ => exact rhs_PV_0 _ _
    | ⟨1, _⟩ => exact (rhs_PV_1 _ _).trans hk
    | ⟨2, _⟩ => exact rhs_PV_2 _ _)
  rw [el, er]

/-! ## The stages -/

/-- A bias spread over batch entries and tokens reads its channel's entry. -/
theorem bias_apply (bias : FVec Ideal S512 .f32) (b : Fin 4) (n : Fin 4096) (o : Fin 512) :
    broadcastInDim S4x4096x512 ![0, 1, 2] bcast_S1x1x512_S4x4096x512_0_1_2
        (broadcastInDim S1x1x512 ![2] bcast_S512_S1x1x512_2 bias) (ix3 b n o) = bias (ix1 o) := by
  refine (broadcastInDim_apply _ _ _ (ix3 b n o) (ix3 0 0 o) (fun a => by
    match a with
    | ⟨0, _⟩ => rfl
    | ⟨1, _⟩ => rfl
    | ⟨2, _⟩ => rfl)).trans ?_
  exact broadcastInDim_apply _ _ _ (ix3 (0 : Fin 1) (0 : Fin 1) o) (ix1 o) (fun a => by
    match a with
    | ⟨0, _⟩ => rfl)

/-- The per-token linear map is the specification's. -/
theorem linear_eq (t : FVec Ideal S4x4096x512 .f32) (w : FVec Ideal S512x512 .f32) (bias : FVec Ideal S512 .f32) :
    linear t w bias = RefSpec.linArr t w bias := by
  funext i
  obtain ⟨b, n, o, rfl⟩ : ∃ (b : Fin 4) (n : Fin 4096) (o : Fin 512), i = ix3 b n o := ⟨i 0, i 1, i 2, eq_ix3 i⟩
  unfold linear
  rw [addf_apply, bias_apply]
  exact congrArg (· + bias (ix1 o)) (dotW_apply t w b n o)

/-- The scores at (b, i, j). -/
theorem scores_apply (q k : FVec Ideal S4x4096x512 .f32) (b : Fin 4) (i j : Fin 4096) :
    scores q k (ix3 b i j) = RefSpec.sc q k b i j := by
  unfold scores
  rw [mulf_apply]
  exact congrArg (· * Ideal.ofBits .f32 0x3D3504F3#32) (dotQK_apply q k b i j)

/-- A row statistic spread over the row reads the row's value. -/
theorem spreadRow_apply (m : FVec Ideal S4x4096 .f32) (b : Fin 4) (i j : Fin 4096) : spreadRow m (ix3 b i j) = m (ix2 b i) := by
  unfold spreadRow
  refine (broadcastInDim_apply _ _ _ (ix3 b i j) (ix3 b i 0) (fun a => by
    match a with
    | ⟨0, _⟩ => rfl
    | ⟨1, _⟩ => rfl
    | ⟨2, _⟩ => rfl)).trans ?_
  exact broadcastInDim_apply _ _ _ (ix3 b i (0 : Fin 1)) (ix2 b i) (fun a => by
    match a with
    | ⟨0, _⟩ => rfl
    | ⟨1, _⟩ => rfl)

/-- The word of minus infinity. -/
theorem neg_inf_word : Ideal.ofBits .f32 0xFF800000#32 = ⊥ := by simp [Ideal.ofBits, Ideal.ieee]

/-- The row maximum at (b, i): the fold of max over the keys from minus infinity, once more against minus infinity. -/
theorem rowMax_apply (s : FVec Ideal S4x4096x4096 .f32) (b : Fin 4) (i : Fin 4096) :
    rowMax s (ix2 b i) = max ⊥ ((Finset.univ : Finset (Fin 4096)).fold max ⊥ fun j => s (ix3 b i j)) := by
  unfold rowMax
  rw [maximumf_apply]
  show max (Ideal.ofBits .f32 0xFF800000#32) _ = _
  rw [Host.reduce_eq_fold_single FloatOps.maximumf s _ reducesTo_S4x4096x4096_S4x4096_d2 (by decide) h_S_ (ix2 b i)]
  show max (Ideal.ofBits .f32 0xFF800000#32)
    ((Finset.univ : Finset (Fin 4096)).fold max (Ideal.ofBits .f32 0xFF800000#32) _) = _
  rw [neg_inf_word]
  refine congrArg (fun f => max ⊥ ((Finset.univ : Finset (Fin 4096)).fold max ⊥ f)) (funext fun j => ?_)
  exact congrArg s (funext fun a => Fin.ext (by
    match a with
    | ⟨0, _⟩ => rfl
    | ⟨1, _⟩ => rfl
    | ⟨2, _⟩ => rfl))

/-- The exponential at (b, i, j). -/
theorem expo_apply (s : FVec Ideal S4x4096x4096 .f32) (b : Fin 4) (i j : Fin 4096) :
    expo s (ix3 b i j) = Ideal.exp (s (ix3 b i j) - rowMax s (ix2 b i)) := by
  unfold expo
  show Ideal.exp (s (ix3 b i j) - spreadRow (rowMax s) (ix3 b i j)) = _
  rw [spreadRow_apply]

/-- A row sum from zero at (b, i). -/
theorem rowSum_apply (e : FVec Ideal S4x4096x4096 .f32) (b : Fin 4) (i : Fin 4096) :
    Host.reduceAdd (F := Ideal) e (constant (F := Ideal) S_ .f32 0x00000000#32) reducesTo_S4x4096x4096_S4x4096_d2 h_S_ (ix2 b i)
      = 0 + ∑ j : Fin 4096, e (ix3 b i j) := by
  show Ideal.hostReduceAdd reducesTo_S4x4096x4096_S4x4096_d2 e (Ideal.ofBits .f32 0x00000000#32) (ix2 b i) = _
  rw [Ideal.hostReduceAdd_single reducesTo_S4x4096x4096_S4x4096_d2 (by decide), Ideal.ofBits_zero_f32]
  refine congrArg (0 + ·) (Finset.sum_congr rfl fun j _ => ?_)
  exact congrArg e (funext fun a => Fin.ext (by
    match a with
    | ⟨0, _⟩ => rfl
    | ⟨1, _⟩ => rfl
    | ⟨2, _⟩ => rfl))

/-- The softmax at (b, i, j). -/
theorem softmax_apply (s : FVec Ideal S4x4096x4096 .f32) (b : Fin 4) (i j : Fin 4096) :
    softmax s (ix3 b i j) = Ideal.div (expo s (ix3 b i j)) (0 + ∑ j' : Fin 4096, expo s (ix3 b i j')) := by
  unfold softmax
  show Ideal.div (expo s (ix3 b i j)) (spreadRow _ (ix3 b i j)) = _
  rw [spreadRow_apply, rowSum_apply]

/-- The softmax of the scores is the specification's weight. -/
theorem softmax_scores (q k : FVec Ideal S4x4096x512 .f32) (b : Fin 4) (i j : Fin 4096) :
    softmax (scores q k) (ix3 b i j) = RefSpec.sm q k b i j := by
  have hm : rowMax (scores q k) (ix2 b i) = RefSpec.mx q k b i := by
    rw [rowMax_apply]
    simp only [scores_apply]
    rfl
  have he : ∀ j' : Fin 4096, expo (scores q k) (ix3 b i j') = RefSpec.ex q k b i j' := fun j' => by
    rw [expo_apply, scores_apply, hm]
    rfl
  rw [softmax_apply]
  simp only [he]
  rfl

/-- The weighted values are the specification's. -/
theorem attend_eq (q k v : FVec Ideal S4x4096x512 .f32) : attend q k v = RefSpec.attArr q k v := by
  funext i
  obtain ⟨b, n, c, rfl⟩ : ∃ (b : Fin 4) (n : Fin 4096) (c : Fin 512), i = ix3 b n c := ⟨i 0, i 1, i 2, eq_ix3 i⟩
  unfold attend
  refine (dotPV_apply _ v b n c).trans ?_
  simp only [softmax_scores]
  rfl

/-- The result at (b, c, r, s): the input plus the projected attention at token 64·r + s, channel c. -/
theorem result_apply (x : FVec Ideal S4x512x64x64 .f32) (L : FVec Ideal S4x4096x512 .f32) (b : Fin 4) (c : Fin 512) (r s : Fin 64) :
    addf x
        (shapeCast S4x512x64x64
          (transpose S4x512x4096 [0, 2, 1] L transposes_S4x4096x512_S4x512x4096_0_2_1)
          shapeCasts_S4x512x4096_S4x512x64x64) (ix4 b c r s)
      = x (ix4 b c r s) + L (ix3 b (RefSpec.tokOf r s) c) := by
  rw [addf_apply]
  refine congrArg (x (ix4 b c r s) + ·) ?_
  refine (shapeCast_apply _ _ (ix4 b c r s) (ix3 b c (RefSpec.tokOf r s)) ?_).trans ?_
  · rw [Shape.rowMajor_val_four, Shape.rowMajor_val_three]
    show (b.val * 512 + c.val) * 4096 + (64 * r.val + s.val) = ((b.val * 512 + c.val) * 64 + r.val) * 64 + s.val
    omega
  exact transpose_apply _ _ _ (ix3 b c (RefSpec.tokOf r s)) (ix3 b (RefSpec.tokOf r s) c) (fun a => by
    match a with
    | ⟨0, _⟩ => rfl
    | ⟨1, _⟩ => rfl
    | ⟨2, _⟩ => rfl)

end Cert.ReferenceIdeal.RefValue

end
-- ==== Proof.RefVal.lean ====
/-
  The reference's result is the specification.

  The fold of the reference's operations leaves, in its result buffer, the composition of its stages over the argument
  arrays; read index by index, stage by stage, that composition is the specification's function: at (b, c, r, s) the input
  plus the output projection, at token 64·r + s and channel c, of the softmax-weighted values of the three projections
  of the group-normalised tokens.
-/
import proofs.«150200_j79405355369062_2_alg».proof.Proof.RefVal.Read.Norm
import proofs.«150200_j79405355369062_2_alg».proof.Proof.RefVal.Read.Attn

noncomputable section

namespace Cert.ReferenceIdeal.RefValue

open Cert.ReferenceIdeal Cert.ReferenceIdeal.Gen Cert.ReferenceIdeal.HostRun Idealize.ShloMosaic Idealize.ShloMosaic.TcCoe
  Idealize.SL.Sem Idealize.ShloMosaic.StableHlo Idealize.ShloMosaic.ValueIdx

/-- The composed stages are the specification, as functions of the eleven arrays. -/
theorem result_eq (x : FVec Ideal S4x512x64x64 .f32) (γ β : FVec Ideal S512 .f32) (wq : FVec Ideal S512x512 .f32)
    (bq : FVec Ideal S512 .f32) (wk : FVec Ideal S512x512 .f32) (bk : FVec Ideal S512 .f32) (wv : FVec Ideal S512x512 .f32)
    (bv : FVec Ideal S512 .f32) (wo : FVec Ideal S512x512 .f32) (bo : FVec Ideal S512 .f32) :
    result x γ β wq bq wk bk wv bv wo bo = RefSpec.out x γ β wq bq wk bk wv bv wo bo := by
  funext i
  obtain ⟨b, c, r, s, rfl⟩ : ∃ (b : Fin 4) (c : Fin 512) (r s : Fin 64), i = ix4 b c r s :=
    ⟨i 0, i 1, i 2, i 3, eq_ix4 i⟩
  unfold result
  rw [result_apply]
  simp only [tokens_eq, linear_eq, attend_eq]
  rfl

/-- Whatever the contents the reference starts from, its result buffer ends at the specification of the eleven argument
    arrays. -/
theorem ref_out (V : Valuation τ sig (Elt Ideal)) :
    StableHlo.after ops V (main_v55 : DevRef τ sig)
      = RefSpec.out (V main_arg0) (V main_arg1) (V main_arg2) (V main_arg3) (V main_arg4) (V main_arg5) (V main_arg6)
          (V main_arg7) (V main_arg8) (V main_arg9) (V main_arg10) :=
  (after_eq V).trans (result_eq _ _ _ _ _ _ _ _ _ _ _)

end Cert.ReferenceIdeal.RefValue

end
-- ==== Proof.RefVal.Run.lean ====
/-
  The reference's run with its result named.

  Every weakly fair execution of the reference ends with each buffer at the fold of its operations over the launch
  contents. The result buffer is therefore the specification's function of the eleven launched argument arrays, and the
  argument arrays, written by no operation, end as they were launched.
-/
import proofs.«150200_j79405355369062_2_alg».proof.Proof.RefVal
import proofs.«150200_j79405355369062_2_alg».proof.Proof.RefFrame

noncomputable section

namespace Cert.ReferenceIdeal.RefValue

open Cert.ReferenceIdeal Cert.ReferenceIdeal.Gen Cert.ReferenceIdeal.HostRun Idealize.ShloMosaic Idealize.ShloMosaic.TcCoe
  Idealize.SL.Sem Idealize.ShloMosaic.StableHlo

/-- From any memory with zero counters every weakly fair execution of the reference terminates with its result buffer at
    the specification of the launched arguments, and with every argument array as launched. -/
theorem ref_run (m' : (ℓ : Loc nD τ sig) → Buf (Elt Ideal) ℓ) (ρ' : Dev nD → PrngReg) :
    θ_run defs (onTc (τ := τ) (main (F := Ideal))) ⟨m', fun _ => 0, ρ'⟩ (fun r => ∀ c : Dev nD,
      r.2.mem ((c.tc : Thread nD τ).loc main_v55)
          = RefSpec.out (m' ((c.tc : Thread nD τ).loc main_arg0))
              (m' ((c.tc : Thread nD τ).loc main_arg1))
              (m' ((c.tc : Thread nD τ).loc main_arg2))
              (m' ((c.tc : Thread nD τ).loc main_arg3))
              (m' ((c.tc : Thread nD τ).loc main_arg4))
              (m' ((c.tc : Thread nD τ).loc main_arg5))
              (m' ((c.tc : Thread nD τ).loc main_arg6))
              (m' ((c.tc : Thread nD τ).loc main_arg7))
              (m' ((c.tc : Thread nD τ).loc main_arg8))
              (m' ((c.tc : Thread nD τ).loc main_arg9))
              (m' ((c.tc : Thread nD τ).loc main_arg10))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)) :=
  (θ_run defs _ _).mono (fun _ h c => ⟨(h c main_v55).trans (ref_out _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _)⟩)
    (run_main m' ρ')

end Cert.ReferenceIdeal.RefValue

end
-- ==== Proof.K.Reg0.lean ====
import proofs.«150200_j79405355369062_2_alg».proof.Proof.Gen.Kernel.Launch
import proofs.«150200_j79405355369062_2_alg».proof.Proof.Gen.Kernel.Skeleton
import proofs.«150200_j79405355369062_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection kernel's half of the frame

The first pallas_call of the attention block computes, per batch entry and per tile of 1024 positions, the
normalised activations `x * scale + shift` (channel-wise), multiplies them by the fused projection matrix
`[512, 1536]`, adds the fused bias and splits the 1536 output columns into the three blocks of 512 columns that
are the query, key and value tiles. Its grid is 4 × 4; it reads five windows (the activation tile, the two
per-batch normalisation rows, the whole weight matrix, the whole bias) and writes three (the q, k, v tiles), each
output tile stored once, whole, at every grid point.

Everything here is stated at a PARAMETER `V`: the TensorCore's buffer contents when the call is entered. -/

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered: the parameter this half is stated at
variable (V : (c : Dev nD) → (b : Ref sig .tc) → Buf (Elt F) ((c : Thread nD τ).loc b))

/-! ## The windows' blocks -/

/-- Window `w`'s block at grid point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: at a point where the window is not
    fetched its block index has not moved since the last fetch, so the buffer still holds the same block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: at a point where the window is not
    fetched its block index has not moved since the last fetch, so the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: at a point where the window is not
    fetched its block index has not moved since the last fetch, so the buffer still holds the same block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: at a point where the window is not
    fetched its block index has not moved since the last fetch, so the buffer still holds the same block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: at a point where the window is not
    fetched its block index has not moved since the last fetch, so the buffer still holds the same block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

abbrev r0_rI0 : Rect S1x512x1024 := Rect.unit (s := S1x512x1024) ![0, 0, 0] S1x512x1024.size inb_S1x512x1024_S1x512x1024_0_0_0
abbrev r0_rI1 : Rect S1x1x512 := Rect.unit (s := S1x1x512) ![0, 0, 0] S1x1x512.size inb_S1x1x512_S1x1x512_0_0_0
abbrev r0_rI3 : Rect S512x1536 := Rect.unit (s := S512x1536) ![0, 0] S512x1536.size inb_S512x1536_S512x1536_0_0
abbrev r0_rI4 : Rect S1536 := Rect.unit (s := S1536) ![0] S1536.size inb_S1536_S1536_0
abbrev r0_O : Rect S1x1024x512 := Rect.unit (s := S1x1024x512) ![0, 0, 0] S1x1024x512.size inb_S1x1024x512_S1x1024x512_0_0_0

/-! ## What the body leaves in each output window's buffer

Each output buffer receives one store, of the whole buffer: the slice of 512 columns (at offset 0, 512, 1024) of the
projected tile, as the skeleton's payloads name it over the five loaded values. -/

/-- Window 5's staging buffer after the body, from the input windows' blocks: its one store as a piece. -/
def out0_5 (x0 : Vec F S1x512x1024 .f32) (x1 : Vec F S1x1x512 .f32) (x2 : Vec F S1x1x512 .f32) (x3 : Vec F S512x1536 .bf16) (x4 : Vec F S1536 .f32) : Vec F S1x1024x512 .bf16 :=
  View.canon [⟨r0_O, k0_pay2 (View.ld x0 r0_rI0) (View.ld x1 r0_rI1) (View.ld x2 r0_rI1) (View.ld x3 r0_rI3) (View.ld x4 r0_rI4)⟩]

/-- Window 6's staging buffer after the body, from the input windows' blocks: its one store as a piece. -/
def out0_6 (x0 : Vec F S1x512x1024 .f32) (x1 : Vec F S1x1x512 .f32) (x2 : Vec F S1x1x512 .f32) (x3 : Vec F S512x1536 .bf16) (x4 : Vec F S1536 .f32) : Vec F S1x1024x512 .bf16 :=
  View.canon [⟨r0_O, k0_pay3 (View.ld x0 r0_rI0) (View.ld x1 r0_rI1) (View.ld x2 r0_rI1) (View.ld x3 r0_rI3) (View.ld x4 r0_rI4)⟩]

/-- Window 7's staging buffer after the body, from the input windows' blocks: its one store as a piece. -/
def out0_7 (x0 : Vec F S1x512x1024 .f32) (x1 : Vec F S1x1x512 .f32) (x2 : Vec F S1x1x512 .f32) (x3 : Vec F S512x1536 .bf16) (x4 : Vec F S1536 .f32) : Vec F S1x1024x512 .bf16 :=
  View.canon [⟨r0_O, k0_pay4 (View.ld x0 r0_rI0) (View.ld x1 r0_rI1) (View.ld x2 r0_rI1) (View.ld x3 r0_rI3) (View.ld x4 r0_rI4)⟩]

/-- One store of the whole buffer covers it (the rectangle is the buffer, checked by evaluation). -/
theorem cover0_O (p0 : Vec F S1x1024x512 .bf16) (y : S1x1024x512.Idx) :
    ∃ pc ∈ ([⟨r0_O, p0⟩] : List (View.Piece (Elt F) S1x1024x512 .bf16)), y ∈ pc.1.set :=
  View.cover_of_tiled [⟨r0_O, p0⟩] S1x1024x512.size (by rfl) y

/-! ## The body's triple -/

set_option maxHeartbeats 4000000 in
/-- The kernel body on whole staging memrefs, the inputs' at read contents `xW` and the outputs' at anything, runs to
    the continuation holding the inputs' as they were and each output's at `out0_W` of the inputs': the printed
    functions are their skeletons, which are run statement by statement through the one part call; each of the three
    loads of an output buffer before its store is dead. -/
theorem sound_kernel0 (c : Dev nD) (E : Set ℕ) (i : grid0.Coords) (arg2 : Memref sig .tc .vmem S1x512x1024 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S512x1536 .bf16) (harg5 : arg5.IsWhole) (arg6 : Memref sig .tc .vmem S1536 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x1024x512 .bf16) (harg9 : arg9.IsWhole)
    (x0 : Vec F S1x512x1024 .f32) (x1 : Vec F S1x1x512 .f32) (x2 : Vec F S1x1x512 .f32) (x3 : Vec F S512x1536 .bf16) (x4 : Vec F S1536 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out0_5 x0 x1 x2 x3 x4) ∗ owns (c : Thread nD τ) arg8 fullShare (out0_6 x0 x1 x2 x3 x4) ∗ owns (c : Thread nD τ) arg9 fullShare (out0_7 x0 x1 x2 x3 x4)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_O _)
  isplitl [H6]
  · iexists _; isplitr
    swap; · iexact H6
    ipureintro
    try dsimp only
    exact View.read_writes_eq_canon _ _ _ (cover0_O _)
  iexists _; isplitr
  swap; · iexact H7
  ipureintro
  try dsimp only
  exact View.read_writes_eq_canon _ _ _ (cover0_O _)

/-! ## The pipeline's proof data -/

/-- The proof data of this pipeline on core `c`: the arrays as the call finds them (`V`); after the body at point
    `t` each input's buffer at its block and each output's at `out0_W` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The proof data's arrays are the call-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.Runs.lean ====
/-
  The attention region's grid has 4 x 2 x 8 points (batch, query block, key block; the key block innermost). This
  module states what every point of that grid shares: the block of each of the seven windows at a point, read off the
  window's array as the region finds it; that each input's staging buffer holds its block at every point, whether or
  not it was fetched there (where it was not, the block index has not moved); the body's two conditions on the key-block
  coordinate in closed form over the 64 points (first key block: position ≡ 0 mod 8; last key block: position ≡ 7
  mod 8); that the six inputs are live everywhere while the output window is idle, and not written back, except at the
  last key block; the staging memrefs at a point and the three scratch memrefs (running maximum, running normaliser,
  running weighted sum); and the region's entry invariant with those three scratch buffers singled out, every other
  scoped buffer carried along unopened.
-/
import proofs.«150200_j79405355369062_2_alg».proof.Proof.Gen.Kernel.Launch
import proofs.«150200_j79405355369062_2_alg».proof.Proof.Gen.Kernel.Skeleton
import proofs.«150200_j79405355369062_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks of the attention region -/

/-- Window `w`'s block at point `t` of the attention region, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the
    block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals on the innermost grid coordinate -/

/-- The condition of the first conditional (reset of the running statistics), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the second conditional (normalisation and output projection), from the grid coordinates. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the first conditional is taken and the second is not, the output window is idle and not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- Where neither is taken, the same. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- Where the second is taken, the output window is live: the body stores into it. -/
theorem liveAt1_6_C : ∀ t : Fin cfg1.N, ¬cond1_0 (grid1.coords t) → cond1_1 (grid1.coords t) → cfg1.idle 6 (grid1.coords t) = false := by decide +kernel

/-! ## The staging and scratch memrefs -/

/-- One staging buffer of the output window, through which its contents are stated. -/
abbrev VO1_6 : View sig .tc .vmem S1x512x2048 .f32 := (Memref.whole cc1_stg6_0 : Memref sig .tc .vmem S1x512x2048 .f32).view
abbrev ms1_0 (t : Fin cfg1.N) : Memref sig .tc .vmem S1x2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x2048 .f32 := win1_6.stage (cfg1.slots t 6)
abbrev hs1_6 (t : Fin cfg1.N) : (ms1_6 t).IsWhole := hstage1_6 ((cfg1.slots t 6).cast nbuf1_6)
/-- Scratch operand 0 (the running maximum): a whole scoped buffer of the kernel's own, and the view through which its contents are stated. -/
abbrev scM1_0 : Memref sig .tc .vmem S1x2048x1 .f32 := Memref.whole cc1_scratch0
abbrev VS1_0 : View sig .tc .vmem S1x2048x1 .f32 := scM1_0.view
/-- Scratch operand 1 (the running sum): a whole scoped buffer of the kernel's own, and the view through which its contents are stated. -/
abbrev scM1_1 : Memref sig .tc .vmem S1x2048x1 .f32 := Memref.whole cc1_scratch1
abbrev VS1_1 : View sig .tc .vmem S1x2048x1 .f32 := scM1_1.view
/-- Scratch operand 2 (the running accumulator): a whole scoped buffer of the kernel's own, and the view through which its contents are stated. -/
abbrev scM1_2 : Memref sig .tc .vmem S1x2048x512 .f32 := Memref.whole cc1_scratch2
abbrev VS1_2 : View sig .tc .vmem S1x2048x512 .f32 := scM1_2.view

/-- The core's scoped buffers that are neither a staging buffer of this region nor one of its three scratch operands,
    each at some contents: carried through the region unopened. -/
abbrev restO1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region's invariant with the three scratch operands as memrefs owned at some contents, the other scoped buffers
    unopened, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restO1 (F := F) c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]; try rfl

end Cert.Kernel.Hand

end
-- ==== Proof.K.Reg1.RunA.lean ====
/-
  The body at a point of the FIRST key block (the first condition holds, the second does not). It first overwrites the
  three scratch buffers whole with the reset values (maximum minus infinity, normaliser zero, weighted sum zero), so
  they may hold anything on entry; it then reads the query, key and value blocks and the scratch buffers, and
  overwrites each scratch buffer whole with its updated contents. The output buffer is not touched and is handed back
  as found; the input buffers are handed back as found. The stores each scratch buffer receives are recorded as a
  list of pieces, last first.
-/
import proofs.«150200_j79405355369062_2_alg».proof.Proof.K.Reg1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the three scratch memrefs, as pieces (last first),
    in the case of the first conditional taken (the running statistics are reset), the second not, with the proof that on whole memrefs — the inputs' at their
    contents, the output's (left idle: no store) at contents handed back untouched, the scratch memrefs at anything (each is wholly stored before it is read) —
    the body runs to the continuation holding the inputs' as they were, the output's untouched and each scratch memref with its pieces written. -/
noncomputable def kernelRun1_A (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) :
    Σ' (L6 : List (View.Piece (Elt F) S1x512x2048 .f32)) (LS0 : List (View.Piece (Elt F) S1x2048x1 .f32)) (LS1 : List (View.Piece (Elt F) S1x2048x1 .f32)), { LS2 : List (View.Piece (Elt F) S1x2048x512 .f32) //
      ∀ (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.Kernel.Hand

end
-- ==== Proof.K.Reg1.RunB.lean ====
/-
  The body at a point of a MIDDLE key block (neither condition holds). It reads the query, key and value blocks and the
  three scratch buffers — which hold what the point before left — and overwrites each scratch buffer whole with its
  updated contents (new running maximum, new normaliser, new weighted sum). The output buffer is not touched and is
  handed back as found; the input buffers are handed back as found. The stores each scratch buffer receives are
  recorded as a list of pieces, last first.
-/
import proofs.«150200_j79405355369062_2_alg».proof.Proof.K.Reg1.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the three scratch memrefs, as pieces (last first),
    in the case of neither conditional taken, with the proof that on whole memrefs — the inputs' at their
    contents, the output's (left idle: no store) at contents handed back untouched, the scratch memrefs at the contents the point before left —
    the body runs to the continuation holding the inputs' as they were, the output's untouched and each scratch memref with its pieces written. -/
noncomputable def kernelRun1_B (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) :
    Σ' (L6 : List (View.Piece (Elt F) S1x512x2048 .f32)) (LS0 : List (View.Piece (Elt F) S1x2048x1 .f32)) (LS1 : List (View.Piece (Elt F) S1x2048x1 .f32)), { LS2 : List (View.Piece (Elt F) S1x2048x512 .f32) //
      ∀ (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.Kernel.Hand

end
-- ==== Proof.K.Reg1.RunC.lean ====
/-
  The body at a point of the LAST key block (the first condition fails, the second holds). It updates the three
  scratch buffers as at a middle key block, from what the point before left in them, and then reads the new weighted
  sum and the new normaliser back, together with the projection weights, the bias and the input block, and overwrites
  the output buffer whole — which may hold anything on entry. The input buffers are handed back as found. The stores
  the output buffer and each scratch buffer receive are recorded as lists of pieces, last first.
-/
import proofs.«150200_j79405355369062_2_alg».proof.Proof.K.Reg1.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the three scratch memrefs, as pieces (last first),
    in the case of the first conditional not taken, the second taken (normalisation and output projection), with the proof that on whole memrefs — the inputs' at their
    contents, the output's at anything, the scratch memrefs at the contents the point before left —
    the body runs to the continuation holding the inputs' as they were, the output's buffer and each scratch memref with its pieces written. -/
noncomputable def kernelRun1_C (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) :
    Σ' (L6 : List (View.Piece (Elt F) S1x512x2048 .f32)) (LS0 : List (View.Piece (Elt F) S1x2048x1 .f32)) (LS1 : List (View.Piece (Elt F) S1x2048x1 .f32)), { LS2 : List (View.Piece (Elt F) S1x2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.Kernel.Hand

end
-- ==== Proof.K.Reg1.lean ====
/-
  What the attention region's buffers hold, point by point. For each of the three kinds of point (first, middle, last
  key block) the pieces stored into a scratch buffer — and, at a last key block, into the output buffer — cover it, so
  its contents afterwards are those pieces read back, whatever it held before. By recursion on the position of the
  point this gives a four-tuple after every point: the output block, the running maximum, the running normaliser and
  the running weighted sum, the last three computed from what the point before left (from nothing at a first key
  block, where they are reset). The region's invariant before a point says the three scratch buffers hold exactly the
  previous point's three components (anything before the first point), every other scoped buffer being carried along
  at some contents. With it, the body meets its obligation at every point: handed the inputs' blocks, it leaves the
  inputs as they were, the output buffer untouched (or, at a last key block, at the tuple's first component), and the
  invariant of the next point. The invariant holds on entry and gives the entry invariant back after the last point.
-/
import proofs.«150200_j79405355369062_2_alg».proof.Proof.K.Reg1.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In the case where the statistics are reset and nothing is projected nothing is stored into the output window (idle there and not written back): no pieces — a placeholder
    (junk read back) that nothing consults. -/
def out1_A_6 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) : Vec F S1x512x2048 .f32 :=
  VO1_6.read (Elt F) (VO1_6.writes (Elt F) VO1_6.junk (kernelRun1_A c i arg3 harg3 arg4 harg4 arg5 harg5 arg6 harg6 arg7 harg7 arg8 harg8 arg9 harg9 arg10 harg10 arg11 harg11 arg12 harg12 hc0 hc1 x0 x1 x2 x3 x4 x5).1)

/-- In the case where the statistics are reset and nothing is projected the pieces stored into scratch operand 0 (the running maximum) cover it: whole stores. -/
theorem scover1_A_0 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (y : S1x2048x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.1 S1x2048x1.size (by sl_kernel_rfl) y

/-- What that case leaves in scratch operand 0: its pieces read back over junk. -/
def sout1_A_0 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) : Vec F S1x2048x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4 x5).2.1)

/-- In the case where the statistics are reset and nothing is projected the pieces stored into scratch operand 1 (the running sum) cover it: whole stores. -/
theorem scover1_A_1 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (y : S1x2048x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.2.1 S1x2048x1.size (by sl_kernel_rfl) y

/-- What that case leaves in scratch operand 1: its pieces read back over junk. -/
def sout1_A_1 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) : Vec F S1x2048x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3 x4 x5).2.2.1)

/-- In the case where the statistics are reset and nothing is projected the pieces stored into scratch operand 2 (the running accumulator) cover it: whole stores. -/
theorem scover1_A_2 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (y : S1x2048x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.2.2.1 S1x2048x512.size (by sl_kernel_rfl) y

/-- What that case leaves in scratch operand 2: its pieces read back over junk. -/
def sout1_A_2 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) : Vec F S1x2048x512 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 x0 x1 x2 x3 x4 x5).2.2.2.1)

/-- In the case where neither conditional is taken nothing is stored into the output window (idle there and not written back): no pieces — a placeholder
    (junk read back) that nothing consults. -/
def out1_B_6 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x512x2048 .f32 :=
  VO1_6.read (Elt F) (VO1_6.writes (Elt F) VO1_6.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).1)

/-- In the case where neither conditional is taken the pieces stored into scratch operand 0 (the running maximum) cover it: whole stores. -/
theorem scover1_B_0 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x2048x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S1x2048x1.size (by sl_kernel_rfl) y

/-- What that case leaves in scratch operand 0: its pieces read back over junk. -/
def sout1_B_0 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x2048x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1)

/-- In the case where neither conditional is taken the pieces stored into scratch operand 1 (the running sum) cover it: whole stores. -/
theorem scover1_B_1 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x2048x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1x2048x1.size (by sl_kernel_rfl) y

/-- What that case leaves in scratch operand 1: its pieces read back over junk. -/
def sout1_B_1 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x2048x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1)

/-- In the case where neither conditional is taken the pieces stored into scratch operand 2 (the running accumulator) cover it: whole stores. -/
theorem scover1_B_2 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x2048x512.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S1x2048x512.size (by sl_kernel_rfl) y

/-- What that case leaves in scratch operand 2: its pieces read back over junk. -/
def sout1_B_2 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x2048x512 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1)

/-- In the case where the normalised accumulator is projected into the output the pieces stored into the output window cover its block (one whole store). -/
theorem cover1_C_6 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x512x2048.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1 S1x512x2048.size (by sl_kernel_rfl) y

/-- What that case leaves in the output window's staging buffer: its pieces read back over junk. -/
def out1_C_6 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x512x2048 .f32 :=
  VO1_6.read (Elt F) (VO1_6.writes (Elt F) VO1_6.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1)

/-- In the case where the normalised accumulator is projected into the output the pieces stored into scratch operand 0 (the running maximum) cover it: whole stores. -/
theorem scover1_C_0 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x2048x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S1x2048x1.size (by sl_kernel_rfl) y

/-- What that case leaves in scratch operand 0: its pieces read back over junk. -/
def sout1_C_0 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x2048x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1)

/-- In the case where the normalised accumulator is projected into the output the pieces stored into scratch operand 1 (the running sum) cover it: whole stores. -/
theorem scover1_C_1 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x2048x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1x2048x1.size (by sl_kernel_rfl) y

/-- What that case leaves in scratch operand 1: its pieces read back over junk. -/
def sout1_C_1 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x2048x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1)

/-- In the case where the normalised accumulator is projected into the output the pieces stored into scratch operand 2 (the running accumulator) cover it: whole stores. -/
theorem scover1_C_2 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x2048x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S1x2048x512.size (by sl_kernel_rfl) y

/-- What that case leaves in scratch operand 2: its pieces read back over junk. -/
def sout1_C_2 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x2048x512 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1)

/-! ## What the output window and the carried scratch hold after each point -/

/-- THE ACCUMULATION. What the output window's staging buffer and the three scratch operands the kernel carries between
    points (running maximum, running sum, running accumulator) hold after the body at position `n`: the case the closed
    forms select at `n`, run at the point's memrefs and input blocks, the scratch operands read at what the point
    before left in them. An assignment of the conditions no point meets is no case. -/
def outsAt1 (c : Dev nD) : (n : ℕ) → n < cfg1.N → (Vec F S1x512x2048 .f32 × Vec F S1x2048x1 .f32 × Vec F S1x2048x1 .f32 × Vec F S1x2048x512 .f32)
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point where the statistics are reset: that case's contents. -/
theorem outsAt1_A (c : Dev nD) (t : Fin cfg1.N) (h0 : t.val % 8 = 0) (h1 : ¬t.val % 8 = 7) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point where neither conditional is taken: that case's contents, over what the point before left. -/
theorem outsAt1_B (c : Dev nD) (t : Fin cfg1.N) (h0 : ¬t.val % 8 = 0) (h1 : ¬t.val % 8 = 7) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point where the output is projected: that case's contents, over what the point before left. -/
theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch operand at anything);
    afterwards the three scratch operands at what the point before left in them, the other scoped buffers unopened,
    and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restO1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restO1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ restO1 (F := F) c) ∗ (∃ r, prngReg c r)) := by
  cases n with
  | zero => exact absurd rfl hz
  | succ n => rfl

/-! ## The region's proof data -/

/-- The proof data of the attention region on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the closed forms say which case the point is in;
    the invariant hands the body the three scratch operands at what the point before left (at anything at the first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0 sout1_C_1 sout1_C_2; (try dsimp only)
      by_cases hz : t.val = 0
      · exfalso; omega
      · rw [PhiS1_castSucc V c t, PhiS1_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch operands' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.Run.lean ====
/-
  The two grids inside @main: the run of the whole program from the two kernels' proof data.

  @main is seven items in a row: three stretches of host operations (the group statistics; the variance function; the
  per-channel scale and shift, the re-laid input and the stacked weight and bias), the first grid (it writes the three
  projections q, k, v), one host operation (the output weight rounded), the second grid (attention, output projection and
  residual), and the final re-shaping of the result. Between two items every buffer of the TensorCore that outlives a
  grid is held whole at named contents: the launch memory, then each stretch's operations applied in order, and after a
  grid the arrays its windows write back at what the pipeline's accounting computes from the proof data (every other
  buffer as it was). Given, for each grid, proof data whose arrays are the contents the grid is entered with, the
  body's obligation at every grid point, and (for the second grid) that the scratch invariant starts from and returns
  to "the scoped buffers at anything", every weakly fair execution of @main terminates without a fault and ends with
  every such buffer at the last of these contents. No item writes an argument array, so each ends as launched; the
  result is the re-shaping of what the second grid leaves in its output array.
-/
import proofs.«150200_j79405355369062_2_alg».proof.Proof.Gen.Kernel.Launch
import proofs.«150200_j79405355369062_2_alg».proof.Proof.Gen.Kernel.Skeleton
import proofs.«150200_j79405355369062_2_alg».proof.Proof.Gen.Kernel.Points
import proofs.«150200_j79405355369062_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

/-- The TensorCore's buffer contents on every core, read at the TensorCore's references. -/
abbrev Conts (F : FTy → Type) [FloatOps F] : Type := (c : Dev nD) → (b : Ref sig .tc) → Buf (Elt F) ((c : Thread nD τ).loc b)

/-- The first grid's proof data from what its body leaves in each window's buffer: the arrays as the grid is entered,
    the class invariant (the scoped buffers at anything and the generator register), full shares, nothing owed. -/
def mk0 {F : FTy → Type} [FloatOps F]
    (after0 : Conts F → (c : Dev nD) → (w : Fin cfg0.W) → Fin cfg0.N → (cfg0.win w).block.Idx → Elt F (cfg0.win w).elt)
    (V : Conts F) (c : Dev nD) : Dat τ (Elt F) Unit ℕ (UR sig nD τ) ℕ cfg0 c where
  A w := V c (Pipeline.arrRef spec0 w)
  after := after0 V c
  Φ _ := Pipeline.ΦA spec0 c
  q _ := fullShare
  owed _ := 0

/-- The second grid's proof data from what its body leaves and from its invariant (which tracks the carried scratch). -/
def mk1 {F : FTy → Type} [FloatOps F]
    (after1 : Conts F → (c : Dev nD) → (w : Fin cfg1.W) → Fin cfg1.N → (cfg1.win w).block.Idx → Elt F (cfg1.win w).elt)
    (Φ1 : Conts F → (c : Dev nD) → Fin (cfg1.N + 1) → sProp (MT nD τ sig Unit (Elt F) ℕ (UR sig nD τ) ℕ))
    (V : Conts F) (c : Dev nD) : Dat τ (Elt F) Unit ℕ (UR sig nD τ) ℕ cfg1 c where
  A w := V c (Pipeline.arrRef spec1 w)
  after := after1 V c
  Φ := Φ1 V c
  q _ := fullShare
  owed _ := 0

/-- What the assembly asks of the two grids, each a function of the contents its grid is entered with: what the bodies
    leave, the second grid's invariant, the bodies' obligations, and that the invariant starts from and returns to the
    scoped buffers at anything. -/
structure Halves (F : FTy → Type) [FloatOps F] where
  after0 : Conts F → (c : Dev nD) → (w : Fin cfg0.W) → Fin cfg0.N → (cfg0.win w).block.Idx → Elt F (cfg0.win w).elt
  body0 : ∀ V c, BodyObligation (mk0 after0 V c) (defs₀ (F := F)) Variants.none () Set.univ
  after1 : Conts F → (c : Dev nD) → (w : Fin cfg1.W) → Fin cfg1.N → (cfg1.win w).block.Idx → Elt F (cfg1.win w).elt
  Φ1 : Conts F → (c : Dev nD) → Fin (cfg1.N + 1) → sProp (MT nD τ sig Unit (Elt F) ℕ (UR sig nD τ) ℕ)
  body1 : ∀ V c, BodyObligation (mk1 after1 Φ1 V c) (defs₀ (F := F)) Variants.none () Set.univ
  hin1 : ∀ V c, (Pipeline.ΦA spec1 c : sProp (MT nD τ sig Unit (Elt F) ℕ (UR sig nD τ) ℕ)) ⊢ Φ1 V c 0
  hout1 : ∀ V c, Φ1 V c (Fin.last cfg1.N) ⊢ (Pipeline.ΦA spec1 c : sProp (MT nD τ sig Unit (Elt F) ℕ (UR sig nD τ) ℕ))

/-- The two grids' proof data at given entry contents. -/
abbrev Halves.D0 {F : FTy → Type} [FloatOps F] (H : Halves F) (V : Conts F) (c : Dev nD) := mk0 H.after0 V c
abbrev Halves.D1 {F : FTy → Type} [FloatOps F] (H : Halves F) (V : Conts F) (c : Dev nD) := mk1 H.after1 H.Φ1 V c

variable {F : FTy → Type} [FloatOps F]

local notation "𝕄" => MT nD τ sig Unit (Elt F) ℕ (UR sig nD τ) ℕ

variable (H : Halves F) (m : (ℓ : Loc nD τ sig) → Buf (Elt F) ℓ) (ρ : Dev nD → PrngReg)

/-! ## The buffer contents at each boundary -/

/-- When the first grid is entered: the launch memory through the three host stretches. -/
abbrev W3 : Dev nD → Valuation τ sig (Elt F) := fun c => Gen.V3 m c
abbrev E0 : Conts F := fun c b => W3 m c b
/-- When it is left: its arrays at what the pipeline leaves, every other buffer as entered. -/
def W4 (c : Dev nD) : Valuation τ sig (Elt F) :=
  Pipeline.withArrays spec0 c (W3 m c) fun w => (H.D0 (E0 m) c).arrAt w cfg0.N
theorem W4_arr (c : Dev nD) (w : Fin cfg0.W) :
    W4 H m c (Proc.devRef .tc (Pipeline.arrRef spec0 w)) = (H.D0 (E0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 H m c (Proc.devRef .tc b) = W3 m c (Proc.devRef .tc b) := by
  unfold W4; exact Pipeline.withArrays_of_ne spec0 c _ _ b hb
abbrev X4 : Conts F := fun c b => W4 H m c b
theorem hF0 (c : Dev nD) (w : Fin cfg0.W) : (H.D0 (E0 m) c).arrAt w cfg0.N = X4 H m c (Pipeline.arrRef spec0 w) :=
  (W4_arr H m c w).symm
theorem hrest0 (c : Dev nD) : ∀ b, b ∉ Finset.univ.image (Pipeline.arrRef spec0) → X4 H m c b = E0 m c b :=
  fun b hb => W4_of_ne H m c b fun w e => hb (Finset.mem_image.mpr ⟨w, Finset.mem_univ _, e⟩)

/-- When the second grid is entered: the output weight rounded. -/
abbrev W5 : Dev nD → Valuation τ sig (Elt F) := fun c => StableHlo.after hostOps1 (W4 H m c)
abbrev E1 : Conts F := fun c b => W5 H m c b
/-- When it is left. -/
def W6 (c : Dev nD) : Valuation τ sig (Elt F) :=
  Pipeline.withArrays spec1 c (W5 H m c) fun w => (H.D1 (E1 H m) c).arrAt w cfg1.N
theorem W6_arr (c : Dev nD) (w : Fin cfg1.W) :
    W6 H m c (Proc.devRef .tc (Pipeline.arrRef spec1 w)) = (H.D1 (E1 H m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 H m c (Proc.devRef .tc b) = W5 H m c (Proc.devRef .tc b) := by
  unfold W6; exact Pipeline.withArrays_of_ne spec1 c _ _ b hb
abbrev X6 : Conts F := fun c b => W6 H m c b
theorem hF1 (c : Dev nD) (w : Fin cfg1.W) : (H.D1 (E1 H m) c).arrAt w cfg1.N = X6 H m c (Pipeline.arrRef spec1 w) :=
  (W6_arr H m c w).symm
theorem hrest1 (c : Dev nD) : ∀ b, b ∉ Finset.univ.image (Pipeline.arrRef spec1) → X6 H m c b = E1 H m c b :=
  fun b hb => W6_of_ne H m c b fun w e => hb (Finset.mem_image.mpr ⟨w, Finset.mem_univ _, e⟩)
/-- At the end: the result re-shaped. -/
abbrev W7 : Dev nD → Valuation τ sig (Elt F) := fun c => StableHlo.after hostOps2 (W6 H m c)

/-! ## The proof data family and the thread state -/

/-- Both pipelines' proof data, each at its grid's entry contents. -/
def pdats : (p : Fin 2) → (c : Dev nD) → Dat τ (Elt F) Unit ℕ (UR sig nD τ) ℕ (Pipeline.pin (pcfgs (F := F)) Gen.adm p) c
  | ⟨0, _⟩ => fun c => H.D0 (E0 m) c
  | ⟨1, _⟩ => fun c => H.D1 (E1 H m) c
abbrev 𝒱₀ : Variants := Variants.none
abbrev LL : GSem nD τ sig → Finset Unit := fun _ => ∅
abbrev lvv : GSem nD τ sig → Unit → ℕ := fun _ _ => 0
/-- What rides beside the buffers through every item: the generator register at some state, and the core owing nothing. -/
abbrev RR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ LL lvv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The grids as items -/

set_option backward.isDefEq.respectTransparency.types false in
/-- The first grid: entered from every long-lived buffer at W3, left at W4. -/
def reg0 : Pipeline.RegionSeg (pcfgs (F := F)) Gen.adm (pdats H m) () defs₀ 𝒱₀ LL lvv 0 where
  win := launch0.win.to₀
  block_pos := launch0.block_pos
  stage_whole := launch0.stage_whole
  K := PEmpty
  osem k := k.elim
  ho := Pipeline.OwnSemFacts.none _
  hbody c := (H.body0 (E0 m) c).loose
  hwaits := Pipeline.hwaits_of_owed_zero _ _ _ _ LL lvv 0 fun _ _ => rfl
  pre c := iprop(StableHlo.held (c : Thread nD τ) (Pipeline.ucRefs τ sig) (W3 m c) ∗ RR c)
  post c := iprop(StableHlo.held (c : Thread nD τ) (Pipeline.ucRefs τ sig) (W4 H m c) ∗ RR c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats H m) launch0.win launch0.arr_whole c
      ((pdats H m 0 c).share_full fun _ => rfl) (E0 m c) fun _ => rfl
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats H m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats H m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats H m) ((pdats H m 0 c).share_full fun _ => rfl)
      (E0 m c) (X4 H m c) ((pdats H m 0 c).arrAt · cfg0.N) (hF0 H m c) (hrest0 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second grid: entered from every long-lived buffer at W5, left at W6; its scratch invariant starts from and
    returns to the scoped buffers at anything. -/
def reg1 : Pipeline.RegionSeg (pcfgs (F := F)) Gen.adm (pdats H m) () defs₀ 𝒱₀ LL lvv 1 where
  win := launch1.win.to₀
  block_pos := launch1.block_pos
  stage_whole := launch1.stage_whole
  K := PEmpty
  osem k := k.elim
  ho := Pipeline.OwnSemFacts.none _
  hbody c := (H.body1 (E1 H m) c).loose
  hwaits := Pipeline.hwaits_of_owed_zero _ _ _ _ LL lvv 1 fun _ _ => rfl
  pre c := iprop(StableHlo.held (c : Thread nD τ) (Pipeline.ucRefs τ sig) (W5 H m c) ∗ RR c)
  post c := iprop(StableHlo.held (c : Thread nD τ) (Pipeline.ucRefs τ sig) (W6 H m c) ∗ RR c)
  X c := iprop(∃ r, prngReg c r)
  Y c := iprop(∃ r, prngReg c r)
  Z c := Pipeline.unscopedRest (Ix := Unit) (Name := ℕ) (U := UR sig nD τ) (Lvl := ℕ) spec1 c (E1 H m c)
  hentry c := by
    rw [Pipeline.ownSems0_none]
    have hsplit := Pipeline.arrays_of_unscopedBufs (p := 1) (pcfgs (F := F)) Gen.adm (pdats H m) launch1.win launch1.arr_whole c
      ((pdats H m 1 c).share_full fun _ => rfl) (E1 H m c) fun _ => rfl
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (H.hin1 (E1 H m) c)
    unfold Pipeline.ΦA
    iintro ⟨Hp, -, Hr⟩
    isplitl [Hr]; · iexact Hr
    iexact Hp
  hout c := by
    refine BIBase.Entails.trans (H.hout1 (E1 H m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats H m) ((pdats H m 1 c).share_full fun _ => rfl)
      (E1 H m c) (X6 H m c) ((pdats H m 1 c).arrAt · cfg1.N) (hF1 H m c) (hrest1 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

abbrev segs : List (Pipeline.Seg (pcfgs (F := F)) Gen.adm (pdats H m) () defs₀ 𝒱₀ LL lvv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 H m),
    .host (hseg hostOps1 hostOps1_sub hostOps1_fresh (W4 H m)),
    .region (reg1 H m),
    .host (hseg hostOps2 hostOps2_sub hostOps2_fresh (W6 H m)) ]

set_option backward.isDefEq.respectTransparency.types false in
/-- Every weakly fair execution of @main from memory m with zero counters terminates without a fault, and every
    long-lived TensorCore buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 H m c b) :=
  Pipeline.θ_run_regions_kit_dev (pcfgs (F := F)) Gen.adm (pdats H m) () cellOf_inj emb₁ defs₀ 𝒱₀ LL lvv m ρ main (fun _ => segs H m)
    (fun c Q => by
      rewrite [main_chain c, Seg.run_eq_chain,
        show (segs H m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ RR c))
    (Tₙ := fun c => iprop(StableHlo.held (c : Thread nD τ) (Pipeline.ucRefs τ sig) (W7 H m c) ∗ ∃ r, prngReg c r))
    (hch := fun c => ⟨.rfl, .rfl, .rfl, .rfl, .rfl, .rfl, .rfl, show (iprop(StableHlo.held (c : Thread nD τ) (Pipeline.ucRefs τ sig) (W7 H m c) ∗ RR c) : sProp 𝕄)
        ⊢ iprop(iprop(StableHlo.held (c : Thread nD τ) (Pipeline.ucRefs τ sig) (W7 H m c) ∗ ∃ r, prngReg c r) ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach LL lvv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 H m c b)
    (hfin := fun c s' => by
      iintro ⟨⟨Hh, -⟩, HSI⟩
      unfold StableHlo.held
      imodintro
      iapply (pointsTo_read_all (Pipeline.ucRefs τ sig) (fun b => (((c : Thread nD τ)).1, b)) (W7 H m c) s')
      isplitl [Hh] <;> iassumption)
    (hQ := fun s h c => h c)

end Cert.Kernel.Hand

end
-- ==== Proof.K.Frame.lean ====
/-
  What the run of the whole program says about the argument arrays and about the result.

  No host operation writes an argument array and no grid writes one back (ten of them are no array of either grid; the
  output bias is an INPUT array of the second grid, which leaves input arrays as it found them), so the last boundary's
  contents at an argument are the launch memory's: the frame claim. The result buffer is written by the last host
  operation only: it is the re-shaping of what the second grid leaves in its output array.
-/
import proofs.«150200_j79405355369062_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]
variable (H : Halves F) (m : (ℓ : Loc nD τ sig) → Buf (Elt F) ℓ) (ρ : Dev nD → PrngReg)

/-- A buffer that no host stretch writes and that is an array of neither grid holds its launch contents at the end. -/
theorem W7_kept (c : Dev nD) (b : Ref sig .tc) (h7 : b ∉ hostOps2_W) (h6 : ∀ w, Pipeline.arrRef spec1 w ≠ b) (h5 : b ∉ hostOps1_W)
    (h4 : ∀ w, Pipeline.arrRef spec0 w ≠ b) (h3 : b ∉ hostOps0_2_W) (h2 : b ∉ hostOps0_1_W) (h1 : b ∉ hostOps0_W) :
    W7 H m c (Proc.devRef .tc b) = m ((c : Thread nD τ).loc b) :=
  calc W7 H m c (Proc.devRef .tc b)
    _ = W6 H m c (Proc.devRef .tc b) := StableHlo.after_of_writes_sub hostOps2 _ hostOps2_writes h7
    _ = W5 H m c (Proc.devRef .tc b) := W6_of_ne H m c b h6
    _ = W4 H m c (Proc.devRef .tc b) := StableHlo.after_of_writes_sub hostOps1 _ hostOps1_writes h5
    _ = W3 m c (Proc.devRef .tc b) := W4_of_ne H m c b h4
    _ = Gen.V2 m c (Proc.devRef .tc b) := Gen.V3_of m c b h3
    _ = Gen.V1 m c (Proc.devRef .tc b) := Gen.V2_of m c b h2
    _ = Gen.V0 m c (Proc.devRef .tc b) := Gen.V1_of m c b h1
    _ = m ((c : Thread nD τ).loc b) := rfl

theorem W7_main_arg0 (c : Dev nD) : W7 H m c (Proc.devRef .tc main_arg0) = m ((c : Thread nD τ).loc main_arg0) :=
  W7_kept H m c main_arg0 (by decide) (by decide) (by decide) (by decide) (by decide) (by decide) (by decide)
theorem W7_main_arg1 (c : Dev nD) : W7 H m c (Proc.devRef .tc main_arg1) = m ((c : Thread nD τ).loc main_arg1) :=
  W7_kept H m c main_arg1 (by decide) (by decide) (by decide) (by decide) (by decide) (by decide) (by decide)
theorem W7_main_arg2 (c : Dev nD) : W7 H m c (Proc.devRef .tc main_arg2) = m ((c : Thread nD τ).loc main_arg2) :=
  W7_kept H m c main_arg2 (by decide) (by decide) (by decide) (by decide) (by decide) (by decide) (by decide)
theorem W7_main_arg3 (c : Dev nD) : W7 H m c (Proc.devRef .tc main_arg3) = m ((c : Thread nD τ).loc main_arg3) :=
  W7_kept H m c main_arg3 (by decide) (by decide) (by decide) (by decide) (by decide) (by decide) (by decide)
theorem W7_main_arg4 (c : Dev nD) : W7 H m c (Proc.devRef .tc main_arg4) = m ((c : Thread nD τ).loc main_arg4) :=
  W7_kept H m c main_arg4 (by decide) (by decide) (by decide) (by decide) (by decide) (by decide) (by decide)
theorem W7_main_arg5 (c : Dev nD) : W7 H m c (Proc.devRef .tc main_arg5) = m ((c : Thread nD τ).loc main_arg5) :=
  W7_kept H m c main_arg5 (by decide) (by decide) (by decide) (by decide) (by decide) (by decide) (by decide)
theorem W7_main_arg6 (c : Dev nD) : W7 H m c (Proc.devRef .tc main_arg6) = m ((c : Thread nD τ).loc main_arg6) :=
  W7_kept H m c main_arg6 (by decide) (by decide) (by decide) (by decide) (by decide) (by decide) (by decide)
theorem W7_main_arg7 (c : Dev nD) : W7 H m c (Proc.devRef .tc main_arg7) = m ((c : Thread nD τ).loc main_arg7) :=
  W7_kept H m c main_arg7 (by decide) (by decide) (by decide) (by decide) (by decide) (by decide) (by decide)
theorem W7_main_arg8 (c : Dev nD) : W7 H m c (Proc.devRef .tc main_arg8) = m ((c : Thread nD τ).loc main_arg8) :=
  W7_kept H m c main_arg8 (by decide) (by decide) (by decide) (by decide) (by decide) (by decide) (by decide)
theorem W7_main_arg9 (c : Dev nD) : W7 H m c (Proc.devRef .tc main_arg9) = m ((c : Thread nD τ).loc main_arg9) :=
  W7_kept H m c main_arg9 (by decide) (by decide) (by decide) (by decide) (by decide) (by decide) (by decide)
/-- The output bias is the second grid's sixth input window's array: the grid hands input arrays back as entered. -/
theorem W7_main_arg10 (c : Dev nD) : W7 H m c (Proc.devRef .tc main_arg10) = m ((c : Thread nD τ).loc main_arg10) :=
  calc W7 H m c (Proc.devRef .tc main_arg10)
    _ = W6 H m c (Proc.devRef .tc main_arg10) := StableHlo.after_of_writes_sub hostOps2 _ hostOps2_writes (by decide)
    _ = W5 H m c (Proc.devRef .tc main_arg10) := (W6_arr H m c 5).trans ((H.D1 (E1 H m) c).arrAt_in 5 rfl _)
    _ = W4 H m c (Proc.devRef .tc main_arg10) := StableHlo.after_of_writes_sub hostOps1 _ hostOps1_writes (by decide)
    _ = W3 m c (Proc.devRef .tc main_arg10) := W4_of_ne H m c main_arg10 (by decide)
    _ = Gen.V2 m c (Proc.devRef .tc main_arg10) := Gen.V3_of m c main_arg10 (by decide)
    _ = Gen.V1 m c (Proc.devRef .tc main_arg10) := Gen.V2_of m c main_arg10 (by decide)
    _ = Gen.V0 m c (Proc.devRef .tc main_arg10) := Gen.V1_of m c main_arg10 (by decide)
    _ = m ((c : Thread nD τ).loc main_arg10) := rfl

include H in
/-- The frame: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W7_main_arg0 H m c),
    (h c _ (mem_uc main_arg1 (by decide))).trans (W7_main_arg1 H m c),
    (h c _ (mem_uc main_arg2 (by decide))).trans (W7_main_arg2 H m c),
    (h c _ (mem_uc main_arg3 (by decide))).trans (W7_main_arg3 H m c),
    (h c _ (mem_uc main_arg4 (by decide))).trans (W7_main_arg4 H m c),
    (h c _ (mem_uc main_arg5 (by decide))).trans (W7_main_arg5 H m c),
    (h c _ (mem_uc main_arg6 (by decide))).trans (W7_main_arg6 H m c),
    (h c _ (mem_uc main_arg7 (by decide))).trans (W7_main_arg7 H m c),
    (h c _ (mem_uc main_arg8 (by decide))).trans (W7_main_arg8 H m c),
    (h c _ (mem_uc main_arg9 (by decide))).trans (W7_main_arg9 H m c),
    (h c _ (mem_uc main_arg10 (by decide))).trans (W7_main_arg10 H m c)⟩)
    (run_all H m ρ)

/-- The result buffer at the end: the last host operation's re-shaping of the second grid's output array. -/
theorem W7_result (c : Dev nD) :
    W7 H m c (Proc.devRef .tc main_v29)
      = shapeCast S4x512x64x64 ((H.D1 (E1 H m) c).arrAt 6 cfg1.N) shapeCasts_S4x512x4096_S4x512x64x64 := by
  have h : W7 H m c (Proc.devRef .tc main_v29) = shapeCast S4x512x64x64 (W6 H m c (Proc.devRef .tc main_v28)) shapeCasts_S4x512x4096_S4x512x64x64 := by
    show StableHlo.after hostOps2 (W6 H m c) (Proc.devRef .tc main_v29) = _
    after_results
    rfl
  rw [h, W6_arr H m c 6]

/-- The run with the result named. -/
theorem run_result : θ_run defs (onTc (τ := τ) (main (F := F))) ⟨m, fun _ => 0, ρ⟩ (fun r => ∀ c : Dev nD,
      r.2.mem ((c.tc : Thread nD τ).loc main_v29)
          = shapeCast S4x512x64x64 ((H.D1 (E1 H m) c).arrAt 6 cfg1.N) shapeCasts_S4x512x4096_S4x512x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v29 (by decide))).trans (W7_result H m c),
    (h c _ (mem_uc main_arg0 (by decide))).trans (W7_main_arg0 H m c),
    (h c _ (mem_uc main_arg1 (by decide))).trans (W7_main_arg1 H m c),
    (h c _ (mem_uc main_arg2 (by decide))).trans (W7_main_arg2 H m c),
    (h c _ (mem_uc main_arg3 (by decide))).trans (W7_main_arg3 H m c),
    (h c _ (mem_uc main_arg4 (by decide))).trans (W7_main_arg4 H m c),
    (h c _ (mem_uc main_arg5 (by decide))).trans (W7_main_arg5 H m c),
    (h c _ (mem_uc main_arg6 (by decide))).trans (W7_main_arg6 H m c),
    (h c _ (mem_uc main_arg7 (by decide))).trans (W7_main_arg7 H m c),
    (h c _ (mem_uc main_arg8 (by decide))).trans (W7_main_arg8 H m c),
    (h c _ (mem_uc main_arg9 (by decide))).trans (W7_main_arg9 H m c),
    (h c _ (mem_uc main_arg10 (by decide))).trans (W7_main_arg10 H m c)⟩)
    (run_all H m ρ)

end Cert.Kernel.Hand

end
-- ==== Proof.K.Halves.lean ====
/-
  The two grids' proof data handed to the assembly of the whole program's run.
-/
import proofs.«150200_j79405355369062_2_alg».proof.Proof.K.Reg0
import proofs.«150200_j79405355369062_2_alg».proof.Proof.K.Reg1
import proofs.«150200_j79405355369062_2_alg».proof.Proof.K.Frame

set_option maxRecDepth 16384

noncomputable section

namespace Cert.Kernel.Hand

open Cert.Kernel Cert.Kernel.Gen
open Idealize.ShloMosaic Idealize.ShloMosaic.TcCoe
open Idealize.SL Idealize.SL.BI Idealize.SL.Sem
open Idealize.ShloMosaic.Pipeline (Dat BodyObligation)

variable {F : FTy → Type} [FloatOps F]

/-- What the first grid's body leaves, what the second grid's body leaves and its scratch invariant, with the bodies'
    obligations: the two halves the assembly takes. -/
def halves : Halves F where
  after0 V c := (dat0 V c).after
  body0 V c := body_obligation0 V c
  after1 V c := (dat1 V c).after
  Φ1 V c := (dat1 V c).Φ
  body1 V c := body_obligation1 V c
  hin1 V c := hin1 V c
  hout1 V c := hout1 V c

/-- The assembly's proof data are the grids' own. -/
theorem halves_D0 (V : Conts F) (c : Dev nD) : (halves (F := F)).D0 V c = dat0 V c := rfl
theorem halves_D1 (V : Conts F) (c : Dev nD) : (halves (F := F)).D1 V c = dat1 V c := rfl

end Cert.Kernel.Hand

end
-- ==== Proof.KI.Glue.lean ====
/-
  The host operations before the first grid, read at an index.

  Before the first grid the program computes, per batch entry and group of 16 channels, the mean and the variance of the
  group's 16 · 64 · 64 entries (the variance through a guarded quotient whose guard, the count 65536 less a zero
  correction being positive, always holds), and from them a per-channel scale (one over the root of the variance plus
  epsilon, times the channel's weight) and a per-channel shift (the channel's bias less the mean times the scale); it
  re-lays the input as [4, 512, 4096], stacks the three projection weights one under another and transposes the stack,
  and lays the three projection biases end to end. Each of these is first named as a composition of whole-array
  functions of the argument arrays, which is what the fold of the operation list leaves in the buffer over any
  contents; then each composition is read at one index, where the mean and the variance come out as the
  specification's, sums from zero over the group divided by the word 65536.
-/
import proofs.«150200_j79405355369062_2_alg».proof.Proof.Gen.KernelIdeal.Regions
import proofs.«150200_j79405355369062_2_alg».proof.Proof.RefVal.Spec
import Idealize.ShloMosaic.Lib.StableHlo.Run
import Idealize.ShloMosaic.Lib.IdealHost
import Idealize.ShloMosaic.Lib.KernelVsHost
import Idealize.ShloMosaic.Lib.Pipeline.Value

set_option maxRecDepth 16384

noncomputable section

namespace Cert.KernelIdeal.Glue

open Cert.KernelIdeal Cert.KernelIdeal.Gen
open Idealize.ShloMosaic Idealize.ShloMosaic.TcCoe Idealize.ShloMosaic.ValueIdx
open Idealize.SL.Sem Idealize.ShloMosaic.StableHlo
open Cert.ReferenceIdeal.RefSpec (chan grp tokRow tokCol)
open scoped BigOperators

/-- The input viewed as 32 groups of 16 channels. -/
def view5 (x : FVec Ideal S4x512x64x64 .f32) : FVec Ideal S4x32x16x64x64 .f32 :=
  shapeCast S4x32x16x64x64 x shapeCasts_S4x512x64x64_S4x32x16x64x64

/-- The sum, from zero, over each group's entries. -/
def gsum (y : FVec Ideal S4x32x16x64x64 .f32) : FVec Ideal S4x32 .f32 :=
  Host.reduceAdd (F := Ideal) y (constant (F := Ideal) S_ .f32 0x00000000#32) reducesTo_S4x32x16x64x64_S4x32_d2_3_4 h_S_

/-- The group means: the sums over 65536. -/
def gmean (y : FVec Ideal S4x32x16x64x64 .f32) : FVec Ideal S4x32 .f32 :=
  Host.divf (F := Ideal) (gsum y) (broadcastInDim S4x32 ![] bcast_S_S4x32 (constant (F := Ideal) S_ .f32 0x47800000#32))

/-- The count the variance divides by: 65536 less the converted integer correction, a scalar. -/
def cnt (k : IVec S_ 32) : FVec Ideal S_ .f32 :=
  subf (constant (F := Ideal) S_ .f32 0x47800000#32) (sitofp (F := Ideal) .f32 k)

/-- The group means kept as [4, 32, 1, 1, 1]. -/
def mean5 (y : FVec Ideal S4x32x16x64x64 .f32) : FVec Ideal S4x32x1x1x1 .f32 :=
  Host.divf (F := Ideal) (broadcastInDim S4x32x1x1x1 ![0, 1] bcast_S4x32_S4x32x1x1x1_0_1 (gsum y))
    (broadcastInDim S4x32x1x1x1 ![] bcast_S_S4x32x1x1x1 (constant (F := Ideal) S_ .f32 0x47800000#32))

/-- The deviations from the group mean. -/
def dev (y : FVec Ideal S4x32x16x64x64 .f32) : FVec Ideal S4x32x16x64x64 .f32 :=
  subf y (broadcastInDim S4x32x16x64x64 ![0, 1, 2, 3, 4] bcast_S4x32x1x1x1_S4x32x16x64x64_0_1_2_3_4 (mean5 y))

/-- The variance function: the squared deviations summed over the group and divided by the count where the count is
    positive, the not-a-number word elsewhere. -/
def gvar (y : FVec Ideal S4x32x16x64x64 .f32) (k : IVec S_ 32) : FVec Ideal S4x32 .f32 :=
  select (broadcastInDim S4x32 ![] bcast_S_S4x32 (cmpf .ogt (cnt k) (constant (F := Ideal) S_ .f32 0x00000000#32)))
    (Host.divf (F := Ideal) (gsum (mulf (dev y) (dev y))) (broadcastInDim S4x32 ![] bcast_S_S4x32 (cnt k)))
    (broadcastInDim S4x32 ![] bcast_S_S4x32 (id (constant (F := Ideal) S_ .f32 0x7FC00000#32)))

/-- A per-group statistic repeated over the group's 16 channels, as [4, 512]. -/
def perChan (s : FVec Ideal S4x32 .f32) : FVec Ideal S4x512 .f32 :=
  shapeCast S4x512 (broadcastInDim S4x32x16 ![0, 1] bcast_S4x32_S4x32x16_0_1 s) shapeCasts_S4x32x16_S4x512

/-- One over the square root of the variance plus the epsilon word. -/
def invStd (v : FVec Ideal S4x32 .f32) : FVec Ideal S4x32 .f32 :=
  Host.rsqrt (F := Ideal) (addf v (broadcastInDim S4x32 ![] bcast_S_S4x32 (constant (F := Ideal) S_ .f32 0x358637BD#32)))

/-- A per-channel vector repeated over the batch entries, as [4, 512]. -/
def rowOf (γ : FVec Ideal S512 .f32) : FVec Ideal S4x512 .f32 :=
  broadcastInDim S4x512 ![0, 1] bcast_S1x512_S4x512_0_1 (broadcastInDim S1x512 ![1] bcast_S512_S1x512_1 γ)

/-- The per-channel scale: the inverse deviation times the weight. -/
def scale2 (v : FVec Ideal S4x32 .f32) (γ : FVec Ideal S512 .f32) : FVec Ideal S4x512 .f32 :=
  mulf (perChan (invStd v)) (rowOf γ)

/-- The per-channel shift: the bias less the mean times the scale. -/
def shift2 (μ v : FVec Ideal S4x32 .f32) (γ β : FVec Ideal S512 .f32) : FVec Ideal S4x512 .f32 :=
  subf (rowOf β) (mulf (perChan μ) (scale2 v γ))

/-- A [4, 512] array with a unit middle axis. -/
def keep1 (a : FVec Ideal S4x512 .f32) : FVec Ideal S4x1x512 .f32 :=
  broadcastInDim S4x1x512 ![0, 2] bcast_S4x512_S4x1x512_0_2 a

/-- The three weights laid one under another, transposed, read at the narrower type. -/
def wcat (wq wk wv : FVec Ideal S512x512 .f32) : FVec Ideal S512x1536 .bf16 :=
  truncf .bf16 (transpose S512x1536 [1, 0]
    (concatenate S1536x512 0 [⟨S512x512, wq⟩, ⟨S512x512, wk⟩, ⟨S512x512, wv⟩] concatenates_S512x512_S512x512_S512x512_S1536x512_d0)
    transposes_S1536x512_S512x1536_1_0) bitsLt_bf16_f32

/-- The three biases laid end to end. -/
def bcat (bq bk bv : FVec Ideal S512 .f32) : FVec Ideal S1536 .f32 :=
  concatenate S1536 0 [⟨S512, bq⟩, ⟨S512, bk⟩, ⟨S512, bv⟩] concatenates_S512_S512_S512_S1536_d0

/-! ## The compositions read at an index -/

/-- The word 0x47800000 is the real 65536. -/
theorem ofBits_65536 : Ideal.ofBits .f32 0x47800000#32 = ((65536 : ℝ) : EReal) := by
  simp [Ideal.ofBits, Ideal.ieee, -EReal.coe_mul]; norm_num

theorem ofBits_65536_pos : (0 : EReal) < Ideal.ofBits .f32 0x47800000#32 := by
  rw [ofBits_65536]; exact EReal.coe_pos.mpr (by norm_num)

/-- The source indices that drop to (b, g) are the group's 16 · 64 · 64 entries: the sum over them is the triple sum. -/
theorem sum_filter_drop (h : S4x32x16x64x64.ReducesTo [2, 3, 4] S4x32) (y : S4x32x16x64x64.Idx → EReal) (b : Fin 4) (g : Fin 32) :
    ∑ i ∈ Finset.univ.filter (fun i => h.drop i = ix2 b g), y i
      = ∑ c : Fin 16, ∑ r : Fin 64, ∑ s : Fin 64, y (ix5 b g c r s) := by
  have e : ∑ c : Fin 16, ∑ r : Fin 64, ∑ s : Fin 64, y (ix5 b g c r s)
      = ∑ p : Fin 16 × Fin 64 × Fin 64, y (ix5 b g p.1 p.2.1 p.2.2) := by
    simp only [Fintype.sum_prod_type]
  rw [e]
  have hd0 : ∀ i : S4x32x16x64x64.Idx, ((h.drop i 0 : Fin 4) : Nat) = (i 0 : Fin 4) := fun i =>
    Shape.ReducesTo.drop_apply_val_of_eq h i 0 0
  have hd1 : ∀ i : S4x32x16x64x64.Idx, ((h.drop i 1 : Fin 32) : Nat) = (i 1 : Fin 32) := fun i =>
    Shape.ReducesTo.drop_apply_val_of_eq h i 1 1
  refine Finset.sum_bij' (fun i _ => ((i 2 : Fin 16), (i 3 : Fin 64), (i 4 : Fin 64)))
    (fun p _ => ix5 b g p.1 p.2.1 p.2.2) (fun _ _ => Finset.mem_univ _) ?_ ?_ ?_ ?_
  · intro p _
    refine Finset.mem_filter.2 ⟨Finset.mem_univ _, ?_⟩
    funext a
    match a with
    | ⟨0, _⟩ => exact Fin.ext (hd0 _)
    | ⟨1, _⟩ => exact Fin.ext (hd1 _)
  · intro i hi
    have hj := (Finset.mem_filter.1 hi).2
    have h0 : (i 0 : Fin 4) = b := Fin.ext ((hd0 i).symm.trans (congrArg (fun j : S4x32.Idx => ((j 0 : Fin 4) : Nat)) hj))
    have h1 : (i 1 : Fin 32) = g := Fin.ext ((hd1 i).symm.trans (congrArg (fun j : S4x32.Idx => ((j 1 : Fin 32) : Nat)) hj))
    rw [← h0, ← h1]
    exact (eq_ix5 i).symm
  · intro p _
    rfl
  · intro i hi
    have hj := (Finset.mem_filter.1 hi).2
    have h0 : (i 0 : Fin 4) = b := Fin.ext ((hd0 i).symm.trans (congrArg (fun j : S4x32.Idx => ((j 0 : Fin 4) : Nat)) hj))
    have h1 : (i 1 : Fin 32) = g := Fin.ext ((hd1 i).symm.trans (congrArg (fun j : S4x32.Idx => ((j 1 : Fin 32) : Nat)) hj))
    rw [← h0, ← h1]
    exact congrArg y (eq_ix5 i)

/-- The five-axis view at (b, g, c, r, s) is the input at channel 16 g + c. -/
theorem view5_apply (x : FVec Ideal S4x512x64x64 .f32) (b : Fin 4) (g : Fin 32) (c : Fin 16) (r s : Fin 64) :
    view5 x (ix5 b g c r s) = x (ix4 b (chan g c) r s) := by
  unfold view5
  refine shapeCast_apply x _ _ _ ?_
  rw [Shape.rowMajor_val_four, Shape.rowMajor_val_five]
  show (((b.val * 512 + (16 * g.val + c.val)) * 64 + r.val) * 64 + s.val)
      = ((((b.val * 32 + g.val) * 16 + c.val) * 64 + r.val) * 64 + s.val)
  omega

/-- A group's sum at (b, g): zero plus the triple sum over the group. -/
theorem gsum_apply (y : FVec Ideal S4x32x16x64x64 .f32) (b : Fin 4) (g : Fin 32) :
    gsum y (ix2 b g) = 0 + ∑ c : Fin 16, ∑ r : Fin 64, ∑ s : Fin 64, y (ix5 b g c r s) := by
  unfold gsum
  rw [hostReduceAdd_apply]
  unfold Ideal.hostReduceAdd
  rw [sum_filter_drop, constant_apply, Ideal.ofBits_zero_f32]

/-- The group mean at (b, g) is the specification's. -/
theorem gmean_apply (x : FVec Ideal S4x512x64x64 .f32) (b : Fin 4) (g : Fin 32) :
    gmean (view5 x) (ix2 b g) = Cert.ReferenceIdeal.RefSpec.mean x b g := by
  unfold gmean Cert.ReferenceIdeal.RefSpec.mean
  rw [hostDivf_apply, gsum_apply, broadcastInDim_scalar_apply, constant_apply]
  simp only [view5_apply]

/-- A [4, 32] array kept as [4, 32, 1, 1, 1] reads the same entry. -/
theorem keep5_apply (a : FVec Ideal S4x32 .f32) (b : Fin 4) (g : Fin 32) (u0 u1 u2 : Fin 1) :
    broadcastInDim S4x32x1x1x1 ![0, 1] bcast_S4x32_S4x32x1x1x1_0_1 a (ix5 b g u0 u1 u2) = a (ix2 b g) :=
  broadcastInDim_apply _ _ a _ (ix2 b g) fun d => match d with | ⟨0, _⟩ => rfl | ⟨1, _⟩ => rfl

/-- A per-group statistic spread over the group reads the group's entry. -/
theorem spread_apply (a : FVec Ideal S4x32x1x1x1 .f32) (b : Fin 4) (g : Fin 32) (c : Fin 16) (r s : Fin 64) :
    broadcastInDim S4x32x16x64x64 ![0, 1, 2, 3, 4] bcast_S4x32x1x1x1_S4x32x16x64x64_0_1_2_3_4 a (ix5 b g c r s) = a (ix5 b g 0 0 0) :=
  broadcastInDim_apply _ _ a _ (ix5 b g 0 0 0) fun d => match d with
    | ⟨0, _⟩ => rfl | ⟨1, _⟩ => rfl | ⟨2, _⟩ => rfl | ⟨3, _⟩ => rfl | ⟨4, _⟩ => rfl

/-- The kept mean at (b, g, 0, 0, 0) is the specification's mean. -/
theorem mean5_apply (x : FVec Ideal S4x512x64x64 .f32) (b : Fin 4) (g : Fin 32) :
    mean5 (view5 x) (ix5 b g 0 0 0) = Cert.ReferenceIdeal.RefSpec.mean x b g := by
  unfold mean5 Cert.ReferenceIdeal.RefSpec.mean
  rw [hostDivf_apply, keep5_apply, gsum_apply, broadcastInDim_scalar_apply, constant_apply]
  simp only [view5_apply]

/-- The deviation at an entry: the input less its group's mean. -/
theorem dev_apply (x : FVec Ideal S4x512x64x64 .f32) (b : Fin 4) (g : Fin 32) (c : Fin 16) (r s : Fin 64) :
    dev (view5 x) (ix5 b g c r s) = x (ix4 b (chan g c) r s) - Cert.ReferenceIdeal.RefSpec.mean x b g := by
  unfold dev
  rw [subf_apply, spread_apply, mean5_apply, view5_apply]

/-- The count with a zero correction is the word 65536. -/
theorem cnt_zero : cnt (constantI S_ 32 0#32) ix0 = Ideal.ofBits .f32 0x47800000#32 := by
  unfold cnt
  rw [subf_apply, constant_apply, sitofp_apply]
  show Ideal.ofBits .f32 0x47800000#32 - (Scalar.sitofp .f32 0#32 : Ideal .f32) = _
  rw [sitofp_zero, sub_zero]

/-- The count is positive, so the guard holds. -/
theorem guard_one : FloatOps.cmpf (F := Ideal) (φ := .f32) .ogt (Ideal.ofBits .f32 0x47800000#32) (0 : EReal) = 1#1 := by
  rw [Ideal.cmpf_def]
  unfold Ideal.cmp
  simp [ofBits_65536_pos]

/-- The variance at (b, g) is the specification's: the guard holds, so the guarded quotient is the quotient. -/
theorem gvar_apply (x : FVec Ideal S4x512x64x64 .f32) (b : Fin 4) (g : Fin 32) :
    gvar (view5 x) (constantI S_ 32 0#32) (ix2 b g) = Cert.ReferenceIdeal.RefSpec.var x b g := by
  unfold gvar Cert.ReferenceIdeal.RefSpec.var
  rw [select_apply, broadcastInDim_scalar_apply, cmpf_apply, cnt_zero, constant_apply, Ideal.ofBits_zero_f32, guard_one, select_one,
    hostDivf_apply, gsum_apply, broadcastInDim_scalar_apply, cnt_zero]
  simp only [mulf_apply, dev_apply]

/-- A per-group statistic repeated over the channels reads the channel's group. -/
theorem perChan_apply (a : FVec Ideal S4x32 .f32) (b : Fin 4) (ch : Fin 512) :
    perChan a (ix2 b ch) = a (ix2 b (grp ch)) := by
  unfold perChan
  refine (shapeCast_apply _ _ _ (ix3 b (grp ch) (⟨ch.val % 16, by omega⟩ : Fin 16)) ?_).trans ?_
  · rw [Shape.rowMajor_val_three, Shape.rowMajor_val_two]
    show ((b.val * 32 + ch.val / 16) * 16 + ch.val % 16) = b.val * 512 + ch.val
    omega
  · exact broadcastInDim_apply _ _ a _ (ix2 b (grp ch)) fun d => match d with | ⟨0, _⟩ => rfl | ⟨1, _⟩ => rfl

/-- A per-channel vector repeated over the batch entries reads the channel's entry. -/
theorem rowOf_apply (γ : FVec Ideal S512 .f32) (b : Fin 4) (ch : Fin 512) : rowOf γ (ix2 b ch) = γ (ix1 ch) := by
  unfold rowOf
  refine (broadcastInDim_apply _ _ _ _ (ix2 (0 : Fin 1) ch) fun d => match d with | ⟨0, _⟩ => rfl | ⟨1, _⟩ => rfl).trans ?_
  exact broadcastInDim_apply _ _ γ _ (ix1 ch) fun d => match d with | ⟨0, _⟩ => rfl

/-- The unit middle axis is read through. -/
theorem keep1_apply (a : FVec Ideal S4x512 .f32) (b : Fin 4) (u : Fin 1) (ch : Fin 512) : keep1 a (ix3 b u ch) = a (ix2 b ch) :=
  broadcastInDim_apply _ _ a _ (ix2 b ch) fun d => match d with | ⟨0, _⟩ => rfl | ⟨1, _⟩ => rfl

theorem invStd_apply (v : FVec Ideal S4x32 .f32) (j : S4x32.Idx) :
    invStd v j = Ideal.rsqrt (v j + Ideal.ofBits .f32 0x358637BD#32) := by
  unfold invStd
  show Ideal.rsqrt (addf v _ j) = _
  rw [addf_apply, broadcastInDim_scalar_apply, constant_apply]

theorem scale2_apply (v : FVec Ideal S4x32 .f32) (γ : FVec Ideal S512 .f32) (b : Fin 4) (ch : Fin 512) :
    scale2 v γ (ix2 b ch) = Ideal.rsqrt (v (ix2 b (grp ch)) + Ideal.ofBits .f32 0x358637BD#32) * γ (ix1 ch) := by
  unfold scale2
  rw [mulf_apply, perChan_apply, invStd_apply, rowOf_apply]

theorem shift2_apply (μ v : FVec Ideal S4x32 .f32) (γ β : FVec Ideal S512 .f32) (b : Fin 4) (ch : Fin 512) :
    shift2 μ v γ β (ix2 b ch)
      = β (ix1 ch) - μ (ix2 b (grp ch)) * (Ideal.rsqrt (v (ix2 b (grp ch)) + Ideal.ofBits .f32 0x358637BD#32) * γ (ix1 ch)) := by
  unfold shift2
  rw [subf_apply, rowOf_apply, mulf_apply, perChan_apply, scale2_apply]

/-- The input as [4, 512, 4096]: token n is row n / 64, column n % 64. -/
theorem x3_apply (x : FVec Ideal S4x512x64x64 .f32) (b : Fin 4) (ch : Fin 512) (n : Fin 4096) :
    shapeCast S4x512x4096 x shapeCasts_S4x512x64x64_S4x512x4096 (ix3 b ch n) = x (ix4 b ch (tokRow n) (tokCol n)) := by
  refine shapeCast_apply x _ _ _ ?_
  rw [Shape.rowMajor_val_four, Shape.rowMajor_val_three]
  show (((b.val * 512 + ch.val) * 64 + n.val / 64) * 64 + n.val % 64) = ((b.val * 512 + ch.val) * 4096 + n.val)
  omega

/-- Row j of the three matrices laid one under another: the first's rows, then the second's, then the third's. -/
def stacked (a b c : FVec Ideal S512x512 .f32) (j : Fin 1536) (k : Fin 512) : EReal :=
  if h : j.val < 512 then a (ix2 ⟨j.val, h⟩ k)
  else if h' : j.val < 1024 then b (ix2 ⟨j.val - 512, by omega⟩ k)
  else c (ix2 ⟨j.val - 1024, by omega⟩ k)

/-- Entry j of the three vectors laid end to end. -/
def stacked1 (a b c : FVec Ideal S512 .f32) (j : Fin 1536) : EReal :=
  if h : j.val < 512 then a (ix1 ⟨j.val, h⟩)
  else if h' : j.val < 1024 then b (ix1 ⟨j.val - 512, by omega⟩)
  else c (ix1 ⟨j.val - 1024, by omega⟩)

/-- Three square matrices laid one under another, read at row j, column k. -/
theorem cat3_apply (a b c : FVec Ideal S512x512 .f32) (j : Fin 1536) (k : Fin 512) :
    concatenate S1536x512 0 [⟨S512x512, a⟩, ⟨S512x512, b⟩, ⟨S512x512, c⟩] concatenates_S512x512_S512x512_S512x512_S1536x512_d0 (ix2 j k)
      = stacked a b c j k := by
  unfold stacked
  by_cases h : j.val < 512
  · rw [dif_pos h]
    exact concatenate_apply_piece (t := S1536x512) (a := 0) (xs := [⟨S512x512, a⟩, ⟨S512x512, b⟩, ⟨S512x512, c⟩])
      (h := concatenates_S512x512_S512x512_S512x512_S1536x512_d0) (j := ix2 j k)
      0 (by show (0 : ℕ) < 3; omega) S512x512 a rfl rfl 0 rfl (ix2 ⟨j.val, h⟩ k)
      (fun d hd => match d, hd with | ⟨0, _⟩, hd => absurd (Fin.ext rfl) hd | ⟨1, _⟩, _ => rfl)
      (by show 0 + j.val = j.val; omega)
  · rw [dif_neg h]
    by_cases h' : j.val < 1024
    · rw [dif_pos h']
      exact concatenate_apply_piece (t := S1536x512) (a := 0) (xs := [⟨S512x512, a⟩, ⟨S512x512, b⟩, ⟨S512x512, c⟩])
        (h := concatenates_S512x512_S512x512_S512x512_S1536x512_d0) (j := ix2 j k)
        1 (by show (1 : ℕ) < 3; omega) S512x512 b rfl rfl 512 rfl (ix2 ⟨j.val - 512, by omega⟩ k)
        (fun d hd => match d, hd with | ⟨0, _⟩, hd => absurd (Fin.ext rfl) hd | ⟨1, _⟩, _ => rfl)
        (by show 512 + (j.val - 512) = j.val; omega)
    · rw [dif_neg h']
      exact concatenate_apply_piece (t := S1536x512) (a := 0) (xs := [⟨S512x512, a⟩, ⟨S512x512, b⟩, ⟨S512x512, c⟩])
        (h := concatenates_S512x512_S512x512_S512x512_S1536x512_d0) (j := ix2 j k)
        2 (by show (2 : ℕ) < 3; omega) S512x512 c rfl rfl 1024 rfl (ix2 ⟨j.val - 1024, by omega⟩ k)
        (fun d hd => match d, hd with | ⟨0, _⟩, hd => absurd (Fin.ext rfl) hd | ⟨1, _⟩, _ => rfl)
        (by show 1024 + (j.val - 1024) = j.val; omega)

/-- The stacked, transposed weight at (k, j) is row j, column k of the stack. -/
theorem wcat_apply (wq wk wv : FVec Ideal S512x512 .f32) (k : Fin 512) (j : Fin 1536) :
    wcat wq wk wv (ix2 k j) = stacked wq wk wv j k := by
  unfold wcat
  rw [truncf_apply]
  refine (transpose_apply _ _ _ _ (ix2 j k) fun d => match d with | ⟨0, _⟩ => rfl | ⟨1, _⟩ => rfl).trans ?_
  exact cat3_apply wq wk wv j k

/-- The stacked bias at j. -/
theorem bcat_apply (bq bk bv : FVec Ideal S512 .f32) (j : Fin 1536) :
    bcat bq bk bv (ix1 j) = stacked1 bq bk bv j := by
  unfold bcat stacked1
  by_cases h : j.val < 512
  · rw [dif_pos h]
    exact concatenate_apply_piece (t := S1536) (a := 0) (xs := [⟨S512, bq⟩, ⟨S512, bk⟩, ⟨S512, bv⟩])
      (h := concatenates_S512_S512_S512_S1536_d0) (j := ix1 j)
      0 (by show (0 : ℕ) < 3; omega) S512 bq rfl rfl 0 rfl (ix1 ⟨j.val, h⟩)
      (fun d hd => match d, hd with | ⟨0, _⟩, hd => absurd (Fin.ext rfl) hd)
      (by show 0 + j.val = j.val; omega)
  · rw [dif_neg h]
    by_cases h' : j.val < 1024
    · rw [dif_pos h']
      exact concatenate_apply_piece (t := S1536) (a := 0) (xs := [⟨S512, bq⟩, ⟨S512, bk⟩, ⟨S512, bv⟩])
        (h := concatenates_S512_S512_S512_S1536_d0) (j := ix1 j)
        1 (by show (1 : ℕ) < 3; omega) S512 bk rfl rfl 512 rfl (ix1 ⟨j.val - 512, by omega⟩)
        (fun d hd => match d, hd with | ⟨0, _⟩, hd => absurd (Fin.ext rfl) hd)
        (by show 512 + (j.val - 512) = j.val; omega)
    · rw [dif_neg h']
      exact concatenate_apply_piece (t := S1536) (a := 0) (xs := [⟨S512, bq⟩, ⟨S512, bk⟩, ⟨S512, bv⟩])
        (h := concatenates_S512_S512_S512_S1536_d0) (j := ix1 j)
        2 (by show (2 : ℕ) < 3; omega) S512 bv rfl rfl 1024 rfl (ix1 ⟨j.val - 1024, by omega⟩)
        (fun d hd => match d, hd with | ⟨0, _⟩, hd => absurd (Fin.ext rfl) hd)
        (by show 1024 + (j.val - 1024) = j.val; omega)

/-! ## Each stretch of host operations as a composition over any contents -/

theorem after0_v0 (V : Valuation τ sig (Elt Ideal)) :
    after hostOps0 V (Proc.devRef .tc main_v0) = view5 (V (Proc.devRef .tc main_arg0)) := by
  after_results_simp
  rfl

theorem after0_v3 (V : Valuation τ sig (Elt Ideal)) :
    after hostOps0 V (Proc.devRef .tc main_v3) = gmean (view5 (V (Proc.devRef .tc main_arg0))) := by
  after_results_simp
  rfl

theorem after0_c (V : Valuation τ sig (Elt Ideal)) :
    after hostOps0 V (Proc.devRef .tc main_c) = constantI S_ 32 0#32 := by
  after_results_simp

theorem after01_v4 (V : Valuation τ sig (Elt Ideal)) :
    after hostOps0_1 V (Proc.devRef .tc main_v4) = gvar (V (Proc.devRef .tc main_v0)) (V (Proc.devRef .tc main_c)) := by
  after_results_simp
  rfl

theorem after02_v19 (V : Valuation τ sig (Elt Ideal)) :
    after hostOps0_2 V (Proc.devRef .tc main_v19) = keep1 (scale2 (V (Proc.devRef .tc main_v4)) (V (Proc.devRef .tc main_arg1))) := by
  after_results_simp
  rfl

theorem after02_v20 (V : Valuation τ sig (Elt Ideal)) :
    after hostOps0_2 V (Proc.devRef .tc main_v20)
      = keep1 (shift2 (V (Proc.devRef .tc main_v3)) (V (Proc.devRef .tc main_v4)) (V (Proc.devRef .tc main_arg1)) (V (Proc.devRef .tc main_arg2))) := by
  after_results_simp
  rfl

theorem after02_v21 (V : Valuation τ sig (Elt Ideal)) :
    after hostOps0_2 V (Proc.devRef .tc main_v21)
      = shapeCast S4x512x4096 (V (Proc.devRef .tc main_arg0)) shapeCasts_S4x512x64x64_S4x512x4096 := by
  after_results_simp
  rfl

theorem after02_v24 (V : Valuation τ sig (Elt Ideal)) :
    after hostOps0_2 V (Proc.devRef .tc main_v24)
      = wcat (V (Proc.devRef .tc main_arg3)) (V (Proc.devRef .tc main_arg5)) (V (Proc.devRef .tc main_arg7)) := by
  after_results_simp
  rfl

theorem after02_v25 (V : Valuation τ sig (Elt Ideal)) :
    after hostOps0_2 V (Proc.devRef .tc main_v25)
      = bcat (V (Proc.devRef .tc main_arg4)) (V (Proc.devRef .tc main_arg6)) (V (Proc.devRef .tc main_arg8)) := by
  after_results_simp
  rfl

/-- The output weight rounded to the narrower type reads the weight. -/
theorem after1_v27 (U : Valuation τ sig (Elt Ideal)) :
    (after hostOps1 U (Proc.devRef .tc main_v27) : FVec Ideal S512x512 .bf16)
      = fun i => (U (Proc.devRef .tc main_arg9) : FVec Ideal S512x512 .f32) i := by
  after_results_simp
  rfl

/-! ## The contents when the first grid is entered, over the launch memory -/

variable (m : (ℓ : Loc nD τ sig) → Buf (Elt Ideal) ℓ) (c : Dev nD)

/-- The launch memory's argument arrays. -/
abbrev argX : FVec Ideal S4x512x64x64 .f32 := m ((c : Thread nD τ).loc main_arg0)
abbrev argG : FVec Ideal S512 .f32 := m ((c : Thread nD τ).loc main_arg1)
abbrev argB : FVec Ideal S512 .f32 := m ((c : Thread nD τ).loc main_arg2)
abbrev argWq : FVec Ideal S512x512 .f32 := m ((c : Thread nD τ).loc main_arg3)
abbrev argBq : FVec Ideal S512 .f32 := m ((c : Thread nD τ).loc main_arg4)
abbrev argWk : FVec Ideal S512x512 .f32 := m ((c : Thread nD τ).loc main_arg5)
abbrev argBk : FVec Ideal S512 .f32 := m ((c : Thread nD τ).loc main_arg6)
abbrev argWv : FVec Ideal S512x512 .f32 := m ((c : Thread nD τ).loc main_arg7)
abbrev argBv : FVec Ideal S512 .f32 := m ((c : Thread nD τ).loc main_arg8)

/-- A buffer none of the first stretch's operations writes holds its launch contents after it. -/
theorem V1_kept (b : Ref sig .tc) (h1 : b ∉ hostOps0_W) :
    Gen.V1 m c (Proc.devRef .tc b) = m ((c : Thread nD τ).loc b) :=
  (Gen.V1_of m c b h1).trans rfl
theorem V2_kept (b : Ref sig .tc) (h2 : b ∉ hostOps0_1_W) (h1 : b ∉ hostOps0_W) :
    Gen.V2 m c (Proc.devRef .tc b) = m ((c : Thread nD τ).loc b) :=
  (Gen.V2_of m c b h2).trans (V1_kept m c b h1)

theorem V1_v0 : Gen.V1 m c (Proc.devRef .tc main_v0) = view5 (argX m c) := after0_v0 (Gen.V0 m c)
theorem V1_v3 : Gen.V1 m c (Proc.devRef .tc main_v3) = gmean (view5 (argX m c)) := after0_v3 (Gen.V0 m c)
theorem V1_c : Gen.V1 m c (Proc.devRef .tc main_c) = constantI S_ 32 0#32 := after0_c (Gen.V0 m c)

theorem V2_v3 : Gen.V2 m c (Proc.devRef .tc main_v3) = gmean (view5 (argX m c)) :=
  (Gen.V2_of m c main_v3 (by decide)).trans (V1_v3 m c)
theorem V2_v4 : Gen.V2 m c (Proc.devRef .tc main_v4) = gvar (view5 (argX m c)) (constantI S_ 32 0#32) := by
  refine (after01_v4 (Gen.V1 m c)).trans ?_
  rw [V1_v0, V1_c]

/-- The input re-laid as [4, 512, 4096]: token n of channel ch is the image entry (n / 64, n % 64). -/
theorem glue_x3 : (Gen.V3 m c (Proc.devRef .tc main_v21) : FVec Ideal S4x512x4096 .f32)
    = fun i => argX m c (ix4 (i 0) (i 1) (tokRow (i 2)) (tokCol (i 2))) := by
  refine (after02_v21 (Gen.V2 m c)).trans ?_
  rw [V2_kept m c main_arg0 (by decide) (by decide)]
  funext i
  obtain ⟨b, ch, n, rfl⟩ : ∃ (b : Fin 4) (ch : Fin 512) (n : Fin 4096), i = ix3 b ch n := ⟨i 0, i 1, i 2, eq_ix3 i⟩
  exact x3_apply _ b ch n

/-- The per-channel scale: one over the root of the group's variance plus epsilon, times the channel's weight. -/
theorem glue_scale : (Gen.V3 m c (Proc.devRef .tc main_v19) : FVec Ideal S4x1x512 .f32)
    = fun i => Ideal.rsqrt (Cert.ReferenceIdeal.RefSpec.var (argX m c) (i 0) (grp (i 2)) + Ideal.ofBits .f32 0x358637BD#32)
        * argG m c (ix1 (i 2)) := by
  refine (after02_v19 (Gen.V2 m c)).trans ?_
  rw [V2_v4, V2_kept m c main_arg1 (by decide) (by decide)]
  funext i
  obtain ⟨b, u, ch, rfl⟩ : ∃ (b : Fin 4) (u : Fin 1) (ch : Fin 512), i = ix3 b u ch := ⟨i 0, i 1, i 2, eq_ix3 i⟩
  show keep1 _ (ix3 b u ch) = Ideal.rsqrt (Cert.ReferenceIdeal.RefSpec.var (argX m c) b (grp ch) + Ideal.ofBits .f32 0x358637BD#32)
        * argG m c (ix1 ch)
  rw [keep1_apply, scale2_apply, gvar_apply]

/-- The per-channel shift: the channel's bias less the group's mean times the scale. -/
theorem glue_shift : (Gen.V3 m c (Proc.devRef .tc main_v20) : FVec Ideal S4x1x512 .f32)
    = fun i => argB m c (ix1 (i 2)) - Cert.ReferenceIdeal.RefSpec.mean (argX m c) (i 0) (grp (i 2))
        * (Ideal.rsqrt (Cert.ReferenceIdeal.RefSpec.var (argX m c) (i 0) (grp (i 2)) + Ideal.ofBits .f32 0x358637BD#32)
            * argG m c (ix1 (i 2))) := by
  refine (after02_v20 (Gen.V2 m c)).trans ?_
  rw [V2_v3, V2_v4, V2_kept m c main_arg1 (by decide) (by decide), V2_kept m c main_arg2 (by decide) (by decide)]
  funext i
  obtain ⟨b, u, ch, rfl⟩ : ∃ (b : Fin 4) (u : Fin 1) (ch : Fin 512), i = ix3 b u ch := ⟨i 0, i 1, i 2, eq_ix3 i⟩
  show keep1 _ (ix3 b u ch) = argB m c (ix1 ch) - Cert.ReferenceIdeal.RefSpec.mean (argX m c) b (grp ch)
        * (Ideal.rsqrt (Cert.ReferenceIdeal.RefSpec.var (argX m c) b (grp ch) + Ideal.ofBits .f32 0x358637BD#32) * argG m c (ix1 ch))
  rw [keep1_apply, shift2_apply, gvar_apply, gmean_apply]

/-- The fused weight: column j of row k is row j, column k of the three weights stacked. -/
theorem glue_W : (Gen.V3 m c (Proc.devRef .tc main_v24) : FVec Ideal S512x1536 .bf16)
    = fun i => stacked (argWq m c) (argWk m c) (argWv m c) (i 1) (i 0) := by
  refine (after02_v24 (Gen.V2 m c)).trans ?_
  rw [V2_kept m c main_arg3 (by decide) (by decide), V2_kept m c main_arg5 (by decide) (by decide),
    V2_kept m c main_arg7 (by decide) (by decide)]
  funext i
  obtain ⟨k, j, rfl⟩ : ∃ (k : Fin 512) (j : Fin 1536), i = ix2 k j := ⟨i 0, i 1, eq_ix2 i⟩
  exact wcat_apply _ _ _ k j

/-- The fused bias: the three biases end to end. -/
theorem glue_bias : (Gen.V3 m c (Proc.devRef .tc main_v25) : FVec Ideal S1536 .f32)
    = fun i => stacked1 (argBq m c) (argBk m c) (argBv m c) (i 0) := by
  refine (after02_v25 (Gen.V2 m c)).trans ?_
  rw [V2_kept m c main_arg4 (by decide) (by decide), V2_kept m c main_arg6 (by decide) (by decide),
    V2_kept m c main_arg8 (by decide) (by decide)]
  funext i
  obtain ⟨j, rfl⟩ : ∃ (j : Fin 1536), i = ix1 j := ⟨i 0, eq_ix1 i⟩
  exact bcat_apply _ _ _ j

end Cert.KernelIdeal.Glue
end
-- ==== Proof.KI.Reg0.lean ====
import proofs.«150200_j79405355369062_2_alg».proof.Proof.Gen.KernelIdeal.Launch
import proofs.«150200_j79405355369062_2_alg».proof.Proof.Gen.KernelIdeal.Skeleton
import proofs.«150200_j79405355369062_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection kernel's half of the frame

The first pallas_call of the attention block computes, per batch entry and per tile of 1024 positions, the
normalised activations `x * scale + shift` (channel-wise), multiplies them by the fused projection matrix
`[512, 1536]`, adds the fused bias and splits the 1536 output columns into the three blocks of 512 columns that
are the query, key and value tiles. Its grid is 4 × 4; it reads five windows (the activation tile, the two
per-batch normalisation rows, the whole weight matrix, the whole bias) and writes three (the q, k, v tiles), each
output tile stored once, whole, at every grid point.

Everything here is stated at a PARAMETER `V`: the TensorCore's buffer contents when the call is entered. -/

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered: the parameter this half is stated at
variable (V : (c : Dev nD) → (b : Ref sig .tc) → Buf (Elt F) ((c : Thread nD τ).loc b))

/-! ## The windows' blocks -/

/-- Window `w`'s block at grid point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: at a point where the window is not
    fetched its block index has not moved since the last fetch, so the buffer still holds the same block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: at a point where the window is not
    fetched its block index has not moved since the last fetch, so the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: at a point where the window is not
    fetched its block index has not moved since the last fetch, so the buffer still holds the same block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: at a point where the window is not
    fetched its block index has not moved since the last fetch, so the buffer still holds the same block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: at a point where the window is not
    fetched its block index has not moved since the last fetch, so the buffer still holds the same block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

abbrev r0_rI0 : Rect S1x512x1024 := Rect.unit (s := S1x512x1024) ![0, 0, 0] S1x512x1024.size inb_S1x512x1024_S1x512x1024_0_0_0
abbrev r0_rI1 : Rect S1x1x512 := Rect.unit (s := S1x1x512) ![0, 0, 0] S1x1x512.size inb_S1x1x512_S1x1x512_0_0_0
abbrev r0_rI3 : Rect S512x1536 := Rect.unit (s := S512x1536) ![0, 0] S512x1536.size inb_S512x1536_S512x1536_0_0
abbrev r0_rI4 : Rect S1536 := Rect.unit (s := S1536) ![0] S1536.size inb_S1536_S1536_0
abbrev r0_O : Rect S1x1024x512 := Rect.unit (s := S1x1024x512) ![0, 0, 0] S1x1024x512.size inb_S1x1024x512_S1x1024x512_0_0_0

/-! ## What the body leaves in each output window's buffer

Each output buffer receives one store, of the whole buffer: the slice of 512 columns (at offset 0, 512, 1024) of the
projected tile, as the skeleton's payloads name it over the five loaded values. -/

/-- Window 5's staging buffer after the body, from the input windows' blocks: its one store as a piece. -/
def out0_5 (x0 : Vec F S1x512x1024 .f32) (x1 : Vec F S1x1x512 .f32) (x2 : Vec F S1x1x512 .f32) (x3 : Vec F S512x1536 .bf16) (x4 : Vec F S1536 .f32) : Vec F S1x1024x512 .bf16 :=
  View.canon [⟨r0_O, k0_pay2 (View.ld x0 r0_rI0) (View.ld x1 r0_rI1) (View.ld x2 r0_rI1) (View.ld x3 r0_rI3) (View.ld x4 r0_rI4)⟩]

/-- Window 6's staging buffer after the body, from the input windows' blocks: its one store as a piece. -/
def out0_6 (x0 : Vec F S1x512x1024 .f32) (x1 : Vec F S1x1x512 .f32) (x2 : Vec F S1x1x512 .f32) (x3 : Vec F S512x1536 .bf16) (x4 : Vec F S1536 .f32) : Vec F S1x1024x512 .bf16 :=
  View.canon [⟨r0_O, k0_pay3 (View.ld x0 r0_rI0) (View.ld x1 r0_rI1) (View.ld x2 r0_rI1) (View.ld x3 r0_rI3) (View.ld x4 r0_rI4)⟩]

/-- Window 7's staging buffer after the body, from the input windows' blocks: its one store as a piece. -/
def out0_7 (x0 : Vec F S1x512x1024 .f32) (x1 : Vec F S1x1x512 .f32) (x2 : Vec F S1x1x512 .f32) (x3 : Vec F S512x1536 .bf16) (x4 : Vec F S1536 .f32) : Vec F S1x1024x512 .bf16 :=
  View.canon [⟨r0_O, k0_pay4 (View.ld x0 r0_rI0) (View.ld x1 r0_rI1) (View.ld x2 r0_rI1) (View.ld x3 r0_rI3) (View.ld x4 r0_rI4)⟩]

/-- One store of the whole buffer covers it (the rectangle is the buffer, checked by evaluation). -/
theorem cover0_O (p0 : Vec F S1x1024x512 .bf16) (y : S1x1024x512.Idx) :
    ∃ pc ∈ ([⟨r0_O, p0⟩] : List (View.Piece (Elt F) S1x1024x512 .bf16)), y ∈ pc.1.set :=
  View.cover_of_tiled [⟨r0_O, p0⟩] S1x1024x512.size (by rfl) y

/-! ## The body's triple -/

set_option maxHeartbeats 4000000 in
/-- The kernel body on whole staging memrefs, the inputs' at read contents `xW` and the outputs' at anything, runs to
    the continuation holding the inputs' as they were and each output's at `out0_W` of the inputs': the printed
    functions are their skeletons, which are run statement by statement through the one part call; each of the three
    loads of an output buffer before its store is dead. -/
theorem sound_kernel0 (c : Dev nD) (E : Set ℕ) (i : grid0.Coords) (arg2 : Memref sig .tc .vmem S1x512x1024 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S512x1536 .bf16) (harg5 : arg5.IsWhole) (arg6 : Memref sig .tc .vmem S1536 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x1024x512 .bf16) (harg9 : arg9.IsWhole)
    (x0 : Vec F S1x512x1024 .f32) (x1 : Vec F S1x1x512 .f32) (x2 : Vec F S1x1x512 .f32) (x3 : Vec F S512x1536 .bf16) (x4 : Vec F S1536 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out0_5 x0 x1 x2 x3 x4) ∗ owns (c : Thread nD τ) arg8 fullShare (out0_6 x0 x1 x2 x3 x4) ∗ owns (c : Thread nD τ) arg9 fullShare (out0_7 x0 x1 x2 x3 x4)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_O _)
  isplitl [H6]
  · iexists _; isplitr
    swap; · iexact H6
    ipureintro
    try dsimp only
    exact View.read_writes_eq_canon _ _ _ (cover0_O _)
  iexists _; isplitr
  swap; · iexact H7
  ipureintro
  try dsimp only
  exact View.read_writes_eq_canon _ _ _ (cover0_O _)

/-! ## The pipeline's proof data -/

/-- The proof data of this pipeline on core `c`: the arrays as the call finds them (`V`); after the body at point
    `t` each input's buffer at its block and each output's at `out0_W` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The proof data's arrays are the call-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Val0Pay.lean ====
import proofs.«150200_j79405355369062_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The projection kernel's stored values, entry by entry

At the ideal values the body of the first pallas_call computes, from its five loaded blocks — the activation tile
`x0 : [1, 512, 1024]` (channel, position), the normalisation rows `x1, x2 : [1, 1, 512]`, the fused weight matrix
`x3 : [512, 1536]` and the fused bias `x4 : [1536]` — the `[1024, 1536]` matrix whose entry `(n, k)` is

  `(∑ c, (x0[0, c, n] * x1[0, 0, c] + x2[0, 0, c]) * x3[c, k]) + x4[k]`

(the two roundings to bf16 are the identity on ideal values), and stores its three column blocks of width 512 as the
three output tiles. This module reads each stored tile at an index. -/

noncomputable section

namespace Cert.KernelIdeal.Hand

open Cert.KernelIdeal Cert.KernelIdeal.Gen
open Idealize.ShloMosaic Idealize.ShloMosaic.ValueIdx

/-! ## The layout operations of the body, read at an index -/

section Layout
variable {α : Type}

/-- A `[1, 1, 512]` row viewed as a vector of 512 reads, at `c`, the row at `(0, 0, c)`. -/
theorem k0_cast_row_vec (x : S1x1x512.Idx → α) (h : S1x1x512.ShapeCasts S512) (c : Fin 512) :
    shapeCast S512 x h (ix1 c) = x (ix3 (0 : Fin 1) (0 : Fin 1) c) :=
  shapeCast_apply x h _ _ (by
    rw [Shape.rowMajor_val_three, Shape.rowMajor_val_one]
    show (0 * 1 + 0) * 512 + c.val = c.val
    omega)

/-- A vector of 512 viewed as a column `[512, 1]` reads, at `(c, u)`, the vector at `c`. -/
theorem k0_cast_vec_col (v : S512.Idx → α) (h : S512.ShapeCasts S512x1) (c : Fin 512) (u : Fin 1) :
    shapeCast S512x1 v h (ix2 c u) = v (ix1 c) :=
  shapeCast_apply v h _ _ (by
    have hu : u.val = 0 := by omega
    rw [Shape.rowMajor_val_two, Shape.rowMajor_val_one]
    show c.val = c.val * 1 + u.val
    omega)

/-- A column `[512, 1]` broadcast along the positions reads, at `(c, n)`, the column at `(c, 0)`. -/
theorem k0_bcast_col (v : S512x1.Idx → α) (h : S512x1.Broadcasts S512x1024) (c : Fin 512) (n : Fin 1024) :
    broadcastTo S512x1024 v h (ix2 c n) = v (ix2 c (0 : Fin 1)) := by
  refine broadcastTo_apply v h (ix2 c n) (ix2 c (0 : Fin 1)) fun ax => ?_
  match ax with
  | ⟨0, _⟩ => rfl
  | ⟨1, _⟩ => rfl

end Layout

/-! ## The projected tile at an index -/

/-- The contraction of the body's matrix product runs over the 512 channels. -/
theorem k0_proj_apply (A : FVec Ideal S1024x512 .bf16) (B : FVec Ideal S512x1536 .bf16) (n : Fin 1024) (k : Fin 1536) :
    matmul dot_S1024x512_S512x1536_S1024x1536_1_0_0_1_n_n none A B (constant (F := Ideal) S1024x1536 .f32 0x00000000#32) (ix2 n k)
      = ∑ c : Fin 512, A (ix2 n c) * B (ix2 c k) := by
  show FloatOps.matmul _ none A B _ (ix2 n k) = _
  rw [Ideal.matmul_constant_zero_apply,
    ← Equiv.sum_comp (contrEquiv1 dot_S1024x512_S512x1536_S1024x1536_1_0_0_1_n_n 512 rfl rfl).symm]
  refine Finset.sum_congr rfl fun c _ => ?_
  have c2 := contrEquiv1_symm_val dot_S1024x512_S512x1536_S1024x1536_1_0_0_1_n_n 512 rfl rfl c
  have l2 : dot_S1024x512_S512x1536_S1024x1536_1_0_0_1_n_n.lhsIdx (ix2 n k) ((contrEquiv1 _ 512 rfl rfl).symm c) = ix2 n c := by
    funext ax; apply Fin.ext
    match ax with
    | ⟨0, _⟩ => simp [DotDims.lhsIdx, dot_S1024x512_S512x1536_S1024x1536_1_0_0_1_n_n]; rfl
    | ⟨1, _⟩ => simp [DotDims.lhsIdx, dot_S1024x512_S512x1536_S1024x1536_1_0_0_1_n_n]; exact c2
  have r2 : dot_S1024x512_S512x1536_S1024x1536_1_0_0_1_n_n.rhsIdx (ix2 n k) ((contrEquiv1 _ 512 rfl rfl).symm c) = ix2 c k := by
    funext ax; apply Fin.ext
    match ax with
    | ⟨0, _⟩ => simp [DotDims.rhsIdx, dot_S1024x512_S512x1536_S1024x1536_1_0_0_1_n_n]; exact c2
    | ⟨1, _⟩ => simp [DotDims.rhsIdx, dot_S1024x512_S512x1536_S1024x1536_1_0_0_1_n_n]; rfl
  rw [l2, r2]

/-- The projected tile before the split into q, k, v: entry `(n, k)` is the normalised activations of position `n`
    against column `k` of the fused weights, plus the fused bias at `k`. -/
theorem k0_pay1_apply (x0 : Vec Ideal S1x512x1024 .f32) (x1 x2 : Vec Ideal S1x1x512 .f32) (x3 : Vec Ideal S512x1536 .bf16)
    (x4 : Vec Ideal S1536 .f32) (n : Fin 1024) (k : Fin 1536) :
    k0_pay1 (F := Ideal) x0 x1 x2 x3 x4 (ix2 n k)
      = (∑ c : Fin 512, (x0 (ix3 (0 : Fin 1) c n) * x1 (ix3 (0 : Fin 1) (0 : Fin 1) c) + x2 (ix3 (0 : Fin 1) (0 : Fin 1) c)) * x3 (ix2 c k))
        + x4 (ix1 k) := by
  unfold k0_pay1
  dsimp only
  simp only [shapeCast_self]
  rw [truncf_apply, addf_apply, k0_proj_apply, broadcastTo_1b_ab_apply, shapeCast_a_1a_apply]
  refine congrArg (· + x4 (ix1 k)) (Finset.sum_congr rfl fun c _ => ?_)
  rw [transpose_ix2_apply, truncf_apply, addf_apply, mulf_apply, shapeCast_1ab_ab_apply,
    k0_bcast_col, k0_cast_vec_col, k0_cast_row_vec, k0_bcast_col, k0_cast_vec_col, k0_cast_row_vec]

/-! ## The three stored tiles at an index

Each stored tile is a block of 512 columns of the projected tile, with a unit leading axis put in front: entry
`(u, n, o)` of the tile cut at column offset `off` is entry `(n, off + o)` of the projected tile. -/

/-- The tile cut at column offset 0, at `(u, n, o)`, with `k` the column `0 + o` of the fused weights. -/
theorem k0_pay2_apply (x0 : Vec Ideal S1x512x1024 .f32) (x1 x2 : Vec Ideal S1x1x512 .f32) (x3 : Vec Ideal S512x1536 .bf16)
    (x4 : Vec Ideal S1536 .f32) (u : Fin 1) (n : Fin 1024) (o : Fin 512) (k : Fin 1536) (hk : k.val = 0 + o.val) :
    k0_pay2 (F := Ideal) x0 x1 x2 x3 x4 (ix3 u n o)
      = (∑ c : Fin 512, (x0 (ix3 (0 : Fin 1) c n) * x1 (ix3 (0 : Fin 1) (0 : Fin 1) c) + x2 (ix3 (0 : Fin 1) (0 : Fin 1) c)) * x3 (ix2 c k))
        + x4 (ix1 k) := by
  unfold k0_pay2
  rw [shapeCast_ab_1ab_apply, slice2_axis1_apply 0 _ _ n o k hk, k0_pay1_apply]

/-- The tile cut at column offset 512, at `(u, n, o)`, with `k` the column `512 + o` of the fused weights. -/
theorem k0_pay3_apply (x0 : Vec Ideal S1x512x1024 .f32) (x1 x2 : Vec Ideal S1x1x512 .f32) (x3 : Vec Ideal S512x1536 .bf16)
    (x4 : Vec Ideal S1536 .f32) (u : Fin 1) (n : Fin 1024) (o : Fin 512) (k : Fin 1536) (hk : k.val = 512 + o.val) :
    k0_pay3 (F := Ideal) x0 x1 x2 x3 x4 (ix3 u n o)
      = (∑ c : Fin 512, (x0 (ix3 (0 : Fin 1) c n) * x1 (ix3 (0 : Fin 1) (0 : Fin 1) c) + x2 (ix3 (0 : Fin 1) (0 : Fin 1) c)) * x3 (ix2 c k))
        + x4 (ix1 k) := by
  unfold k0_pay3
  rw [shapeCast_ab_1ab_apply, slice2_axis1_apply 512 _ _ n o k hk, k0_pay1_apply]

/-- The tile cut at column offset 1024, at `(u, n, o)`, with `k` the column `1024 + o` of the fused weights. -/
theorem k0_pay4_apply (x0 : Vec Ideal S1x512x1024 .f32) (x1 x2 : Vec Ideal S1x1x512 .f32) (x3 : Vec Ideal S512x1536 .bf16)
    (x4 : Vec Ideal S1536 .f32) (u : Fin 1) (n : Fin 1024) (o : Fin 512) (k : Fin 1536) (hk : k.val = 1024 + o.val) :
    k0_pay4 (F := Ideal) x0 x1 x2 x3 x4 (ix3 u n o)
      = (∑ c : Fin 512, (x0 (ix3 (0 : Fin 1) c n) * x1 (ix3 (0 : Fin 1) (0 : Fin 1) c) + x2 (ix3 (0 : Fin 1) (0 : Fin 1) c)) * x3 (ix2 c k))
        + x4 (ix1 k) := by
  unfold k0_pay4
  rw [shapeCast_ab_1ab_apply, slice2_axis1_apply 1024 _ _ n o k hk, k0_pay1_apply]

end Cert.KernelIdeal.Hand

end
-- ==== Proof.KI.Val0Blk.lean ====
import proofs.«150200_j79405355369062_2_alg».proof.Proof.KI.Reg0
import proofs.«150200_j79405355369062_2_alg».proof.Proof.KI.Val0Pay
import Idealize.ShloMosaic.Lib.Pipeline.Value
import Idealize.ShloMosaic.Lib.Tactic

/-! # The projected arrays: the specification, the blocks of the windows, the tiling

At the ideal values. The three output arrays `[4, 4096, 512]` of the first pallas_call are, after its 16 grid
points, one function of the five arrays it read: entry `(b, n, o)` of the array cut at column offset `off`
(0 for q, 512 for k, 1024 for v) is

  `(∑ c, (x[b, c, n] * scale[b, 0, c] + shift[b, 0, c]) * W[c, off + o]) + bias[off + o]`.

Grid point `(b, s)` writes rows `1024 s … 1024 s + 1023` of batch entry `b`; the 16 blocks tile each array. -/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The specification -/

/-- Column `off + o` of the fused weights and bias (reduced modulo the 1536 columns, so that it is a column whatever
    `off` is; for the three offsets in use nothing is reduced: `qkvCol_val`). -/
def qkvCol (off o : ℕ) : Fin 1536 := ⟨(off + o) % 1536, Nat.mod_lt _ (by decide)⟩

theorem qkvCol_val (off o : ℕ) (h : off + o < 1536) : (qkvCol off o).val = off + o := Nat.mod_eq_of_lt h

/-- One entry of a projected array: batch entry `b`, position `n`, output channel `o` of the block at column offset `off`. -/
def qkvAt (off : ℕ) (x3 : FVec Ideal S4x512x4096 .f32) (sc sh : FVec Ideal S4x1x512 .f32) (W : FVec Ideal S512x1536 .bf16)
    (bias : FVec Ideal S1536 .f32) (b : Fin 4) (n : Fin 4096) (o : Fin 512) : Ideal .bf16 :=
  (∑ c : Fin 512, (x3 (ix3 b c n) * sc (ix3 b (0 : Fin 1) c) + sh (ix3 b (0 : Fin 1) c)) * W (ix2 c (qkvCol off o.val)))
    + bias (ix1 (qkvCol off o.val))

/-- A projected array as one function of the arrays the call reads, index by index. -/
def QKV (off : ℕ) (x3 : FVec Ideal S4x512x4096 .f32) (sc sh : FVec Ideal S4x1x512 .f32) (W : FVec Ideal S512x1536 .bf16)
    (bias : FVec Ideal S1536 .f32) : FVec Ideal S4x4096x512 .bf16 :=
  fun i => qkvAt off x3 sc sh W bias (i 0) (i 1) (i 2)

theorem QKV_apply (off : ℕ) (x3 : FVec Ideal S4x512x4096 .f32) (sc sh : FVec Ideal S4x1x512 .f32) (W : FVec Ideal S512x1536 .bf16)
    (bias : FVec Ideal S1536 .f32) (b : Fin 4) (n : Fin 4096) (o : Fin 512) :
    QKV off x3 sc sh W bias (ix3 b n o)
      = (∑ c : Fin 512, (x3 (ix3 b c n) * sc (ix3 b (0 : Fin 1) c) + sh (ix3 b (0 : Fin 1) c)) * W (ix2 c (qkvCol off o.val)))
        + bias (ix1 (qkvCol off o.val)) := rfl

variable (V : (c : Dev nD) → (b : Ref sig .tc) → Buf (Elt Ideal) ((c : Thread nD τ).loc b))

/-! ## The blocks of the input windows as entries of their arrays

An element of a window's block at a grid point sits, on each axis, at block index × block size + its coordinate
inside the block. -/

theorem zeros0_3 : (![0, 0, 0] : Fin 3 → Nat) = fun _ => 0 := funext fun a => by fin_cases a <;> rfl
theorem zeros0_2 : (![0, 0] : Fin 2 → Nat) = fun _ => 0 := funext fun a => by fin_cases a <;> rfl
theorem zeros0_1 : (![0] : Fin 1 → Nat) = fun _ => 0 := funext fun a => by fin_cases a <;> rfl

theorem iblk0_0_apply (c : Dev nD) (t : Fin cfg0.N) (y : S1x512x1024.Idx) (i : S4x512x4096.Idx)
    (h0 : (i 0).val = win0_0.index t (0 : Fin 3) * 1 + (y 0).val)
    (h1 : (i 1).val = win0_0.index t (1 : Fin 3) * 512 + (y 1).val)
    (h2 : (i 2).val = win0_0.index t (2 : Fin 3) * 1024 + (y 2).val) :
    (iblk0 V c 0 t : Vec Ideal S1x512x1024 .f32) y = (V c main_v21 : S4x512x4096.Idx → Elt Ideal .f32) i := by
  unfold iblk0
  rw [View.read_apply]
  show V c main_v21 _ = V c main_v21 _
  refine congrArg _ (funext fun a => Fin.ext ?_)
  match a with
  | ⟨0, _⟩ => show win0_0.index t (0 : Fin 3) * 1 + 1 * (y 0).val = (i 0).val; omega
  | ⟨1, _⟩ => show win0_0.index t (1 : Fin 3) * 512 + 1 * (y 1).val = (i 1).val; omega
  | ⟨2, _⟩ => show win0_0.index t (2 : Fin 3) * 1024 + 1 * (y 2).val = (i 2).val; omega

theorem iblk0_1_apply (c : Dev nD) (t : Fin cfg0.N) (y : S1x1x512.Idx) (i : S4x1x512.Idx)
    (h0 : (i 0).val = win0_1.index t (0 : Fin 3) * 1 + (y 0).val)
    (h1 : (i 1).val = win0_1.index t (1 : Fin 3) * 1 + (y 1).val)
    (h2 : (i 2).val = win0_1.index t (2 : Fin 3) * 512 + (y 2).val) :
    (iblk0 V c 1 t : Vec Ideal S1x1x512 .f32) y = (V c main_v19 : S4x1x512.Idx → Elt Ideal .f32) i := by
  unfold iblk0
  rw [View.read_apply]
  show V c main_v19 _ = V c main_v19 _
  refine congrArg _ (funext fun a => Fin.ext ?_)
  match a with
  | ⟨0, _⟩ => show win0_1.index t (0 : Fin 3) * 1 + 1 * (y 0).val = (i 0).val; omega
  | ⟨1, _⟩ => show win0_1.index t (1 : Fin 3) * 1 + 1 * (y 1).val = (i 1).val; omega
  | ⟨2, _⟩ => show win0_1.index t (2 : Fin 3) * 512 + 1 * (y 2).val = (i 2).val; omega

theorem iblk0_2_apply (c : Dev nD) (t : Fin cfg0.N) (y : S1x1x512.Idx) (i : S4x1x512.Idx)
    (h0 : (i 0).val = win0_2.index t (0 : Fin 3) * 1 + (y 0).val)
    (h1 : (i 1).val = win0_2.index t (1 : Fin 3) * 1 + (y 1).val)
    (h2 : (i 2).val = win0_2.index t (2 : Fin 3) * 512 + (y 2).val) :
    (iblk0 V c 2 t : Vec Ideal S1x1x512 .f32) y = (V c main_v20 : S4x1x512.Idx → Elt Ideal .f32) i := by
  unfold iblk0
  rw [View.read_apply]
  show V c main_v20 _ = V c main_v20 _
  refine congrArg _ (funext fun a => Fin.ext ?_)
  match a with
  | ⟨0, _⟩ => show win0_2.index t (0 : Fin 3) * 1 + 1 * (y 0).val = (i 0).val; omega
  | ⟨1, _⟩ => show win0_2.index t (1 : Fin 3) * 1 + 1 * (y 1).val = (i 1).val; omega
  | ⟨2, _⟩ => show win0_2.index t (2 : Fin 3) * 512 + 1 * (y 2).val = (i 2).val; omega

theorem iblk0_3_apply (c : Dev nD) (t : Fin cfg0.N) (y : S512x1536.Idx) (i : S512x1536.Idx)
    (h0 : (i 0).val = win0_3.index t (0 : Fin 2) * 512 + (y 0).val)
    (h1 : (i 1).val = win0_3.index t (1 : Fin 2) * 1536 + (y 1).val) :
    (iblk0 V c 3 t : Vec Ideal S512x1536 .bf16) y = (V c main_v24 : S512x1536.Idx → Elt Ideal .bf16) i := by
  unfold iblk0
  rw [View.read_apply]
  show V c main_v24 _ = V c main_v24 _
  refine congrArg _ (funext fun a => Fin.ext ?_)
  match a with
  | ⟨0, _⟩ => show win0_3.index t (0 : Fin 2) * 512 + 1 * (y 0).val = (i 0).val; omega
  | ⟨1, _⟩ => show win0_3.index t (1 : Fin 2) * 1536 + 1 * (y 1).val = (i 1).val; omega

theorem iblk0_4_apply (c : Dev nD) (t : Fin cfg0.N) (y : S1536.Idx) (i : S1536.Idx)
    (h0 : (i 0).val = win0_4.index t (0 : Fin 1) * 1536 + (y 0).val) :
    (iblk0 V c 4 t : Vec Ideal S1536 .f32) y = (V c main_v25 : S1536.Idx → Elt Ideal .f32) i := by
  unfold iblk0
  rw [View.read_apply]
  show V c main_v25 _ = V c main_v25 _
  refine congrArg _ (funext fun a => Fin.ext ?_)
  match a with
  | ⟨0, _⟩ => show win0_4.index t (0 : Fin 1) * 1536 + 1 * (y 0).val = (i 0).val; omega

/-! ## The printed index maps, decided over the 16 grid points -/

/-- Where each window's block sits at a grid point, relative to the q tile's: the activation tile moves with it
    (batch entry, positions), the normalisation rows with its batch entry, the weights and the bias do not move;
    the k and v tiles sit where the q tile does. -/
theorem idx_facts0 : ∀ t : Fin cfg0.N,
    win0_0.index t (0 : Fin 3) = win0_5.index t (0 : Fin 3) ∧ win0_0.index t (1 : Fin 3) = 0 ∧ win0_0.index t (2 : Fin 3) = win0_5.index t (1 : Fin 3)
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 3) ≤ 3 ∧ win0_5.index t (1 : Fin 3) ≤ 3 ∧ win0_5.index t (2 : Fin 3) = 0
    ∧ win0_6.index t (0 : Fin 3) = win0_5.index t (0 : Fin 3) ∧ win0_6.index t (1 : Fin 3) = win0_5.index t (1 : Fin 3) ∧ win0_6.index t (2 : Fin 3) = 0
    ∧ win0_7.index t (0 : Fin 3) = win0_5.index t (0 : Fin 3) ∧ win0_7.index t (1 : Fin 3) = win0_5.index t (1 : Fin 3) ∧ win0_7.index t (2 : Fin 3) = 0 :=
  (by decide +kernel : ∀ t : Fin grid0.N, _)

/-- Every block position of window 5's array is some grid point's. -/
theorem idx_onto0_5 : ∀ (q0 : Fin 4) (q1 : Fin 4), ∃ t : Fin cfg0.N, win0_5.index t = ![q0.val, q1.val, 0] :=
  (by decide +kernel : ∀ (q0 : Fin 4) (q1 : Fin 4), ∃ t : Fin grid0.N, win0_5.index t = ![q0.val, q1.val, 0])

/-- Every block position of window 6's array is some grid point's. -/
theorem idx_onto0_6 : ∀ (q0 : Fin 4) (q1 : Fin 4), ∃ t : Fin cfg0.N, win0_6.index t = ![q0.val, q1.val, 0] :=
  (by decide +kernel : ∀ (q0 : Fin 4) (q1 : Fin 4), ∃ t : Fin grid0.N, win0_6.index t = ![q0.val, q1.val, 0])

/-- Every block position of window 7's array is some grid point's. -/
theorem idx_onto0_7 : ∀ (q0 : Fin 4) (q1 : Fin 4), ∃ t : Fin cfg0.N, win0_7.index t = ![q0.val, q1.val, 0] :=
  (by decide +kernel : ∀ (q0 : Fin 4) (q1 : Fin 4), ∃ t : Fin grid0.N, win0_7.index t = ![q0.val, q1.val, 0])

/-! ## The blocks tile each array -/

/-- An index of the array is in point `t`'s block iff each coordinate is in the block's range on its axis. -/
theorem mem_blk0_5 (t : Fin cfg0.N) (i : S4x4096x512.Idx) :
    i ∈ ((cfg0.win 5).blk t).view.set ↔ ∀ a : Fin 3, win0_5.index t a * S1x1024x512.size a ≤ (i a).val ∧ (i a).val < win0_5.index t a * S1x1024x512.size a + S1x1024x512.size a := by
  show i ∈ ((View.whole main_v26_0).slice (win0_5.rect t)).set ↔ _
  rw [View.set_slice_whole, Rect.mem_set_unit]
  exact Iff.rfl

/-- Every index of the array is in the block of the grid point (batch entry, position / 1024). -/
theorem cover0_5 (i : S4x4096x512.Idx) : ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 512 := (i 2).isLt
  obtain ⟨t, ht⟩ := idx_onto0_5 ⟨(i 0).val, by omega⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk0_5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 512 ≤ (i 2).val ∧ (i 2).val < win0_5.index t (2 : Fin 3) * 512 + 512; omega

/-- An index of the array is in point `t`'s block iff each coordinate is in the block's range on its axis. -/
theorem mem_blk0_6 (t : Fin cfg0.N) (i : S4x4096x512.Idx) :
    i ∈ ((cfg0.win 6).blk t).view.set ↔ ∀ a : Fin 3, win0_6.index t a * S1x1024x512.size a ≤ (i a).val ∧ (i a).val < win0_6.index t a * S1x1024x512.size a + S1x1024x512.size a := by
  show i ∈ ((View.whole main_v26_1).slice (win0_6.rect t)).set ↔ _
  rw [View.set_slice_whole, Rect.mem_set_unit]
  exact Iff.rfl

/-- Every index of the array is in the block of the grid point (batch entry, position / 1024). -/
theorem cover0_6 (i : S4x4096x512.Idx) : ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 512 := (i 2).isLt
  obtain ⟨t, ht⟩ := idx_onto0_6 ⟨(i 0).val, by omega⟩ ⟨(i 1).val / 1024, by omega⟩
  have q0 : win0_6.index t (0 : Fin 3) = (i 0).val := congrFun ht 0
  have q1 : win0_6.index t (1 : Fin 3) = (i 1).val / 1024 := congrFun ht 1
  have q2 : win0_6.index t (2 : Fin 3) = 0 := congrFun ht 2
  refine ⟨t, flush0_6 t, ?_⟩
  rw [mem_blk0_6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 512 ≤ (i 2).val ∧ (i 2).val < win0_6.index t (2 : Fin 3) * 512 + 512; omega

/-- An index of the array is in point `t`'s block iff each coordinate is in the block's range on its axis. -/
theorem mem_blk0_7 (t : Fin cfg0.N) (i : S4x4096x512.Idx) :
    i ∈ ((cfg0.win 7).blk t).view.set ↔ ∀ a : Fin 3, win0_7.index t a * S1x1024x512.size a ≤ (i a).val ∧ (i a).val < win0_7.index t a * S1x1024x512.size a + S1x1024x512.size a := by
  show i ∈ ((View.whole main_v26_2).slice (win0_7.rect t)).set ↔ _
  rw [View.set_slice_whole, Rect.mem_set_unit]
  exact Iff.rfl

/-- Every index of the array is in the block of the grid point (batch entry, position / 1024). -/
theorem cover0_7 (i : S4x4096x512.Idx) : ∃ t : Fin cfg0.N, (cfg0.win 7).flush t = true ∧ i ∈ ((cfg0.win 7).blk t).view.set := by
  have hi0 : (i 0).val < 4 := (i 0).isLt
  have hi1 : (i 1).val < 4096 := (i 1).isLt
  have hi2 : (i 2).val < 512 := (i 2).isLt
  obtain ⟨t, ht⟩ := idx_onto0_7 ⟨(i 0).val, by omega⟩ ⟨(i 1).val / 1024, by omega⟩
  have q0 : win0_7.index t (0 : Fin 3) = (i 0).val := congrFun ht 0
  have q1 : win0_7.index t (1 : Fin 3) = (i 1).val / 1024 := congrFun ht 1
  have q2 : win0_7.index t (2 : Fin 3) = 0 := congrFun ht 2
  refine ⟨t, flush0_7 t, ?_⟩
  rw [mem_blk0_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 512 ≤ (i 2).val ∧ (i 2).val < win0_7.index t (2 : Fin 3) * 512 + 512; omega

end Cert.KernelIdeal.Hand

end
-- ==== Proof.KI.Val0.lean ====
import proofs.«150200_j79405355369062_2_alg».proof.Proof.KI.Val0Blk

/-! # What the projection kernel leaves in the q, k, v arrays

At the ideal values: each grid point writes back the block of the projected array (`QKV`) its position names, and
the 16 blocks tile each of the three arrays, so after the call each array is the projected array at its column
offset (0 for q, 512 for k, 1024 for v). -/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## What a grid point writes back -/

/-- What point `t` writes back to window 5's array is block `t` of the projected array at column offset 0: the
    stored tile at `(u, n, o)` is the body's sum over the channels, each block entry it reads is the entry of its
    array that the block's position names, and the tile's entry sits at (batch entry, 1024 × tile + n, o). -/
theorem flushed0_5_eq (c : Dev nD) (t : Fin cfg0.N) :
    (dat0 (F := Ideal) V c).flushed 5 t = ((cfg0.win 5).blk t).view.read (Elt Ideal) (QKV 0 (V c main_v21) (V c main_v19) (V c main_v20) (V c main_v24) (V c main_v25)) := by
  show (cfg0.win 5).cut (grid0.coords t) ((dat0 V c).after 5 t) = _
  rw [after0_5]
  unfold out0_5
  rw [View.canon_unit_zero zeros0_3]
  simp only [View.ld_unit_zero (S := S1x512x1024) zeros0_3, View.ld_unit_zero (S := S1x1x512) zeros0_3, View.ld_unit_zero (S := S512x1536) zeros0_2, View.ld_unit_zero (S := S1536) zeros0_1]
  obtain ⟨a00, a01, a02, a10, a11, a12, a20, a21, a22, a30, a31, a40, b50, b51, a52, a60, a61, a62, a70, a71, a72⟩ := idx_facts0 t
  funext j
  obtain ⟨u, n, o, rfl⟩ : ∃ (u : Fin 1) (n : Fin 1024) (o : Fin 512), j = ix3 u n o := ⟨j 0, j 1, j 2, eq_ix3 j⟩
  have hu : u.val = 0 := by omega
  have hn : n.val < 1024 := n.isLt
  have ho : o.val < 512 := o.isLt
  refine (k0_pay2_apply (iblk0 V c 0 t) (iblk0 V c 1 t) (iblk0 V c 2 t) (iblk0 V c 3 t) (iblk0 V c 4 t) u n o (qkvCol 0 o.val) (qkvCol_val 0 o.val (by omega))).trans ?_
  have E0 : ((((cfg0.win 5).blk t).view.emb (ix3 u n o)) 0).val = win0_5.index t (0 : Fin 3) * 1 + 1 * u.val := rfl
  have E1 : ((((cfg0.win 5).blk t).view.emb (ix3 u n o)) 1).val = win0_5.index t (1 : Fin 3) * 1024 + 1 * n.val := rfl
  have E2 : ((((cfg0.win 5).blk t).view.emb (ix3 u n o)) 2).val = win0_5.index t (2 : Fin 3) * 512 + 1 * o.val := rfl
  have hcol : qkvCol 0 ((((cfg0.win 5).blk t).view.emb (ix3 u n o)) 2).val = qkvCol 0 o.val := congrArg (qkvCol 0) (E2.trans (by omega))
  show _ = qkvAt 0 (V c main_v21) (V c main_v19) (V c main_v20) (V c main_v24) (V c main_v25) ((((cfg0.win 5).blk t).view.emb (ix3 u n o)) 0) ((((cfg0.win 5).blk t).view.emb (ix3 u n o)) 1) ((((cfg0.win 5).blk t).view.emb (ix3 u n o)) 2)
  unfold qkvAt
  rw [hcol]
  refine congrArg₂ (· + ·) (Finset.sum_congr rfl fun ch _ => ?_) ?_
  · have r0 := iblk0_0_apply V c t (ix3 (0 : Fin 1) ch n) (ix3 ((((cfg0.win 5).blk t).view.emb (ix3 u n o)) 0) ch ((((cfg0.win 5).blk t).view.emb (ix3 u n o)) 1))
        (E0.trans (by show _ = win0_0.index t (0 : Fin 3) * 1 + 0; omega)) (by show ch.val = win0_0.index t (1 : Fin 3) * 512 + ch.val; omega)
        (E1.trans (by show _ = win0_0.index t (2 : Fin 3) * 1024 + n.val; omega))
    have r1 := iblk0_1_apply V c t (ix3 (0 : Fin 1) (0 : Fin 1) ch) (ix3 ((((cfg0.win 5).blk t).view.emb (ix3 u n o)) 0) (0 : Fin 1) ch)
        (E0.trans (by show _ = win0_1.index t (0 : Fin 3) * 1 + 0; omega)) (by show 0 = win0_1.index t (1 : Fin 3) * 1 + 0; omega)
        (by show ch.val = win0_1.index t (2 : Fin 3) * 512 + ch.val; omega)
    have r2 := iblk0_2_apply V c t (ix3 (0 : Fin 1) (0 : Fin 1) ch) (ix3 ((((cfg0.win 5).blk t).view.emb (ix3 u n o)) 0) (0 : Fin 1) ch)
        (E0.trans (by show _ = win0_2.index t (0 : Fin 3) * 1 + 0; omega)) (by show 0 = win0_2.index t (1 : Fin 3) * 1 + 0; omega)
        (by show ch.val = win0_2.index t (2 : Fin 3) * 512 + ch.val; omega)
    have r3 := iblk0_3_apply V c t (ix2 ch (qkvCol 0 o.val)) (ix2 ch (qkvCol 0 o.val))
        (by show ch.val = win0_3.index t (0 : Fin 2) * 512 + ch.val; omega)
        (by show (qkvCol 0 o.val).val = win0_3.index t (1 : Fin 2) * 1536 + (qkvCol 0 o.val).val; omega)
    exact congrArg₂ (· * ·) (congrArg₂ (· + ·) (congrArg₂ (· * ·) r0 r1) r2) r3
  · exact iblk0_4_apply V c t (ix1 (qkvCol 0 o.val)) (ix1 (qkvCol 0 o.val))
      (by show (qkvCol 0 o.val).val = win0_4.index t (0 : Fin 1) * 1536 + (qkvCol 0 o.val).val; omega)

/-- What point `t` writes back to window 6's array is block `t` of the projected array at column offset 512: the
    stored tile at `(u, n, o)` is the body's sum over the channels, each block entry it reads is the entry of its
    array that the block's position names, and the tile's entry sits at (batch entry, 1024 × tile + n, o). -/
theorem flushed0_6_eq (c : Dev nD) (t : Fin cfg0.N) :
    (dat0 (F := Ideal) V c).flushed 6 t = ((cfg0.win 6).blk t).view.read (Elt Ideal) (QKV 512 (V c main_v21) (V c main_v19) (V c main_v20) (V c main_v24) (V c main_v25)) := by
  show (cfg0.win 6).cut (grid0.coords t) ((dat0 V c).after 6 t) = _
  rw [after0_6]
  unfold out0_6
  rw [View.canon_unit_zero zeros0_3]
  simp only [View.ld_unit_zero (S := S1x512x1024) zeros0_3, View.ld_unit_zero (S := S1x1x512) zeros0_3, View.ld_unit_zero (S := S512x1536) zeros0_2, View.ld_unit_zero (S := S1536) zeros0_1]
  obtain ⟨a00, a01, a02, a10, a11, a12, a20, a21, a22, a30, a31, a40, b50, b51, a52, a60, a61, a62, a70, a71, a72⟩ := idx_facts0 t
  funext j
  obtain ⟨u, n, o, rfl⟩ : ∃ (u : Fin 1) (n : Fin 1024) (o : Fin 512), j = ix3 u n o := ⟨j 0, j 1, j 2, eq_ix3 j⟩
  have hu : u.val = 0 := by omega
  have hn : n.val < 1024 := n.isLt
  have ho : o.val < 512 := o.isLt
  refine (k0_pay3_apply (iblk0 V c 0 t) (iblk0 V c 1 t) (iblk0 V c 2 t) (iblk0 V c 3 t) (iblk0 V c 4 t) u n o (qkvCol 512 o.val) (qkvCol_val 512 o.val (by omega))).trans ?_
  have E0 : ((((cfg0.win 6).blk t).view.emb (ix3 u n o)) 0).val = win0_6.index t (0 : Fin 3) * 1 + 1 * u.val := rfl
  have E1 : ((((cfg0.win 6).blk t).view.emb (ix3 u n o)) 1).val = win0_6.index t (1 : Fin 3) * 1024 + 1 * n.val := rfl
  have E2 : ((((cfg0.win 6).blk t).view.emb (ix3 u n o)) 2).val = win0_6.index t (2 : Fin 3) * 512 + 1 * o.val := rfl
  have hcol : qkvCol 512 ((((cfg0.win 6).blk t).view.emb (ix3 u n o)) 2).val = qkvCol 512 o.val := congrArg (qkvCol 512) (E2.trans (by omega))
  show _ = qkvAt 512 (V c main_v21) (V c main_v19) (V c main_v20) (V c main_v24) (V c main_v25) ((((cfg0.win 6).blk t).view.emb (ix3 u n o)) 0) ((((cfg0.win 6).blk t).view.emb (ix3 u n o)) 1) ((((cfg0.win 6).blk t).view.emb (ix3 u n o)) 2)
  unfold qkvAt
  rw [hcol]
  refine congrArg₂ (· + ·) (Finset.sum_congr rfl fun ch _ => ?_) ?_
  · have r0 := iblk0_0_apply V c t (ix3 (0 : Fin 1) ch n) (ix3 ((((cfg0.win 6).blk t).view.emb (ix3 u n o)) 0) ch ((((cfg0.win 6).blk t).view.emb (ix3 u n o)) 1))
        (E0.trans (by show _ = win0_0.index t (0 : Fin 3) * 1 + 0; omega)) (by show ch.val = win0_0.index t (1 : Fin 3) * 512 + ch.val; omega)
        (E1.trans (by show _ = win0_0.index t (2 : Fin 3) * 1024 + n.val; omega))
    have r1 := iblk0_1_apply V c t (ix3 (0 : Fin 1) (0 : Fin 1) ch) (ix3 ((((cfg0.win 6).blk t).view.emb (ix3 u n o)) 0) (0 : Fin 1) ch)
        (E0.trans (by show _ = win0_1.index t (0 : Fin 3) * 1 + 0; omega)) (by show 0 = win0_1.index t (1 : Fin 3) * 1 + 0; omega)
        (by show ch.val = win0_1.index t (2 : Fin 3) * 512 + ch.val; omega)
    have r2 := iblk0_2_apply V c t (ix3 (0 : Fin 1) (0 : Fin 1) ch) (ix3 ((((cfg0.win 6).blk t).view.emb (ix3 u n o)) 0) (0 : Fin 1) ch)
        (E0.trans (by show _ = win0_2.index t (0 : Fin 3) * 1 + 0; omega)) (by show 0 = win0_2.index t (1 : Fin 3) * 1 + 0; omega)
        (by show ch.val = win0_2.index t (2 : Fin 3) * 512 + ch.val; omega)
    have r3 := iblk0_3_apply V c t (ix2 ch (qkvCol 512 o.val)) (ix2 ch (qkvCol 512 o.val))
        (by show ch.val = win0_3.index t (0 : Fin 2) * 512 + ch.val; omega)
        (by show (qkvCol 512 o.val).val = win0_3.index t (1 : Fin 2) * 1536 + (qkvCol 512 o.val).val; omega)
    exact congrArg₂ (· * ·) (congrArg₂ (· + ·) (congrArg₂ (· * ·) r0 r1) r2) r3
  · exact iblk0_4_apply V c t (ix1 (qkvCol 512 o.val)) (ix1 (qkvCol 512 o.val))
      (by show (qkvCol 512 o.val).val = win0_4.index t (0 : Fin 1) * 1536 + (qkvCol 512 o.val).val; omega)

/-- What point `t` writes back to window 7's array is block `t` of the projected array at column offset 1024: the
    stored tile at `(u, n, o)` is the body's sum over the channels, each block entry it reads is the entry of its
    array that the block's position names, and the tile's entry sits at (batch entry, 1024 × tile + n, o). -/
theorem flushed0_7_eq (c : Dev nD) (t : Fin cfg0.N) :
    (dat0 (F := Ideal) V c).flushed 7 t = ((cfg0.win 7).blk t).view.read (Elt Ideal) (QKV 1024 (V c main_v21) (V c main_v19) (V c main_v20) (V c main_v24) (V c main_v25)) := by
  show (cfg0.win 7).cut (grid0.coords t) ((dat0 V c).after 7 t) = _
  rw [after0_7]
  unfold out0_7
  rw [View.canon_unit_zero zeros0_3]
  simp only [View.ld_unit_zero (S := S1x512x1024) zeros0_3, View.ld_unit_zero (S := S1x1x512) zeros0_3, View.ld_unit_zero (S := S512x1536) zeros0_2, View.ld_unit_zero (S := S1536) zeros0_1]
  obtain ⟨a00, a01, a02, a10, a11, a12, a20, a21, a22, a30, a31, a40, b50, b51, a52, a60, a61, a62, a70, a71, a72⟩ := idx_facts0 t
  funext j
  obtain ⟨u, n, o, rfl⟩ : ∃ (u : Fin 1) (n : Fin 1024) (o : Fin 512), j = ix3 u n o := ⟨j 0, j 1, j 2, eq_ix3 j⟩
  have hu : u.val = 0 := by omega
  have hn : n.val < 1024 := n.isLt
  have ho : o.val < 512 := o.isLt
  refine (k0_pay4_apply (iblk0 V c 0 t) (iblk0 V c 1 t) (iblk0 V c 2 t) (iblk0 V c 3 t) (iblk0 V c 4 t) u n o (qkvCol 1024 o.val) (qkvCol_val 1024 o.val (by omega))).trans ?_
  have E0 : ((((cfg0.win 7).blk t).view.emb (ix3 u n o)) 0).val = win0_7.index t (0 : Fin 3) * 1 + 1 * u.val := rfl
  have E1 : ((((cfg0.win 7).blk t).view.emb (ix3 u n o)) 1).val = win0_7.index t (1 : Fin 3) * 1024 + 1 * n.val := rfl
  have E2 : ((((cfg0.win 7).blk t).view.emb (ix3 u n o)) 2).val = win0_7.index t (2 : Fin 3) * 512 + 1 * o.val := rfl
  have hcol : qkvCol 1024 ((((cfg0.win 7).blk t).view.emb (ix3 u n o)) 2).val = qkvCol 1024 o.val := congrArg (qkvCol 1024) (E2.trans (by omega))
  show _ = qkvAt 1024 (V c main_v21) (V c main_v19) (V c main_v20) (V c main_v24) (V c main_v25) ((((cfg0.win 7).blk t).view.emb (ix3 u n o)) 0) ((((cfg0.win 7).blk t).view.emb (ix3 u n o)) 1) ((((cfg0.win 7).blk t).view.emb (ix3 u n o)) 2)
  unfold qkvAt
  rw [hcol]
  refine congrArg₂ (· + ·) (Finset.sum_congr rfl fun ch _ => ?_) ?_
  · have r0 := iblk0_0_apply V c t (ix3 (0 : Fin 1) ch n) (ix3 ((((cfg0.win 7).blk t).view.emb (ix3 u n o)) 0) ch ((((cfg0.win 7).blk t).view.emb (ix3 u n o)) 1))
        (E0.trans (by show _ = win0_0.index t (0 : Fin 3) * 1 + 0; omega)) (by show ch.val = win0_0.index t (1 : Fin 3) * 512 + ch.val; omega)
        (E1.trans (by show _ = win0_0.index t (2 : Fin 3) * 1024 + n.val; omega))
    have r1 := iblk0_1_apply V c t (ix3 (0 : Fin 1) (0 : Fin 1) ch) (ix3 ((((cfg0.win 7).blk t).view.emb (ix3 u n o)) 0) (0 : Fin 1) ch)
        (E0.trans (by show _ = win0_1.index t (0 : Fin 3) * 1 + 0; omega)) (by show 0 = win0_1.index t (1 : Fin 3) * 1 + 0; omega)
        (by show ch.val = win0_1.index t (2 : Fin 3) * 512 + ch.val; omega)
    have r2 := iblk0_2_apply V c t (ix3 (0 : Fin 1) (0 : Fin 1) ch) (ix3 ((((cfg0.win 7).blk t).view.emb (ix3 u n o)) 0) (0 : Fin 1) ch)
        (E0.trans (by show _ = win0_2.index t (0 : Fin 3) * 1 + 0; omega)) (by show 0 = win0_2.index t (1 : Fin 3) * 1 + 0; omega)
        (by show ch.val = win0_2.index t (2 : Fin 3) * 512 + ch.val; omega)
    have r3 := iblk0_3_apply V c t (ix2 ch (qkvCol 1024 o.val)) (ix2 ch (qkvCol 1024 o.val))
        (by show ch.val = win0_3.index t (0 : Fin 2) * 512 + ch.val; omega)
        (by show (qkvCol 1024 o.val).val = win0_3.index t (1 : Fin 2) * 1536 + (qkvCol 1024 o.val).val; omega)
    exact congrArg₂ (· * ·) (congrArg₂ (· + ·) (congrArg₂ (· * ·) r0 r1) r2) r3
  · exact iblk0_4_apply V c t (ix1 (qkvCol 1024 o.val)) (ix1 (qkvCol 1024 o.val))
      (by show (qkvCol 1024 o.val).val = win0_4.index t (0 : Fin 1) * 1536 + (qkvCol 1024 o.val).val; omega)

/-! ## The arrays after the call -/

/-- Window 5's array after the 16 grid points is the projected array at column offset 0. -/
theorem final0_5 (c : Dev nD) :
    (dat0 (F := Ideal) V c).arrAt 5 cfg0.N = QKV 0 (V c main_v21) (V c main_v19) (V c main_v20) (V c main_v24) (V c main_v25) :=
  (dat0 V c).arrAt_eq_of_cover 5 (QKV 0 (V c main_v21) (V c main_v19) (V c main_v20) (V c main_v24) (V c main_v25)) (fun t _ => flushed0_5_eq V c t) cover0_5

/-- Window 6's array after the 16 grid points is the projected array at column offset 512. -/
theorem final0_6 (c : Dev nD) :
    (dat0 (F := Ideal) V c).arrAt 6 cfg0.N = QKV 512 (V c main_v21) (V c main_v19) (V c main_v20) (V c main_v24) (V c main_v25) :=
  (dat0 V c).arrAt_eq_of_cover 6 (QKV 512 (V c main_v21) (V c main_v19) (V c main_v20) (V c main_v24) (V c main_v25)) (fun t _ => flushed0_6_eq V c t) cover0_6

/-- Window 7's array after the 16 grid points is the projected array at column offset 1024. -/
theorem final0_7 (c : Dev nD) :
    (dat0 (F := Ideal) V c).arrAt 7 cfg0.N = QKV 1024 (V c main_v21) (V c main_v19) (V c main_v20) (V c main_v24) (V c main_v25) :=
  (dat0 V c).arrAt_eq_of_cover 7 (QKV 1024 (V c main_v21) (V c main_v19) (V c main_v20) (V c main_v24) (V c main_v25)) (fun t _ => flushed0_7_eq V c t) cover0_7

end Cert.KernelIdeal.Hand

end
-- ==== Proof.KI.Reg1.Runs.lean ====
/-
  The attention region's grid has 4 x 2 x 8 points (batch, query block, key block; the key block innermost). This
  module states what every point of that grid shares: the block of each of the seven windows at a point, read off the
  window's array as the region finds it; that each input's staging buffer holds its block at every point, whether or
  not it was fetched there (where it was not, the block index has not moved); the body's two conditions on the key-block
  coordinate in closed form over the 64 points (first key block: position ≡ 0 mod 8; last key block: position ≡ 7
  mod 8); that the six inputs are live everywhere while the output window is idle, and not written back, except at the
  last key block; the staging memrefs at a point and the three scratch memrefs (running maximum, running normaliser,
  running weighted sum); and the region's entry invariant with those three scratch buffers singled out, every other
  scoped buffer carried along unopened.
-/
import proofs.«150200_j79405355369062_2_alg».proof.Proof.Gen.KernelIdeal.Launch
import proofs.«150200_j79405355369062_2_alg».proof.Proof.Gen.KernelIdeal.Skeleton
import proofs.«150200_j79405355369062_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks of the attention region -/

/-- Window `w`'s block at point `t` of the attention region, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the
    block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals on the innermost grid coordinate -/

/-- The condition of the first conditional (reset of the running statistics), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the second conditional (normalisation and output projection), from the grid coordinates. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the first conditional is taken and the second is not, the output window is idle and not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- Where neither is taken, the same. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- Where the second is taken, the output window is live: the body stores into it. -/
theorem liveAt1_6_C : ∀ t : Fin cfg1.N, ¬cond1_0 (grid1.coords t) → cond1_1 (grid1.coords t) → cfg1.idle 6 (grid1.coords t) = false := by decide +kernel

/-! ## The staging and scratch memrefs -/

/-- One staging buffer of the output window, through which its contents are stated. -/
abbrev VO1_6 : View sig .tc .vmem S1x512x2048 .f32 := (Memref.whole cc1_stg6_0 : Memref sig .tc .vmem S1x512x2048 .f32).view
abbrev ms1_0 (t : Fin cfg1.N) : Memref sig .tc .vmem S1x2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x2048 .f32 := win1_6.stage (cfg1.slots t 6)
abbrev hs1_6 (t : Fin cfg1.N) : (ms1_6 t).IsWhole := hstage1_6 ((cfg1.slots t 6).cast nbuf1_6)
/-- Scratch operand 0 (the running maximum): a whole scoped buffer of the kernel's own, and the view through which its contents are stated. -/
abbrev scM1_0 : Memref sig .tc .vmem S1x2048x1 .f32 := Memref.whole cc1_scratch0
abbrev VS1_0 : View sig .tc .vmem S1x2048x1 .f32 := scM1_0.view
/-- Scratch operand 1 (the running sum): a whole scoped buffer of the kernel's own, and the view through which its contents are stated. -/
abbrev scM1_1 : Memref sig .tc .vmem S1x2048x1 .f32 := Memref.whole cc1_scratch1
abbrev VS1_1 : View sig .tc .vmem S1x2048x1 .f32 := scM1_1.view
/-- Scratch operand 2 (the running accumulator): a whole scoped buffer of the kernel's own, and the view through which its contents are stated. -/
abbrev scM1_2 : Memref sig .tc .vmem S1x2048x512 .f32 := Memref.whole cc1_scratch2
abbrev VS1_2 : View sig .tc .vmem S1x2048x512 .f32 := scM1_2.view

/-- The core's scoped buffers that are neither a staging buffer of this region nor one of its three scratch operands,
    each at some contents: carried through the region unopened. -/
abbrev restO1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region's invariant with the three scratch operands as memrefs owned at some contents, the other scoped buffers
    unopened, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restO1 (F := F) c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]; try rfl

end Cert.KernelIdeal.Hand

end
-- ==== Proof.KI.Reg1.RunA.lean ====
/-
  The body at a point of the FIRST key block (the first condition holds, the second does not). It first overwrites the
  three scratch buffers whole with the reset values (maximum minus infinity, normaliser zero, weighted sum zero), so
  they may hold anything on entry; it then reads the query, key and value blocks and the scratch buffers, and
  overwrites each scratch buffer whole with its updated contents. The output buffer is not touched and is handed back
  as found; the input buffers are handed back as found. The stores each scratch buffer receives are recorded as a
  list of pieces, last first.
-/
import proofs.«150200_j79405355369062_2_alg».proof.Proof.KI.Reg1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the three scratch memrefs, as pieces (last first),
    in the case of the first conditional taken (the running statistics are reset), the second not, with the proof that on whole memrefs — the inputs' at their
    contents, the output's (left idle: no store) at contents handed back untouched, the scratch memrefs at anything (each is wholly stored before it is read) —
    the body runs to the continuation holding the inputs' as they were, the output's untouched and each scratch memref with its pieces written. -/
noncomputable def kernelRun1_A (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) :
    Σ' (L6 : List (View.Piece (Elt F) S1x512x2048 .f32)) (LS0 : List (View.Piece (Elt F) S1x2048x1 .f32)) (LS1 : List (View.Piece (Elt F) S1x2048x1 .f32)), { LS2 : List (View.Piece (Elt F) S1x2048x512 .f32) //
      ∀ (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.KernelIdeal.Hand

end
-- ==== Proof.KI.Reg1.RunB.lean ====
/-
  The body at a point of a MIDDLE key block (neither condition holds). It reads the query, key and value blocks and the
  three scratch buffers — which hold what the point before left — and overwrites each scratch buffer whole with its
  updated contents (new running maximum, new normaliser, new weighted sum). The output buffer is not touched and is
  handed back as found; the input buffers are handed back as found. The stores each scratch buffer receives are
  recorded as a list of pieces, last first.
-/
import proofs.«150200_j79405355369062_2_alg».proof.Proof.KI.Reg1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the three scratch memrefs, as pieces (last first),
    in the case of neither conditional taken, with the proof that on whole memrefs — the inputs' at their
    contents, the output's (left idle: no store) at contents handed back untouched, the scratch memrefs at the contents the point before left —
    the body runs to the continuation holding the inputs' as they were, the output's untouched and each scratch memref with its pieces written. -/
noncomputable def kernelRun1_B (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) :
    Σ' (L6 : List (View.Piece (Elt F) S1x512x2048 .f32)) (LS0 : List (View.Piece (Elt F) S1x2048x1 .f32)) (LS1 : List (View.Piece (Elt F) S1x2048x1 .f32)), { LS2 : List (View.Piece (Elt F) S1x2048x512 .f32) //
      ∀ (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.KernelIdeal.Hand

end
-- ==== Proof.KI.Reg1.RunC.lean ====
/-
  The body at a point of the LAST key block (the first condition fails, the second holds). It updates the three
  scratch buffers as at a middle key block, from what the point before left in them, and then reads the new weighted
  sum and the new normaliser back, together with the projection weights, the bias and the input block, and overwrites
  the output buffer whole — which may hold anything on entry. The input buffers are handed back as found. The stores
  the output buffer and each scratch buffer receive are recorded as lists of pieces, last first.
-/
import proofs.«150200_j79405355369062_2_alg».proof.Proof.KI.Reg1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the three scratch memrefs, as pieces (last first),
    in the case of the first conditional not taken, the second taken (normalisation and output projection), with the proof that on whole memrefs — the inputs' at their
    contents, the output's at anything, the scratch memrefs at the contents the point before left —
    the body runs to the continuation holding the inputs' as they were, the output's buffer and each scratch memref with its pieces written. -/
noncomputable def kernelRun1_C (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) :
    Σ' (L6 : List (View.Piece (Elt F) S1x512x2048 .f32)) (LS0 : List (View.Piece (Elt F) S1x2048x1 .f32)) (LS1 : List (View.Piece (Elt F) S1x2048x1 .f32)), { LS2 : List (View.Piece (Elt F) S1x2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.KernelIdeal.Hand

end
-- ==== Proof.KI.Reg1.lean ====
/-
  What the attention region's buffers hold, point by point. For each of the three kinds of point (first, middle, last
  key block) the pieces stored into a scratch buffer — and, at a last key block, into the output buffer — cover it, so
  its contents afterwards are those pieces read back, whatever it held before. By recursion on the position of the
  point this gives a four-tuple after every point: the output block, the running maximum, the running normaliser and
  the running weighted sum, the last three computed from what the point before left (from nothing at a first key
  block, where they are reset). The region's invariant before a point says the three scratch buffers hold exactly the
  previous point's three components (anything before the first point), every other scoped buffer being carried along
  at some contents. With it, the body meets its obligation at every point: handed the inputs' blocks, it leaves the
  inputs as they were, the output buffer untouched (or, at a last key block, at the tuple's first component), and the
  invariant of the next point. The invariant holds on entry and gives the entry invariant back after the last point.
-/
import proofs.«150200_j79405355369062_2_alg».proof.Proof.KI.Reg1.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In the case where the statistics are reset and nothing is projected nothing is stored into the output window (idle there and not written back): no pieces — a placeholder
    (junk read back) that nothing consults. -/
def out1_A_6 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) : Vec F S1x512x2048 .f32 :=
  VO1_6.read (Elt F) (VO1_6.writes (Elt F) VO1_6.junk (kernelRun1_A c i arg3 harg3 arg4 harg4 arg5 harg5 arg6 harg6 arg7 harg7 arg8 harg8 arg9 harg9 arg10 harg10 arg11 harg11 arg12 harg12 hc0 hc1 x0 x1 x2 x3 x4 x5).1)

/-- In the case where the statistics are reset and nothing is projected the pieces stored into scratch operand 0 (the running maximum) cover it: whole stores. -/
theorem scover1_A_0 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (y : S1x2048x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.1 S1x2048x1.size (by sl_kernel_rfl) y

/-- What that case leaves in scratch operand 0: its pieces read back over junk. -/
def sout1_A_0 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) : Vec F S1x2048x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4 x5).2.1)

/-- In the case where the statistics are reset and nothing is projected the pieces stored into scratch operand 1 (the running sum) cover it: whole stores. -/
theorem scover1_A_1 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (y : S1x2048x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.2.1 S1x2048x1.size (by sl_kernel_rfl) y

/-- What that case leaves in scratch operand 1: its pieces read back over junk. -/
def sout1_A_1 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) : Vec F S1x2048x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3 x4 x5).2.2.1)

/-- In the case where the statistics are reset and nothing is projected the pieces stored into scratch operand 2 (the running accumulator) cover it: whole stores. -/
theorem scover1_A_2 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (y : S1x2048x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.2.2.1 S1x2048x512.size (by sl_kernel_rfl) y

/-- What that case leaves in scratch operand 2: its pieces read back over junk. -/
def sout1_A_2 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) : Vec F S1x2048x512 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 x0 x1 x2 x3 x4 x5).2.2.2.1)

/-- In the case where neither conditional is taken nothing is stored into the output window (idle there and not written back): no pieces — a placeholder
    (junk read back) that nothing consults. -/
def out1_B_6 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x512x2048 .f32 :=
  VO1_6.read (Elt F) (VO1_6.writes (Elt F) VO1_6.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).1)

/-- In the case where neither conditional is taken the pieces stored into scratch operand 0 (the running maximum) cover it: whole stores. -/
theorem scover1_B_0 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x2048x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S1x2048x1.size (by sl_kernel_rfl) y

/-- What that case leaves in scratch operand 0: its pieces read back over junk. -/
def sout1_B_0 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x2048x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1)

/-- In the case where neither conditional is taken the pieces stored into scratch operand 1 (the running sum) cover it: whole stores. -/
theorem scover1_B_1 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x2048x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1x2048x1.size (by sl_kernel_rfl) y

/-- What that case leaves in scratch operand 1: its pieces read back over junk. -/
def sout1_B_1 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x2048x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1)

/-- In the case where neither conditional is taken the pieces stored into scratch operand 2 (the running accumulator) cover it: whole stores. -/
theorem scover1_B_2 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x2048x512.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S1x2048x512.size (by sl_kernel_rfl) y

/-- What that case leaves in scratch operand 2: its pieces read back over junk. -/
def sout1_B_2 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x2048x512 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1)

/-- In the case where the normalised accumulator is projected into the output the pieces stored into the output window cover its block (one whole store). -/
theorem cover1_C_6 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x512x2048.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1 S1x512x2048.size (by sl_kernel_rfl) y

/-- What that case leaves in the output window's staging buffer: its pieces read back over junk. -/
def out1_C_6 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x512x2048 .f32 :=
  VO1_6.read (Elt F) (VO1_6.writes (Elt F) VO1_6.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1)

/-- In the case where the normalised accumulator is projected into the output the pieces stored into scratch operand 0 (the running maximum) cover it: whole stores. -/
theorem scover1_C_0 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x2048x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S1x2048x1.size (by sl_kernel_rfl) y

/-- What that case leaves in scratch operand 0: its pieces read back over junk. -/
def sout1_C_0 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x2048x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1)

/-- In the case where the normalised accumulator is projected into the output the pieces stored into scratch operand 1 (the running sum) cover it: whole stores. -/
theorem scover1_C_1 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x2048x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1x2048x1.size (by sl_kernel_rfl) y

/-- What that case leaves in scratch operand 1: its pieces read back over junk. -/
def sout1_C_1 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x2048x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1)

/-- In the case where the normalised accumulator is projected into the output the pieces stored into scratch operand 2 (the running accumulator) cover it: whole stores. -/
theorem scover1_C_2 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) (y : S1x2048x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S1x2048x512.size (by sl_kernel_rfl) y

/-- What that case leaves in scratch operand 2: its pieces read back over junk. -/
def sout1_C_2 (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) : Vec F S1x2048x512 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1)

/-! ## What the output window and the carried scratch hold after each point -/

/-- THE ACCUMULATION. What the output window's staging buffer and the three scratch operands the kernel carries between
    points (running maximum, running sum, running accumulator) hold after the body at position `n`: the case the closed
    forms select at `n`, run at the point's memrefs and input blocks, the scratch operands read at what the point
    before left in them. An assignment of the conditions no point meets is no case. -/
def outsAt1 (c : Dev nD) : (n : ℕ) → n < cfg1.N → (Vec F S1x512x2048 .f32 × Vec F S1x2048x1 .f32 × Vec F S1x2048x1 .f32 × Vec F S1x2048x512 .f32)
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point where the statistics are reset: that case's contents. -/
theorem outsAt1_A (c : Dev nD) (t : Fin cfg1.N) (h0 : t.val % 8 = 0) (h1 : ¬t.val % 8 = 7) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point where neither conditional is taken: that case's contents, over what the point before left. -/
theorem outsAt1_B (c : Dev nD) (t : Fin cfg1.N) (h0 : ¬t.val % 8 = 0) (h1 : ¬t.val % 8 = 7) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point where the output is projected: that case's contents, over what the point before left. -/
theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch operand at anything);
    afterwards the three scratch operands at what the point before left in them, the other scoped buffers unopened,
    and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restO1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restO1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ restO1 (F := F) c) ∗ (∃ r, prngReg c r)) := by
  cases n with
  | zero => exact absurd rfl hz
  | succ n => rfl

/-! ## The region's proof data -/

/-- The proof data of the attention region on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the closed forms say which case the point is in;
    the invariant hands the body the three scratch operands at what the point before left (at anything at the first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0 sout1_C_1 sout1_C_2; (try dsimp only)
      by_cases hz : t.val = 0
      · exfalso; omega
      · rw [PhiS1_castSucc V c t, PhiS1_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch operands' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Run.lean ====
/-
  The two grids inside @main: the run of the whole program from the two kernels' proof data.

  @main is seven items in a row: three stretches of host operations (the group statistics; the variance function; the
  per-channel scale and shift, the re-laid input and the stacked weight and bias), the first grid (it writes the three
  projections q, k, v), one host operation (the output weight rounded), the second grid (attention, output projection and
  residual), and the final re-shaping of the result. Between two items every buffer of the TensorCore that outlives a
  grid is held whole at named contents: the launch memory, then each stretch's operations applied in order, and after a
  grid the arrays its windows write back at what the pipeline's accounting computes from the proof data (every other
  buffer as it was). Given, for each grid, proof data whose arrays are the contents the grid is entered with, the
  body's obligation at every grid point, and (for the second grid) that the scratch invariant starts from and returns
  to "the scoped buffers at anything", every weakly fair execution of @main terminates without a fault and ends with
  every such buffer at the last of these contents. No item writes an argument array, so each ends as launched; the
  result is the re-shaping of what the second grid leaves in its output array.
-/
import proofs.«150200_j79405355369062_2_alg».proof.Proof.Gen.KernelIdeal.Launch
import proofs.«150200_j79405355369062_2_alg».proof.Proof.Gen.KernelIdeal.Skeleton
import proofs.«150200_j79405355369062_2_alg».proof.Proof.Gen.KernelIdeal.Points
import proofs.«150200_j79405355369062_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

/-- The TensorCore's buffer contents on every core, read at the TensorCore's references. -/
abbrev Conts (F : FTy → Type) [FloatOps F] : Type := (c : Dev nD) → (b : Ref sig .tc) → Buf (Elt F) ((c : Thread nD τ).loc b)

/-- The first grid's proof data from what its body leaves in each window's buffer: the arrays as the grid is entered,
    the class invariant (the scoped buffers at anything and the generator register), full shares, nothing owed. -/
def mk0 {F : FTy → Type} [FloatOps F]
    (after0 : Conts F → (c : Dev nD) → (w : Fin cfg0.W) → Fin cfg0.N → (cfg0.win w).block.Idx → Elt F (cfg0.win w).elt)
    (V : Conts F) (c : Dev nD) : Dat τ (Elt F) Unit ℕ (UR sig nD τ) ℕ cfg0 c where
  A w := V c (Pipeline.arrRef spec0 w)
  after := after0 V c
  Φ _ := Pipeline.ΦA spec0 c
  q _ := fullShare
  owed _ := 0

/-- The second grid's proof data from what its body leaves and from its invariant (which tracks the carried scratch). -/
def mk1 {F : FTy → Type} [FloatOps F]
    (after1 : Conts F → (c : Dev nD) → (w : Fin cfg1.W) → Fin cfg1.N → (cfg1.win w).block.Idx → Elt F (cfg1.win w).elt)
    (Φ1 : Conts F → (c : Dev nD) → Fin (cfg1.N + 1) → sProp (MT nD τ sig Unit (Elt F) ℕ (UR sig nD τ) ℕ))
    (V : Conts F) (c : Dev nD) : Dat τ (Elt F) Unit ℕ (UR sig nD τ) ℕ cfg1 c where
  A w := V c (Pipeline.arrRef spec1 w)
  after := after1 V c
  Φ := Φ1 V c
  q _ := fullShare
  owed _ := 0

/-- What the assembly asks of the two grids, each a function of the contents its grid is entered with: what the bodies
    leave, the second grid's invariant, the bodies' obligations, and that the invariant starts from and returns to the
    scoped buffers at anything. -/
structure Halves (F : FTy → Type) [FloatOps F] where
  after0 : Conts F → (c : Dev nD) → (w : Fin cfg0.W) → Fin cfg0.N → (cfg0.win w).block.Idx → Elt F (cfg0.win w).elt
  body0 : ∀ V c, BodyObligation (mk0 after0 V c) (defs₀ (F := F)) Variants.none () Set.univ
  after1 : Conts F → (c : Dev nD) → (w : Fin cfg1.W) → Fin cfg1.N → (cfg1.win w).block.Idx → Elt F (cfg1.win w).elt
  Φ1 : Conts F → (c : Dev nD) → Fin (cfg1.N + 1) → sProp (MT nD τ sig Unit (Elt F) ℕ (UR sig nD τ) ℕ)
  body1 : ∀ V c, BodyObligation (mk1 after1 Φ1 V c) (defs₀ (F := F)) Variants.none () Set.univ
  hin1 : ∀ V c, (Pipeline.ΦA spec1 c : sProp (MT nD τ sig Unit (Elt F) ℕ (UR sig nD τ) ℕ)) ⊢ Φ1 V c 0
  hout1 : ∀ V c, Φ1 V c (Fin.last cfg1.N) ⊢ (Pipeline.ΦA spec1 c : sProp (MT nD τ sig Unit (Elt F) ℕ (UR sig nD τ) ℕ))

/-- The two grids' proof data at given entry contents. -/
abbrev Halves.D0 {F : FTy → Type} [FloatOps F] (H : Halves F) (V : Conts F) (c : Dev nD) := mk0 H.after0 V c
abbrev Halves.D1 {F : FTy → Type} [FloatOps F] (H : Halves F) (V : Conts F) (c : Dev nD) := mk1 H.after1 H.Φ1 V c

variable {F : FTy → Type} [FloatOps F]

local notation "𝕄" => MT nD τ sig Unit (Elt F) ℕ (UR sig nD τ) ℕ

variable (H : Halves F) (m : (ℓ : Loc nD τ sig) → Buf (Elt F) ℓ) (ρ : Dev nD → PrngReg)

/-! ## The buffer contents at each boundary -/

/-- When the first grid is entered: the launch memory through the three host stretches. -/
abbrev W3 : Dev nD → Valuation τ sig (Elt F) := fun c => Gen.V3 m c
abbrev E0 : Conts F := fun c b => W3 m c b
/-- When it is left: its arrays at what the pipeline leaves, every other buffer as entered. -/
def W4 (c : Dev nD) : Valuation τ sig (Elt F) :=
  Pipeline.withArrays spec0 c (W3 m c) fun w => (H.D0 (E0 m) c).arrAt w cfg0.N
theorem W4_arr (c : Dev nD) (w : Fin cfg0.W) :
    W4 H m c (Proc.devRef .tc (Pipeline.arrRef spec0 w)) = (H.D0 (E0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 H m c (Proc.devRef .tc b) = W3 m c (Proc.devRef .tc b) := by
  unfold W4; exact Pipeline.withArrays_of_ne spec0 c _ _ b hb
abbrev X4 : Conts F := fun c b => W4 H m c b
theorem hF0 (c : Dev nD) (w : Fin cfg0.W) : (H.D0 (E0 m) c).arrAt w cfg0.N = X4 H m c (Pipeline.arrRef spec0 w) :=
  (W4_arr H m c w).symm
theorem hrest0 (c : Dev nD) : ∀ b, b ∉ Finset.univ.image (Pipeline.arrRef spec0) → X4 H m c b = E0 m c b :=
  fun b hb => W4_of_ne H m c b fun w e => hb (Finset.mem_image.mpr ⟨w, Finset.mem_univ _, e⟩)

/-- When the second grid is entered: the output weight rounded. -/
abbrev W5 : Dev nD → Valuation τ sig (Elt F) := fun c => StableHlo.after hostOps1 (W4 H m c)
abbrev E1 : Conts F := fun c b => W5 H m c b
/-- When it is left. -/
def W6 (c : Dev nD) : Valuation τ sig (Elt F) :=
  Pipeline.withArrays spec1 c (W5 H m c) fun w => (H.D1 (E1 H m) c).arrAt w cfg1.N
theorem W6_arr (c : Dev nD) (w : Fin cfg1.W) :
    W6 H m c (Proc.devRef .tc (Pipeline.arrRef spec1 w)) = (H.D1 (E1 H m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 H m c (Proc.devRef .tc b) = W5 H m c (Proc.devRef .tc b) := by
  unfold W6; exact Pipeline.withArrays_of_ne spec1 c _ _ b hb
abbrev X6 : Conts F := fun c b => W6 H m c b
theorem hF1 (c : Dev nD) (w : Fin cfg1.W) : (H.D1 (E1 H m) c).arrAt w cfg1.N = X6 H m c (Pipeline.arrRef spec1 w) :=
  (W6_arr H m c w).symm
theorem hrest1 (c : Dev nD) : ∀ b, b ∉ Finset.univ.image (Pipeline.arrRef spec1) → X6 H m c b = E1 H m c b :=
  fun b hb => W6_of_ne H m c b fun w e => hb (Finset.mem_image.mpr ⟨w, Finset.mem_univ _, e⟩)
/-- At the end: the result re-shaped. -/
abbrev W7 : Dev nD → Valuation τ sig (Elt F) := fun c => StableHlo.after hostOps2 (W6 H m c)

/-! ## The proof data family and the thread state -/

/-- Both pipelines' proof data, each at its grid's entry contents. -/
def pdats : (p : Fin 2) → (c : Dev nD) → Dat τ (Elt F) Unit ℕ (UR sig nD τ) ℕ (Pipeline.pin (pcfgs (F := F)) Gen.adm p) c
  | ⟨0, _⟩ => fun c => H.D0 (E0 m) c
  | ⟨1, _⟩ => fun c => H.D1 (E1 H m) c
abbrev 𝒱₀ : Variants := Variants.none
abbrev LL : GSem nD τ sig → Finset Unit := fun _ => ∅
abbrev lvv : GSem nD τ sig → Unit → ℕ := fun _ _ => 0
/-- What rides beside the buffers through every item: the generator register at some state, and the core owing nothing. -/
abbrev RR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ LL lvv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The grids as items -/

set_option backward.isDefEq.respectTransparency.types false in
/-- The first grid: entered from every long-lived buffer at W3, left at W4. -/
def reg0 : Pipeline.RegionSeg (pcfgs (F := F)) Gen.adm (pdats H m) () defs₀ 𝒱₀ LL lvv 0 where
  win := launch0.win.to₀
  block_pos := launch0.block_pos
  stage_whole := launch0.stage_whole
  K := PEmpty
  osem k := k.elim
  ho := Pipeline.OwnSemFacts.none _
  hbody c := (H.body0 (E0 m) c).loose
  hwaits := Pipeline.hwaits_of_owed_zero _ _ _ _ LL lvv 0 fun _ _ => rfl
  pre c := iprop(StableHlo.held (c : Thread nD τ) (Pipeline.ucRefs τ sig) (W3 m c) ∗ RR c)
  post c := iprop(StableHlo.held (c : Thread nD τ) (Pipeline.ucRefs τ sig) (W4 H m c) ∗ RR c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats H m) launch0.win launch0.arr_whole c
      ((pdats H m 0 c).share_full fun _ => rfl) (E0 m c) fun _ => rfl
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats H m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats H m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats H m) ((pdats H m 0 c).share_full fun _ => rfl)
      (E0 m c) (X4 H m c) ((pdats H m 0 c).arrAt · cfg0.N) (hF0 H m c) (hrest0 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second grid: entered from every long-lived buffer at W5, left at W6; its scratch invariant starts from and
    returns to the scoped buffers at anything. -/
def reg1 : Pipeline.RegionSeg (pcfgs (F := F)) Gen.adm (pdats H m) () defs₀ 𝒱₀ LL lvv 1 where
  win := launch1.win.to₀
  block_pos := launch1.block_pos
  stage_whole := launch1.stage_whole
  K := PEmpty
  osem k := k.elim
  ho := Pipeline.OwnSemFacts.none _
  hbody c := (H.body1 (E1 H m) c).loose
  hwaits := Pipeline.hwaits_of_owed_zero _ _ _ _ LL lvv 1 fun _ _ => rfl
  pre c := iprop(StableHlo.held (c : Thread nD τ) (Pipeline.ucRefs τ sig) (W5 H m c) ∗ RR c)
  post c := iprop(StableHlo.held (c : Thread nD τ) (Pipeline.ucRefs τ sig) (W6 H m c) ∗ RR c)
  X c := iprop(∃ r, prngReg c r)
  Y c := iprop(∃ r, prngReg c r)
  Z c := Pipeline.unscopedRest (Ix := Unit) (Name := ℕ) (U := UR sig nD τ) (Lvl := ℕ) spec1 c (E1 H m c)
  hentry c := by
    rw [Pipeline.ownSems0_none]
    have hsplit := Pipeline.arrays_of_unscopedBufs (p := 1) (pcfgs (F := F)) Gen.adm (pdats H m) launch1.win launch1.arr_whole c
      ((pdats H m 1 c).share_full fun _ => rfl) (E1 H m c) fun _ => rfl
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (H.hin1 (E1 H m) c)
    unfold Pipeline.ΦA
    iintro ⟨Hp, -, Hr⟩
    isplitl [Hr]; · iexact Hr
    iexact Hp
  hout c := by
    refine BIBase.Entails.trans (H.hout1 (E1 H m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats H m) ((pdats H m 1 c).share_full fun _ => rfl)
      (E1 H m c) (X6 H m c) ((pdats H m 1 c).arrAt · cfg1.N) (hF1 H m c) (hrest1 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

abbrev segs : List (Pipeline.Seg (pcfgs (F := F)) Gen.adm (pdats H m) () defs₀ 𝒱₀ LL lvv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 H m),
    .host (hseg hostOps1 hostOps1_sub hostOps1_fresh (W4 H m)),
    .region (reg1 H m),
    .host (hseg hostOps2 hostOps2_sub hostOps2_fresh (W6 H m)) ]

set_option backward.isDefEq.respectTransparency.types false in
/-- Every weakly fair execution of @main from memory m with zero counters terminates without a fault, and every
    long-lived TensorCore buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 H m c b) :=
  Pipeline.θ_run_regions_kit_dev (pcfgs (F := F)) Gen.adm (pdats H m) () cellOf_inj emb₁ defs₀ 𝒱₀ LL lvv m ρ main (fun _ => segs H m)
    (fun c Q => by
      rewrite [main_chain c, Seg.run_eq_chain,
        show (segs H m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ RR c))
    (Tₙ := fun c => iprop(StableHlo.held (c : Thread nD τ) (Pipeline.ucRefs τ sig) (W7 H m c) ∗ ∃ r, prngReg c r))
    (hch := fun c => ⟨.rfl, .rfl, .rfl, .rfl, .rfl, .rfl, .rfl, show (iprop(StableHlo.held (c : Thread nD τ) (Pipeline.ucRefs τ sig) (W7 H m c) ∗ RR c) : sProp 𝕄)
        ⊢ iprop(iprop(StableHlo.held (c : Thread nD τ) (Pipeline.ucRefs τ sig) (W7 H m c) ∗ ∃ r, prngReg c r) ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach LL lvv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 H m c b)
    (hfin := fun c s' => by
      iintro ⟨⟨Hh, -⟩, HSI⟩
      unfold StableHlo.held
      imodintro
      iapply (pointsTo_read_all (Pipeline.ucRefs τ sig) (fun b => (((c : Thread nD τ)).1, b)) (W7 H m c) s')
      isplitl [Hh] <;> iassumption)
    (hQ := fun s h c => h c)

end Cert.KernelIdeal.Hand

end
-- ==== Proof.KI.Frame.lean ====
/-
  What the run of the whole program says about the argument arrays and about the result.

  No host operation writes an argument array and no grid writes one back (ten of them are no array of either grid; the
  output bias is an INPUT array of the second grid, which leaves input arrays as it found them), so the last boundary's
  contents at an argument are the launch memory's: the frame claim. The result buffer is written by the last host
  operation only: it is the re-shaping of what the second grid leaves in its output array.
-/
import proofs.«150200_j79405355369062_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]
variable (H : Halves F) (m : (ℓ : Loc nD τ sig) → Buf (Elt F) ℓ) (ρ : Dev nD → PrngReg)

/-- A buffer that no host stretch writes and that is an array of neither grid holds its launch contents at the end. -/
theorem W7_kept (c : Dev nD) (b : Ref sig .tc) (h7 : b ∉ hostOps2_W) (h6 : ∀ w, Pipeline.arrRef spec1 w ≠ b) (h5 : b ∉ hostOps1_W)
    (h4 : ∀ w, Pipeline.arrRef spec0 w ≠ b) (h3 : b ∉ hostOps0_2_W) (h2 : b ∉ hostOps0_1_W) (h1 : b ∉ hostOps0_W) :
    W7 H m c (Proc.devRef .tc b) = m ((c : Thread nD τ).loc b) :=
  calc W7 H m c (Proc.devRef .tc b)
    _ = W6 H m c (Proc.devRef .tc b) := StableHlo.after_of_writes_sub hostOps2 _ hostOps2_writes h7
    _ = W5 H m c (Proc.devRef .tc b) := W6_of_ne H m c b h6
    _ = W4 H m c (Proc.devRef .tc b) := StableHlo.after_of_writes_sub hostOps1 _ hostOps1_writes h5
    _ = W3 m c (Proc.devRef .tc b) := W4_of_ne H m c b h4
    _ = Gen.V2 m c (Proc.devRef .tc b) := Gen.V3_of m c b h3
    _ = Gen.V1 m c (Proc.devRef .tc b) := Gen.V2_of m c b h2
    _ = Gen.V0 m c (Proc.devRef .tc b) := Gen.V1_of m c b h1
    _ = m ((c : Thread nD τ).loc b) := rfl

theorem W7_main_arg0 (c : Dev nD) : W7 H m c (Proc.devRef .tc main_arg0) = m ((c : Thread nD τ).loc main_arg0) :=
  W7_kept H m c main_arg0 (by decide) (by decide) (by decide) (by decide) (by decide) (by decide) (by decide)
theorem W7_main_arg1 (c : Dev nD) : W7 H m c (Proc.devRef .tc main_arg1) = m ((c : Thread nD τ).loc main_arg1) :=
  W7_kept H m c main_arg1 (by decide) (by decide) (by decide) (by decide) (by decide) (by decide) (by decide)
theorem W7_main_arg2 (c : Dev nD) : W7 H m c (Proc.devRef .tc main_arg2) = m ((c : Thread nD τ).loc main_arg2) :=
  W7_kept H m c main_arg2 (by decide) (by decide) (by decide) (by decide) (by decide) (by decide) (by decide)
theorem W7_main_arg3 (c : Dev nD) : W7 H m c (Proc.devRef .tc main_arg3) = m ((c : Thread nD τ).loc main_arg3) :=
  W7_kept H m c main_arg3 (by decide) (by decide) (by decide) (by decide) (by decide) (by decide) (by decide)
theorem W7_main_arg4 (c : Dev nD) : W7 H m c (Proc.devRef .tc main_arg4) = m ((c : Thread nD τ).loc main_arg4) :=
  W7_kept H m c main_arg4 (by decide) (by decide) (by decide) (by decide) (by decide) (by decide) (by decide)
theorem W7_main_arg5 (c : Dev nD) : W7 H m c (Proc.devRef .tc main_arg5) = m ((c : Thread nD τ).loc main_arg5) :=
  W7_kept H m c main_arg5 (by decide) (by decide) (by decide) (by decide) (by decide) (by decide) (by decide)
theorem W7_main_arg6 (c : Dev nD) : W7 H m c (Proc.devRef .tc main_arg6) = m ((c : Thread nD τ).loc main_arg6) :=
  W7_kept H m c main_arg6 (by decide) (by decide) (by decide) (by decide) (by decide) (by decide) (by decide)
theorem W7_main_arg7 (c : Dev nD) : W7 H m c (Proc.devRef .tc main_arg7) = m ((c : Thread nD τ).loc main_arg7) :=
  W7_kept H m c main_arg7 (by decide) (by decide) (by decide) (by decide) (by decide) (by decide) (by decide)
theorem W7_main_arg8 (c : Dev nD) : W7 H m c (Proc.devRef .tc main_arg8) = m ((c : Thread nD τ).loc main_arg8) :=
  W7_kept H m c main_arg8 (by decide) (by decide) (by decide) (by decide) (by decide) (by decide) (by decide)
theorem W7_main_arg9 (c : Dev nD) : W7 H m c (Proc.devRef .tc main_arg9) = m ((c : Thread nD τ).loc main_arg9) :=
  W7_kept H m c main_arg9 (by decide) (by decide) (by decide) (by decide) (by decide) (by decide) (by decide)
/-- The output bias is the second grid's sixth input window's array: the grid hands input arrays back as entered. -/
theorem W7_main_arg10 (c : Dev nD) : W7 H m c (Proc.devRef .tc main_arg10) = m ((c : Thread nD τ).loc main_arg10) :=
  calc W7 H m c (Proc.devRef .tc main_arg10)
    _ = W6 H m c (Proc.devRef .tc main_arg10) := StableHlo.after_of_writes_sub hostOps2 _ hostOps2_writes (by decide)
    _ = W5 H m c (Proc.devRef .tc main_arg10) := (W6_arr H m c 5).trans ((H.D1 (E1 H m) c).arrAt_in 5 rfl _)
    _ = W4 H m c (Proc.devRef .tc main_arg10) := StableHlo.after_of_writes_sub hostOps1 _ hostOps1_writes (by decide)
    _ = W3 m c (Proc.devRef .tc main_arg10) := W4_of_ne H m c main_arg10 (by decide)
    _ = Gen.V2 m c (Proc.devRef .tc main_arg10) := Gen.V3_of m c main_arg10 (by decide)
    _ = Gen.V1 m c (Proc.devRef .tc main_arg10) := Gen.V2_of m c main_arg10 (by decide)
    _ = Gen.V0 m c (Proc.devRef .tc main_arg10) := Gen.V1_of m c main_arg10 (by decide)
    _ = m ((c : Thread nD τ).loc main_arg10) := rfl

include H in
/-- The frame: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W7_main_arg0 H m c),
    (h c _ (mem_uc main_arg1 (by decide))).trans (W7_main_arg1 H m c),
    (h c _ (mem_uc main_arg2 (by decide))).trans (W7_main_arg2 H m c),
    (h c _ (mem_uc main_arg3 (by decide))).trans (W7_main_arg3 H m c),
    (h c _ (mem_uc main_arg4 (by decide))).trans (W7_main_arg4 H m c),
    (h c _ (mem_uc main_arg5 (by decide))).trans (W7_main_arg5 H m c),
    (h c _ (mem_uc main_arg6 (by decide))).trans (W7_main_arg6 H m c),
    (h c _ (mem_uc main_arg7 (by decide))).trans (W7_main_arg7 H m c),
    (h c _ (mem_uc main_arg8 (by decide))).trans (W7_main_arg8 H m c),
    (h c _ (mem_uc main_arg9 (by decide))).trans (W7_main_arg9 H m c),
    (h c _ (mem_uc main_arg10 (by decide))).trans (W7_main_arg10 H m c)⟩)
    (run_all H m ρ)

/-- The result buffer at the end: the last host operation's re-shaping of the second grid's output array. -/
theorem W7_result (c : Dev nD) :
    W7 H m c (Proc.devRef .tc main_v29)
      = shapeCast S4x512x64x64 ((H.D1 (E1 H m) c).arrAt 6 cfg1.N) shapeCasts_S4x512x4096_S4x512x64x64 := by
  have h : W7 H m c (Proc.devRef .tc main_v29) = shapeCast S4x512x64x64 (W6 H m c (Proc.devRef .tc main_v28)) shapeCasts_S4x512x4096_S4x512x64x64 := by
    show StableHlo.after hostOps2 (W6 H m c) (Proc.devRef .tc main_v29) = _
    after_results
    rfl
  rw [h, W6_arr H m c 6]

/-- The run with the result named. -/
theorem run_result : θ_run defs (onTc (τ := τ) (main (F := F))) ⟨m, fun _ => 0, ρ⟩ (fun r => ∀ c : Dev nD,
      r.2.mem ((c.tc : Thread nD τ).loc main_v29)
          = shapeCast S4x512x64x64 ((H.D1 (E1 H m) c).arrAt 6 cfg1.N) shapeCasts_S4x512x4096_S4x512x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v29 (by decide))).trans (W7_result H m c),
    (h c _ (mem_uc main_arg0 (by decide))).trans (W7_main_arg0 H m c),
    (h c _ (mem_uc main_arg1 (by decide))).trans (W7_main_arg1 H m c),
    (h c _ (mem_uc main_arg2 (by decide))).trans (W7_main_arg2 H m c),
    (h c _ (mem_uc main_arg3 (by decide))).trans (W7_main_arg3 H m c),
    (h c _ (mem_uc main_arg4 (by decide))).trans (W7_main_arg4 H m c),
    (h c _ (mem_uc main_arg5 (by decide))).trans (W7_main_arg5 H m c),
    (h c _ (mem_uc main_arg6 (by decide))).trans (W7_main_arg6 H m c),
    (h c _ (mem_uc main_arg7 (by decide))).trans (W7_main_arg7 H m c),
    (h c _ (mem_uc main_arg8 (by decide))).trans (W7_main_arg8 H m c),
    (h c _ (mem_uc main_arg9 (by decide))).trans (W7_main_arg9 H m c),
    (h c _ (mem_uc main_arg10 (by decide))).trans (W7_main_arg10 H m c)⟩)
    (run_all H m ρ)

end Cert.KernelIdeal.Hand

end
-- ==== Proof.KI.Halves.lean ====
/-
  The two grids' proof data handed to the assembly of the whole program's run.
-/
import proofs.«150200_j79405355369062_2_alg».proof.Proof.KI.Reg0
import proofs.«150200_j79405355369062_2_alg».proof.Proof.KI.Reg1
import proofs.«150200_j79405355369062_2_alg».proof.Proof.KI.Frame

set_option maxRecDepth 16384

noncomputable section

namespace Cert.KernelIdeal.Hand

open Cert.KernelIdeal Cert.KernelIdeal.Gen
open Idealize.ShloMosaic Idealize.ShloMosaic.TcCoe
open Idealize.SL Idealize.SL.BI Idealize.SL.Sem
open Idealize.ShloMosaic.Pipeline (Dat BodyObligation)

variable {F : FTy → Type} [FloatOps F]

/-- What the first grid's body leaves, what the second grid's body leaves and its scratch invariant, with the bodies'
    obligations: the two halves the assembly takes. -/
def halves : Halves F where
  after0 V c := (dat0 V c).after
  body0 V c := body_obligation0 V c
  after1 V c := (dat1 V c).after
  Φ1 V c := (dat1 V c).Φ
  body1 V c := body_obligation1 V c
  hin1 V c := hin1 V c
  hout1 V c := hout1 V c

/-- The assembly's proof data are the grids' own. -/
theorem halves_D0 (V : Conts F) (c : Dev nD) : (halves (F := F)).D0 V c = dat0 V c := rfl
theorem halves_D1 (V : Conts F) (c : Dev nD) : (halves (F := F)).D1 V c = dat1 V c := rfl

end Cert.KernelIdeal.Hand

end
-- ==== Proof.KI.Entry.lean ====
/-
  What the second grid is entered with, array by array.

  Between the two grids only the output weight's rounding runs, so the second grid finds: in its q, k, v arrays what
  the first grid's write-backs left; in the re-laid input what the first grid was entered with (the first grid only
  reads it); in the rounded output weight the last host operation's result; in the output bias the launch contents.
-/
import proofs.«150200_j79405355369062_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.BI Idealize.SL.Sem
open Idealize.ShloMosaic.Pipeline (Dat)

variable {F : FTy → Type} [FloatOps F]
variable (H : Halves F) (m : (ℓ : Loc nD τ sig) → Buf (Elt F) ℓ)

/-- A buffer the rounding does not write is entered as the first grid left it. -/
theorem E1_of (c : Dev nD) (b : Ref sig .tc) (h : b ∉ hostOps1_W) : E1 H m c b = W4 H m c (Proc.devRef .tc b) :=
  StableHlo.after_of_writes_sub hostOps1 _ hostOps1_writes h

theorem E1_q (c : Dev nD) : E1 H m c main_v26_0 = (H.D0 (E0 m) c).arrAt 5 cfg0.N :=
  (E1_of H m c main_v26_0 (by decide)).trans (W4_arr H m c 5)
theorem E1_k (c : Dev nD) : E1 H m c main_v26_1 = (H.D0 (E0 m) c).arrAt 6 cfg0.N :=
  (E1_of H m c main_v26_1 (by decide)).trans (W4_arr H m c 6)
theorem E1_v (c : Dev nD) : E1 H m c main_v26_2 = (H.D0 (E0 m) c).arrAt 7 cfg0.N :=
  (E1_of H m c main_v26_2 (by decide)).trans (W4_arr H m c 7)
/-- The re-laid input is an input array of the first grid: handed back as entered. -/
theorem E1_x3 (c : Dev nD) : E1 H m c main_v21 = E0 m c main_v21 :=
  (E1_of H m c main_v21 (by decide)).trans ((W4_arr H m c 0).trans ((H.D0 (E0 m) c).arrAt_in 0 rfl _))
theorem E1_bo (c : Dev nD) : E1 H m c main_arg10 = m ((c : Thread nD τ).loc main_arg10) :=
  calc E1 H m c main_arg10
    _ = W4 H m c (Proc.devRef .tc main_arg10) := E1_of H m c main_arg10 (by decide)
    _ = W3 m c (Proc.devRef .tc main_arg10) := W4_of_ne H m c main_arg10 (by decide)
    _ = Gen.V2 m c (Proc.devRef .tc main_arg10) := Gen.V3_of m c main_arg10 (by decide)
    _ = Gen.V1 m c (Proc.devRef .tc main_arg10) := Gen.V2_of m c main_arg10 (by decide)
    _ = Gen.V0 m c (Proc.devRef .tc main_arg10) := Gen.V1_of m c main_arg10 (by decide)
    _ = m ((c : Thread nD τ).loc main_arg10) := rfl
/-- The output weight reaches the rounding as launched. -/
theorem W4_wo (c : Dev nD) : W4 H m c (Proc.devRef .tc main_arg9) = m ((c : Thread nD τ).loc main_arg9) :=
  calc W4 H m c (Proc.devRef .tc main_arg9)
    _ = W3 m c (Proc.devRef .tc main_arg9) := W4_of_ne H m c main_arg9 (by decide)
    _ = Gen.V2 m c (Proc.devRef .tc main_arg9) := Gen.V3_of m c main_arg9 (by decide)
    _ = Gen.V1 m c (Proc.devRef .tc main_arg9) := Gen.V2_of m c main_arg9 (by decide)
    _ = Gen.V0 m c (Proc.devRef .tc main_arg9) := Gen.V1_of m c main_arg9 (by decide)
    _ = m ((c : Thread nD τ).loc main_arg9) := rfl
/-- The rounded output weight is the rounding of the launched one. -/
theorem E1_wo (c : Dev nD) :
    E1 H m c main_v27 = truncf .bf16 (m ((c : Thread nD τ).loc main_arg9)) bitsLt_bf16_f32 := by
  have h : E1 H m c main_v27 = truncf .bf16 (W4 H m c (Proc.devRef .tc main_arg9)) bitsLt_bf16_f32 := by
    show StableHlo.after hostOps1 (W4 H m c) (Proc.devRef .tc main_v27) = _
    after_results
  rw [h, W4_wo H m c]

end Cert.KernelIdeal.Hand

end
-- ==== Proof.Alg.Consts.lean ====
/-
  The float constants of the two programs as the extended reals they denote: the group size 65536, the epsilon of the
  normalisation (a positive real), the score scale 512^(-1/2) rounded to single precision (a real), minus infinity and
  zero. Only that epsilon is positive and that the scale is real is ever used of those two.
-/
import Idealize.ShloMosaic.PureOps.Ideal

noncomputable section

namespace Cert.Alg.Consts

open Idealize.ShloMosaic

theorem ofBits_65536 : Ideal.ofBits .f32 0x47800000#32 = ((65536 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_zero : Ideal.ofBits .f32 0x00000000#32 = 0 := by
  simp [Ideal.ofBits, Ideal.ieee]

/-- The epsilon 1e-6 as rounded: 8796093 · 2^(-43). -/
theorem ofBits_eps : Ideal.ofBits .f32 0x358637BD#32 = (((8796093 : ℝ) * (2 : ℝ) ^ (-43 : ℤ) : ℝ) : EReal) := by
  simp [Ideal.ofBits, Ideal.ieee, -EReal.coe_mul]

theorem eps_pos : (0 : ℝ) < (8796093 : ℝ) * (2 : ℝ) ^ (-43 : ℤ) := by positivity

/-- The scale 512^(-1/2) as rounded: 11863283 · 2^(-28). -/
theorem ofBits_scale : Ideal.ofBits .f32 0x3D3504F3#32 = (((11863283 : ℝ) * (2 : ℝ) ^ (-28 : ℤ) : ℝ) : EReal) := by
  simp [Ideal.ofBits, Ideal.ieee, -EReal.coe_mul]

end Cert.Alg.Consts

end
-- ==== Proof.LibOnlineSoftmax.lean ====
/-
  A softmax-weighted sum accumulated block by block, with a running maximum.

  Fix a row of real scores and real values, cut into blocks. The blockwise accumulation keeps three numbers — the
  maximum m of the scores seen so far (minus infinity before the first block), the normaliser l and the weighted sum
  acc (both zero before the first block) — and, for a block with scores s and values v, replaces them by

      m' = max m (max over the block of s),     a = exp (m - m'),     p k = exp (s k - m'),
      l' = a · l + Σ p k,                        acc' = a · acc + Σ p k · v k,

  and the row's result is acc / l after the last block. On the extended reals, with exp (-∞) = 0, the state after
  the first t + 1 blocks is exactly: m the maximum M of those scores, l = Σ exp (s - M), acc = Σ exp (s - M) · v
  (run_succ): the factor a = exp (M_old - M_new) re-bases every earlier term from the old maximum to the new one,
  since exp (M_old - M_new) · exp (s - M_old) = exp (s - M_new), and before the first block a = 0 multiplies 0.
  So the result is the quotient (Σ exp (s - M) v) / (Σ exp (s - M)) of real numbers (online_quotient); the textbook
  softmax — every weight exp (σ - M) divided by the total first, then the weighted sum — is the same quotient
  (softmax_sum), and the quotient does not depend on the base M subtracted in the exponent (quotient_shift), so the
  two may subtract different maxima. Nothing here mentions a program: the statements are about extended reals.
-/
import Idealize.ShloMosaic.PureOps.Ideal
import Mathlib.Data.Finset.Fold

namespace Cert.Lib.OnlineSoftmax

open Idealize.ShloMosaic

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {κ : Type} [Fintype κ] [Nonempty κ]

/-- The maximum of finitely many reals, taken in the extended reals from minus infinity, is their real maximum. -/
theorem fold_max_coe (f : κ → ℝ) :
    (Finset.univ : Finset κ).fold max (⊥ : EReal) (fun k => (f k : EReal))
      = ((Finset.univ.sup' Finset.univ_nonempty f : ℝ) : EReal) := by
  apply le_antisymm
  · exact (Finset.fold_max_le _).mpr ⟨bot_le, fun x _ => EReal.coe_le_coe_iff.mpr (Finset.le_sup' f (Finset.mem_univ x))⟩
  · obtain ⟨k, _, hk⟩ := Finset.exists_mem_eq_sup' Finset.univ_nonempty f
    rw [hk]
    exact (Finset.le_fold_max _).mpr (Or.inr ⟨k, Finset.mem_univ k, le_rfl⟩)

/-- One block's update of the running maximum, the normaliser and the weighted sum. -/
noncomputable def step (st : EReal × EReal × EReal) (sj vj : κ → EReal) : EReal × EReal × EReal :=
  (max st.1 ((Finset.univ : Finset κ).fold max ⊥ sj),
    Ideal.exp (st.1 - max st.1 ((Finset.univ : Finset κ).fold max ⊥ sj)) * st.2.1
      + ∑ k, Ideal.exp (sj k - max st.1 ((Finset.univ : Finset κ).fold max ⊥ sj)),
    Ideal.exp (st.1 - max st.1 ((Finset.univ : Finset κ).fold max ⊥ sj)) * st.2.2
      + ∑ k, Ideal.exp (sj k - max st.1 ((Finset.univ : Finset κ).fold max ⊥ sj)) * vj k)

/-- The state after the first t blocks, from (-∞, 0, 0). -/
noncomputable def run (s v : ℕ → κ → ℝ) : ℕ → EReal × EReal × EReal
  | 0 => (⊥, 0, 0)
  | t + 1 => step (run s v t) (fun k => (s t k : EReal)) (fun k => (v t k : EReal))

/-- The maximum of the scores of blocks 0 … t. -/
noncomputable def rmax (s : ℕ → κ → ℝ) : ℕ → ℝ
  | 0 => Finset.univ.sup' Finset.univ_nonempty (s 0)
  | t + 1 => max (rmax s t) (Finset.univ.sup' Finset.univ_nonempty (s (t + 1)))

/-- Re-basing a block's exponentials: the old sum times exp (M - M') is the sum at the new base. -/
theorem rebase_sum {ι : Type} (T : Finset ι) (e w : ι → κ → ℝ) (M M' : ℝ) :
    Real.exp (M - M') * ∑ j ∈ T, ∑ k, Real.exp (e j k - M) * w j k = ∑ j ∈ T, ∑ k, Real.exp (e j k - M') * w j k := by
  rw [Finset.mul_sum]
  refine Finset.sum_congr rfl fun j _ => ?_
  rw [Finset.mul_sum]
  refine Finset.sum_congr rfl fun k _ => ?_
  rw [← mul_assoc, ← Real.exp_add]
  congr 2
  ring

/-- The state after blocks 0 … t: the real maximum, and the two sums at that base. -/
theorem run_succ (s v : ℕ → κ → ℝ) (t : ℕ) :
    run s v (t + 1)
      = (((rmax s t : ℝ) : EReal),
         ((∑ j ∈ Finset.range (t + 1), ∑ k, Real.exp (s j k - rmax s t) : ℝ) : EReal),
         ((∑ j ∈ Finset.range (t + 1), ∑ k, Real.exp (s j k - rmax s t) * v j k : ℝ) : EReal)) := by
  -- a block's exponentials in the extended reals are the real exponentials
  have hexp : ∀ (j : ℕ) (M : ℝ), (∑ k, Ideal.exp (((s j k : ℝ) : EReal) - (M : EReal))) = ((∑ k, Real.exp (s j k - M) : ℝ) : EReal) := by
    intro j M
    rw [coe_sum]
    exact Finset.sum_congr rfl fun k _ => by rw [← EReal.coe_sub]; rfl
  have hexpv : ∀ (j : ℕ) (M : ℝ), (∑ k, Ideal.exp (((s j k : ℝ) : EReal) - (M : EReal)) * ((v j k : ℝ) : EReal))
      = ((∑ k, Real.exp (s j k - M) * v j k : ℝ) : EReal) := by
    intro j M
    rw [coe_sum]
    exact Finset.sum_congr rfl fun k _ => by rw [← EReal.coe_sub, EReal.coe_mul]; rfl
  induction t with
  | zero =>
    have hm : max (⊥ : EReal) ((Finset.univ : Finset κ).fold max ⊥ fun k => ((s 0 k : ℝ) : EReal)) = ((rmax s 0 : ℝ) : EReal) := by
      rw [fold_max_coe, max_eq_right bot_le]; rfl
    have hb : Ideal.exp ((⊥ : EReal) - ((rmax s 0 : ℝ) : EReal)) = 0 := by
      rw [sub_eq_add_neg, EReal.bot_add]; rfl
    show step (⊥, 0, 0) _ _ = _
    unfold step
    simp only [hm, hb, zero_mul, zero_add, Finset.range_one, Finset.sum_singleton, hexp, hexpv]
  | succ t ih =>
    have hm : max (((rmax s t : ℝ) : EReal)) ((Finset.univ : Finset κ).fold max ⊥ fun k => ((s (t + 1) k : ℝ) : EReal))
        = ((rmax s (t + 1) : ℝ) : EReal) := by
      rw [fold_max_coe, ← EReal.coe_strictMono.monotone.map_max]; rfl
    have ha : Ideal.exp (((rmax s t : ℝ) : EReal) - ((rmax s (t + 1) : ℝ) : EReal))
        = ((Real.exp (rmax s t - rmax s (t + 1)) : ℝ) : EReal) := by
      rw [← EReal.coe_sub]; rfl
    have h1 := rebase_sum (Finset.range (t + 1)) s (fun _ _ => (1 : ℝ)) (rmax s t) (rmax s (t + 1))
    simp only [mul_one] at h1
    have h2 := rebase_sum (Finset.range (t + 1)) s v (rmax s t) (rmax s (t + 1))
    show step (run s v (t + 1)) _ _ = _
    rw [ih]
    unfold step
    simp only [hm, ha, hexp, hexpv, ← EReal.coe_mul, ← EReal.coe_add, h1, h2]
    rw [Finset.sum_range_succ (fun j => ∑ k, Real.exp (s j k - rmax s (t + 1))) (t + 1),
      Finset.sum_range_succ (fun j => ∑ k, Real.exp (s j k - rmax s (t + 1)) * v j k) (t + 1)]

/-- The extended-real quotient of two reals with a nonzero divisor is the real quotient. -/
theorem div_coe_coe (x y : ℝ) (hy : y ≠ 0) : Ideal.div (x : EReal) (y : EReal) = ((x / y : ℝ) : EReal) := by
  rw [Ideal.div_coe hy, ← EReal.coe_mul]
  congr 1
  ring

/-- A sum of exponentials over a nonempty family is positive. -/
theorem sum_exp_pos {ι : Type} (T : Finset ι) (hT : T.Nonempty) (e : ι → κ → ℝ) (M : ℝ) :
    0 < ∑ j ∈ T, ∑ k, Real.exp (e j k - M) :=
  Finset.sum_pos (fun j _ => Finset.sum_pos (fun k _ => Real.exp_pos _) Finset.univ_nonempty) hT

/-- The blockwise result after blocks 0 … t is the real quotient of the two sums at the maximum's base. -/
theorem online_quotient (s v : ℕ → κ → ℝ) (t : ℕ) :
    Ideal.div (run s v (t + 1)).2.2 (run s v (t + 1)).2.1
      = (((∑ j ∈ Finset.range (t + 1), ∑ k, Real.exp (s j k - rmax s t) * v j k)
          / (∑ j ∈ Finset.range (t + 1), ∑ k, Real.exp (s j k - rmax s t)) : ℝ) : EReal) := by
  rw [run_succ]
  exact div_coe_coe _ _ (sum_exp_pos _ ⟨0, Finset.mem_range.mpr (Nat.succ_pos t)⟩ s _).ne'

/-- The quotient does not depend on the base subtracted in the exponent. -/
theorem quotient_shift {ι : Type} (T : Finset ι) (e w : ι → κ → ℝ) (M M' : ℝ) :
    (∑ j ∈ T, ∑ k, Real.exp (e j k - M) * w j k) / (∑ j ∈ T, ∑ k, Real.exp (e j k - M))
      = (∑ j ∈ T, ∑ k, Real.exp (e j k - M') * w j k) / (∑ j ∈ T, ∑ k, Real.exp (e j k - M')) := by
  have h1 := rebase_sum T e w M M'
  have h2 := rebase_sum T e (fun _ _ => (1 : ℝ)) M M'
  simp only [mul_one] at h2
  rw [← h1, ← h2, mul_div_mul_left _ _ (Real.exp_pos _).ne']

/-- The textbook softmax-weighted sum over one finite family of keys: each weight exp (σ - M) divided by the total
    (taken from zero, as a host sum is), times its value, summed — the same real quotient. -/
theorem softmax_sum {ι : Type} [Fintype ι] [Nonempty ι] (σ w : ι → ℝ) (M : ℝ) :
    ∑ i, Ideal.div (Ideal.exp (((σ i : ℝ) : EReal) - (M : EReal))) (0 + ∑ i', Ideal.exp (((σ i' : ℝ) : EReal) - (M : EReal)))
        * ((w i : ℝ) : EReal)
      = (((∑ i, Real.exp (σ i - M) * w i) / (∑ i, Real.exp (σ i - M)) : ℝ) : EReal) := by
  have hL : (0 : EReal) + ∑ i', Ideal.exp (((σ i' : ℝ) : EReal) - (M : EReal)) = ((∑ i', Real.exp (σ i' - M) : ℝ) : EReal) := by
    rw [zero_add, coe_sum]
    exact Finset.sum_congr rfl fun i _ => by rw [← EReal.coe_sub]; rfl
  have hpos : (0 : ℝ) < ∑ i', Real.exp (σ i' - M) := Finset.sum_pos (fun i _ => Real.exp_pos _) Finset.univ_nonempty
  rw [Finset.sum_div Finset.univ (fun i => Real.exp (σ i - M) * w i) (∑ i', Real.exp (σ i' - M)), coe_sum, hL]
  apply Finset.sum_congr rfl
  intro i _
  rw [← EReal.coe_sub, show Ideal.exp ((σ i - M : ℝ) : EReal) = ((Real.exp (σ i - M) : ℝ) : EReal) from rfl,
    div_coe_coe _ _ hpos.ne', ← EReal.coe_mul]
  congr 1
  ring

end Cert.Lib.OnlineSoftmax
-- ==== Proof.Alg.Norm.lean ====
/-
  The group normalisation folded into a scale and a shift.

  For a real-valued input every group mean μ is real, every group variance is a sum of squares over 65536, hence a
  nonnegative real, so var + ε is a positive real and r = (var + ε)^(-1/2) is a real number. With real γ and β the
  normalised value ((x - μ)·r)·γ + β is then x·(r·γ) + (β - μ·(r·γ)): the per-channel scale r·γ and shift β - μ·(r·γ)
  the kernel's program applies. The identity is plain algebra of real numbers; it needs the finiteness (over the
  extended reals distributing a product over a difference fails at the infinities).
-/
import proofs.«150200_j79405355369062_2_alg».proof.Proof.RefVal.Spec
import proofs.«150200_j79405355369062_2_alg».proof.Proof.Alg.Consts
import proofs.«150200_j79405355369062_2_alg».proof.Proof.LibOnlineSoftmax

noncomputable section

namespace Cert.Alg

open Idealize.ShloMosaic Idealize.ShloMosaic.ValueIdx Cert.ReferenceIdeal.RefSpec Cert.Lib.OnlineSoftmax
open scoped BigOperators

/-- An array of extended reals all of whose entries are real numbers. -/
def RealArr {S : Shape} (x : S.Idx → EReal) : Prop := ∀ i, ∃ r : ℝ, x i = (r : EReal)

/-- A real-valued array is the coercion of an array of reals. -/
theorem RealArr.witness {S : Shape} {x : S.Idx → EReal} (h : RealArr x) : ∃ xr : S.Idx → ℝ, ∀ i, x i = ((xr i : ℝ) : EReal) :=
  ⟨fun i => (h i).choose, fun i => (h i).choose_spec⟩

/-- The mean of a group of reals is real. -/
theorem mean_real (x : FVec Ideal ⟨4, ![4, 512, 64, 64]⟩ .f32) (hx : RealArr x) (b : Fin 4) (g : Fin 32) :
    ∃ μ : ℝ, mean x b g = (μ : EReal) := by
  obtain ⟨xr, hxr⟩ := hx.witness
  refine ⟨(∑ c : Fin 16, ∑ r : Fin 64, ∑ s : Fin 64, xr (ix4 b (chan g c) r s)) / 65536, ?_⟩
  unfold mean
  rw [Consts.ofBits_65536, zero_add]
  simp only [hxr, ← coe_sum]
  exact div_coe_coe _ _ (by norm_num)

/-- The variance of a group of reals is a nonnegative real. -/
theorem var_real (x : FVec Ideal ⟨4, ![4, 512, 64, 64]⟩ .f32) (hx : RealArr x) (b : Fin 4) (g : Fin 32) :
    ∃ v : ℝ, 0 ≤ v ∧ var x b g = (v : EReal) := by
  obtain ⟨xr, hxr⟩ := hx.witness
  obtain ⟨μ, hμ⟩ := mean_real x hx b g
  refine ⟨(∑ c : Fin 16, ∑ r : Fin 64, ∑ s : Fin 64, (xr (ix4 b (chan g c) r s) - μ) * (xr (ix4 b (chan g c) r s) - μ)) / 65536,
    div_nonneg (Finset.sum_nonneg fun _ _ => Finset.sum_nonneg fun _ _ => Finset.sum_nonneg fun _ _ => mul_self_nonneg _) (by norm_num), ?_⟩
  unfold var
  rw [Consts.ofBits_65536, zero_add, hμ]
  simp only [hxr, ← EReal.coe_sub, ← EReal.coe_mul, ← coe_sum]
  exact div_coe_coe _ _ (by norm_num)

/-- The reciprocal square root of variance plus epsilon is real. -/
theorem rstd_real (x : FVec Ideal ⟨4, ![4, 512, 64, 64]⟩ .f32) (hx : RealArr x) (b : Fin 4) (g : Fin 32) :
    ∃ r : ℝ, Ideal.rsqrt (var x b g + Ideal.ofBits .f32 0x358637BD#32) = (r : EReal) := by
  obtain ⟨v, hv0, hv⟩ := var_real x hx b g
  rw [hv, Consts.ofBits_eps, ← EReal.coe_add]
  have hpos : 0 < v + 8796093 * (2 : ℝ) ^ (-43 : ℤ) := add_pos_of_nonneg_of_pos hv0 Consts.eps_pos
  refine ⟨(Real.sqrt (v + 8796093 * (2 : ℝ) ^ (-43 : ℤ)))⁻¹, ?_⟩
  rw [Ideal.rsqrt_coe, if_neg (not_lt.mpr hpos.le), if_neg hpos.ne']

/-- The normalised value is the input times the per-channel scale plus the per-channel shift. -/
theorem affine_eq (x : FVec Ideal ⟨4, ![4, 512, 64, 64]⟩ .f32) (γ β : FVec Ideal ⟨1, ![512]⟩ .f32)
    (hx : RealArr x) (hγ : RealArr γ) (hβ : RealArr β) (b : Fin 4) (c : Fin 512) (n : Fin 4096) :
    x (ix4 b c (tokRow n) (tokCol n)) * (Ideal.rsqrt (var x b (grp c) + Ideal.ofBits .f32 0x358637BD#32) * γ (ix1 c))
        + (β (ix1 c) - mean x b (grp c) * (Ideal.rsqrt (var x b (grp c) + Ideal.ofBits .f32 0x358637BD#32) * γ (ix1 c)))
      = hn x γ β b c n := by
  obtain ⟨xv, hxv⟩ := hx (ix4 b c (tokRow n) (tokCol n))
  obtain ⟨gv, hgv⟩ := hγ (ix1 c)
  obtain ⟨bv, hbv⟩ := hβ (ix1 c)
  obtain ⟨μ, hμ⟩ := mean_real x hx b (grp c)
  obtain ⟨r, hr⟩ := rstd_real x hx b (grp c)
  unfold hn
  rw [hxv, hgv, hbv, hμ, hr]
  simp only [← EReal.coe_mul, ← EReal.coe_sub, ← EReal.coe_add]
  congr 1
  ring

/-- The normalised value is real. -/
theorem hn_real (x : FVec Ideal ⟨4, ![4, 512, 64, 64]⟩ .f32) (γ β : FVec Ideal ⟨1, ![512]⟩ .f32)
    (hx : RealArr x) (hγ : RealArr γ) (hβ : RealArr β) (b : Fin 4) (c : Fin 512) (n : Fin 4096) :
    ∃ t : ℝ, hn x γ β b c n = (t : EReal) := by
  obtain ⟨xv, hxv⟩ := hx (ix4 b c (tokRow n) (tokCol n))
  obtain ⟨gv, hgv⟩ := hγ (ix1 c)
  obtain ⟨bv, hbv⟩ := hβ (ix1 c)
  obtain ⟨μ, hμ⟩ := mean_real x hx b (grp c)
  obtain ⟨r, hr⟩ := rstd_real x hx b (grp c)
  refine ⟨((xv - μ) * r) * gv + bv, ?_⟩
  unfold hn
  rw [hxv, hgv, hbv, hμ, hr]
  simp only [← EReal.coe_mul, ← EReal.coe_sub, ← EReal.coe_add]

/-- The tokens are real. -/
theorem tok_real (x : FVec Ideal ⟨4, ![4, 512, 64, 64]⟩ .f32) (γ β : FVec Ideal ⟨1, ![512]⟩ .f32)
    (hx : RealArr x) (hγ : RealArr γ) (hβ : RealArr β) : RealArr (tok x γ β) :=
  fun i => hn_real x γ β hx hγ hβ (i 0) (i 2) (i 1)

/-- A per-token linear map of real tokens with real weights and bias is real. -/
theorem lin_real (t : FVec Ideal ⟨3, ![4, 4096, 512]⟩ .f32) (w : FVec Ideal ⟨2, ![512, 512]⟩ .f32) (bias : FVec Ideal ⟨1, ![512]⟩ .f32)
    (ht : RealArr t) (hw : RealArr w) (hb : RealArr bias) : RealArr (linArr t w bias) := by
  obtain ⟨tr, htr⟩ := ht.witness
  obtain ⟨wr, hwr⟩ := hw.witness
  obtain ⟨br, hbr⟩ := hb.witness
  intro i
  refine ⟨(∑ c : Fin 512, tr (ix3 (i 0) (i 1) c) * wr (ix2 (i 2) c)) + br (ix1 (i 2)), ?_⟩
  unfold linArr lin
  simp only [htr, hwr, hbr, ← EReal.coe_mul, ← coe_sum, ← EReal.coe_add]

end Cert.Alg

end
-- ==== Proof.Alg.Proj.lean ====
/-
  The three projections: the stacked product restricted to a third of its columns, on the folded normalisation, is the
  reference's per-token linear map on the normalised tokens.

  The first grid leaves, at batch entry b, token n, output channel o of the block at column offset off,
  Σ_c (x3 (b,c,n)·scale (b,c) + shift (b,c)) · W (c, off + o) + bias (off + o). When x3 is the re-laid input, scale and
  shift are the folded group normalisation, and column off + o of the stacked weight and bias is row o of one weight and
  entry o of its bias, each summand is the normalised token times that weight's entry: the reference's projection.
-/
import proofs.«150200_j79405355369062_2_alg».proof.Proof.Alg.Norm
import proofs.«150200_j79405355369062_2_alg».proof.Proof.KI.Val0

noncomputable section

namespace Cert.Alg

open Idealize.ShloMosaic Idealize.ShloMosaic.ValueIdx Cert.ReferenceIdeal.RefSpec Cert.KernelIdeal.Hand
open scoped BigOperators

theorem proj_eq (x : FVec Ideal ⟨4, ![4, 512, 64, 64]⟩ .f32) (γ β : FVec Ideal ⟨1, ![512]⟩ .f32)
    (hx : RealArr x) (hγ : RealArr γ) (hβ : RealArr β)
    (x3 : FVec Ideal ⟨3, ![4, 512, 4096]⟩ .f32) (sc sh : FVec Ideal ⟨3, ![4, 1, 512]⟩ .f32)
    (W : FVec Ideal ⟨2, ![512, 1536]⟩ .bf16) (bias : FVec Ideal ⟨1, ![1536]⟩ .f32)
    (w : FVec Ideal ⟨2, ![512, 512]⟩ .f32) (bw : FVec Ideal ⟨1, ![512]⟩ .f32) (off : ℕ)
    (hx3 : ∀ (b : Fin 4) (c : Fin 512) (n : Fin 4096), x3 (ix3 b c n) = x (ix4 b c (tokRow n) (tokCol n)))
    (hsc : ∀ (b : Fin 4) (c : Fin 512), sc (ix3 b (0 : Fin 1) c)
      = Ideal.rsqrt (var x b (grp c) + Ideal.ofBits .f32 0x358637BD#32) * γ (ix1 c))
    (hsh : ∀ (b : Fin 4) (c : Fin 512), sh (ix3 b (0 : Fin 1) c)
      = β (ix1 c) - mean x b (grp c) * (Ideal.rsqrt (var x b (grp c) + Ideal.ofBits .f32 0x358637BD#32) * γ (ix1 c)))
    (hW : ∀ (c : Fin 512) (o : Fin 512), W (ix2 c (qkvCol off o.val)) = w (ix2 o c))
    (hb : ∀ o : Fin 512, bias (ix1 (qkvCol off o.val)) = bw (ix1 o)) :
    QKV off x3 sc sh W bias = linArr (tok x γ β) w bw := by
  funext i
  obtain ⟨b, n, o, rfl⟩ : ∃ (b : Fin 4) (n : Fin 4096) (o : Fin 512), i = ix3 b n o := ⟨i 0, i 1, i 2, eq_ix3 i⟩
  show qkvAt off x3 sc sh W bias b n o = lin (tok x γ β) w bw b n o
  unfold qkvAt lin
  rw [hb]
  congr 1
  refine Finset.sum_congr rfl fun c _ => ?_
  rw [hx3, hsc, hsh, hW, affine_eq x γ β hx hγ hβ]
  rfl

end Cert.Alg

end
-- ==== Proof.Finite.lean ====
/-
  From the claim's precondition to "every entry of every argument array is a real number".

  The precondition says that a printed word is 1: the conjunction, over the eleven argument arrays, of
  "all entries satisfy |x| < +∞", where |x| is max x (-x) on the extended reals and +∞ is what the f32
  pattern 0x7F800000 denotes. A conjunction of one-bit words that is 1 has every conjunct 1; an "all"
  that is 1 (a reduction by "and" over every axis, started at 1) has a 1 at every index; and an extended
  real whose absolute value is strictly below +∞ is neither infinity, hence the image of a real.
-/
import proofs.«150200_j79405355369062_2_alg».proof.Defs
import proofs.«150200_j79405355369062_2_alg».proof.Proof.Gen.Pre_finite_inputs
import proofs.«150200_j79405355369062_2_alg».proof.Proof.Gen.KernelIdeal
import Idealize.ShloMosaic.Lib.ReduceAll
import Idealize.ShloMosaic.Lib.ValueIdx

noncomputable section

namespace Cert.Proof.Finite

open Idealize.ShloMosaic Idealize.SL.Sem

/-- Every entry of the array is (the image of) a real number: no entry is +∞ or -∞. -/
def IsReal {S : Shape} (x : FVec Ideal S .f32) : Prop := ∀ i, ∃ r : ℝ, x i = (r : EReal)

/-- The rank-0 shape has exactly one index. -/
instance : Subsingleton Cert.Pre_finite_inputs.S_.Idx := ⟨fun a b => funext fun d => d.elim0⟩

/-- The f32 pattern 0x7F800000 denotes +∞. -/
theorem inf_eq_top : Ideal.ofBits .f32 0x7F800000#32 = (⊤ : EReal) := by simp [Ideal.ofBits, Ideal.ieee]

/-- One value: if the comparison word of |x| < +∞ is 1 then x is a real. At either infinity
    max x (-x) = +∞, which is not strictly below +∞. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => exact absurd h (by simp [Ideal.cmp])
  | coe r => exact ⟨r, rfl⟩
  | top => exact absurd h (by simp [Ideal.cmp])

/-- One array of any shape: if the printed word all(|x| < +∞) is 1 then every entry of x is a real. -/
theorem isReal_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu j = 1#1) :
    IsReal x :=
  fun i => real_of_abs_lt_inf (x i) (Host.reduce_andi_all _ _ hr hu j e i)

/-- A conjunction of two one-bit words, read at an index, is 1 exactly when both are. -/
theorem andi_apply_eq_one {S : Shape} (a b : IVec S 1) (j : S.Idx) :
    andi a b j = 1#1 ↔ a j = 1#1 ∧ b j = 1#1 := IntOp.andi_eq_one

/-- The precondition decoded: on every device each of the eleven argument arrays has only real entries. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (S := Cert.KernelIdeal.S4x512x64x64) (m ((c.tc : Thread Cert.KernelIdeal.nD Cert.KernelIdeal.τ).loc Cert.KernelIdeal.main_arg0))
      ∧ IsReal (S := Cert.KernelIdeal.S512) (m ((c.tc : Thread Cert.KernelIdeal.nD Cert.KernelIdeal.τ).loc Cert.KernelIdeal.main_arg1))
      ∧ IsReal (S := Cert.KernelIdeal.S512) (m ((c.tc : Thread Cert.KernelIdeal.nD Cert.KernelIdeal.τ).loc Cert.KernelIdeal.main_arg2))
      ∧ IsReal (S := Cert.KernelIdeal.S512x512) (m ((c.tc : Thread Cert.KernelIdeal.nD Cert.KernelIdeal.τ).loc Cert.KernelIdeal.main_arg3))
      ∧ IsReal (S := Cert.KernelIdeal.S512) (m ((c.tc : Thread Cert.KernelIdeal.nD Cert.KernelIdeal.τ).loc Cert.KernelIdeal.main_arg4))
      ∧ IsReal (S := Cert.KernelIdeal.S512x512) (m ((c.tc : Thread Cert.KernelIdeal.nD Cert.KernelIdeal.τ).loc Cert.KernelIdeal.main_arg5))
      ∧ IsReal (S := Cert.KernelIdeal.S512) (m ((c.tc : Thread Cert.KernelIdeal.nD Cert.KernelIdeal.τ).loc Cert.KernelIdeal.main_arg6))
      ∧ IsReal (S := Cert.KernelIdeal.S512x512) (m ((c.tc : Thread Cert.KernelIdeal.nD Cert.KernelIdeal.τ).loc Cert.KernelIdeal.main_arg7))
      ∧ IsReal (S := Cert.KernelIdeal.S512) (m ((c.tc : Thread Cert.KernelIdeal.nD Cert.KernelIdeal.τ).loc Cert.KernelIdeal.main_arg8))
      ∧ IsReal (S := Cert.KernelIdeal.S512x512) (m ((c.tc : Thread Cert.KernelIdeal.nD Cert.KernelIdeal.τ).loc Cert.KernelIdeal.main_arg9))
      ∧ IsReal (S := Cert.KernelIdeal.S512) (m ((c.tc : Thread Cert.KernelIdeal.nD Cert.KernelIdeal.τ).loc Cert.KernelIdeal.main_arg10)) := by
  -- the printed word at its one index
  have e := congrFun (h c) ValueIdx.ix0
  dsimp only [Cert.Pre_finite_inputs.fn, Cert.Pre_finite_inputs.fn_part1, Cert.Pre_finite_inputs.fn_part2,
    Cert.Pre_finite_inputs.fn_part3] at e
  -- a conjunction that is 1 has every conjunct 1
  simp only [andi_apply_eq_one] at e
  obtain ⟨⟨⟨⟨⟨⟨⟨⟨⟨⟨e0, e1⟩, e2⟩, e3⟩, e4⟩, e5⟩, e6⟩, e7⟩, e8⟩, e9⟩, e10⟩ := e
  exact ⟨isReal_of_all _ _ _ _ _ e0, isReal_of_all _ _ _ _ _ e1, isReal_of_all _ _ _ _ _ e2,
    isReal_of_all _ _ _ _ _ e3, isReal_of_all _ _ _ _ _ e4, isReal_of_all _ _ _ _ _ e5,
    isReal_of_all _ _ _ _ _ e6, isReal_of_all _ _ _ _ _ e7, isReal_of_all _ _ _ _ _ e8,
    isReal_of_all _ _ _ _ _ e9, isReal_of_all _ _ _ _ _ e10⟩

end Cert.Proof.Finite

end
-- ==== Proof.KI.ValQKV.lean ====
/-
  What the second grid is entered with, in terms of the specification.

  The first grid leaves in its three output arrays the stacked product restricted to a third of its columns, over the
  re-laid input, the folded scale and shift, and the stacked weight and bias. Those five arrays are, index by index, the
  input's entries, the group normalisation folded per channel, and — at column off + o for off = 0, 512, 1024 — row o of
  the query, key or value weight and entry o of its bias. So the three arrays are the specification's per-token linear
  maps of the normalised tokens. The re-laid input is handed on as entered, and the rounded output weight reads the
  launched weight, rounding being the identity on the ideal values.
-/
import proofs.«150200_j79405355369062_2_alg».proof.Proof.KI.Glue
import proofs.«150200_j79405355369062_2_alg».proof.Proof.KI.Val0
import proofs.«150200_j79405355369062_2_alg».proof.Proof.KI.Halves
import proofs.«150200_j79405355369062_2_alg».proof.Proof.KI.Entry
import proofs.«150200_j79405355369062_2_alg».proof.Proof.Alg.Proj
import proofs.«150200_j79405355369062_2_alg».proof.Proof.Finite

set_option maxRecDepth 16384

noncomputable section

namespace Cert.KernelIdeal.Hand

open Cert.KernelIdeal Cert.KernelIdeal.Gen Cert.KernelIdeal.Glue
open Idealize.ShloMosaic Idealize.ShloMosaic.TcCoe Idealize.ShloMosaic.ValueIdx
open Idealize.SL Idealize.SL.BI Idealize.SL.Sem
open Cert.ReferenceIdeal.RefSpec (grp tokRow tokCol mean var tok linArr)

/-! ## The stacked weight and bias at column off + o -/

theorem stacked_q (a b c : FVec Ideal S512x512 .f32) (o ch : Fin 512) : stacked a b c (qkvCol 0 o.val) ch = a (ix2 o ch) := by
  have ho := o.isLt
  have hv : (qkvCol 0 o.val).val = o.val := by rw [qkvCol_val 0 o.val (by omega)]; omega
  unfold stacked
  rw [dif_pos (show (qkvCol 0 o.val).val < 512 by omega)]
  exact congrArg (fun t : Fin 512 => a (ix2 t ch)) (Fin.ext hv)

theorem stacked_k (a b c : FVec Ideal S512x512 .f32) (o ch : Fin 512) : stacked a b c (qkvCol 512 o.val) ch = b (ix2 o ch) := by
  have ho := o.isLt
  have hv : (qkvCol 512 o.val).val = 512 + o.val := qkvCol_val 512 o.val (by omega)
  unfold stacked
  rw [dif_neg (show ¬ (qkvCol 512 o.val).val < 512 by omega), dif_pos (show (qkvCol 512 o.val).val < 1024 by omega)]
  exact congrArg (fun t : Fin 512 => b (ix2 t ch)) (Fin.ext (show (qkvCol 512 o.val).val - 512 = o.val by omega))

theorem stacked_v (a b c : FVec Ideal S512x512 .f32) (o ch : Fin 512) : stacked a b c (qkvCol 1024 o.val) ch = c (ix2 o ch) := by
  have ho := o.isLt
  have hv : (qkvCol 1024 o.val).val = 1024 + o.val := qkvCol_val 1024 o.val (by omega)
  unfold stacked
  rw [dif_neg (show ¬ (qkvCol 1024 o.val).val < 512 by omega), dif_neg (show ¬ (qkvCol 1024 o.val).val < 1024 by omega)]
  exact congrArg (fun t : Fin 512 => c (ix2 t ch)) (Fin.ext (show (qkvCol 1024 o.val).val - 1024 = o.val by omega))

theorem stacked1_q (a b c : FVec Ideal S512 .f32) (o : Fin 512) : stacked1 a b c (qkvCol 0 o.val) = a (ix1 o) := by
  have ho := o.isLt
  have hv : (qkvCol 0 o.val).val = o.val := by rw [qkvCol_val 0 o.val (by omega)]; omega
  unfold stacked1
  rw [dif_pos (show (qkvCol 0 o.val).val < 512 by omega)]
  exact congrArg (fun t : Fin 512 => a (ix1 t)) (Fin.ext hv)

theorem stacked1_k (a b c : FVec Ideal S512 .f32) (o : Fin 512) : stacked1 a b c (qkvCol 512 o.val) = b (ix1 o) := by
  have ho := o.isLt
  have hv : (qkvCol 512 o.val).val = 512 + o.val := qkvCol_val 512 o.val (by omega)
  unfold stacked1
  rw [dif_neg (show ¬ (qkvCol 512 o.val).val < 512 by omega), dif_pos (show (qkvCol 512 o.val).val < 1024 by omega)]
  exact congrArg (fun t : Fin 512 => b (ix1 t)) (Fin.ext (show (qkvCol 512 o.val).val - 512 = o.val by omega))

theorem stacked1_v (a b c : FVec Ideal S512 .f32) (o : Fin 512) : stacked1 a b c (qkvCol 1024 o.val) = c (ix1 o) := by
  have ho := o.isLt
  have hv : (qkvCol 1024 o.val).val = 1024 + o.val := qkvCol_val 1024 o.val (by omega)
  unfold stacked1
  rw [dif_neg (show ¬ (qkvCol 1024 o.val).val < 512 by omega), dif_neg (show ¬ (qkvCol 1024 o.val).val < 1024 by omega)]
  exact congrArg (fun t : Fin 512 => c (ix1 t)) (Fin.ext (show (qkvCol 1024 o.val).val - 1024 = o.val by omega))

/-! ## The five arrays the first grid reads, index by index -/

variable (m : (ℓ : Loc nD τ sig) → Buf (Elt Ideal) ℓ) (c : Dev nD)

theorem in_x3 (b : Fin 4) (ch : Fin 512) (n : Fin 4096) :
    (E0 m c main_v21 : FVec Ideal S4x512x4096 .f32) (ix3 b ch n) = argX m c (ix4 b ch (tokRow n) (tokCol n)) :=
  congrFun (glue_x3 m c) (ix3 b ch n)

theorem in_scale (b : Fin 4) (ch : Fin 512) :
    (E0 m c main_v19 : FVec Ideal S4x1x512 .f32) (ix3 b (0 : Fin 1) ch)
      = Ideal.rsqrt (var (argX m c) b (grp ch) + Ideal.ofBits .f32 0x358637BD#32) * argG m c (ix1 ch) :=
  congrFun (glue_scale m c) (ix3 b (0 : Fin 1) ch)

theorem in_shift (b : Fin 4) (ch : Fin 512) :
    (E0 m c main_v20 : FVec Ideal S4x1x512 .f32) (ix3 b (0 : Fin 1) ch)
      = argB m c (ix1 ch) - mean (argX m c) b (grp ch)
          * (Ideal.rsqrt (var (argX m c) b (grp ch) + Ideal.ofBits .f32 0x358637BD#32) * argG m c (ix1 ch)) :=
  congrFun (glue_shift m c) (ix3 b (0 : Fin 1) ch)

theorem in_W (ch : Fin 512) (j : Fin 1536) :
    (E0 m c main_v24 : FVec Ideal S512x1536 .bf16) (ix2 ch j) = stacked (argWq m c) (argWk m c) (argWv m c) j ch :=
  congrFun (glue_W m c) (ix2 ch j)

theorem in_bias (j : Fin 1536) :
    (E0 m c main_v25 : FVec Ideal S1536 .f32) (ix1 j) = stacked1 (argBq m c) (argBk m c) (argBv m c) j :=
  congrFun (glue_bias m c) (ix1 j)

/-! ## What the second grid is entered with -/

/-- The query array is the specification's query projection of the normalised tokens. -/
theorem q_eq (hx : Cert.Alg.RealArr (argX m c)) (hγ : Cert.Alg.RealArr (argG m c)) (hβ : Cert.Alg.RealArr (argB m c)) :
    (E1 (halves (F := Ideal)) m c main_v26_0 : FVec Ideal S4x4096x512 .bf16)
      = linArr (tok (argX m c) (argG m c) (argB m c)) (argWq m c) (argBq m c) := by
  rw [E1_q, halves_D0, final0_5 (E0 m) c]
  exact Cert.Alg.proj_eq (argX m c) (argG m c) (argB m c) hx hγ hβ _ _ _ _ _ (argWq m c) (argBq m c) 0
    (in_x3 m c) (in_scale m c) (in_shift m c)
    (fun ch o => (in_W m c ch (qkvCol 0 o.val)).trans (stacked_q _ _ _ o ch))
    (fun o => (in_bias m c (qkvCol 0 o.val)).trans (stacked1_q _ _ _ o))

/-- The key array is the specification's key projection. -/
theorem k_eq (hx : Cert.Alg.RealArr (argX m c)) (hγ : Cert.Alg.RealArr (argG m c)) (hβ : Cert.Alg.RealArr (argB m c)) :
    (E1 (halves (F := Ideal)) m c main_v26_1 : FVec Ideal S4x4096x512 .bf16)
      = linArr (tok (argX m c) (argG m c) (argB m c)) (argWk m c) (argBk m c) := by
  rw [E1_k, halves_D0, final0_6 (E0 m) c]
  exact Cert.Alg.proj_eq (argX m c) (argG m c) (argB m c) hx hγ hβ _ _ _ _ _ (argWk m c) (argBk m c) 512
    (in_x3 m c) (in_scale m c) (in_shift m c)
    (fun ch o => (in_W m c ch (qkvCol 512 o.val)).trans (stacked_k _ _ _ o ch))
    (fun o => (in_bias m c (qkvCol 512 o.val)).trans (stacked1_k _ _ _ o))

/-- The value array is the specification's value projection. -/
theorem v_eq (hx : Cert.Alg.RealArr (argX m c)) (hγ : Cert.Alg.RealArr (argG m c)) (hβ : Cert.Alg.RealArr (argB m c)) :
    (E1 (halves (F := Ideal)) m c main_v26_2 : FVec Ideal S4x4096x512 .bf16)
      = linArr (tok (argX m c) (argG m c) (argB m c)) (argWv m c) (argBv m c) := by
  rw [E1_v, halves_D0, final0_7 (E0 m) c]
  exact Cert.Alg.proj_eq (argX m c) (argG m c) (argB m c) hx hγ hβ _ _ _ _ _ (argWv m c) (argBv m c) 1024
    (in_x3 m c) (in_scale m c) (in_shift m c)
    (fun ch o => (in_W m c ch (qkvCol 1024 o.val)).trans (stacked_v _ _ _ o ch))
    (fun o => (in_bias m c (qkvCol 1024 o.val)).trans (stacked1_v _ _ _ o))

/-- The re-laid input reaches the second grid as the first grid was entered with it. -/
theorem x3_eq : ∀ (b : Fin 4) (ch : Fin 512) (n : Fin 4096),
    (E1 (halves (F := Ideal)) m c main_v21 : FVec Ideal S4x512x4096 .f32) (ix3 b ch n)
      = argX m c (ix4 b ch (tokRow n) (tokCol n)) := by
  intro b ch n
  rw [E1_x3]
  exact in_x3 m c b ch n

/-- The rounded output weight reads the launched output weight. -/
theorem wo_eq : ∀ i, (E1 (halves (F := Ideal)) m c main_v27 : FVec Ideal S512x512 .bf16) i
    = (m ((c : Thread nD τ).loc main_arg9) : FVec Ideal S512x512 .f32) i := by
  intro i
  rw [E1_wo]
  rfl

end Cert.KernelIdeal.Hand

end
-- ==== Proof.KI.Reg1Pieces.lean ====
/-
  The contents the attention region leaves after a point, as functions of the point's input blocks and of the previous
  point's scratch contents. A load of a whole buffer reads its contents, and a whole store, last, leaves its payload;
  so at every point the new running maximum, the new normaliser and the new weighted sum are the body's payload
  functions applied to the query, key and value blocks and to the previous maximum, normaliser and weighted sum — the
  reset values (minus infinity, zero, zero) at a first key block, what the point before left elsewhere — and at a last
  key block the output block is the payload function of the SAME point's new weighted sum and new normaliser, the
  projection weights, the bias and the input block. Stated once per kind of point for arbitrary memrefs and contents,
  and then as the recurrence of the four-tuple over the positions of the grid.
-/
import proofs.«150200_j79405355369062_2_alg».proof.Proof.KI.Reg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-rectangle loads and stores read back -/

theorem zero3 : (![0, 0, 0] : Fin 3 → ℕ) = fun _ => 0 := by funext a; fin_cases a <;> rfl
theorem zero2 : (![0, 0] : Fin 2 → ℕ) = fun _ => 0 := by funext a; fin_cases a <;> rfl
theorem zero1 : (![0] : Fin 1 → ℕ) = fun _ => 0 := by funext a; fin_cases a; rfl

/-- A load through the whole-shape rectangle at zero offsets of a whole memref held at the contents that read `X` reads `X`. -/
theorem readAt_unread_unit_zero {S : Shape} {e : EltTy} {m : Memref sig .tc .vmem S e} (h : m.IsWhole) (X : S.Idx → Elt F e)
    {off : Fin S.rank → ℕ} (ho : off = fun _ => 0) (inb : ∀ a, off a + S.size a ≤ S.size a) :
    View.readAt (Elt F) m.view (Rect.unit (s := S) off S.size inb).toLoadRect (h.unread X) = X := by
  rw [View.readAt_eq_ld, h.read_unread]; exact View.ld_unit_zero ho inb X

/-- A store through the whole-shape rectangle at zero offsets, last, leaves its payload whatever the earlier stores were. -/
theorem read_writes_cons_unit_zero {S : Shape} {e : EltTy} (v : View sig .tc .vmem S e) (f : v.ty.Contents (Elt F))
    {off : Fin S.rank → ℕ} (ho : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst ho; funext y
  have e := View.read_writes_cons_emb (v := v) (f := f) (Rect.whole S) w L y
  rw [Rect.emb_whole_apply] at e; exact e

/-! ## The contents each case leaves, as the kernel's payloads

In every case the body stores, last, the new running maximum, the new running sum and the new running accumulator
wholly into their scratch operands, computed from the point's query, key and value blocks and from the previous
statistics — the reset values where the statistics are reset, what the point before left elsewhere. Where the output
is projected it is computed from the SAME point's new accumulator and new running sum. -/

/-- Where the statistics are reset, the new running maximum: from the query and key blocks and the reset maximum. -/
theorem sout1_A_0_eq (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) :
    sout1_A_0 c i arg3 harg3 arg4 harg4 arg5 harg5 arg6 harg6 arg7 harg7 arg8 harg8 arg9 harg9 arg10 harg10 arg11 harg11 arg12 harg12 hc0 hc1 x0 x1 x2 x3 x4 x5 = k1_pay2 (k1_pay8 x0 x1 k1_pay4) := by
  unfold sout1_A_0 kernelRun1_A
  dsimp only
  rw [read_writes_cons_unit_zero _ _ zero3]
  sl_unfold_run_names
  rw [View.readCov_unit_zero _ zero3]
  rw [readAt_unread_unit_zero harg3 x0 zero3, readAt_unread_unit_zero harg4 x1 zero3]

/-- Where the statistics are reset, the new running sum: from the query and key blocks, the reset maximum and the reset sum. -/
theorem sout1_A_1_eq (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) :
    sout1_A_1 c i arg3 harg3 arg4 harg4 arg5 harg5 arg6 harg6 arg7 harg7 arg8 harg8 arg9 harg9 arg10 harg10 arg11 harg11 arg12 harg12 hc0 hc1 x0 x1 x2 x3 x4 x5 = k1_pay11 x0 x1 k1_pay4 k1_pay4 k1_pay5 := by
  unfold sout1_A_1 kernelRun1_A
  dsimp only
  rw [read_writes_cons_unit_zero _ _ zero3]
  sl_unfold_run_names
  rw [View.readCov_unit_zero _ zero3, View.readCov_unit_zero _ zero3]
  rw [readAt_unread_unit_zero harg3 x0 zero3, readAt_unread_unit_zero harg4 x1 zero3]

/-- Where the statistics are reset, the new running accumulator: the rescaled reset accumulator plus the weights times the value block. -/
theorem sout1_A_2_eq (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) :
    sout1_A_2 c i arg3 harg3 arg4 harg4 arg5 harg5 arg6 harg6 arg7 harg7 arg8 harg8 arg9 harg9 arg10 harg10 arg11 harg11 arg12 harg12 hc0 hc1 x0 x1 x2 x3 x4 x5 = k1_pay1 (k1_pay9 x0 x1 k1_pay4 k1_pay4) (k1_pay10 x0 x1 k1_pay4) x2 k1_pay6 := by
  unfold sout1_A_2 kernelRun1_A
  dsimp only
  rw [read_writes_cons_unit_zero _ _ zero3]
  sl_unfold_run_names
  rw [View.readCov_unit_zero _ zero3, View.readCov_unit_zero _ zero3]
  rw [readAt_unread_unit_zero harg3 x0 zero3, readAt_unread_unit_zero harg4 x1 zero3, readAt_unread_unit_zero harg5 x2 zero3]

/-- Where neither conditional is taken, the new running maximum: from the query and key blocks and the maximum the point before left. -/
theorem sout1_B_0_eq (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) :
    sout1_B_0 c i arg3 harg3 arg4 harg4 arg5 harg5 arg6 harg6 arg7 harg7 arg8 harg8 arg9 harg9 arg10 harg10 arg11 harg11 arg12 harg12 hc0 hc1 x0 x1 x2 x3 x4 x5 xs0 xs1 xs2 = k1_pay2 (k1_pay8 x0 x1 xs0) := by
  unfold sout1_B_0 kernelRun1_B
  dsimp only
  rw [read_writes_cons_unit_zero _ _ zero3]
  sl_unfold_run_names
  rw [readAt_unread_unit_zero harg3 x0 zero3, readAt_unread_unit_zero harg4 x1 zero3, readAt_unread_unit_zero harg10 xs0 zero3]

/-- Where neither conditional is taken, the new running sum: from the query and key blocks and the maximum and sum the point before left. -/
theorem sout1_B_1_eq (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) :
    sout1_B_1 c i arg3 harg3 arg4 harg4 arg5 harg5 arg6 harg6 arg7 harg7 arg8 harg8 arg9 harg9 arg10 harg10 arg11 harg11 arg12 harg12 hc0 hc1 x0 x1 x2 x3 x4 x5 xs0 xs1 xs2 = k1_pay11 x0 x1 xs0 xs0 xs1 := by
  unfold sout1_B_1 kernelRun1_B
  dsimp only
  rw [read_writes_cons_unit_zero _ _ zero3]
  sl_unfold_run_names
  rw [readAt_unread_unit_zero harg3 x0 zero3, readAt_unread_unit_zero harg4 x1 zero3, readAt_unread_unit_zero harg10 xs0 zero3, readAt_unread_unit_zero harg11 xs1 zero3]

/-- Where neither conditional is taken, the new running accumulator: the rescaled accumulator the point before left plus the weights times the value block. -/
theorem sout1_B_2_eq (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : ¬cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) :
    sout1_B_2 c i arg3 harg3 arg4 harg4 arg5 harg5 arg6 harg6 arg7 harg7 arg8 harg8 arg9 harg9 arg10 harg10 arg11 harg11 arg12 harg12 hc0 hc1 x0 x1 x2 x3 x4 x5 xs0 xs1 xs2 = k1_pay1 (k1_pay9 x0 x1 xs0 xs0) (k1_pay10 x0 x1 xs0) x2 xs2 := by
  unfold sout1_B_2 kernelRun1_B
  dsimp only
  rw [read_writes_cons_unit_zero _ _ zero3]
  sl_unfold_run_names
  rw [readAt_unread_unit_zero harg3 x0 zero3, readAt_unread_unit_zero harg4 x1 zero3, readAt_unread_unit_zero harg10 xs0 zero3, readAt_unread_unit_zero harg5 x2 zero3, readAt_unread_unit_zero harg12 xs2 zero3]

/-- Where the output is projected, the new running maximum: from the query and key blocks and the maximum the point before left. -/
theorem sout1_C_0_eq (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) :
    sout1_C_0 c i arg3 harg3 arg4 harg4 arg5 harg5 arg6 harg6 arg7 harg7 arg8 harg8 arg9 harg9 arg10 harg10 arg11 harg11 arg12 harg12 hc0 hc1 x0 x1 x2 x3 x4 x5 xs0 xs1 xs2 = k1_pay2 (k1_pay8 x0 x1 xs0) := by
  unfold sout1_C_0 kernelRun1_C
  dsimp only
  rw [read_writes_cons_unit_zero _ _ zero3]
  sl_unfold_run_names
  rw [readAt_unread_unit_zero harg3 x0 zero3, readAt_unread_unit_zero harg4 x1 zero3, readAt_unread_unit_zero harg10 xs0 zero3]

/-- Where the output is projected, the new running sum: from the query and key blocks and the maximum and sum the point before left. -/
theorem sout1_C_1_eq (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) :
    sout1_C_1 c i arg3 harg3 arg4 harg4 arg5 harg5 arg6 harg6 arg7 harg7 arg8 harg8 arg9 harg9 arg10 harg10 arg11 harg11 arg12 harg12 hc0 hc1 x0 x1 x2 x3 x4 x5 xs0 xs1 xs2 = k1_pay11 x0 x1 xs0 xs0 xs1 := by
  unfold sout1_C_1 kernelRun1_C
  dsimp only
  sl_unfold_run_names
  rw [read_writes_cons_unit_zero _ _ zero3]
  rw [readAt_unread_unit_zero harg3 x0 zero3, readAt_unread_unit_zero harg4 x1 zero3, readAt_unread_unit_zero harg10 xs0 zero3, readAt_unread_unit_zero harg11 xs1 zero3]

/-- Where the output is projected, the new running accumulator: the rescaled accumulator the point before left plus the weights times the value block. -/
theorem sout1_C_2_eq (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) :
    sout1_C_2 c i arg3 harg3 arg4 harg4 arg5 harg5 arg6 harg6 arg7 harg7 arg8 harg8 arg9 harg9 arg10 harg10 arg11 harg11 arg12 harg12 hc0 hc1 x0 x1 x2 x3 x4 x5 xs0 xs1 xs2 = k1_pay1 (k1_pay9 x0 x1 xs0 xs0) (k1_pay10 x0 x1 xs0) x2 xs2 := by
  unfold sout1_C_2 kernelRun1_C
  dsimp only
  sl_unfold_run_names
  rw [read_writes_cons_unit_zero _ _ zero3]
  rw [readAt_unread_unit_zero harg3 x0 zero3, readAt_unread_unit_zero harg4 x1 zero3, readAt_unread_unit_zero harg10 xs0 zero3, readAt_unread_unit_zero harg5 x2 zero3, readAt_unread_unit_zero harg12 xs2 zero3]

/-- Where the output is projected, the output block: the point's new accumulator divided by its new running sum, projected, biased and added to the input block. -/
theorem out1_C_6_eq (c : Dev nD) (i : grid1.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x512x2048 .f32) (harg9 : arg9.IsWhole) (arg10 : Memref sig .tc .vmem S1x2048x1 .f32) (harg10 : arg10.IsWhole) (arg11 : Memref sig .tc .vmem S1x2048x1 .f32) (harg11 : arg11.IsWhole) (arg12 : Memref sig .tc .vmem S1x2048x512 .f32) (harg12 : arg12.IsWhole) (hc0 : ¬cond1_0 i) (hc1 : cond1_1 i)
    (x0 : Vec F S1x2048x512 .bf16) (x1 : Vec F S1x512x512 .bf16) (x2 : Vec F S1x512x512 .bf16) (x3 : Vec F S1x512x2048 .f32) (x4 : Vec F S512x512 .bf16) (x5 : Vec F S512 .f32) (xs0 : Vec F S1x2048x1 .f32) (xs1 : Vec F S1x2048x1 .f32) (xs2 : Vec F S1x2048x512 .f32) :
    out1_C_6 c i arg3 harg3 arg4 harg4 arg5 harg5 arg6 harg6 arg7 harg7 arg8 harg8 arg9 harg9 arg10 harg10 arg11 harg11 arg12 harg12 hc0 hc1 x0 x1 x2 x3 x4 x5 xs0 xs1 xs2 = k1_pay3 (k1_pay1 (k1_pay9 x0 x1 xs0 xs0) (k1_pay10 x0 x1 xs0) x2 xs2) (k1_pay11 x0 x1 xs0 xs0 xs1) x4 x5 x3 := by
  unfold out1_C_6 kernelRun1_C
  dsimp only
  rw [read_writes_cons_unit_zero _ _ zero3]
  sl_unfold_run_names
  rw [View.readCov_unit_zero _ zero3, View.readCov_unit_zero _ zero3]
  rw [readAt_unread_unit_zero harg3 x0 zero3, readAt_unread_unit_zero harg4 x1 zero3, readAt_unread_unit_zero harg10 xs0 zero3, readAt_unread_unit_zero harg11 xs1 zero3, readAt_unread_unit_zero harg5 x2 zero3, readAt_unread_unit_zero harg12 xs2 zero3, readAt_unread_unit_zero harg7 x4 zero2, readAt_unread_unit_zero harg8 x5 zero1, readAt_unread_unit_zero harg6 x3 zero3]

/-! ## The recurrence of the carried statistics, point by point -/

variable (V : (c : Dev nD) → (b : Ref sig .tc) → Buf (Elt F) ((c : Thread nD τ).loc b))

/-- At a point where the statistics are reset (the innermost coordinate is 0), the running maximum after the point. -/
theorem outsAt1_reset_m (c : Dev nD) (t : Fin cfg1.N) (h0 : t.val % 8 = 0) :
    (outsAt1 V c t.val t.isLt).2.1 = k1_pay2 (k1_pay8 (iblk1 V c 0 t) (iblk1 V c 1 t) k1_pay4) := by
  rw [outsAt1_A V c t h0 (by omega)]; dsimp only; rw [sout1_A_0_eq]

/-- There, the running sum after the point. -/
theorem outsAt1_reset_l (c : Dev nD) (t : Fin cfg1.N) (h0 : t.val % 8 = 0) :
    (outsAt1 V c t.val t.isLt).2.2.1 = k1_pay11 (iblk1 V c 0 t) (iblk1 V c 1 t) k1_pay4 k1_pay4 k1_pay5 := by
  rw [outsAt1_A V c t h0 (by omega)]; dsimp only; rw [sout1_A_1_eq]

/-- There, the running accumulator after the point. -/
theorem outsAt1_reset_acc (c : Dev nD) (t : Fin cfg1.N) (h0 : t.val % 8 = 0) :
    (outsAt1 V c t.val t.isLt).2.2.2 = k1_pay1 (k1_pay9 (iblk1 V c 0 t) (iblk1 V c 1 t) k1_pay4 k1_pay4) (k1_pay10 (iblk1 V c 0 t) (iblk1 V c 1 t) k1_pay4) (iblk1 V c 2 t) k1_pay6 := by
  rw [outsAt1_A V c t h0 (by omega)]; dsimp only; rw [sout1_A_2_eq]

/-- At any other point, the running maximum after the point, from what the point before left. -/
theorem outsAt1_step_m (c : Dev nD) (t : Fin cfg1.N) (h0 : ¬t.val % 8 = 0) :
    (outsAt1 V c t.val t.isLt).2.1 = k1_pay2 (k1_pay8 (iblk1 V c 0 t) (iblk1 V c 1 t) (outsAt1 V c (t.val - 1) (Nat.lt_of_le_of_lt (Nat.sub_le _ _) t.isLt)).2.1) := by
  by_cases h1 : t.val % 8 = 7
  · rw [outsAt1_C V c t h0 h1]; dsimp only; rw [sout1_C_0_eq]
  · rw [outsAt1_B V c t h0 h1]; dsimp only; rw [sout1_B_0_eq]

/-- There, the running sum after the point. -/
theorem outsAt1_step_l (c : Dev nD) (t : Fin cfg1.N) (h0 : ¬t.val % 8 = 0) :
    (outsAt1 V c t.val t.isLt).2.2.1 = k1_pay11 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1 := by
  by_cases h1 : t.val % 8 = 7
  · rw [outsAt1_C V c t h0 h1]; dsimp only; rw [sout1_C_1_eq]
  · rw [outsAt1_B V c t h0 h1]; dsimp only; rw [sout1_B_1_eq]

/-- There, the running accumulator after the point. -/
theorem outsAt1_step_acc (c : Dev nD) (t : Fin cfg1.N) (h0 : ¬t.val % 8 = 0) :
    (outsAt1 V c t.val t.isLt).2.2.2 = k1_pay1 (k1_pay9 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1) (k1_pay10 (iblk1 V c 0 t) (iblk1 V c 1 t) (outsAt1 V c (t.val - 1) (Nat.lt_of_le_of_lt (Nat.sub_le _ _) t.isLt)).2.1) (iblk1 V c 2 t) (outsAt1 V c (t.val - 1) (Nat.lt_of_le_of_lt (Nat.sub_le _ _) t.isLt)).2.2.2 := by
  by_cases h1 : t.val % 8 = 7
  · rw [outsAt1_C V c t h0 h1]; dsimp only; rw [sout1_C_2_eq]
  · rw [outsAt1_B V c t h0 h1]; dsimp only; rw [sout1_B_2_eq]

/-- At a point where the output is projected (the innermost coordinate is 7), the output block after the point: from the
    SAME point's running accumulator and running sum, the projection weights, the bias and the input block. -/
theorem outsAt1_out (c : Dev nD) (t : Fin cfg1.N) (h1 : t.val % 8 = 7) :
    (outsAt1 V c t.val t.isLt).1 = k1_pay3 (outsAt1 V c t.val t.isLt).2.2.2 (outsAt1 V c t.val t.isLt).2.2.1 (iblk1 V c 4 t) (iblk1 V c 5 t) (iblk1 V c 3 t) := by
  rw [outsAt1_C V c t (by omega) h1]
  dsimp only
  rw [out1_C_6_eq, sout1_C_2_eq, sout1_C_1_eq]

end Cert.KernelIdeal.Hand

end
-- ==== Proof.KI.Val1.Ops.lean ====
import proofs.«150200_j79405355369062_2_alg».proof.Proof.Gen.KernelIdeal.Skeleton
import Idealize.ShloMosaic.Lib.ValueLayout
import Idealize.ShloMosaic.PureOps.Ideal.Laws

/-!
  The vector operations of the attention kernel read at one index, over the extended reals.

  A broadcast along a unit axis reads the unit entry; a cast that adds or drops a unit axis reads the entry at the same
  row-major position; a reduction along the last axis of a [1, 2048, 512] array is the fold over its 512 entries; each
  of the kernel's three matrix products, into a zero accumulator, is the sum over its one contraction coordinate of the
  products of the two operands' entries.
-/

set_option maxRecDepth 16384

noncomputable section

namespace Cert.KernelIdeal.Val1

open Cert.KernelIdeal Cert.KernelIdeal.Gen
open Idealize.ShloMosaic Idealize.ShloMosaic.ValueIdx
open scoped BigOperators

variable {α : Type}

/-! ## Unit axes -/

/-- A [1, a, 1] array broadcast to [1, a, b] reads, at (u, r, d), the operand at (0, r, 0). -/
theorem bc_1a1_1ab {a b : ℕ} (v : (⟨3, ![1, a, 1]⟩ : Shape).Idx → α) (h : (⟨3, ![1, a, 1]⟩ : Shape).Broadcasts ⟨3, ![1, a, b]⟩)
    (u : Fin 1) (r : Fin a) (d : Fin b) : broadcastTo ⟨3, ![1, a, b]⟩ v h (ix3 u r d) = v (ix3 (0 : Fin 1) r (0 : Fin 1)) := by
  refine broadcastTo_apply v h (ix3 u r d) (ix3 (0 : Fin 1) r (0 : Fin 1)) fun ax => ?_
  match ax with
  | ⟨0, _⟩ => rfl
  | ⟨1, _⟩ =>
    show r.val = if a = 1 then 0 else r.val
    split
    · have := r.isLt; omega
    · rfl
  | ⟨2, _⟩ => rfl

/-- An [a, 1] array broadcast to [a, b] reads, at (i, j), the operand at (i, 0). -/
theorem bc_a1_ab {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A [1, a] array cast to [1, a, 1] reads, at (u, r, w), the operand at (0, r). -/
theorem sc_1a_1a1 {a : ℕ} (x : (⟨2, ![1, a]⟩ : Shape).Idx → α) (h : (⟨2, ![1, a]⟩ : Shape).ShapeCasts ⟨3, ![1, a, 1]⟩)
    (u : Fin 1) (r : Fin a) (w : Fin 1) : shapeCast ⟨3, ![1, a, 1]⟩ x h (ix3 u r w) = x (ix2 (0 : Fin 1) r) :=
  shapeCast_apply x h _ _ (by
    have hu : u.val = 0 := by omega
    have hw : w.val = 0 := by omega
    rw [Shape.rowMajor_val_three, Shape.rowMajor_val_two]
    show 0 * a + r.val = (u.val * a + r.val) * 1 + w.val
    rw [hu, hw]; omega)

/-- An [a] array cast to [a, 1] reads, at (i, w), the operand at i. -/
theorem sc_a_a1 {a : ℕ} (x : (⟨1, ![a]⟩ : Shape).Idx → α) (h : (⟨1, ![a]⟩ : Shape).ShapeCasts ⟨2, ![a, 1]⟩)
    (i : Fin a) (w : Fin 1) : shapeCast ⟨2, ![a, 1]⟩ x h (ix2 i w) = x (ix1 i) :=
  shapeCast_apply x h _ _ (by
    have hw : w.val = 0 := by omega
    rw [Shape.rowMajor_val_two, Shape.rowMajor_val_one]
    show i.val = i.val * 1 + w.val
    rw [hw]; omega)

/-! ## The two words -/

/-- The word 0xFF800000 is minus infinity. -/
theorem negInf : Ideal.ofBits .f32 0xFF800000#32 = (⊥ : EReal) := by simp [Ideal.ofBits, Ideal.ieee]

/-! ## Reductions along the last axis -/

/-- The maximum along the last axis, from minus infinity, at row r: the fold of max over the row's 512 entries. -/
theorem rowmax (src : FVec Ideal S1x2048x512 .f32) (r : Fin 2048) :
    multiReduction .maximumf [2] S1x2048 src 0xFF800000#32 reduces_S1x2048x512_S1x2048 (.inl rfl) rfl (ix2 (0 : Fin 1) r)
      = (Finset.univ : Finset (Fin 512)).fold max ⊥ (fun k => src (ix3 (0 : Fin 1) r k)) := by
  refine (Ideal.multiReduction_maximumf_single src _ reduces_S1x2048x512_S1x2048 _ _ (ix2 (0 : Fin 1) r)).trans ?_
  show (Finset.univ : Finset (Fin 512)).fold max (Ideal.ofBits .f32 0xFF800000#32) _ = _
  rw [negInf]
  have e : (src ∘ reduces_S1x2048x512_S1x2048.lift (ix2 (0 : Fin 1) r)) = fun k : Fin 512 => src (ix3 (0 : Fin 1) r k) :=
    funext fun k => congrArg src (funext fun ax => Fin.ext (by
      match ax with
      | ⟨0, _⟩ => rfl
      | ⟨1, _⟩ => rfl
      | ⟨2, _⟩ => rfl))
  exact congrArg (fun f => Finset.fold max ⊥ f (Finset.univ : Finset (Fin 512))) e

/-- The sum along the last axis at row r: the sum of the row's 512 entries. -/
theorem rowsum (src : FVec Ideal S1x2048x512 .f32) (r : Fin 2048) :
    multiReduction .add [2] S1x2048 src 0x00000000#32 reduces_S1x2048x512_S1x2048 (.inl rfl) rfl (ix2 (0 : Fin 1) r)
      = ∑ k : Fin 512, src (ix3 (0 : Fin 1) r k) := by
  refine (Ideal.multiReduction_add_single src _ reduces_S1x2048x512_S1x2048 _ _ (ix2 (0 : Fin 1) r)).trans ?_
  show ∑ k : Fin 512, src _ = _
  refine Finset.sum_congr rfl fun k _ => congrArg src (funext fun ax => Fin.ext ?_)
  match ax with
  | ⟨0, _⟩ => rfl
  | ⟨1, _⟩ => rfl
  | ⟨2, _⟩ => rfl

end Cert.KernelIdeal.Val1

end
-- ==== Proof.KI.Val1Pay.lean ====
/-
  The attention kernel's body, entry by entry, over the extended reals.

  At one grid point the body holds a block of 2048 queries Q and a block of 512 keys K (and, later, the block of 512
  values V), and three carried arrays: the running maximum m, the normaliser l and the weighted sum acc of each query.
  It computes the scores s(r, k) = (Σ_c Q(r,c) · K(k,c)) · scale, the new maximum m'(r) = max (m(r)) (max_k s(r,k)),
  the factor a(r) = exp (m(r) - m'(r)), the weights p(r,k) = exp (s(r,k) - m'(r)), the new normaliser
  a(r) · l(r) + Σ_k p(r,k) and the new weighted sum a(r) · acc(r,d) + Σ_k p(r,k) · V(k,d); at the first key block the
  carried arrays are reset to -∞, 0, 0; at the last one the result x(c,r) + (Σ_d wo(c,d) · (acc(r,d) / l(r)) + bo(c))
  is formed. Rounding to the 16-bit format is the identity on extended reals, casts that add or drop a unit axis and
  broadcasts along a unit axis only re-index, and a matrix product into a zero accumulator is the sum over its one
  contraction coordinate. Each statement below reads one of the body's stored or carried values at one index.
-/
import proofs.«150200_j79405355369062_2_alg».proof.Proof.KI.Val1.Ops
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen
open Idealize.ShloMosaic Idealize.ShloMosaic.ValueIdx
open scoped BigOperators

/-! ## The three matrix products -/

/-- The scores' product: query row r against key row k, over the 512 channels. -/
theorem mm_scores (A : FVec Ideal S1x2048x512 .bf16) (B : FVec Ideal S1x512x512 .bf16) (r : Fin 2048) (kk : Fin 512) :
    matmul dot_S1x2048x512_S1x512x512_S1x2048x512_2_2_1_1_0_0 none A B (constant (F := Ideal) S1x2048x512 .f32 0x00000000#32) (ix3 (0 : Fin 1) r kk)
      = ∑ c : Fin 512, A (ix3 (0 : Fin 1) r c) * B (ix3 (0 : Fin 1) kk c) := by
  show FloatOps.matmul _ none A B _ (ix3 (0 : Fin 1) r kk) = _
  rw [Ideal.matmul_constant_zero_apply, ← Equiv.sum_comp (contrEquiv1 dot_S1x2048x512_S1x512x512_S1x2048x512_2_2_1_1_0_0 512 rfl rfl).symm]
  refine Finset.sum_congr rfl fun c _ => ?_
  have c2 := contrEquiv1_symm_val dot_S1x2048x512_S1x512x512_S1x2048x512_2_2_1_1_0_0 512 rfl rfl c
  have l2 : dot_S1x2048x512_S1x512x512_S1x2048x512_2_2_1_1_0_0.lhsIdx (ix3 (0 : Fin 1) r kk) ((contrEquiv1 _ 512 rfl rfl).symm c) = ix3 (0 : Fin 1) r c := by
    funext ax; apply Fin.ext
    match ax with
    | ⟨0, _⟩ => simp [DotDims.lhsIdx, dot_S1x2048x512_S1x512x512_S1x2048x512_2_2_1_1_0_0] <;> first | rfl | exact c2
    | ⟨1, _⟩ => simp [DotDims.lhsIdx, dot_S1x2048x512_S1x512x512_S1x2048x512_2_2_1_1_0_0] <;> first | rfl | exact c2
    | ⟨2, _⟩ => simp [DotDims.lhsIdx, dot_S1x2048x512_S1x512x512_S1x2048x512_2_2_1_1_0_0] <;> first | rfl | exact c2
  have r2 : dot_S1x2048x512_S1x512x512_S1x2048x512_2_2_1_1_0_0.rhsIdx (ix3 (0 : Fin 1) r kk) ((contrEquiv1 _ 512 rfl rfl).symm c) = ix3 (0 : Fin 1) kk c := by
    funext ax; apply Fin.ext
    match ax with
    | ⟨0, _⟩ => simp [DotDims.rhsIdx, dot_S1x2048x512_S1x512x512_S1x2048x512_2_2_1_1_0_0] <;> first | rfl | exact c2
    | ⟨1, _⟩ => simp [DotDims.rhsIdx, dot_S1x2048x512_S1x512x512_S1x2048x512_2_2_1_1_0_0] <;> first | rfl | exact c2
    | ⟨2, _⟩ => simp [DotDims.rhsIdx, dot_S1x2048x512_S1x512x512_S1x2048x512_2_2_1_1_0_0] <;> first | rfl | exact c2
  rw [l2, r2]

/-- The values' product: the weights of query row r against column d of the values, over the block's 512 keys. -/
theorem mm_values (A : FVec Ideal S1x2048x512 .bf16) (B : FVec Ideal S1x512x512 .bf16) (r : Fin 2048) (d : Fin 512) :
    matmul dot_S1x2048x512_S1x512x512_S1x2048x512_2_1_1_2_0_0 none A B (constant (F := Ideal) S1x2048x512 .f32 0x00000000#32) (ix3 (0 : Fin 1) r d)
      = ∑ c : Fin 512, A (ix3 (0 : Fin 1) r c) * B (ix3 (0 : Fin 1) c d) := by
  show FloatOps.matmul _ none A B _ (ix3 (0 : Fin 1) r d) = _
  rw [Ideal.matmul_constant_zero_apply, ← Equiv.sum_comp (contrEquiv1 dot_S1x2048x512_S1x512x512_S1x2048x512_2_1_1_2_0_0 512 rfl rfl).symm]
  refine Finset.sum_congr rfl fun c _ => ?_
  have c2 := contrEquiv1_symm_val dot_S1x2048x512_S1x512x512_S1x2048x512_2_1_1_2_0_0 512 rfl rfl c
  have l2 : dot_S1x2048x512_S1x512x512_S1x2048x512_2_1_1_2_0_0.lhsIdx (ix3 (0 : Fin 1) r d) ((contrEquiv1 _ 512 rfl rfl).symm c) = ix3 (0 : Fin 1) r c := by
    funext ax; apply Fin.ext
    match ax with
    | ⟨0, _⟩ => simp [DotDims.lhsIdx, dot_S1x2048x512_S1x512x512_S1x2048x512_2_1_1_2_0_0] <;> first | rfl | exact c2
    | ⟨1, _⟩ => simp [DotDims.lhsIdx, dot_S1x2048x512_S1x512x512_S1x2048x512_2_1_1_2_0_0] <;> first | rfl | exact c2
    | ⟨2, _⟩ => simp [DotDims.lhsIdx, dot_S1x2048x512_S1x512x512_S1x2048x512_2_1_1_2_0_0] <;> first | rfl | exact c2
  have r2 : dot_S1x2048x512_S1x512x512_S1x2048x512_2_1_1_2_0_0.rhsIdx (ix3 (0 : Fin 1) r d) ((contrEquiv1 _ 512 rfl rfl).symm c) = ix3 (0 : Fin 1) c d := by
    funext ax; apply Fin.ext
    match ax with
    | ⟨0, _⟩ => simp [DotDims.rhsIdx, dot_S1x2048x512_S1x512x512_S1x2048x512_2_1_1_2_0_0] <;> first | rfl | exact c2
    | ⟨1, _⟩ => simp [DotDims.rhsIdx, dot_S1x2048x512_S1x512x512_S1x2048x512_2_1_1_2_0_0] <;> first | rfl | exact c2
    | ⟨2, _⟩ => simp [DotDims.rhsIdx, dot_S1x2048x512_S1x512x512_S1x2048x512_2_1_1_2_0_0] <;> first | rfl | exact c2
  rw [l2, r2]

/-- The output projection: row c of the weights against row r of the normalised result, over the 512 channels. -/
theorem mm_out (A : FVec Ideal S512x512 .bf16) (B : FVec Ideal S2048x512 .bf16) (c' : Fin 512) (r : Fin 2048) :
    matmul dot_S512x512_S2048x512_S512x2048_1_1_0_0_n_n none A B (constant (F := Ideal) S512x2048 .f32 0x00000000#32) (ix2 c' r)
      = ∑ c : Fin 512, A (ix2 c' c) * B (ix2 r c) := by
  show FloatOps.matmul _ none A B _ (ix2 c' r) = _
  rw [Ideal.matmul_constant_zero_apply, ← Equiv.sum_comp (contrEquiv1 dot_S512x512_S2048x512_S512x2048_1_1_0_0_n_n 512 rfl rfl).symm]
  refine Finset.sum_congr rfl fun c _ => ?_
  have c2 := contrEquiv1_symm_val dot_S512x512_S2048x512_S512x2048_1_1_0_0_n_n 512 rfl rfl c
  have l2 : dot_S512x512_S2048x512_S512x2048_1_1_0_0_n_n.lhsIdx (ix2 c' r) ((contrEquiv1 _ 512 rfl rfl).symm c) = ix2 c' c := by
    funext ax; apply Fin.ext
    match ax with
    | ⟨0, _⟩ => simp [DotDims.lhsIdx, dot_S512x512_S2048x512_S512x2048_1_1_0_0_n_n] <;> first | rfl | exact c2
    | ⟨1, _⟩ => simp [DotDims.lhsIdx, dot_S512x512_S2048x512_S512x2048_1_1_0_0_n_n] <;> first | rfl | exact c2
  have r2 : dot_S512x512_S2048x512_S512x2048_1_1_0_0_n_n.rhsIdx (ix2 c' r) ((contrEquiv1 _ 512 rfl rfl).symm c) = ix2 r c := by
    funext ax; apply Fin.ext
    match ax with
    | ⟨0, _⟩ => simp [DotDims.rhsIdx, dot_S512x512_S2048x512_S512x2048_1_1_0_0_n_n] <;> first | rfl | exact c2
    | ⟨1, _⟩ => simp [DotDims.rhsIdx, dot_S512x512_S2048x512_S512x2048_1_1_0_0_n_n] <;> first | rfl | exact c2
  rw [l2, r2]

/-! ## The scores, the new maximum, the factor and the weights -/

/-- The score of query row r against key row kk of the block: the product over the channels, times the scale. -/
theorem pay7_apply (Q : Vec Ideal S1x2048x512 .bf16) (K : Vec Ideal S1x512x512 .bf16) (r : Fin 2048) (kk : Fin 512) :
    k1_pay7 (F := Ideal) Q K (ix3 (0 : Fin 1) r kk)
      = (∑ c : Fin 512, Q (ix3 (0 : Fin 1) r c) * K (ix3 (0 : Fin 1) kk c)) * Ideal.ofBits .f32 0x3D3504F3#32 := by
  unfold k1_pay7
  simp only [shapeCast_self]
  rw [mulf_apply, mm_scores]
  rfl

/-- The new running maximum of query row r: the old one against the maximum, from minus infinity, of the block's scores. -/
theorem pay8_apply (Q : Vec Ideal S1x2048x512 .bf16) (K : Vec Ideal S1x512x512 .bf16) (mp : Vec Ideal S1x2048x1 .f32)
    (r : Fin 2048) :
    k1_pay8 (F := Ideal) Q K mp (ix3 (0 : Fin 1) r (0 : Fin 1))
      = max (mp (ix3 (0 : Fin 1) r (0 : Fin 1)))
          ((Finset.univ : Finset (Fin 512)).fold max ⊥ fun kk => k1_pay7 (F := Ideal) Q K (ix3 (0 : Fin 1) r kk)) := by
  unfold k1_pay8
  dsimp only
  rw [maximumf_apply, sc_1a_1a1, rowmax]

/-- The factor that re-bases the carried sums of query row r: exp (old maximum - new maximum). -/
theorem pay9_apply (Q : Vec Ideal S1x2048x512 .bf16) (K : Vec Ideal S1x512x512 .bf16) (mp mp' : Vec Ideal S1x2048x1 .f32)
    (r : Fin 2048) :
    k1_pay9 (F := Ideal) Q K mp mp' (ix3 (0 : Fin 1) r (0 : Fin 1))
      = Ideal.exp (mp' (ix3 (0 : Fin 1) r (0 : Fin 1)) - k1_pay8 (F := Ideal) Q K mp (ix3 (0 : Fin 1) r (0 : Fin 1))) := rfl

/-- The weight of key kk of the block for query row r: exp (score - new maximum). -/
theorem pay10_apply (Q : Vec Ideal S1x2048x512 .bf16) (K : Vec Ideal S1x512x512 .bf16) (mp : Vec Ideal S1x2048x1 .f32)
    (r : Fin 2048) (kk : Fin 512) :
    k1_pay10 (F := Ideal) Q K mp (ix3 (0 : Fin 1) r kk)
      = Ideal.exp (k1_pay7 (F := Ideal) Q K (ix3 (0 : Fin 1) r kk) - k1_pay8 (F := Ideal) Q K mp (ix3 (0 : Fin 1) r (0 : Fin 1))) := by
  unfold k1_pay10
  show Ideal.exp (k1_pay7 (F := Ideal) Q K (ix3 (0 : Fin 1) r kk)
      - broadcastTo S1x2048x512 (k1_pay8 (F := Ideal) Q K mp) broadcasts_S1x2048x1_S1x2048x512 (ix3 (0 : Fin 1) r kk)) = _
  rw [bc_1a1_1ab]

/-- The new normaliser of query row r: the factor times the old one, plus the block's weights summed. -/
theorem pay11_apply (Q : Vec Ideal S1x2048x512 .bf16) (K : Vec Ideal S1x512x512 .bf16) (mp mp' lp : Vec Ideal S1x2048x1 .f32)
    (r : Fin 2048) :
    k1_pay11 (F := Ideal) Q K mp mp' lp (ix3 (0 : Fin 1) r (0 : Fin 1))
      = k1_pay9 (F := Ideal) Q K mp mp' (ix3 (0 : Fin 1) r (0 : Fin 1)) * lp (ix3 (0 : Fin 1) r (0 : Fin 1))
        + ∑ kk : Fin 512, k1_pay10 (F := Ideal) Q K mp (ix3 (0 : Fin 1) r kk) := by
  unfold k1_pay11
  dsimp only
  simp only [shapeCast_self]
  rw [addf_apply, mulf_apply, sc_1a_1a1, rowsum]

/-! ## The new weighted sum -/

/-- The new weighted sum of query row r at channel d: the factor times the old one, plus the block's weights against
    column d of the block's values (the factor is the left factor of the product, as written). -/
theorem pay1_apply (a : FVec Ideal S1x2048x1 .f32) (P : FVec Ideal S1x2048x512 .f32) (Vb : Vec Ideal S1x512x512 .bf16)
    (accp : Vec Ideal S1x2048x512 .f32) (r : Fin 2048) (d : Fin 512) :
    k1_pay1 (F := Ideal) a P Vb accp (ix3 (0 : Fin 1) r d)
      = a (ix3 (0 : Fin 1) r (0 : Fin 1)) * accp (ix3 (0 : Fin 1) r d) + ∑ kk : Fin 512, P (ix3 (0 : Fin 1) r kk) * Vb (ix3 (0 : Fin 1) kk d) := by
  unfold k1_pay1
  simp only [shapeCast_self]
  rw [addf_apply, mulf_apply, bc_1a1_1ab, mm_values]
  rfl

/-! ## The carried maximum as stored, and the three resets -/

/-- The maximum is stored as it is. -/
theorem pay2_eq (m' : FVec Ideal S1x2048x1 .f32) : k1_pay2 (F := Ideal) m' = m' := by
  unfold k1_pay2
  exact shapeCast_self _ _

/-- The running maximum is reset to minus infinity. -/
theorem pay4_apply (i : S1x2048x1.Idx) : k1_pay4 (F := Ideal) i = (⊥ : EReal) := by
  unfold k1_pay4
  rw [shapeCast_self]
  exact negInf

/-- The normaliser is reset to zero. -/
theorem pay5_apply (i : S1x2048x1.Idx) : k1_pay5 (F := Ideal) i = (0 : EReal) := by
  unfold k1_pay5
  rw [shapeCast_self]
  show Ideal.ofBits .f32 0x00000000#32 = 0
  simp [Ideal.ofBits, Ideal.ieee]

/-- The weighted sum is reset to zero. -/
theorem pay6_apply (i : S1x2048x512.Idx) : k1_pay6 (F := Ideal) i = (0 : EReal) := by
  unfold k1_pay6
  rw [shapeCast_self]
  show Ideal.ofBits .f32 0x00000000#32 = 0
  simp [Ideal.ofBits, Ideal.ieee]

/-! ## The result block -/

/-- The result at channel c, query row r: the input block there, plus the output projection of the normalised
    weighted sums of the row — Σ_d wo(c,d) · (acc(r,d) / l(r)) — plus the bias. -/
theorem pay3_apply (acc : Vec Ideal S1x2048x512 .f32) (l : Vec Ideal S1x2048x1 .f32) (wo : Vec Ideal S512x512 .bf16)
    (bo : Vec Ideal S512 .f32) (xb : Vec Ideal S1x512x2048 .f32) (c : Fin 512) (r : Fin 2048) :
    k1_pay3 (F := Ideal) acc l wo bo xb (ix3 (0 : Fin 1) c r)
      = xb (ix3 (0 : Fin 1) c r)
        + ((∑ d : Fin 512, wo (ix2 c d) * Ideal.div (acc (ix3 (0 : Fin 1) r d)) (l (ix3 (0 : Fin 1) r (0 : Fin 1)))) + bo (ix1 c)) := by
  unfold k1_pay3
  simp only [shapeCast_self]
  rw [shapeCast_ab_1ab_apply, addf_apply, shapeCast_1ab_ab_apply, addf_apply, mm_out, bc_a1_ab, sc_a_a1]
  refine congrArg (fun z => xb (ix3 (0 : Fin 1) c r) + (z + bo (ix1 c))) (Finset.sum_congr rfl fun d _ => ?_)
  rw [truncf_apply, shapeCast_1ab_ab_apply, divf_apply, bc_1a1_1ab]

end Cert.KernelIdeal.Val1

end
-- ==== Proof.KI.Val1.Blk.lean ====
import proofs.«150200_j79405355369062_2_alg».proof.Proof.KI.Reg1
import Idealize.ShloMosaic.Lib.Pipeline.Value
import Idealize.ShloMosaic.Lib.ValueLayout
import Idealize.ShloMosaic.Lib.Tactic

/-!
  The blocks the attention kernel reads, as entries of the arrays they are cut from, and the tiling of its output.

  Grid point t of the 4 × 2 × 8 grid is (batch entry, query half, key block) = (t / 16, t / 8 % 2, t % 8). There the
  query window holds rows 2048·(t / 8 % 2) … of batch entry t / 16, the key and value windows hold rows 512·(t % 8) …
  of it, the input window holds columns 2048·(t / 8 % 2) … of all 512 channels, and the output projection's weights
  and bias are whole. The output window's block sits where the input window's does, and is written back at the last
  key block only; the eight such points tile the output array.
-/

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The blocks of the input windows as entries of their arrays -/

/-- An entry of window 0's block at a grid point is the entry of its array at block index × block size + the
    coordinate inside the block, on each axis. -/
theorem iblk1_0_apply (c : Dev nD) (t : Fin cfg1.N) (y : S1x2048x512.Idx) (i : S4x4096x512.Idx)
    (h0 : (i 0).val = win1_0.index t (0 : Fin 3) * 1 + (y 0).val)
    (h1 : (i 1).val = win1_0.index t (1 : Fin 3) * 2048 + (y 1).val)
    (h2 : (i 2).val = win1_0.index t (2 : Fin 3) * 512 + (y 2).val) :
    (iblk1 V c 0 t : Vec Ideal S1x2048x512 .bf16) y = (V c main_v26_0 : S4x4096x512.Idx → Elt Ideal .bf16) i := by
  unfold iblk1
  rw [View.read_apply]
  show V c main_v26_0 _ = V c main_v26_0 _
  refine congrArg _ (funext fun a => Fin.ext ?_)
  match a with
  | ⟨0, _⟩ => show win1_0.index t (0 : Fin 3) * 1 + 1 * (y 0).val = (i 0).val; omega
  | ⟨1, _⟩ => show win1_0.index t (1 : Fin 3) * 2048 + 1 * (y 1).val = (i 1).val; omega
  | ⟨2, _⟩ => show win1_0.index t (2 : Fin 3) * 512 + 1 * (y 2).val = (i 2).val; omega

/-- An entry of window 1's block at a grid point is the entry of its array at block index × block size + the
    coordinate inside the block, on each axis. -/
theorem iblk1_1_apply (c : Dev nD) (t : Fin cfg1.N) (y : S1x512x512.Idx) (i : S4x4096x512.Idx)
    (h0 : (i 0).val = win1_1.index t (0 : Fin 3) * 1 + (y 0).val)
    (h1 : (i 1).val = win1_1.index t (1 : Fin 3) * 512 + (y 1).val)
    (h2 : (i 2).val = win1_1.index t (2 : Fin 3) * 512 + (y 2).val) :
    (iblk1 V c 1 t : Vec Ideal S1x512x512 .bf16) y = (V c main_v26_1 : S4x4096x512.Idx → Elt Ideal .bf16) i := by
  unfold iblk1
  rw [View.read_apply]
  show V c main_v26_1 _ = V c main_v26_1 _
  refine congrArg _ (funext fun a => Fin.ext ?_)
  match a with
  | ⟨0, _⟩ => show win1_1.index t (0 : Fin 3) * 1 + 1 * (y 0).val = (i 0).val; omega
  | ⟨1, _⟩ => show win1_1.index t (1 : Fin 3) * 512 + 1 * (y 1).val = (i 1).val; omega
  | ⟨2, _⟩ => show win1_1.index t (2 : Fin 3) * 512 + 1 * (y 2).val = (i 2).val; omega

/-- An entry of window 2's block at a grid point is the entry of its array at block index × block size + the
    coordinate inside the block, on each axis. -/
theorem iblk1_2_apply (c : Dev nD) (t : Fin cfg1.N) (y : S1x512x512.Idx) (i : S4x4096x512.Idx)
    (h0 : (i 0).val = win1_2.index t (0 : Fin 3) * 1 + (y 0).val)
    (h1 : (i 1).val = win1_2.index t (1 : Fin 3) * 512 + (y 1).val)
    (h2 : (i 2).val = win1_2.index t (2 : Fin 3) * 512 + (y 2).val) :
    (iblk1 V c 2 t : Vec Ideal S1x512x512 .bf16) y = (V c main_v26_2 : S4x4096x512.Idx → Elt Ideal .bf16) i := by
  unfold iblk1
  rw [View.read_apply]
  show V c main_v26_2 _ = V c main_v26_2 _
  refine congrArg _ (funext fun a => Fin.ext ?_)
  match a with
  | ⟨0, _⟩ => show win1_2.index t (0 : Fin 3) * 1 + 1 * (y 0).val = (i 0).val; omega
  | ⟨1, _⟩ => show win1_2.index t (1 : Fin 3) * 512 + 1 * (y 1).val = (i 1).val; omega
  | ⟨2, _⟩ => show win1_2.index t (2 : Fin 3) * 512 + 1 * (y 2).val = (i 2).val; omega

/-- An entry of window 3's block at a grid point is the entry of its array at block index × block size + the
    coordinate inside the block, on each axis. -/
theorem iblk1_3_apply (c : Dev nD) (t : Fin cfg1.N) (y : S1x512x2048.Idx) (i : S4x512x4096.Idx)
    (h0 : (i 0).val = win1_3.index t (0 : Fin 3) * 1 + (y 0).val)
    (h1 : (i 1).val = win1_3.index t (1 : Fin 3) * 512 + (y 1).val)
    (h2 : (i 2).val = win1_3.index t (2 : Fin 3) * 2048 + (y 2).val) :
    (iblk1 V c 3 t : Vec Ideal S1x512x2048 .f32) y = (V c main_v21 : S4x512x4096.Idx → Elt Ideal .f32) i := by
  unfold iblk1
  rw [View.read_apply]
  show V c main_v21 _ = V c main_v21 _
  refine congrArg _ (funext fun a => Fin.ext ?_)
  match a with
  | ⟨0, _⟩ => show win1_3.index t (0 : Fin 3) * 1 + 1 * (y 0).val = (i 0).val; omega
  | ⟨1, _⟩ => show win1_3.index t (1 : Fin 3) * 512 + 1 * (y 1).val = (i 1).val; omega
  | ⟨2, _⟩ => show win1_3.index t (2 : Fin 3) * 2048 + 1 * (y 2).val = (i 2).val; omega

/-- An entry of window 4's block at a grid point is the entry of its array at block index × block size + the
    coordinate inside the block, on each axis. -/
theorem iblk1_4_apply (c : Dev nD) (t : Fin cfg1.N) (y : S512x512.Idx) (i : S512x512.Idx)
    (h0 : (i 0).val = win1_4.index t (0 : Fin 2) * 512 + (y 0).val)
    (h1 : (i 1).val = win1_4.index t (1 : Fin 2) * 512 + (y 1).val) :
    (iblk1 V c 4 t : Vec Ideal S512x512 .bf16) y = (V c main_v27 : S512x512.Idx → Elt Ideal .bf16) i := by
  unfold iblk1
  rw [View.read_apply]
  show V c main_v27 _ = V c main_v27 _
  refine congrArg _ (funext fun a => Fin.ext ?_)
  match a with
  | ⟨0, _⟩ => show win1_4.index t (0 : Fin 2) * 512 + 1 * (y 0).val = (i 0).val; omega
  | ⟨1, _⟩ => show win1_4.index t (1 : Fin 2) * 512 + 1 * (y 1).val = (i 1).val; omega

/-- An entry of window 5's block at a grid point is the entry of its array at block index × block size + the
    coordinate inside the block, on each axis. -/
theorem iblk1_5_apply (c : Dev nD) (t : Fin cfg1.N) (y : S512.Idx) (i : S512.Idx)
    (h0 : (i 0).val = win1_5.index t (0 : Fin 1) * 512 + (y 0).val) :
    (iblk1 V c 5 t : Vec Ideal S512 .f32) y = (V c main_arg10 : S512.Idx → Elt Ideal .f32) i := by
  unfold iblk1
  rw [View.read_apply]
  show V c main_arg10 _ = V c main_arg10 _
  refine congrArg _ (funext fun a => Fin.ext ?_)
  match a with
  | ⟨0, _⟩ => show win1_5.index t (0 : Fin 1) * 512 + 1 * (y 0).val = (i 0).val; omega

/-! ## The printed index maps, decided over the 64 grid points -/

/-- Where each window's block sits at grid point t. -/
theorem idx_facts1 : ∀ t : Fin cfg1.N,
    win1_0.index t (0 : Fin 3) = t.val / 16 ∧ win1_0.index t (1 : Fin 3) = t.val / 8 % 2 ∧ win1_0.index t (2 : Fin 3) = 0
    ∧ win1_1.index t (0 : Fin 3) = t.val / 16 ∧ win1_1.index t (1 : Fin 3) = t.val % 8 ∧ win1_1.index t (2 : Fin 3) = 0
    ∧ win1_2.index t (0 : Fin 3) = t.val / 16 ∧ win1_2.index t (1 : Fin 3) = t.val % 8 ∧ win1_2.index t (2 : Fin 3) = 0
    ∧ win1_3.index t (0 : Fin 3) = t.val / 16 ∧ win1_3.index t (1 : Fin 3) = 0 ∧ win1_3.index t (2 : Fin 3) = t.val / 8 % 2
    ∧ win1_4.index t (0 : Fin 2) = 0 ∧ win1_4.index t (1 : Fin 2) = 0
    ∧ win1_5.index t (0 : Fin 1) = 0
    ∧ win1_6.index t (0 : Fin 3) = t.val / 16 ∧ win1_6.index t (1 : Fin 3) = 0 ∧ win1_6.index t (2 : Fin 3) = t.val / 8 % 2 :=
  (by decide +kernel : ∀ t : Fin grid1.N, _)

/-! ## The written-back blocks tile the output array -/

/-- An index of the output array is in point t's block iff each coordinate is in the block's range on its axis. -/
theorem mem_blk6 (t : Fin cfg1.N) (i : S4x512x4096.Idx) :
    i ∈ ((cfg1.win 6).blk t).view.set ↔ ∀ a : Fin 3, win1_6.index t a * S1x512x2048.size a ≤ (i a).val ∧ (i a).val < win1_6.index t a * S1x512x2048.size a + S1x512x2048.size a := by
  show i ∈ ((View.whole main_v28).slice (win1_6.rect t)).set ↔ _
  rw [View.set_slice_whole, Rect.mem_set_unit]
  exact Iff.rfl

/-- Every index (b, o, n) of the output array is in the block written back at the last key block of
    (batch entry b, query half n / 2048). -/
theorem cover6 (i : S4x512x4096.Idx) : ∃ t : Fin cfg1.N, (cfg1.win 6).flush t = true ∧ i ∈ ((cfg1.win 6).blk t).view.set := by
  have hi0 : (i 0).val < 4 := (i 0).isLt
  have hi1 : (i 1).val < 512 := (i 1).isLt
  have hi2 : (i 2).val < 4096 := (i 2).isLt
  have hN : cfg1.N = 64 := N_1
  let t : Fin cfg1.N := ⟨16 * (i 0).val + 8 * ((i 2).val / 2048) + 7, by rw [hN]; omega⟩
  have htv : t.val = 16 * (i 0).val + 8 * ((i 2).val / 2048) + 7 := rfl
  obtain ⟨-, -, -, -, -, -, -, -, -, -, -, -, -, -, -, q0, q1, q2⟩ := idx_facts1 t
  refine ⟨t, (flush1_6 t).mpr (by omega), ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 2048 ≤ (i 2).val ∧ (i 2).val < win1_6.index t (2 : Fin 3) * 2048 + 2048; omega

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

end Cert.KernelIdeal.Val1

end
-- ==== Proof.Alg.Blocks.lean ====
/-
  The blockwise softmax state over extended-real blocks, and the key of block j, position k.

  The 4096 keys of a query are walked in eight blocks of 512: key 512·j + k is position k of block j (taken modulo 4096
  so that the block function is total over the natural numbers; only j < 8 is ever used). The state after the first t
  blocks — running maximum, normaliser, weighted sum — is the recursion of Proof/LibOnlineSoftmax.lean over blocks with
  extended-real entries; on real entries it is that module's recursion.
-/
import proofs.«150200_j79405355369062_2_alg».proof.Proof.LibOnlineSoftmax

noncomputable section

namespace Cert.Alg

open Idealize.ShloMosaic Cert.Lib.OnlineSoftmax

/-- Position k of key block j. -/
def keyAt (j : ℕ) (k : Fin 512) : Fin 4096 := ⟨(512 * j + k.val) % 4096, Nat.mod_lt _ (by norm_num)⟩

theorem keyAt_val (j : ℕ) (hj : j < 8) (k : Fin 512) : (keyAt j k).val = 512 * j + k.val := by
  have := k.isLt
  show (512 * j + k.val) % 4096 = _
  exact Nat.mod_eq_of_lt (by omega)

variable {κ : Type} [Fintype κ] [Nonempty κ]

/-- The state after the first t blocks, from (-∞, 0, 0), over extended-real blocks. -/
def runE (s v : ℕ → κ → EReal) : ℕ → EReal × EReal × EReal
  | 0 => (⊥, 0, 0)
  | t + 1 => step (runE s v t) (s t) (v t)

theorem runE_zero (s v : ℕ → κ → EReal) : runE s v 0 = (⊥, 0, 0) := rfl
theorem runE_succ (s v : ℕ → κ → EReal) (t : ℕ) : runE s v (t + 1) = step (runE s v t) (s t) (v t) := rfl

/-- On real blocks it is the real recursion. -/
theorem runE_coe (s v : ℕ → κ → ℝ) (t : ℕ) :
    runE (fun j k => ((s j k : ℝ) : EReal)) (fun j k => ((v j k : ℝ) : EReal)) t = run s v t := by
  induction t with
  | zero => rfl
  | succ t ih => rw [runE_succ, ih]; rfl

/-- The running maximum and the normaliser do not depend on the values. -/
theorem runE_fst_snd (s v v' : ℕ → κ → EReal) (t : ℕ) :
    (runE s v t).1 = (runE s v' t).1 ∧ (runE s v t).2.1 = (runE s v' t).2.1 := by
  induction t with
  | zero => exact ⟨rfl, rfl⟩
  | succ t ih =>
    rw [runE_succ, runE_succ]
    unfold step
    exact ⟨by rw [ih.1], by rw [ih.1, ih.2]⟩

end Cert.Alg

end
-- ==== Proof.KI.Val1.State.lean ====
import proofs.«150200_j79405355369062_2_alg».proof.Proof.KI.Reg1Pieces
import proofs.«150200_j79405355369062_2_alg».proof.Proof.KI.Val1Pay
import proofs.«150200_j79405355369062_2_alg».proof.Proof.KI.Val1.Blk
import proofs.«150200_j79405355369062_2_alg».proof.Proof.Alg.Blocks
import proofs.«150200_j79405355369062_2_alg».proof.Proof.RefVal.Spec

/-!
  The carried buffers of the attention kernel hold the blockwise softmax state.

  At grid point (b, qi, kv) the body reads query rows 2048·qi … of batch entry b and key and value rows 512·kv … of it,
  and replaces, for each query row r and channel d, the triple (running maximum, normaliser, weighted sum) by one
  block's update of it over the scores of the row against the block's 512 keys and the values' channel d; at kv = 0
  the triple it updates is the reset one (-∞, 0, 0). So after point (b, qi, kv) the triple is the state of query
  2048·qi + r after its first kv + 1 key blocks: induction on kv.
-/

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## One block's update, from the body's stored values -/

/-- At query row r and channel d the three values the body stores are one block's update of the three it loaded, over
    the block's scaled scores of the row and column d of the block's values. -/
theorem step_at (Q : Vec Ideal S1x2048x512 .bf16) (K Vb : Vec Ideal S1x512x512 .bf16) (mp lp : Vec Ideal S1x2048x1 .f32)
    (accp : Vec Ideal S1x2048x512 .f32) (r : Fin 2048) (d : Fin 512) :
    ((k1_pay2 (F := Ideal) (k1_pay8 (F := Ideal) Q K mp) (ix3 (0 : Fin 1) r (0 : Fin 1)),
      k1_pay11 (F := Ideal) Q K mp mp lp (ix3 (0 : Fin 1) r (0 : Fin 1)),
      k1_pay1 (F := Ideal) (k1_pay9 (F := Ideal) Q K mp mp) (k1_pay10 (F := Ideal) Q K mp) Vb accp (ix3 (0 : Fin 1) r d)) : EReal × EReal × EReal)
      = Cert.Lib.OnlineSoftmax.step (mp (ix3 (0 : Fin 1) r (0 : Fin 1)), lp (ix3 (0 : Fin 1) r (0 : Fin 1)), accp (ix3 (0 : Fin 1) r d))
          (fun kk : Fin 512 => (∑ c' : Fin 512, Q (ix3 (0 : Fin 1) r c') * K (ix3 (0 : Fin 1) kk c')) * Ideal.ofBits .f32 0x3D3504F3#32)
          (fun kk : Fin 512 => Vb (ix3 (0 : Fin 1) kk d)) := by
  unfold Cert.Lib.OnlineSoftmax.step
  dsimp only
  rw [pay2_eq, pay11_apply, pay1_apply, pay9_apply]
  simp only [pay10_apply, pay8_apply, pay7_apply]

/-! ## The blockwise softmax state of one query row -/

/-- The state (running maximum, normaliser, weighted sum at channel d) of query n of batch entry b after its first t
    key blocks of 512: the recursion over the scaled scores of the query against the keys of each block and the
    values' channel d. -/
def stOf (q k v : FVec Ideal S4x4096x512 .bf16) (b : Fin 4) (n : Fin 4096) (d : Fin 512) (t : ℕ) : EReal × EReal × EReal :=
  Cert.Alg.runE (fun j kk => Cert.ReferenceIdeal.RefSpec.sc q k b n (Cert.Alg.keyAt j kk))
    (fun j kk => v (ix3 b (Cert.Alg.keyAt j kk) d)) t

theorem stOf_zero (q k v : FVec Ideal S4x4096x512 .bf16) (b : Fin 4) (n : Fin 4096) (d : Fin 512) :
    stOf q k v b n d 0 = (⊥, 0, 0) := rfl

theorem stOf_succ (q k v : FVec Ideal S4x4096x512 .bf16) (b : Fin 4) (n : Fin 4096) (d : Fin 512) (t : ℕ) :
    stOf q k v b n d (t + 1)
      = Cert.Lib.OnlineSoftmax.step (stOf q k v b n d t)
          (fun kk => Cert.ReferenceIdeal.RefSpec.sc q k b n (Cert.Alg.keyAt t kk))
          (fun kk => v (ix3 b (Cert.Alg.keyAt t kk) d)) := rfl

/-- The same for the three arrays the grid reads. -/
abbrev st1 (c : Dev nD) (b : Fin 4) (n : Fin 4096) (d : Fin 512) (t : ℕ) : EReal × EReal × EReal :=
  stOf (V c main_v26_0) (V c main_v26_1) (V c main_v26_2) b n d t

/-! ## The blocks at a grid point -/

/-- The query, key and value blocks at a grid point. -/
abbrev Qb (c : Dev nD) (t : Fin cfg1.N) : Vec Ideal S1x2048x512 .bf16 := iblk1 V c 0 t
abbrev Kb (c : Dev nD) (t : Fin cfg1.N) : Vec Ideal S1x512x512 .bf16 := iblk1 V c 1 t
abbrev Vb (c : Dev nD) (t : Fin cfg1.N) : Vec Ideal S1x512x512 .bf16 := iblk1 V c 2 t

/-- The query block at a point of (batch entry b, query half qi): row r is query 2048·qi + r of b. -/
theorem blkQ (c : Dev nD) (t : Fin cfg1.N) (b : Fin 4) (qi : Fin 2) (h1 : t.val / 16 = b.val) (h2 : t.val / 8 % 2 = qi.val)
    (r : Fin 2048) (n : Fin 4096) (hn : n.val = 2048 * qi.val + r.val) (c' : Fin 512) :
    (iblk1 V c 0 t : Vec Ideal S1x2048x512 .bf16) (ix3 (0 : Fin 1) r c') = (V c main_v26_0 : S4x4096x512.Idx → Elt Ideal .bf16) (ix3 b n c') := by
  obtain ⟨a0, a1, a2, -⟩ := idx_facts1 t
  exact iblk1_0_apply V c t (ix3 (0 : Fin 1) r c') (ix3 b n c')
    (by show b.val = win1_0.index t (0 : Fin 3) * 1 + 0; omega)
    (by show n.val = win1_0.index t (1 : Fin 3) * 2048 + r.val; omega)
    (by show c'.val = win1_0.index t (2 : Fin 3) * 512 + c'.val; omega)

/-- The key block at a point of (batch entry b, key block kv): row kk is key 512·kv + kk of b. -/
theorem blkK (c : Dev nD) (t : Fin cfg1.N) (b : Fin 4) (kv : ℕ) (hkv : kv < 8) (h1 : t.val / 16 = b.val) (h3 : t.val % 8 = kv)
    (kk : Fin 512) (c' : Fin 512) :
    (iblk1 V c 1 t : Vec Ideal S1x512x512 .bf16) (ix3 (0 : Fin 1) kk c') = (V c main_v26_1 : S4x4096x512.Idx → Elt Ideal .bf16) (ix3 b (Cert.Alg.keyAt kv kk) c') := by
  obtain ⟨-, -, -, a0, a1, a2, -⟩ := idx_facts1 t
  have hk := Cert.Alg.keyAt_val kv hkv kk
  exact iblk1_1_apply V c t (ix3 (0 : Fin 1) kk c') (ix3 b (Cert.Alg.keyAt kv kk) c')
    (by show b.val = win1_1.index t (0 : Fin 3) * 1 + 0; omega)
    (by show (Cert.Alg.keyAt kv kk).val = win1_1.index t (1 : Fin 3) * 512 + kk.val; omega)
    (by show c'.val = win1_1.index t (2 : Fin 3) * 512 + c'.val; omega)

/-- The value block likewise. -/
theorem blkV (c : Dev nD) (t : Fin cfg1.N) (b : Fin 4) (kv : ℕ) (hkv : kv < 8) (h1 : t.val / 16 = b.val) (h3 : t.val % 8 = kv)
    (kk : Fin 512) (d : Fin 512) :
    (iblk1 V c 2 t : Vec Ideal S1x512x512 .bf16) (ix3 (0 : Fin 1) kk d) = (V c main_v26_2 : S4x4096x512.Idx → Elt Ideal .bf16) (ix3 b (Cert.Alg.keyAt kv kk) d) := by
  obtain ⟨-, -, -, -, -, -, a0, a1, a2, -⟩ := idx_facts1 t
  have hk := Cert.Alg.keyAt_val kv hkv kk
  exact iblk1_2_apply V c t (ix3 (0 : Fin 1) kk d) (ix3 b (Cert.Alg.keyAt kv kk) d)
    (by show b.val = win1_2.index t (0 : Fin 3) * 1 + 0; omega)
    (by show (Cert.Alg.keyAt kv kk).val = win1_2.index t (1 : Fin 3) * 512 + kk.val; omega)
    (by show d.val = win1_2.index t (2 : Fin 3) * 512 + d.val; omega)

/-- The block's scaled score of row r against key kk is the arrays' scaled score of query 2048·qi + r against key
    512·kv + kk. -/
theorem scores_eq (c : Dev nD) (t : Fin cfg1.N) (b : Fin 4) (qi : Fin 2) (kv : ℕ) (hkv : kv < 8) (h1 : t.val / 16 = b.val)
    (h2 : t.val / 8 % 2 = qi.val) (h3 : t.val % 8 = kv) (r : Fin 2048) (n : Fin 4096) (hn : n.val = 2048 * qi.val + r.val) (kk : Fin 512) :
    (∑ c' : Fin 512, Qb V c t (ix3 (0 : Fin 1) r c') * Kb V c t (ix3 (0 : Fin 1) kk c'))
        * Ideal.ofBits .f32 0x3D3504F3#32
      = Cert.ReferenceIdeal.RefSpec.sc (V c main_v26_0) (V c main_v26_1) b n (Cert.Alg.keyAt kv kk) := by
  unfold Cert.ReferenceIdeal.RefSpec.sc
  refine congrArg (· * Ideal.ofBits .f32 0x3D3504F3#32) (Finset.sum_congr rfl fun c' _ => ?_)
  exact congrArg₂ (· * ·) (blkQ V c t b qi h1 h2 r n hn c') (blkK V c t b kv hkv h1 h3 kk c')

/-- One block's update at a grid point, in the arrays' terms. -/
theorem step_pt (c : Dev nD) (t : Fin cfg1.N) (b : Fin 4) (qi : Fin 2) (kv : ℕ) (hkv : kv < 8) (h1 : t.val / 16 = b.val)
    (h2 : t.val / 8 % 2 = qi.val) (h3 : t.val % 8 = kv) (r : Fin 2048) (n : Fin 4096) (hn : n.val = 2048 * qi.val + r.val) (d : Fin 512)
    (mp lp : Vec Ideal S1x2048x1 .f32) (accp : Vec Ideal S1x2048x512 .f32) :
    ((k1_pay2 (F := Ideal) (k1_pay8 (F := Ideal) (iblk1 V c 0 t) (iblk1 V c 1 t) mp) (ix3 (0 : Fin 1) r (0 : Fin 1)),
      k1_pay11 (F := Ideal) (iblk1 V c 0 t) (iblk1 V c 1 t) mp mp lp (ix3 (0 : Fin 1) r (0 : Fin 1)),
      k1_pay1 (F := Ideal) (k1_pay9 (F := Ideal) (iblk1 V c 0 t) (iblk1 V c 1 t) mp mp) (k1_pay10 (F := Ideal) (iblk1 V c 0 t) (iblk1 V c 1 t) mp) (iblk1 V c 2 t) accp (ix3 (0 : Fin 1) r d)) : EReal × EReal × EReal)
      = Cert.Lib.OnlineSoftmax.step (mp (ix3 (0 : Fin 1) r (0 : Fin 1)), lp (ix3 (0 : Fin 1) r (0 : Fin 1)), accp (ix3 (0 : Fin 1) r d))
          (fun kk => Cert.ReferenceIdeal.RefSpec.sc (V c main_v26_0) (V c main_v26_1) b n (Cert.Alg.keyAt kv kk))
          (fun kk => (V c main_v26_2 : FVec Ideal S4x4096x512 .bf16) (ix3 b (Cert.Alg.keyAt kv kk) d)) := by
  refine (step_at (iblk1 V c 0 t) (iblk1 V c 1 t) (iblk1 V c 2 t) mp lp accp r d).trans ?_
  refine congrArg₂ (Cert.Lib.OnlineSoftmax.step _) (funext fun kk => ?_) (funext fun kk => ?_)
  · exact scores_eq V c t b qi kv hkv h1 h2 h3 r n hn kk
  · exact blkV V c t b kv hkv h1 h3 kk d

/-! ## The induction over the key blocks -/

/-- After the point of (b, qi) at key block kv the carried triple of row r, channel d is the state of query
    2048·qi + r after kv + 1 key blocks. -/
theorem state1_aux (c : Dev nD) (b : Fin 4) (qi : Fin 2) (r : Fin 2048) (n : Fin 4096) (hn : n.val = 2048 * qi.val + r.val) (d : Fin 512) :
    ∀ (kv : ℕ) (hkv : kv < 8) (t : Fin cfg1.N) (ht : t.val = 16 * b.val + 8 * qi.val + kv),
      (((outsAt1 V c t.val t.isLt).2.1 (ix3 (0 : Fin 1) r (0 : Fin 1)),
        (outsAt1 V c t.val t.isLt).2.2.1 (ix3 (0 : Fin 1) r (0 : Fin 1)),
        (outsAt1 V c t.val t.isLt).2.2.2 (ix3 (0 : Fin 1) r d)) : EReal × EReal × EReal) = st1 V c b n d (kv + 1) := by
  have hb := b.isLt
  have hq := qi.isLt
  intro kv
  induction kv with
  | zero =>
    intro hkv t ht
    have h1 : t.val / 16 = b.val := by omega
    have h2 : t.val / 8 % 2 = qi.val := by omega
    have h3 : t.val % 8 = 0 := by omega
    rw [outsAt1_reset_m V c t h3, outsAt1_reset_l V c t h3, outsAt1_reset_acc V c t h3]
    refine (step_pt V c t b qi 0 hkv h1 h2 h3 r n hn d (k1_pay4 (F := Ideal)) (k1_pay5 (F := Ideal)) (k1_pay6 (F := Ideal))).trans ?_
    rw [pay4_apply, pay5_apply, pay6_apply]
    rfl
  | succ kv ih =>
    intro hkv t ht
    have hN : cfg1.N = 64 := N_1
    have h1 : t.val / 16 = b.val := by omega
    have h2 : t.val / 8 % 2 = qi.val := by omega
    have h3 : t.val % 8 = kv + 1 := by omega
    have h0 : ¬t.val % 8 = 0 := by omega
    have hlt : t.val - 1 < cfg1.N := Nat.lt_of_le_of_lt (Nat.sub_le _ _) t.isLt
    have IH := ih (by omega) ⟨t.val - 1, hlt⟩ (by show t.val - 1 = _; omega)
    rw [outsAt1_step_m V c t h0, outsAt1_step_l V c t h0, outsAt1_step_acc V c t h0]
    refine (step_pt V c t b qi (kv + 1) hkv h1 h2 h3 r n hn d _ _ _).trans ?_
    refine Eq.trans ?_ (stOf_succ (V c main_v26_0) (V c main_v26_1) (V c main_v26_2) b n d (kv + 1)).symm
    exact congrArg (fun s => Cert.Lib.OnlineSoftmax.step s
      (fun kk => Cert.ReferenceIdeal.RefSpec.sc (V c main_v26_0) (V c main_v26_1) b n (Cert.Alg.keyAt (kv + 1) kk))
      (fun kk => (V c main_v26_2 : FVec Ideal S4x4096x512 .bf16) (ix3 b (Cert.Alg.keyAt (kv + 1) kk) d))) IH

/-- After grid point t = (b, qi, kv) the three carried buffers hold, at query row r of the block and channel d, the
    blockwise softmax state of query 2048·qi + r of batch entry b after its first kv + 1 key blocks. -/
theorem state1 (c : Dev nD) (t : Fin cfg1.N) (b : Fin 4) (qi : Fin 2) (kv : Fin 8) (ht : t.val = 16 * b.val + 8 * qi.val + kv.val)
    (r : Fin 2048) (n : Fin 4096) (hn : n.val = 2048 * qi.val + r.val) (d : Fin 512) :
    ((outsAt1 V c t.val t.isLt).2.1 (ix3 (0 : Fin 1) r (0 : Fin 1)),
      (outsAt1 V c t.val t.isLt).2.2.1 (ix3 (0 : Fin 1) r (0 : Fin 1)),
      (outsAt1 V c t.val t.isLt).2.2.2 (ix3 (0 : Fin 1) r d)) = st1 V c b n d (kv.val + 1) :=
  state1_aux V c b qi r n hn d kv.val kv.isLt t ht

/-! ## The output array -/

/-- The output as a function of the input array, the output projection's weights and bias, and each query's state
    after all its key blocks: at (b, o, n) the input there plus the projection, at channel o, of query n's weighted
    sums over its normaliser, plus the bias. -/
def outOf (x3 : FVec Ideal S4x512x4096 .f32) (wo : FVec Ideal S512x512 .bf16) (bo : FVec Ideal S512 .f32)
    (st : Fin 4 → Fin 4096 → Fin 512 → EReal × EReal × EReal) : FVec Ideal S4x512x4096 .f32 := fun i =>
  x3 i + ((∑ d : Fin 512, wo (ix2 (i 1) d) * Ideal.div (st (i 0) (i 2) d).2.2 (st (i 0) (i 2) d).2.1) + bo (ix1 (i 1)))

theorem outOf_apply (x3 : FVec Ideal S4x512x4096 .f32) (wo : FVec Ideal S512x512 .bf16) (bo : FVec Ideal S512 .f32)
    (st : Fin 4 → Fin 4096 → Fin 512 → EReal × EReal × EReal) (b : Fin 4) (o : Fin 512) (n : Fin 4096) :
    outOf x3 wo bo st (ix3 b o n)
      = x3 (ix3 b o n) + ((∑ d : Fin 512, wo (ix2 o d) * Ideal.div (st b n d).2.2 (st b n d).2.1) + bo (ix1 o)) := rfl

/-- What the grid leaves in its output array. -/
abbrev out1 (c : Dev nD) : FVec Ideal S4x512x4096 .f32 :=
  outOf (V c main_v21) (V c main_v27) (V c main_arg10) (fun b n d => st1 V c b n d 8)

end Cert.KernelIdeal.Val1

end
-- ==== Proof.KI.Val1Fin.lean ====
import proofs.«150200_j79405355369062_2_alg».proof.Proof.KI.Val1.Blk

/-!
  The attention kernel's output array from what its last key blocks write back.

  The output window's block is written back only at the last key block of each (batch entry, query half); those eight
  blocks tile the output array [4, 512, 4096]: the block of grid point t holds columns 2048·(t / 8 % 2) … of all 512
  channels of batch entry t / 16. So if, at every such point, the tile the body leaves agrees entry by entry with one
  whole-array function G at the entries its block covers, the array after the call is G.
-/

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The output array after the 64 grid points is G, provided the tile left at each last key block is G on its block. -/
theorem final1_of (c : Dev nD) (G : FVec Ideal S4x512x4096 .f32)
    (hG : ∀ (t : Fin cfg1.N), t.val % 8 = 7 → ∀ (u : Fin 1) (o : Fin 512) (n' : Fin 2048) (b : Fin 4) (n : Fin 4096),
      b.val = t.val / 16 → n.val = 2048 * (t.val / 8 % 2) + n'.val →
      (outsAt1 V c t.val t.isLt).1 (ix3 u o n') = G (ix3 b o n)) :
    (dat1 (F := Ideal) V c).arrAt 6 cfg1.N = G := by
  refine (dat1 V c).arrAt_eq_of_cover 6 G (fun t hf => ?_) cover6
  have h7 : t.val % 8 = 7 := (flush1_6 t).mp hf
  have hN : cfg1.N = 64 := N_1
  have ht : t.val < 64 := lt_of_lt_of_eq t.isLt N_1
  show (cfg1.win 6).cut (grid1.coords t) ((dat1 V c).after 6 t) = ((cfg1.win 6).blk t).view.read (Elt Ideal) G
  rw [after1_6]
  obtain ⟨-, -, -, -, -, -, -, -, -, -, -, -, -, -, -, q0, q1, q2⟩ := idx_facts1 t
  funext j
  obtain ⟨u, o, n', rfl⟩ : ∃ (u : Fin 1) (o : Fin 512) (n' : Fin 2048), j = ix3 u o n' := ⟨j 0, j 1, j 2, eq_ix3 j⟩
  have hu : u.val = 0 := by omega
  have hn' : n'.val < 2048 := n'.isLt
  refine (hG t h7 u o n' ⟨t.val / 16, by omega⟩ ⟨2048 * (t.val / 8 % 2) + n'.val, by omega⟩ rfl rfl).trans ?_
  show G _ = G (((cfg1.win 6).blk t).view.emb (ix3 u o n'))
  refine congrArg G (funext fun a => Fin.ext ?_)
  match a with
  | ⟨0, _⟩ => show t.val / 16 = win1_6.index t (0 : Fin 3) * 1 + 1 * u.val; omega
  | ⟨1, _⟩ => show o.val = win1_6.index t (1 : Fin 3) * 512 + 1 * o.val; omega
  | ⟨2, _⟩ => show 2048 * (t.val / 8 % 2) + n'.val = win1_6.index t (2 : Fin 3) * 2048 + 1 * n'.val; omega

end Cert.KernelIdeal.Val1

end
-- ==== Proof.KI.Val1Out.lean ====
/-
  The attention kernel's output array as a function of the arrays it reads.

  At the last key block of (batch entry b, query half qi) the body writes back, at channel o and row r of the block, the
  input there plus the output projection of the row's normalised weighted sums — Σ_d wo(o,d) · (acc(r,d) / l(r)) — plus
  the bias; the input block, the weights and the bias are entries of their arrays, and the carried triple of row r,
  channel d is the blockwise softmax state of query 2048·qi + r after all eight key blocks. The eight written-back
  blocks tile the output array, so the array after the call is that function of the arrays at every entry. The step
  from the carried triples to the array is stated first with the triples' value as a hypothesis, then with it proved.
-/
import proofs.«150200_j79405355369062_2_alg».proof.Proof.KI.Val1.State
import proofs.«150200_j79405355369062_2_alg».proof.Proof.KI.Val1Fin

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- What the last key block of (batch entry b, query half) writes back, entry by entry, given that the carried triples
    hold the blockwise softmax state. -/
theorem flush_val_of_state (c : Dev nD)
    (hst : ∀ (t : Fin cfg1.N) (b : Fin 4) (qi : Fin 2) (kv : Fin 8) (ht : t.val = 16 * b.val + 8 * qi.val + kv.val)
      (r : Fin 2048) (n : Fin 4096) (hn : n.val = 2048 * qi.val + r.val) (d : Fin 512),
      ((outsAt1 V c t.val t.isLt).2.1 (ix3 (0 : Fin 1) r (0 : Fin 1)),
        (outsAt1 V c t.val t.isLt).2.2.1 (ix3 (0 : Fin 1) r (0 : Fin 1)),
        (outsAt1 V c t.val t.isLt).2.2.2 (ix3 (0 : Fin 1) r d)) = st1 V c b n d (kv.val + 1))
    (t : Fin cfg1.N) (h7 : t.val % 8 = 7) (u : Fin 1) (o : Fin 512) (n' : Fin 2048) (b : Fin 4)
    (n : Fin 4096) (hb : b.val = t.val / 16) (hn : n.val = 2048 * (t.val / 8 % 2) + n'.val) :
    (outsAt1 V c t.val t.isLt).1 (ix3 u o n') = out1 V c (ix3 b o n) := by
  have ht64 : t.val < 64 := lt_of_lt_of_eq t.isLt N_1
  have hu : u = (0 : Fin 1) := Fin.ext (by omega)
  subst hu
  obtain ⟨-, -, -, -, -, -, -, -, -, x0, x1, x2, w0, w1, b0, -, -, -⟩ := idx_facts1 t
  rw [outsAt1_out V c t h7]
  refine (pay3_apply _ _ _ _ _ o n').trans ?_
  refine Eq.trans ?_ (outOf_apply (V c main_v21) (V c main_v27) (V c main_arg10) (fun b n d => st1 V c b n d 8) b o n).symm
  refine congrArg₂ (fun p q : EReal => p + q) ?_
    (congrArg₂ (fun p q : EReal => p + q) (Finset.sum_congr rfl fun d _ => ?_) ?_)
  · exact iblk1_3_apply V c t (ix3 (0 : Fin 1) o n') (ix3 b o n)
      (by show b.val = win1_3.index t (0 : Fin 3) * 1 + 0; omega)
      (by show o.val = win1_3.index t (1 : Fin 3) * 512 + o.val; omega)
      (by show n.val = win1_3.index t (2 : Fin 3) * 2048 + n'.val; omega)
  · have hs := hst t b ⟨t.val / 8 % 2, by omega⟩ ⟨7, by omega⟩
      (by show t.val = 16 * b.val + 8 * (t.val / 8 % 2) + 7; omega) n' n hn d
    refine congrArg₂ (fun p q : EReal => p * q) ?_
      (congrArg₂ Ideal.div (congrArg (fun s : EReal × EReal × EReal => s.2.2) hs)
        (congrArg (fun s : EReal × EReal × EReal => s.2.1) hs))
    exact iblk1_4_apply V c t (ix2 o d) (ix2 o d)
      (by show o.val = win1_4.index t (0 : Fin 2) * 512 + o.val; omega)
      (by show d.val = win1_4.index t (1 : Fin 2) * 512 + d.val; omega)
  · exact iblk1_5_apply V c t (ix1 o) (ix1 o) (by show o.val = win1_5.index t (0 : Fin 1) * 512 + o.val; omega)

/-- The output array after the 64 grid points, given that the carried triples hold the blockwise softmax state. -/
theorem final1_of_state (c : Dev nD)
    (hst : ∀ (t : Fin cfg1.N) (b : Fin 4) (qi : Fin 2) (kv : Fin 8) (ht : t.val = 16 * b.val + 8 * qi.val + kv.val)
      (r : Fin 2048) (n : Fin 4096) (hn : n.val = 2048 * qi.val + r.val) (d : Fin 512),
      ((outsAt1 V c t.val t.isLt).2.1 (ix3 (0 : Fin 1) r (0 : Fin 1)),
        (outsAt1 V c t.val t.isLt).2.2.1 (ix3 (0 : Fin 1) r (0 : Fin 1)),
        (outsAt1 V c t.val t.isLt).2.2.2 (ix3 (0 : Fin 1) r d)) = st1 V c b n d (kv.val + 1)) :
    (dat1 (F := Ideal) V c).arrAt 6 cfg1.N = out1 V c :=
  final1_of V c (out1 V c) (fun t h7 u o n' b n hb hn => flush_val_of_state V c hst t h7 u o n' b n hb hn)

/-- The output array after the 64 grid points. -/
theorem final1 (c : Dev nD) : (dat1 (F := Ideal) V c).arrAt 6 cfg1.N = out1 V c :=
  final1_of_state V c (fun t b qi kv ht r n hn d => state1 V c t b qi kv ht r n hn d)

end Cert.KernelIdeal.Val1

end
-- ==== Proof.Alg.Attention.lean ====
/-
  The blockwise attention row equals the textbook attention row.

  Fix a query. Its 4096 scores against the keys are real numbers when the queries and keys are real (a finite sum of
  products of reals, times a real scale). Walking the keys in eight blocks of 512 with a running maximum gives, after
  the last block, the quotient (Σ exp (σ - M₈) w) / (Σ exp (σ - M₈)) over all 4096 keys, M₈ the maximum reached by
  the walk; the textbook row is Σ_j (exp (σ_j - M) / Σ exp (σ - M)) w_j with M the maximum of the whole row, which is
  the quotient (Σ exp (σ - M) w) / (Σ exp (σ - M)). A quotient of this form does not depend on the base subtracted in
  the exponent, and a sum over 4096 keys is the sum over eight blocks of the sums over the 512 positions of a block,
  because key 512·j + k is position k of block j and every key is reached exactly once.
-/
import proofs.«150200_j79405355369062_2_alg».proof.Proof.Alg.Blocks
import proofs.«150200_j79405355369062_2_alg».proof.Proof.Alg.Consts
import proofs.«150200_j79405355369062_2_alg».proof.Proof.LibOnlineSoftmax
import proofs.«150200_j79405355369062_2_alg».proof.Proof.RefVal.Spec

noncomputable section

namespace Cert.Alg

open Idealize.ShloMosaic Cert.Lib.OnlineSoftmax Cert.ReferenceIdeal
open scoped BigOperators

/-- A sum over the 4096 keys is the sum over the eight blocks of the sums over the 512 positions of a block: the map
    (j, k) ↦ 512·j + k is a bijection from 8 × 512 onto 4096. -/
theorem sum_keys (f : Fin 4096 → ℝ) :
    ∑ i, f i = ∑ j ∈ Finset.range 8, ∑ kk : Fin 512, f (keyAt j kk) := by
  rw [← Fin.sum_univ_eq_sum_range (fun j => ∑ kk : Fin 512, f (keyAt j kk)) 8]
  rw [← Fintype.sum_prod_type' (f := fun (j : Fin 8) (kk : Fin 512) => f (keyAt j.val kk))]
  symm
  refine Fintype.sum_equiv (finProdFinEquiv : Fin 8 × Fin 512 ≃ Fin 4096) _ _ ?_
  rintro ⟨j, kk⟩
  show f (keyAt j.val kk) = f (finProdFinEquiv (j, kk))
  congr 1
  apply Fin.ext
  rw [keyAt_val j.val j.isLt]
  show 512 * j.val + kk.val = kk.val + 512 * j.val
  omega

/-- Over real scores σ and real values w: the blockwise result after the eight blocks is the textbook row, each weight
    exp (σ_j - M) over the total (taken from zero), M the row maximum taken from minus infinity (twice, as written). -/
theorem attention_real (σ w : Fin 4096 → ℝ) :
    Ideal.div (runE (fun j kk => ((σ (keyAt j kk) : ℝ) : EReal)) (fun j kk => ((w (keyAt j kk) : ℝ) : EReal)) 8).2.2
              (runE (fun j kk => ((σ (keyAt j kk) : ℝ) : EReal)) (fun j kk => ((w (keyAt j kk) : ℝ) : EReal)) 8).2.1
      = ∑ j : Fin 4096,
          Ideal.div
            (Ideal.exp (((σ j : ℝ) : EReal)
              - max ⊥ ((Finset.univ : Finset (Fin 4096)).fold max ⊥ fun j' => ((σ j' : ℝ) : EReal))))
            (0 + ∑ j'' : Fin 4096, Ideal.exp (((σ j'' : ℝ) : EReal)
              - max ⊥ ((Finset.univ : Finset (Fin 4096)).fold max ⊥ fun j' => ((σ j' : ℝ) : EReal))))
          * ((w j : ℝ) : EReal) := by
  -- the row maximum is the real maximum
  rw [fold_max_coe σ, max_eq_right bot_le]
  -- the textbook row is the real quotient at that base
  rw [softmax_sum σ w (Finset.univ.sup' Finset.univ_nonempty σ)]
  -- the blockwise result is the real quotient at the walk's maximum
  rw [runE_coe (fun j kk => σ (keyAt j kk)) (fun j kk => w (keyAt j kk)) 8]
  rw [online_quotient (fun j kk => σ (keyAt j kk)) (fun j kk => w (keyAt j kk)) 7]
  -- the base does not matter, and the keys are the blocks' positions
  rw [quotient_shift (Finset.range (7 + 1)) (fun j kk => σ (keyAt j kk)) (fun j kk => w (keyAt j kk)) _
      (Finset.univ.sup' Finset.univ_nonempty σ)]
  rw [sum_keys (fun i => Real.exp (σ i - Finset.univ.sup' Finset.univ_nonempty σ) * w i),
    sum_keys (fun i => Real.exp (σ i - Finset.univ.sup' Finset.univ_nonempty σ))]

/-- The blockwise attention of a query — the weighted sum over the normaliser after the eight key blocks — is the
    reference's attention at that query and channel, when queries, keys and values are real. -/
theorem attention_eq (q k v : FVec Ideal ⟨3, ![4, 4096, 512]⟩ .f32)
    (hq : ∀ i, ∃ r : ℝ, q i = (r : EReal)) (hk : ∀ i, ∃ r : ℝ, k i = (r : EReal))
    (hv : ∀ i, ∃ r : ℝ, v i = (r : EReal)) (b : Fin 4) (n : Fin 4096) (d : Fin 512) :
    Ideal.div (runE (fun j kk => RefSpec.sc q k b n (keyAt j kk)) (fun j kk => v (ValueIdx.ix3 b (keyAt j kk) d)) 8).2.2
              (runE (fun j kk => RefSpec.sc q k b n (keyAt j kk)) (fun j kk => v (ValueIdx.ix3 b (keyAt j kk) d)) 8).2.1
      = RefSpec.att q k v b n d := by
  choose qr hqr using hq
  choose kr hkr using hk
  choose vr hvr using hv
  -- a score is a real: a finite sum of products of reals, times the real scale
  have hsc : ∀ j, RefSpec.sc q k b n j
      = (((∑ c : Fin 512, qr (ValueIdx.ix3 b n c) * kr (ValueIdx.ix3 b j c))
          * ((11863283 : ℝ) * (2 : ℝ) ^ (-28 : ℤ)) : ℝ) : EReal) := by
    intro j
    unfold RefSpec.sc
    rw [Consts.ofBits_scale]
    simp only [hqr, hkr, ← EReal.coe_mul]
    rw [← coe_sum, ← EReal.coe_mul]
  have hs : (fun (j : ℕ) (kk : Fin 512) => RefSpec.sc q k b n (keyAt j kk))
      = fun j kk => (((∑ c : Fin 512, qr (ValueIdx.ix3 b n c) * kr (ValueIdx.ix3 b (keyAt j kk) c))
          * ((11863283 : ℝ) * (2 : ℝ) ^ (-28 : ℤ)) : ℝ) : EReal) :=
    funext fun j => funext fun kk => hsc _
  have hw : (fun (j : ℕ) (kk : Fin 512) => v (ValueIdx.ix3 b (keyAt j kk) d))
      = fun j kk => ((vr (ValueIdx.ix3 b (keyAt j kk) d) : ℝ) : EReal) :=
    funext fun j => funext fun kk => hvr _
  rw [hs, hw]
  refine (attention_real
    (fun i : Fin 4096 => (∑ c : Fin 512, qr (ValueIdx.ix3 b n c) * kr (ValueIdx.ix3 b i c))
      * ((11863283 : ℝ) * (2 : ℝ) ^ (-28 : ℤ)))
    (fun i : Fin 4096 => vr (ValueIdx.ix3 b i d))).trans ?_
  unfold RefSpec.att RefSpec.sm RefSpec.den RefSpec.ex RefSpec.mx
  simp only [hsc, hvr]

end Cert.Alg

end
-- ==== Proof.Alg.Output.lean ====
/-
  The last step: the array of shape [4, 512, 4096] the second grid leaves, read as [4, 512, 64, 64], is the
  reference's result.

  A reshape keeps row-major positions. Entry (b, c, r, s) of the [4, 512, 64, 64] reading sits at position
  ((b·512 + c)·64 + r)·64 + s, which is position (b·512 + c)·4096 + (64·r + s) of the [4, 512, 4096] array: entry
  (b, c, n) with n = 64·r + s, the token of image row r and column s. Token n has row n / 64 = r and column n % 64 = s.
  At that entry the array holds the input plus the output projection of the attention row, Σ_d wo(c,d) · att(b,n,d)
  plus the bias; the reference writes each product the other way round, att(b,n,d) · wo(c,d), and products commute.
-/
import proofs.«150200_j79405355369062_2_alg».proof.Proof.Alg.Norm
import Idealize.ShloMosaic.Lib.Pipeline.Value
import Idealize.ShloMosaic.Lib.ValueIdx

noncomputable section

namespace Cert.Alg

open Idealize.ShloMosaic Idealize.ShloMosaic.ValueIdx Cert.ReferenceIdeal Cert.ReferenceIdeal.RefSpec
open scoped BigOperators

/-- The token of image row r, column s has row r. -/
theorem tokRow_tokOf (r s : Fin 64) : tokRow (tokOf r s) = r := by
  apply Fin.ext
  show (64 * r.val + s.val) / 64 = r.val
  have := s.isLt
  omega

/-- The token of image row r, column s has column s. -/
theorem tokCol_tokOf (r s : Fin 64) : tokCol (tokOf r s) = s := by
  apply Fin.ext
  show (64 * r.val + s.val) % 64 = s.val
  have := s.isLt
  omega

/-- The reshape read at an index: entry (b, c, r, s) of the [4, 512, 64, 64] reading is entry (b, c, 64·r + s) of the
    [4, 512, 4096] array, the two having the same row-major position. -/
theorem reshape_apply {α : Type} (arr : (⟨3, ![4, 512, 4096]⟩ : Shape).Idx → α)
    (h : (⟨3, ![4, 512, 4096]⟩ : Shape).ShapeCasts ⟨4, ![4, 512, 64, 64]⟩) (b : Fin 4) (c : Fin 512) (r s : Fin 64) :
    shapeCast ⟨4, ![4, 512, 64, 64]⟩ arr h (ix4 b c r s) = arr (ix3 b c (tokOf r s)) :=
  shapeCast_apply arr h _ _ (by
    rw [Shape.rowMajor_val_three, Shape.rowMajor_val_four]
    show (b.val * 512 + c.val) * 4096 + (64 * r.val + s.val) = ((b.val * 512 + c.val) * 64 + r.val) * 64 + s.val
    omega)

/-- The second grid's output array, read as [4, 512, 64, 64], is the reference's result, given what the array holds at
    each (batch entry, channel, token). -/
theorem output_eq (x : FVec Ideal ⟨4, ![4, 512, 64, 64]⟩ .f32) (γ β : FVec Ideal ⟨1, ![512]⟩ .f32)
    (wq : FVec Ideal ⟨2, ![512, 512]⟩ .f32) (bq : FVec Ideal ⟨1, ![512]⟩ .f32)
    (wk : FVec Ideal ⟨2, ![512, 512]⟩ .f32) (bk : FVec Ideal ⟨1, ![512]⟩ .f32)
    (wv : FVec Ideal ⟨2, ![512, 512]⟩ .f32) (bv : FVec Ideal ⟨1, ![512]⟩ .f32)
    (wo : FVec Ideal ⟨2, ![512, 512]⟩ .f32) (bo : FVec Ideal ⟨1, ![512]⟩ .f32)
    (arr : FVec Ideal ⟨3, ![4, 512, 4096]⟩ .f32) (h : (⟨3, ![4, 512, 4096]⟩ : Shape).ShapeCasts ⟨4, ![4, 512, 64, 64]⟩)
    (harr : ∀ (b : Fin 4) (c : Fin 512) (n : Fin 4096),
      arr (ix3 b c n) = x (ix4 b c (tokRow n) (tokCol n))
        + ((∑ d : Fin 512, wo (ix2 c d)
              * RefSpec.att (linArr (tok x γ β) wq bq) (linArr (tok x γ β) wk bk) (linArr (tok x γ β) wv bv) b n d)
            + bo (ix1 c))) :
    shapeCast ⟨4, ![4, 512, 64, 64]⟩ arr h = RefSpec.out x γ β wq bq wk bk wv bv wo bo := by
  funext i
  obtain ⟨b, c, r, s, rfl⟩ : ∃ (b : Fin 4) (c : Fin 512) (r s : Fin 64), i = ix4 b c r s :=
    ⟨i 0, i 1, i 2, i 3, eq_ix4 i⟩
  refine (reshape_apply arr h b c r s).trans ?_
  refine (harr b c (tokOf r s)).trans ?_
  rw [tokRow_tokOf, tokCol_tokOf]
  show _ = RefSpec.outAt x γ β wq bq wk bk wv bv wo bo b c r s
  unfold RefSpec.outAt RefSpec.lin
  refine congrArg (fun z => x (ix4 b c r s) + (z + bo (ix1 c))) (Finset.sum_congr rfl fun d _ => ?_)
  exact mul_comm _ _

end Cert.Alg

end
-- ==== Proof.KI.Value.lean ====
/-
  The kernel program's result is the reference's specification.

  What the second grid leaves in its output array, re-shaped, as a function of the launched arguments. The second grid
  is entered with the reference's three projections of the normalised tokens in its q, k, v arrays (the host chain's
  folded scale and shift and stacked weight, through the first grid), the re-laid input, the output weight and bias.
  It leaves, at batch entry b, channel o, token n: the input plus the output projection of acc / l, where (m, l, acc)
  is the blockwise softmax state after the eighth key block — which is the softmax-weighted average of the values, the
  reference's attention, because q, k, v are real-valued for finite inputs. Re-shaped, that is the reference's result.
-/
import proofs.«150200_j79405355369062_2_alg».proof.Proof.KI.ValQKV
import proofs.«150200_j79405355369062_2_alg».proof.Proof.KI.Val1Out
import proofs.«150200_j79405355369062_2_alg».proof.Proof.Alg.Attention
import proofs.«150200_j79405355369062_2_alg».proof.Proof.Alg.Output

set_option maxRecDepth 16384

noncomputable section

namespace Cert.KernelIdeal.Hand

open Cert.KernelIdeal Cert.KernelIdeal.Gen Cert.KernelIdeal.Glue Cert.KernelIdeal.Val1
open Idealize.ShloMosaic Idealize.ShloMosaic.TcCoe Idealize.ShloMosaic.ValueIdx
open Idealize.SL Idealize.SL.Sem
open Cert.ReferenceIdeal.RefSpec Cert.Alg

theorem kernel_value (m : (ℓ : Loc nD τ sig) → Buf (Elt Ideal) ℓ) (hpre : Cert.Pre_KernelIdeal m) (c : Dev nD) :
    shapeCast S4x512x64x64 (((halves (F := Ideal)).D1 (E1 halves m) c).arrAt 6 cfg1.N) shapeCasts_S4x512x4096_S4x512x64x64
      = Cert.ReferenceIdeal.RefSpec.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  obtain ⟨hx, hγ, hβ, hwq, hbq, hwk, hbk, hwv, hbv, hwo, hbo⟩ := Cert.Proof.Finite.finite_of_pre m hpre c
  have htok := tok_real _ _ _ hx hγ hβ
  have hq := lin_real _ _ _ htok hwq hbq
  have hk := lin_real _ _ _ htok hwk hbk
  have hv := lin_real _ _ _ htok hwv hbv
  rw [halves_D1, final1 (E1 halves m) c]
  refine output_eq _ _ _ _ _ _ _ _ _ _ _ _ _ (fun b ch n => ?_)
  show outOf (E1 halves m c main_v21) (E1 halves m c main_v27) (E1 halves m c main_arg10)
      (fun b n d => stOf (E1 halves m c main_v26_0) (E1 halves m c main_v26_1) (E1 halves m c main_v26_2) b n d 8) (ix3 b ch n) = _
  rw [outOf_apply, x3_eq m c b ch n, E1_bo, q_eq m c hx hγ hβ, k_eq m c hx hγ hβ, v_eq m c hx hγ hβ]
  refine congrArg (fun z : EReal => argX m c (ix4 b ch (tokRow n) (tokCol n)) + (z + (m ((c.tc : Thread nD τ).loc main_arg10) : FVec Ideal S512 .f32) (ix1 ch))) (Finset.sum_congr rfl fun d _ => ?_)
  rw [wo_eq m c]
  unfold stOf
  rw [attention_eq _ _ _ hq hk hv b n d]

end Cert.KernelIdeal.Hand

end
-- ==== Proof.lean ====
/-
  The kernel is a self-attention block over f32[4, 512, 64, 64]: a group normalisation (32 groups of 16 channels; mean
  and variance over each group's 16·64·64 entries, eps = 1e-6) folded into a per-channel scale and shift, three
  512 × 512 projections with bias computed as one product with the stacked weight, attention over the 4096 positions
  with scores q·k · 512^(-1/2), an output projection with bias, and the residual sum. It runs as two grids: the first
  writes q, k, v tile by tile (1024 positions at a time); the second walks, for each tile of 2048 queries, the eight
  tiles of 512 keys with a running maximum m, a normaliser l and a weighted sum acc kept in scratch
  (m' = max m rowmax, a = exp (m - m'), p = exp (s - m'), l' = a·l + Σp, acc' = a·acc + p·v), and at the eighth tile
  divides acc by l, projects, adds the bias and the residual. The reference computes the same block with whole-array
  operations and the textbook softmax (exp (s - max) / Σ exp (s - max)).

  Over the extended reals, for finite inputs, the two agree, for these reasons: the normalised value
  (x - μ)·r·γ + β equals x·(r·γ) + (β - μ·(r·γ)) once r = (var + eps)^(-1/2) is a real number (var is a sum of squares
  over 65536, so var + eps > 0); a product with the stacked, transposed weight restricted to a third of its columns is
  the product with that weight; the blockwise accumulation of a softmax-weighted sum equals the textbook one (the state
  after each tile is the maximum so far and the two sums based at it, the factor a re-basing the earlier terms; the
  quotient does not depend on the base); and Σ_j (e_j / L) v_j = (Σ_j e_j v_j) / L for a positive real L. The scale
  512^(-1/2), eps, 65536 and the sentinels are the same words on both sides.

  The three frames: the reference is one straight line of host operations none of which writes an argument; the kernel
  program (read at the word level and at the ideal instance alike) is host operations around two grids, each grid's body
  run at every grid point with the scratch contents tracked from point to point, and neither a host operation nor a
  write-back touches an argument. The kernel's idealisation rewrites nothing, so that conjunct is trivial. The equality
  of results: the kernel program's run names its result as the re-shaping of the second grid's output array, which is
  the reference's specification of the launched arguments; the reference's run ends at the same specification.
-/
import proofs.«150200_j79405355369062_2_alg».proof.Defs
import proofs.«150200_j79405355369062_2_alg».proof.Proof.Gen.Kernel
import proofs.«150200_j79405355369062_2_alg».proof.Proof.Gen.KernelIdeal
import proofs.«150200_j79405355369062_2_alg».proof.Proof.Gen.ReferenceIdeal
import proofs.«150200_j79405355369062_2_alg».proof.Proof.Gen.Pre_finite_inputs
import proofs.«150200_j79405355369062_2_alg».proof.Proof.RefFrame
import proofs.«150200_j79405355369062_2_alg».proof.Proof.RefVal.Run
import proofs.«150200_j79405355369062_2_alg».proof.Proof.K.Halves
import proofs.«150200_j79405355369062_2_alg».proof.Proof.KI.Value
import Idealize.ShloMosaic.Adequacy
import Idealize.ShloMosaic.Init

set_option maxRecDepth 16384

noncomputable section

namespace Cert.Proof

open Idealize.ShloMosaic Idealize.ShloMosaic.TcCoe Idealize.SL Idealize.SL.Sem

/-- The word-level kernel program runs to its end, faults nowhere, and leaves its arguments unchanged. -/
theorem frame_kernel : Cert.frame_Kernel := fun m ρ _ => Cert.Kernel.Hand.frame Cert.Kernel.Hand.halves m ρ

/-- The idealised kernel program likewise. -/
theorem frame_kernel_ideal : Cert.frame_KernelIdeal := fun m ρ _ => Cert.KernelIdeal.Hand.frame Cert.KernelIdeal.Hand.halves m ρ

/-- From memories agreeing on the arguments the idealised kernel and the idealised reference both end at the
    reference's specification of the arguments. -/
theorem algebraic : Cert.algebraic_KernelIdeal_ReferenceIdeal := by
  intro m ρ m' ρ' hpre hagree
  refine ⟨fun c => Cert.ReferenceIdeal.RefSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.Hand.kernel_value m hpre c), (h c).2⟩)
      (Cert.KernelIdeal.Hand.run_result Cert.KernelIdeal.Hand.halves m ρ)
  · refine (θ_run Cert.ReferenceIdeal.defs _ _).mono (fun r h c => ⟨(h c).1.trans ?_, (h c).2⟩)
      (Cert.ReferenceIdeal.RefValue.ref_run m' ρ')
    obtain ⟨h0, h1, h2, h3, h4, h5, h6, h7, h8, h9, h10⟩ := hagree c
    rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernel_ideal, Cert.Proof.Parts.frame_reference, trivial, algebraic⟩

end Cert.Proof

end
